-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S3x2x200000 : Shape := ⟨3, ![3, 2, 200000]⟩
abbrev S3x3x128x128 : Shape := ⟨4, ![3, 3, 128, 128]⟩
abbrev S3x128 : Shape := ⟨2, ![3, 128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S3x3x128x128 : S_.BroadcastsInDim S3x3x128x128 (![] : Fin 0 → Fin S3x3x128x128.rank)
  reducesTo_S3x3x128x128_S_d0_1_2_3 : S3x3x128x128.ReducesTo [0, 1, 2, 3] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  main_v18

def fn {F : FTy → Type} [FloatOps F] (main_arg0 : FVec F S200000x128 .f32) (main_arg1 : IVec S3x2x200000 32) (main_arg2 : FVec F S3x3x128x128 .f32) (main_arg3 : FVec F S3x128 .f32) (main_arg4 : FVec F S3x128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S3x3x128x128 .f32 := Host.absf main_arg2
  let main_cst_0 : FVec F S_ .f32 := constant S_ .f32 0x7F800000#32
  let main_v5 : FVec F S3x3x128x128 .f32 := broadcastInDim S3x3x128x128 ![] bcast_S_S3x3x128x128 main_cst_0
  let main_v6 : IVec S3x3x128x128 1 := cmpf .olt main_v4 main_v5
  let main_c_1 : IVec S_ 1 := constantI S_ 1 1#1
  let main_v7 : IVec S_ 1 := (fun x v => Host.reduce IntOp.andi x v reducesTo_S3x3x128x128_S_d0_1_2_3 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_v13 main_v16
-- ==== Kernel.lean ====
abbrev S200000x128 : Shape := ⟨2, ![200000, 128]⟩
abbrev S3x2x200000 : Shape := ⟨3, ![3, 2, 200000]⟩
abbrev S3x3x128x128 : Shape := ⟨4, ![3, 3, 128, 128]⟩
abbrev S3x128 : Shape := ⟨2, ![3, 128]⟩
abbrev S_ : Shape := ⟨0, ![]⟩
abbrev S1x128 : Shape := ⟨2, ![1, 128]⟩
abbrev S200001x128 : Shape := ⟨2, ![200001, 128]⟩
abbrev S1x1x200000 : Shape := ⟨3, ![1, 1, 200000]⟩
abbrev S200000 : Shape := ⟨1, ![200000]⟩
abbrev S200000x1 : Shape := ⟨2, ![200000, 1]⟩
abbrev S1x1x128x128 : Shape := ⟨4, ![1, 1, 128, 128]⟩
abbrev S128x128 : Shape := ⟨2, ![128, 128]⟩
abbrev S40x1x128 : Shape := ⟨3, ![40, 1, 128]⟩
abbrev S5000x128 : Shape := ⟨2, ![5000, 128]⟩
abbrev S1x1x128 : Shape := ⟨3, ![1, 1, 128]⟩
abbrev S128 : Shape := ⟨1, ![128]⟩

abbrev nBuf : Space → Nat
  | .hbm => 169
  | .vmem => 75
  | .smem => 0
  | _ => 0

abbrev hbmTy0_0 (i : Nat) : BufTy := match i % 128 with
  | 0 => ⟨S200000x128, .f32⟩
  | 1 => ⟨S3x2x200000, .i32⟩
  | 2 => ⟨S3x3x128x128, .f32⟩
  | 3 => ⟨S3x128, .f32⟩
  | 4 => ⟨S3x128, .f32⟩
  | 5 => ⟨S200000x128, .bf16⟩
  | 6 => ⟨S3x3x128x128, .bf16⟩
  | 7 => ⟨S_, .bf16⟩
  | 8 => ⟨S1x128, .bf16⟩
  | 9 => ⟨S200001x128, .bf16⟩
  | 10 => ⟨S1x1x200000, .i32⟩
  | 11 => ⟨S200000, .i32⟩
  | 12 => ⟨S_, .i32⟩
  | 13 => ⟨S200000, .i32⟩
  | 14 => ⟨S200000, .i1⟩
  | 15 => ⟨S_, .i32⟩
  | 16 => ⟨S200000, .i32⟩
  | 17 => ⟨S200000, .i32⟩
  | 18 => ⟨S200000, .i32⟩
  | 19 => ⟨S200000x1, .i32⟩
  | 20 => ⟨S200000x128, .bf16⟩
  | 21 => ⟨S1x1x200000, .i32⟩
  | 22 => ⟨S200000, .i32⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S200000x128, .bf16⟩
  | 32 => ⟨S1x1x128x128, .bf16⟩
  | 33 => ⟨S128x128, .bf16⟩
  | 34 => ⟨S1x1x128x128, .bf16⟩
  | 35 => ⟨S128x128, .bf16⟩
  | 36 => ⟨S1x1x128x128, .bf16⟩
  | 37 => ⟨S128x128, .bf16⟩
  | 38 => ⟨S200000x128, .bf16⟩
  | 39 => ⟨S40x1x128, .f32⟩
  | 40 => ⟨S40x1x128, .f32⟩
  | 41 => ⟨S_, .f32⟩
  | 42 => ⟨S1x128, .f32⟩
  | 43 => ⟨S_, .f32⟩
  | 44 => ⟨S1x128, .f32⟩
  | 45 => ⟨S_, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S1x128, .f32⟩
  | 52 => ⟨S1x128, .f32⟩
  | 53 => ⟨S_, .f32⟩
  | 54 => ⟨S1x128, .f32⟩
  | 55 => ⟨S1x128, .f32⟩
  | 56 => ⟨S_, .f32⟩
  | 57 => ⟨S1x128, .f32⟩
  | 58 => ⟨S1x128, .f32⟩
  | 59 => ⟨S1x128, .f32⟩
  | 60 => ⟨S1x128, .f32⟩
  | 61 => ⟨S1x128, .f32⟩
  | 62 => ⟨S200000x128, .f32⟩
  | 63 => ⟨S1x1x200000, .i32⟩
  | 64 => ⟨S200000, .i32⟩
  | 65 => ⟨S_, .i32⟩
  | 66 => ⟨S200000, .i32⟩
  | 67 => ⟨S200000, .i1⟩
  | 68 => ⟨S_, .i32⟩
  | 69 => ⟨S200000, .i32⟩
  | 70 => ⟨S200000, .i32⟩
  | 71 => ⟨S200000, .i32⟩
  | 72 => ⟨S200000x1, .i32⟩
  | 73 => ⟨S200000x128, .bf16⟩
  | 74 => ⟨S1x1x200000, .i32⟩
  | 75 => ⟨S200000, .i32⟩
  | 76 => ⟨S_, .i32⟩
  | 77 => ⟨S200000, .i32⟩
  | 78 => ⟨S200000, .i1⟩
  | 79 => ⟨S_, .i32⟩
  | 80 => ⟨S200000, .i32⟩
  | 81 => ⟨S200000, .i32⟩
  | 82 => ⟨S200000, .i32⟩
  | 83 => ⟨S200000x1, .i32⟩
  | 84 => ⟨S200000x128, .bf16⟩
  | 85 => ⟨S1x1x128x128, .bf16⟩
  | 86 => ⟨S128x128, .bf16⟩
  | 87 => ⟨S1x1x128x128, .bf16⟩
  | 88 => ⟨S128x128, .bf16⟩
  | 89 => ⟨S1x1x128x128, .bf16⟩
  | 90 => ⟨S128x128, .bf16⟩
  | 91 => ⟨S200000x128, .bf16⟩
  | 92 => ⟨S40x1x128, .f32⟩
  | 93 => ⟨S40x1x128, .f32⟩
  | 94 => ⟨S_, .f32⟩
  | 95 => ⟨S1x128, .f32⟩
  | 96 => ⟨S_, .f32⟩
  | 97 => ⟨S1x128, .f32⟩
  | 98 => ⟨S_, .f32⟩
  | 99 => ⟨S1x128, .f32⟩
  | 100 => ⟨S1x128, .f32⟩
  | 101 => ⟨S_, .f32⟩
  | 102 => ⟨S1x128, .f32⟩
  | 103 => ⟨S1x128, .f32⟩
  | 104 => ⟨S1x128, .f32⟩
  | 105 => ⟨S1x128, .f32⟩
  | 106 => ⟨S_, .f32⟩
  | 107 => ⟨S1x128, .f32⟩
  | 108 => ⟨S1x128, .f32⟩
  | 109 => ⟨S_, .f32⟩
  | 110 => ⟨S1x128, .f32⟩
  | 111 => ⟨S1x128, .f32⟩
  | 112 => ⟨S1x128, .f32⟩
  | 113 => ⟨S1x128, .f32⟩
  | 114 => ⟨S1x128, .f32⟩
  | 115 => ⟨S200000x128, .f32⟩
  | 116 => ⟨S1x1x200000, .i32⟩
  | 117 => ⟨S200000, .i32⟩
  | 118 => ⟨S_, .i32⟩
  | 119 => ⟨S200000, .i32⟩
  | 120 => ⟨S200000, .i1⟩
  | 121 => ⟨S_, .i32⟩
  | 122 => ⟨S200000, .i32⟩
  | 123 => ⟨S200000, .i32⟩
  | 124 => ⟨S200000, .i32⟩
  | 125 => ⟨S200000x1, .i32⟩
  | 126 => ⟨S200000x128, .bf16⟩
  | 127 => ⟨S1x1x200000, .i32⟩
  | _ => ⟨S200000x128, .f32⟩

abbrev hbmTy0_1 (i : Nat) : BufTy := match i % 128 with
  | 0 => ⟨S200000, .i32⟩
  | 1 => ⟨S_, .i32⟩
  | 2 => ⟨S200000, .i32⟩
  | 3 => ⟨S200000, .i1⟩
  | 4 => ⟨S_, .i32⟩
  | 5 => ⟨S200000, .i32⟩
  | 6 => ⟨S200000, .i32⟩
  | 7 => ⟨S200000, .i32⟩
  | 8 => ⟨S200000x1, .i32⟩
  | 9 => ⟨S200000x128, .bf16⟩
  | 10 => ⟨S1x1x128x128, .bf16⟩
  | 11 => ⟨S128x128, .bf16⟩
  | 12 => ⟨S1x1x128x128, .bf16⟩
  | 13 => ⟨S128x128, .bf16⟩
  | 14 => ⟨S1x1x128x128, .bf16⟩
  | 15 => ⟨S128x128, .bf16⟩
  | 16 => ⟨S200000x128, .bf16⟩
  | 17 => ⟨S40x1x128, .f32⟩
  | 18 => ⟨S40x1x128, .f32⟩
  | 19 => ⟨S_, .f32⟩
  | 20 => ⟨S1x128, .f32⟩
  | 21 => ⟨S_, .f32⟩
  | 22 => ⟨S1x128, .f32⟩
  | 23 => ⟨S_, .f32⟩
  | 24 => ⟨S1x128, .f32⟩
  | 25 => ⟨S1x128, .f32⟩
  | 26 => ⟨S_, .f32⟩
  | 27 => ⟨S1x128, .f32⟩
  | 28 => ⟨S1x128, .f32⟩
  | 29 => ⟨S1x128, .f32⟩
  | 30 => ⟨S1x128, .f32⟩
  | 31 => ⟨S_, .f32⟩
  | 32 => ⟨S1x128, .f32⟩
  | 33 => ⟨S1x128, .f32⟩
  | 34 => ⟨S_, .f32⟩
  | 35 => ⟨S1x128, .f32⟩
  | 36 => ⟨S1x128, .f32⟩
  | 37 => ⟨S1x128, .f32⟩
  | 38 => ⟨S1x128, .f32⟩
  | 39 => ⟨S1x128, .f32⟩
  | 40 => ⟨S200000x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | .local _ .vmem, ⟨0, _⟩ => ⟨S5000x128, .bf16⟩
  | .local _ .vmem, ⟨1, _⟩ => ⟨S5000x128, .bf16⟩
  | .local _ .vmem, ⟨2, _⟩ => ⟨S5000x128, .bf16⟩
  | .local _ .vmem, ⟨3, _⟩ => ⟨S5000x128, .bf16⟩
  | .local _ .vmem, ⟨4, _⟩ => ⟨S5000x128, .bf16⟩
  | .local _ .vmem, ⟨5, _⟩ => ⟨S5000x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S5000x128, .bf16⟩
  | .local _ .vmem, ⟨10, _⟩ => ⟨S5000x128, .bf16⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S5000x128, .bf16⟩
  | .local _ .vmem, ⟨16, _⟩ => ⟨S5000x128, .bf16⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S5000x128, .bf16⟩
  | .local _ .vmem, ⟨24, _⟩ => ⟨S5000x128, .bf16⟩
  | .local _ .vmem, ⟨25, _⟩ => ⟨S5000x128, .bf16⟩
  | .local _ .vmem, ⟨26, _⟩ => ⟨S5000x128, .bf16⟩
  | .local _ .vmem, ⟨27, _⟩ => ⟨S5000x128, .bf16⟩
  | .local _ .vmem, ⟨28, _⟩ => ⟨S5000x128, .bf16⟩
  | .local _ .vmem, ⟨29, _⟩ => ⟨S128x128, .bf16⟩
  | .local _ .vmem, ⟨30, _⟩ => ⟨S128x128, .bf16⟩
  | .local _ .vmem, ⟨31, _⟩ => ⟨S128x128, .bf16⟩
  | .local _ .vmem, ⟨32, _⟩ => ⟨S5000x128, .bf16⟩
  | .local _ .vmem, ⟨33, _⟩ => ⟨S5000x128, .bf16⟩
  | .local _ .vmem, ⟨34, _⟩ => ⟨S1x1x128, .f32⟩
  | .local _ .vmem, ⟨35, _⟩ => ⟨S1x1x128, .f32⟩
  | .local _ .vmem, ⟨36, _⟩ => ⟨S1x1x128, .f32⟩
  | .local _ .vmem, ⟨37, _⟩ => ⟨S1x1x128, .f32⟩
  | .local _ .vmem, ⟨38, _⟩ => ⟨S5000x128, .bf16⟩
  | .local _ .vmem, ⟨39, _⟩ => ⟨S5000x128, .bf16⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .bf16⟩
  | .local _ .vmem, ⟨49, _⟩ => ⟨S5000x128, .bf16⟩
  | .local _ .vmem, ⟨50, _⟩ => ⟨S5000x128, .bf16⟩
  | .local _ .vmem, ⟨51, _⟩ => ⟨S5000x128, .bf16⟩
  | .local _ .vmem, ⟨52, _⟩ => ⟨S5000x128, .bf16⟩
  | .local _ .vmem, ⟨53, _⟩ => ⟨S5000x128, .bf16⟩
  | .local _ .vmem, ⟨54, _⟩ => ⟨S128x128, .bf16⟩
  | .local _ .vmem, ⟨55, _⟩ => ⟨S128x128, .bf16⟩
  | .local _ .vmem, ⟨56, _⟩ => ⟨S128x128, .bf16⟩
  | .local _ .vmem, ⟨57, _⟩ => ⟨S5000x128, .bf16⟩
  | .local _ .vmem, ⟨58, _⟩ => ⟨S5000x128, .bf16⟩
  | .local _ .vmem, ⟨59, _⟩ => ⟨S1x1x128, .f32⟩
  | .local _ .vmem, ⟨60, _⟩ => ⟨S1x1x128, .f32⟩
  | .local _ .vmem, ⟨61, _⟩ => ⟨S1x1x128, .f32⟩
  | .local _ .vmem, ⟨62, _⟩ => ⟨S1x1x128, .f32⟩
  | .local _ .vmem, ⟨63, _⟩ => ⟨S5000x128, .bf16⟩
  | .local _ .vmem, ⟨64, _⟩ => ⟨S5000x128, .bf16⟩
  | .local _ .vmem, ⟨65, _⟩ => ⟨S1x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S5000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev main_v28_2 : Ref sig .tc := ⟨.hbm, 40, rfl⟩
abbrev main_cst_3 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_c_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_11 : Ref sig .tc := ⟨.hbm, 76, rfl⟩
abbrev main_v56 : Ref sig .tc := ⟨.hbm, 77, rfl⟩
abbrev main_v57 : Ref sig .tc := ⟨.hbm, 78, rfl⟩
abbrev main_c_12 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69_0 : Ref sig .tc := ⟨.hbm, 91, rfl⟩
abbrev main_v69_1 : Ref sig .tc := ⟨.hbm, 92, rfl⟩
abbrev main_v69_2 : Ref sig .tc := ⟨.hbm, 93, rfl⟩
abbrev main_cst_13 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_cst_15 : Ref sig .tc := ⟨.hbm, 98, rfl⟩
abbrev main_v72 : Ref sig .tc := ⟨.hbm, 99, rfl⟩
abbrev main_v73 : Ref sig .tc := ⟨.hbm, 100, rfl⟩
abbrev main_cst_16 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_17 : Ref sig .tc := ⟨.hbm, 106, rfl⟩
abbrev main_v78 : Ref sig .tc := ⟨.hbm, 107, rfl⟩
abbrev main_v79 : Ref sig .tc := ⟨.hbm, 108, rfl⟩
abbrev main_cst_18 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_19 : Ref sig .tc := ⟨.hbm, 118, rfl⟩
abbrev main_v88 : Ref sig .tc := ⟨.hbm, 119, rfl⟩
abbrev main_v89 : Ref sig .tc := ⟨.hbm, 120, rfl⟩
abbrev main_c_20 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c_21 : Ref sig .tc := ⟨.hbm, 129, rfl⟩
abbrev main_v97 : Ref sig .tc := ⟨.hbm, 130, rfl⟩
abbrev main_v98 : Ref sig .tc := ⟨.hbm, 131, rfl⟩
abbrev main_c_22 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110_0 : Ref sig .tc := ⟨.hbm, 144, rfl⟩
abbrev main_v110_1 : Ref sig .tc := ⟨.hbm, 145, rfl⟩
abbrev main_v110_2 : Ref sig .tc := ⟨.hbm, 146, rfl⟩
abbrev main_cst_23 : Ref sig .tc := ⟨.hbm, 147, rfl⟩
abbrev main_v111 : Ref sig .tc := ⟨.hbm, 148, rfl⟩
abbrev main_cst_24 : Ref sig .tc := ⟨.hbm, 149, rfl⟩
abbrev main_v112 : Ref sig .tc := ⟨.hbm, 150, rfl⟩
abbrev main_cst_25 : Ref sig .tc := ⟨.hbm, 151, rfl⟩
abbrev main_v113 : Ref sig .tc := ⟨.hbm, 152, rfl⟩
abbrev main_v114 : Ref sig .tc := ⟨.hbm, 153, rfl⟩
abbrev main_cst_26 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_27 : Ref sig .tc := ⟨.hbm, 159, rfl⟩
abbrev main_v119 : Ref sig .tc := ⟨.hbm, 160, rfl⟩
abbrev main_v120 : Ref sig .tc := ⟨.hbm, 161, rfl⟩
abbrev main_cst_28 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc2_stg8_0 : Ref sig .tc := ⟨.vmem, 36, rfl⟩
abbrev cc2_stg8_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg6_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg4_0 : Ref sig .tc := ⟨.vmem, 55, rfl⟩
abbrev cc4_stg5_0 : Ref sig .tc := ⟨.vmem, 56, rfl⟩
abbrev cc4_stg6_0 : Ref sig .tc := ⟨.vmem, 57, rfl⟩
abbrev cc4_stg6_1 : Ref sig .tc := ⟨.vmem, 58, rfl⟩
abbrev cc4_stg7_0 : Ref sig .tc := ⟨.vmem, 59, rfl⟩
abbrev cc4_stg7_1 : Ref sig .tc := ⟨.vmem, 60, rfl⟩
abbrev cc4_stg8_0 : Ref sig .tc := ⟨.vmem, 61, rfl⟩
abbrev cc4_stg8_1 : Ref sig .tc := ⟨.vmem, 62, rfl⟩
abbrev cc5_stg0_0 : Ref sig .tc := ⟨.vmem, 63, rfl⟩
abbrev cc5_stg0_1 : Ref sig .tc := ⟨.vmem, 64, rfl⟩
abbrev cc5_stg1_0 : Ref sig .tc := ⟨.vmem, 65, rfl⟩
abbrev cc5_stg2_0 : Ref sig .tc := ⟨.vmem, 66, rfl⟩
abbrev cc5_stg3_0 : Ref sig .tc := ⟨.vmem, 67, rfl⟩
abbrev cc5_stg4_0 : Ref sig .tc := ⟨.vmem, 68, rfl⟩
abbrev cc5_stg5_0 : Ref sig .tc := ⟨.vmem, 69, rfl⟩
abbrev cc5_stg5_1 : Ref sig .tc := ⟨.vmem, 70, rfl⟩
abbrev cc5_stg6_0 : Ref sig .tc := ⟨.vmem, 71, rfl⟩
abbrev cc5_stg6_1 : Ref sig .tc := ⟨.vmem, 72, rfl⟩
abbrev cc5_stg7_0 : Ref sig .tc := ⟨.vmem, 73, rfl⟩
abbrev cc5_stg7_1 : Ref sig .tc := ⟨.vmem, 74, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35
abbrev cc2_sem8_0 : DmaSem sig := 36
abbrev cc2_sem8_1 : DmaSem sig := 37
abbrev cc3_sem0_0 : DmaSem sig := 38
abbrev cc3_sem0_1 : DmaSem sig := 39
abbrev cc3_sem1_0 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem5_1 : DmaSem sig := 45
abbrev cc3_sem6_0 : DmaSem sig := 46
abbrev cc3_sem6_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem2_1 : DmaSem sig := 53
abbrev cc4_sem3_0 : DmaSem sig := 54
abbrev cc4_sem4_0 : DmaSem sig := 55
abbrev cc4_sem5_0 : DmaSem sig := 56
abbrev cc4_sem6_0 : DmaSem sig := 57
abbrev cc4_sem6_1 : DmaSem sig := 58
abbrev cc4_sem7_0 : DmaSem sig := 59
abbrev cc4_sem7_1 : DmaSem sig := 60
abbrev cc4_sem8_0 : DmaSem sig := 61
abbrev cc4_sem8_1 : DmaSem sig := 62
abbrev cc5_sem0_0 : DmaSem sig := 63
abbrev cc5_sem0_1 : DmaSem sig := 64
abbrev cc5_sem1_0 : DmaSem sig := 65
abbrev cc5_sem2_0 : DmaSem sig := 66
abbrev cc5_sem3_0 : DmaSem sig := 67
abbrev cc5_sem4_0 : DmaSem sig := 68
abbrev cc5_sem5_0 : DmaSem sig := 69
abbrev cc5_sem5_1 : DmaSem sig := 70
abbrev cc5_sem6_0 : DmaSem sig := 71
abbrev cc5_sem6_1 : DmaSem sig := 72
abbrev cc5_sem7_0 : DmaSem sig := 73
abbrev cc5_sem7_1 : DmaSem sig := 74

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S5000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1x1x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1x1x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  bitsLt_bf16_f32 : FTy.bits .bf16 < FTy.bits .f32
  bcast_S_S1x128 : S_.BroadcastsInDim S1x128 (![] : Fin 0 → Fin S1x128.rank)
  concatenates_S200000x128_S1x128_S200001x128_d0 : Shape.Concatenates [S200000x128, S1x128] S200001x128 0
  slices_S3x2x200000_S1x1x200000_0_0_0 : S3x2x200000.Slices ![0, 0, 0] S1x1x200000
  shapeCasts_S1x1x200000_S200000 : S1x1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S3x2x200000_S1x1x200000_0_1_0 : S3x2x200000.Slices ![0, 1, 0] S1x1x200000
  slices_S3x3x128x128_S1x1x128x128_0_0_0_0 : S3x3x128x128.Slices ![0, 0, 0, 0] S1x1x128x128
  shapeCasts_S1x1x128x128_S128x128 : S1x1x128x128.ShapeCasts S128x128
  slices_S3x3x128x128_S1x1x128x128_0_1_0_0 : S3x3x128x128.Slices ![0, 1, 0, 0] S1x1x128x128
  slices_S3x3x128x128_S1x1x128x128_0_2_0_0 : S3x3x128x128.Slices ![0, 2, 0, 0] S1x1x128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S5000x128_S5000x128_0_0 : (Rect.unit (s := S5000x128) ![0, 0] S5000x128.size inb_S5000x128_S5000x128_0_0).PackedRows (EltTy.packing .bf16)
  reduces_S5000x128_S128 : S5000x128.Reduces [0] S128
  shapeCasts_S128_S1x128 : S128.ShapeCasts S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S40x1x128_S1x128_d0 : S40x1x128.ReducesTo [0] S1x128
  h_S_ : 0 < S_.numel
  slices_S3x128_S1x128_0_0 : S3x128.Slices ![0, 0] S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x2x200000_S1x1x200000_1_0_0 : S3x2x200000.Slices ![1, 0, 0] S1x1x200000
  slices_S3x2x200000_S1x1x200000_1_1_0 : S3x2x200000.Slices ![1, 1, 0] S1x1x200000
  slices_S3x3x128x128_S1x1x128x128_1_0_0_0 : S3x3x128x128.Slices ![1, 0, 0, 0] S1x1x128x128
  slices_S3x3x128x128_S1x1x128x128_1_1_0_0 : S3x3x128x128.Slices ![1, 1, 0, 0] S1x1x128x128
  slices_S3x3x128x128_S1x1x128x128_1_2_0_0 : S3x3x128x128.Slices ![1, 2, 0, 0] S1x1x128x128
  slices_S3x128_S1x128_1_0 : S3x128.Slices ![1, 0] S1x128
  slices_S3x2x200000_S1x1x200000_2_0_0 : S3x2x200000.Slices ![2, 0, 0] S1x1x200000
  slices_S3x2x200000_S1x1x200000_2_1_0 : S3x2x200000.Slices ![2, 1, 0] S1x1x200000
  slices_S3x3x128x128_S1x1x128x128_2_0_0_0 : S3x3x128x128.Slices ![2, 0, 0, 0] S1x1x128x128
  slices_S3x3x128x128_S1x1x128x128_2_1_0_0 : S3x3x128x128.Slices ![2, 1, 0, 0] S1x1x128x128
  slices_S3x3x128x128_S1x1x128x128_2_2_0_0 : S3x3x128x128.Slices ![2, 2, 0, 0] S1x1x128x128
  slices_S3x128_S1x128_2_0 : S3x128.Slices ![2, 0] S1x128
  gather_S200001x128_S200000x1_S200000x128_1_0_n_n_0_1_1128_wf : GatherDims.WF S200001x128 S200000x1 S200000x128 [1] [0] [] [0] [] 1 ![1, 128]
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S200000x128.size a
  hwx0_0 : ∀ i : grid0.Coords, EltTy.bits .bf16 = 32 ∨ (Rect.block (s := S200000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S200000x128.size a
  hwx0_1 : ∀ i : grid0.Coords, EltTy.bits .bf16 = 32 ∨ (Rect.block (s := S200000x128) S5000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S200000x128.size a
  hwx0_2 : ∀ i : grid0.Coords, EltTy.bits .bf16 = 32 ∨ (Rect.block (s := S200000x128) S5000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S200000x128.size a
  hwx0_6 : ∀ i : grid0.Coords, EltTy.bits .bf16 = 32 ∨ (Rect.block (s := S200000x128) S5000x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S40x1x128.size a
  hwx0_7 : ∀ i : grid0.Coords, EltTy.bits .f32 = 32 ∨ (Rect.block (s := S40x1x128) S1x1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S40x1x128.size a
  hwx0_8 : ∀ i : grid0.Coords, EltTy.bits .f32 = 32 ∨ (Rect.block (s := S40x1x128) S1x1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S200000x128.size a
  hwx1_0 : ∀ i : grid1.Coords, EltTy.bits .bf16 = 32 ∨ (Rect.block (s := S200000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S200000x128.size a
  hwx1_5 : ∀ i : grid1.Coords, EltTy.bits .f32 = 32 ∨ (Rect.block (s := S200000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S200000x128.size a
  hwx2_0 : ∀ i : grid2.Coords, EltTy.bits .bf16 = 32 ∨ (Rect.block (s := S200000x128) S5000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S200000x128.size a
  hwx2_1 : ∀ i : grid2.Coords, EltTy.bits .bf16 = 32 ∨ (Rect.block (s := S200000x128) S5000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S200000x128.size a
  hwx2_2 : ∀ i : grid2.Coords, EltTy.bits .bf16 = 32 ∨ (Rect.block (s := S200000x128) S5000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S200000x128.size a
  hwx2_6 : ∀ i : grid2.Coords, EltTy.bits .bf16 = 32 ∨ (Rect.block (s := S200000x128) S5000x128.size (cc2_transform_6 i) (hinb2_6 i)).WholeWords (EltTy.packing .bf16)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x1x128.size a ≤ S40x1x128.size a
  hwx2_7 : ∀ i : grid2.Coords, EltTy.bits .f32 = 32 ∨ (Rect.block (s := S40x1x128) S1x1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x1x128.size a ≤ S40x1x128.size a
  hwx2_8 : ∀ i : grid2.Coords, EltTy.bits .f32 = 32 ∨ (Rect.block (s := S40x1x128) S1x1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S200000x128.size a
  hwx3_0 : ∀ i : grid3.Coords, EltTy.bits .bf16 = 32 ∨ (Rect.block (s := S200000x128) S5000x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S200000x128.size a
  hwx3_5 : ∀ i : grid3.Coords, EltTy.bits .f32 = 32 ∨ (Rect.block (s := S200000x128) S5000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S200000x128.size a
  hwx3_6 : ∀ i : grid3.Coords, EltTy.bits .f32 = 32 ∨ (Rect.block (s := S200000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S200000x128.size a
  hwx4_0 : ∀ i : grid4.Coords, EltTy.bits .bf16 = 32 ∨ (Rect.block (s := S200000x128) S5000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S200000x128.size a
  hwx4_1 : ∀ i : grid4.Coords, EltTy.bits .bf16 = 32 ∨ (Rect.block (s := S200000x128) S5000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S200000x128.size a
  hwx4_2 : ∀ i : grid4.Coords, EltTy.bits .bf16 = 32 ∨ (Rect.block (s := S200000x128) S5000x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .bf16 = 32 ∨ (Rect.block (s := S128x128) S128x128.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .bf16 = 32 ∨ (Rect.block (s := S128x128) S128x128.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .bf16 = 32 ∨ (Rect.block (s := S128x128) S128x128.size (cc4_transform_5 i) (hinb4_5 i)).WholeWords (EltTy.packing .bf16)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S200000x128.size a
  hwx4_6 : ∀ i : grid4.Coords, EltTy.bits .bf16 = 32 ∨ (Rect.block (s := S200000x128) S5000x128.size (cc4_transform_6 i) (hinb4_6 i)).WholeWords (EltTy.packing .bf16)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1x1x128.size a ≤ S40x1x128.size a
  hwx4_7 : ∀ i : grid4.Coords, EltTy.bits .f32 = 32 ∨ (Rect.block (s := S40x1x128) S1x1x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1x1x128.size a ≤ S40x1x128.size a
  hwx4_8 : ∀ i : grid4.Coords, EltTy.bits .f32 = 32 ∨ (Rect.block (s := S40x1x128) S1x1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S200000x128.size a
  hwx5_0 : ∀ i : grid5.Coords, EltTy.bits .bf16 = 32 ∨ (Rect.block (s := S200000x128) S5000x128.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S200000x128.size a
  hwx5_5 : ∀ i : grid5.Coords, EltTy.bits .f32 = 32 ∨ (Rect.block (s := S200000x128) S5000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S200000x128.size a
  hwx5_6 : ∀ i : grid5.Coords, EltTy.bits .f32 = 32 ∨ (Rect.block (s := S200000x128) S5000x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S200000x128.size a
  hwx5_7 : ∀ i : grid5.Coords, EltTy.bits .f32 = 32 ∨ (Rect.block (s := S200000x128) S5000x128.size (cc5_transform_7 i) (hinb5_7 i)).WholeWords (EltTy.packing .f32)

variable [Facts₀]

def gather_S200001x128_S200000x1_S200000x128_1_0_n_n_0_1_1128 : GatherDims S200001x128 S200000x1 S200000x128 where
  offsetDims := [1]
  collapsedSliceDims := [0]
  operandBatchingDims := []
  startIndicesBatchingDims := []
  startIndexMap := [0]
  indexVectorDim := 1
  sliceSizes := ![1, 128]
  wf := gather_S200001x128_S200000x1_S200000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v28_1) S1x1x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v28_2) S1x1x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v28_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v64) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v69_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v69_1) S1x1x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v69_2) S1x1x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v69_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v82) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v83) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44) S5000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v85) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v94) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v103) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v105) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v107) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v109) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v110_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v110_1) S1x1x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v110_2) S1x1x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v110_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v114) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v123) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v124) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v125) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v85) S5000x128.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_arg0) S5000x128.size cc5_transform_6 reads5_6 false false 2 stage5_6 sem5_6
    hrank5 hreads5_6 hinb5_6 nbuf5_6 (Memref.isWhole_whole _) hwx5_6 hstage5_6

abbrev win5_7 : Pipeline.Window sig grid5 :=
  Pipeline.Window.ofSpec (Memref.whole main_v126) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where
  halias3_6 : Pipeline.Aliased win3 5 6

variable [Facts]
-- ==== ReferenceIdeal.lean ====
abbrev S200000x128 : Shape := ⟨2, ![200000, 128]⟩
abbrev S3x2x200000 : Shape := ⟨3, ![3, 2, 200000]⟩
abbrev S3x3x128x128 : Shape := ⟨4, ![3, 3, 128, 128]⟩
abbrev S3x128 : Shape := ⟨2, ![3, 128]⟩
abbrev S_ : Shape := ⟨0, ![]⟩
abbrev S1x128 : Shape := ⟨2, ![1, 128]⟩
abbrev S200001x128 : Shape := ⟨2, ![200001, 128]⟩
abbrev S1x1x200000 : Shape := ⟨3, ![1, 1, 200000]⟩
abbrev S200000 : Shape := ⟨1, ![200000]⟩
abbrev S200000x1 : Shape := ⟨2, ![200000, 1]⟩
abbrev S1x1x128x128 : Shape := ⟨4, ![1, 1, 128, 128]⟩
abbrev S128x128 : Shape := ⟨2, ![128, 128]⟩
abbrev S128 : Shape := ⟨1, ![128]⟩

abbrev nBuf : Space → Nat
  | .hbm => 281
  | .vmem => 0
  | .smem => 0
  | _ => 0

abbrev hbmTy0_0 (i : Nat) : BufTy := match i % 128 with
  | 0 => ⟨S200000x128, .f32⟩
  | 1 => ⟨S3x2x200000, .i32⟩
  | 2 => ⟨S3x3x128x128, .f32⟩
  | 3 => ⟨S3x128, .f32⟩
  | 4 => ⟨S3x128, .f32⟩
  | 5 => ⟨S_, .f32⟩
  | 6 => ⟨S1x128, .f32⟩
  | 7 => ⟨S200001x128, .f32⟩
  | 8 => ⟨S_, .f32⟩
  | 9 => ⟨S200000x128, .f32⟩
  | 10 => ⟨S1x1x200000, .i32⟩
  | 11 => ⟨S200000, .i32⟩
  | 12 => ⟨S_, .i32⟩
  | 13 => ⟨S200000, .i32⟩
  | 14 => ⟨S200000, .i1⟩
  | 15 => ⟨S_, .i32⟩
  | 16 => ⟨S200000, .i32⟩
  | 17 => ⟨S200000, .i32⟩
  | 18 => ⟨S200000, .i32⟩
  | 19 => ⟨S200000x1, .i32⟩
  | 20 => ⟨S200000x128, .f32⟩
  | 21 => ⟨S1x1x200000, .i32⟩
  | 22 => ⟨S200000, .i32⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S200000x128, .f32⟩
  | 32 => ⟨S1x1x128x128, .f32⟩
  | 33 => ⟨S128x128, .f32⟩
  | 34 => ⟨S200000x128, .f32⟩
  | 35 => ⟨S1x1x128x128, .f32⟩
  | 36 => ⟨S128x128, .f32⟩
  | 37 => ⟨S200000x128, .f32⟩
  | 38 => ⟨S200000x128, .f32⟩
  | 39 => ⟨S1x1x128x128, .f32⟩
  | 40 => ⟨S128x128, .f32⟩
  | 41 => ⟨S200000x128, .f32⟩
  | 42 => ⟨S200000x128, .f32⟩
  | 43 => ⟨S_, .f32⟩
  | 44 => ⟨S128, .f32⟩
  | 45 => ⟨S_, .f32⟩
  | 46 => ⟨S128, .f32⟩
  | 47 => ⟨S128, .f32⟩
  | 48 => ⟨S_, .i32⟩
  | 49 => ⟨S_, .f32⟩
  | 50 => ⟨S128, .f32⟩
  | 51 => ⟨S1x128, .f32⟩
  | 52 => ⟨S_, .f32⟩
  | 53 => ⟨S1x128, .f32⟩
  | 54 => ⟨S1x128, .f32⟩
  | 55 => ⟨S200000x128, .f32⟩
  | 56 => ⟨S200000x128, .f32⟩
  | 57 => ⟨S200000x128, .f32⟩
  | 58 => ⟨S_, .f32⟩
  | 59 => ⟨S_, .f32⟩
  | 60 => ⟨S_, .f32⟩
  | 61 => ⟨S_, .f32⟩
  | 62 => ⟨S128, .f32⟩
  | 63 => ⟨S128, .f32⟩
  | 64 => ⟨S128, .f32⟩
  | 65 => ⟨S_, .f32⟩
  | 66 => ⟨S_, .i1⟩
  | 67 => ⟨S_, .f32⟩
  | 68 => ⟨S_, .f32⟩
  | 69 => ⟨S128, .f32⟩
  | 70 => ⟨S128, .f32⟩
  | 71 => ⟨S1x128, .f32⟩
  | 72 => ⟨S200000x128, .f32⟩
  | 73 => ⟨S200000x128, .f32⟩
  | 74 => ⟨S_, .f32⟩
  | 75 => ⟨S128, .f32⟩
  | 76 => ⟨S128, .f32⟩
  | 77 => ⟨S128, .f32⟩
  | 78 => ⟨S1x128, .f32⟩
  | 79 => ⟨S200000x128, .f32⟩
  | 80 => ⟨S200000x128, .f32⟩
  | 81 => ⟨S1x128, .f32⟩
  | 82 => ⟨S128, .f32⟩
  | 83 => ⟨S1x128, .f32⟩
  | 84 => ⟨S200000x128, .f32⟩
  | 85 => ⟨S200000x128, .f32⟩
  | 86 => ⟨S1x128, .f32⟩
  | 87 => ⟨S128, .f32⟩
  | 88 => ⟨S1x128, .f32⟩
  | 89 => ⟨S200000x128, .f32⟩
  | 90 => ⟨S200000x128, .f32⟩
  | 91 => ⟨S200000x128, .f32⟩
  | 92 => ⟨S200000x128, .f32⟩
  | 93 => ⟨S_, .f32⟩
  | 94 => ⟨S200000x128, .f32⟩
  | 95 => ⟨S200000x128, .f32⟩
  | 96 => ⟨S_, .f32⟩
  | 97 => ⟨S200000x128, .f32⟩
  | 98 => ⟨S200000x128, .f32⟩
  | 99 => ⟨S200000x128, .f32⟩
  | 100 => ⟨S1x1x200000, .i32⟩
  | 101 => ⟨S200000, .i32⟩
  | 102 => ⟨S_, .i32⟩
  | 103 => ⟨S200000, .i32⟩
  | 104 => ⟨S200000, .i1⟩
  | 105 => ⟨S_, .i32⟩
  | 106 => ⟨S200000, .i32⟩
  | 107 => ⟨S200000, .i32⟩
  | 108 => ⟨S200000, .i32⟩
  | 109 => ⟨S200000x1, .i32⟩
  | 110 => ⟨S200000x128, .f32⟩
  | 111 => ⟨S1x1x200000, .i32⟩
  | 112 => ⟨S200000, .i32⟩
  | 113 => ⟨S_, .i32⟩
  | 114 => ⟨S200000, .i32⟩
  | 115 => ⟨S200000, .i1⟩
  | 116 => ⟨S_, .i32⟩
  | 117 => ⟨S200000, .i32⟩
  | 118 => ⟨S200000, .i32⟩
  | 119 => ⟨S200000, .i32⟩
  | 120 => ⟨S200000x1, .i32⟩
  | 121 => ⟨S200000x128, .f32⟩
  | 122 => ⟨S1x1x128x128, .f32⟩
  | 123 => ⟨S128x128, .f32⟩
  | 124 => ⟨S200000x128, .f32⟩
  | 125 => ⟨S1x1x128x128, .f32⟩
  | 126 => ⟨S128x128, .f32⟩
  | 127 => ⟨S200000x128, .f32⟩
  | _ => ⟨S200000x128, .f32⟩

abbrev hbmTy0_1 (i : Nat) : BufTy := match i % 128 with
  | 0 => ⟨S200000x128, .f32⟩
  | 1 => ⟨S1x1x128x128, .f32⟩
  | 2 => ⟨S128x128, .f32⟩
  | 3 => ⟨S200000x128, .f32⟩
  | 4 => ⟨S200000x128, .f32⟩
  | 5 => ⟨S_, .f32⟩
  | 6 => ⟨S128, .f32⟩
  | 7 => ⟨S_, .f32⟩
  | 8 => ⟨S128, .f32⟩
  | 9 => ⟨S128, .f32⟩
  | 10 => ⟨S_, .i32⟩
  | 11 => ⟨S_, .f32⟩
  | 12 => ⟨S128, .f32⟩
  | 13 => ⟨S1x128, .f32⟩
  | 14 => ⟨S_, .f32⟩
  | 15 => ⟨S1x128, .f32⟩
  | 16 => ⟨S1x128, .f32⟩
  | 17 => ⟨S200000x128, .f32⟩
  | 18 => ⟨S200000x128, .f32⟩
  | 19 => ⟨S200000x128, .f32⟩
  | 20 => ⟨S_, .f32⟩
  | 21 => ⟨S_, .f32⟩
  | 22 => ⟨S_, .f32⟩
  | 23 => ⟨S_, .f32⟩
  | 24 => ⟨S128, .f32⟩
  | 25 => ⟨S128, .f32⟩
  | 26 => ⟨S128, .f32⟩
  | 27 => ⟨S_, .f32⟩
  | 28 => ⟨S_, .i1⟩
  | 29 => ⟨S_, .f32⟩
  | 30 => ⟨S_, .f32⟩
  | 31 => ⟨S128, .f32⟩
  | 32 => ⟨S128, .f32⟩
  | 33 => ⟨S1x128, .f32⟩
  | 34 => ⟨S200000x128, .f32⟩
  | 35 => ⟨S200000x128, .f32⟩
  | 36 => ⟨S_, .f32⟩
  | 37 => ⟨S128, .f32⟩
  | 38 => ⟨S128, .f32⟩
  | 39 => ⟨S128, .f32⟩
  | 40 => ⟨S1x128, .f32⟩
  | 41 => ⟨S200000x128, .f32⟩
  | 42 => ⟨S200000x128, .f32⟩
  | 43 => ⟨S1x128, .f32⟩
  | 44 => ⟨S128, .f32⟩
  | 45 => ⟨S1x128, .f32⟩
  | 46 => ⟨S200000x128, .f32⟩
  | 47 => ⟨S200000x128, .f32⟩
  | 48 => ⟨S1x128, .f32⟩
  | 49 => ⟨S128, .f32⟩
  | 50 => ⟨S1x128, .f32⟩
  | 51 => ⟨S200000x128, .f32⟩
  | 52 => ⟨S200000x128, .f32⟩
  | 53 => ⟨S200000x128, .f32⟩
  | 54 => ⟨S200000x128, .f32⟩
  | 55 => ⟨S_, .f32⟩
  | 56 => ⟨S200000x128, .f32⟩
  | 57 => ⟨S200000x128, .f32⟩
  | 58 => ⟨S_, .f32⟩
  | 59 => ⟨S200000x128, .f32⟩
  | 60 => ⟨S200000x128, .f32⟩
  | 61 => ⟨S200000x128, .f32⟩
  | 62 => ⟨S1x1x200000, .i32⟩
  | 63 => ⟨S200000, .i32⟩
  | 64 => ⟨S_, .i32⟩
  | 65 => ⟨S200000, .i32⟩
  | 66 => ⟨S200000, .i1⟩
  | 67 => ⟨S_, .i32⟩
  | 68 => ⟨S200000, .i32⟩
  | 69 => ⟨S200000, .i32⟩
  | 70 => ⟨S200000, .i32⟩
  | 71 => ⟨S200000x1, .i32⟩
  | 72 => ⟨S200000x128, .f32⟩
  | 73 => ⟨S1x1x200000, .i32⟩
  | 74 => ⟨S200000, .i32⟩
  | 75 => ⟨S_, .i32⟩
  | 76 => ⟨S200000, .i32⟩
  | 77 => ⟨S200000, .i1⟩
  | 78 => ⟨S_, .i32⟩
  | 79 => ⟨S200000, .i32⟩
  | 80 => ⟨S200000, .i32⟩
  | 81 => ⟨S200000, .i32⟩
  | 82 => ⟨S200000x1, .i32⟩
  | 83 => ⟨S200000x128, .f32⟩
  | 84 => ⟨S1x1x128x128, .f32⟩
  | 85 => ⟨S128x128, .f32⟩
  | 86 => ⟨S200000x128, .f32⟩
  | 87 => ⟨S1x1x128x128, .f32⟩
  | 88 => ⟨S128x128, .f32⟩
  | 89 => ⟨S200000x128, .f32⟩
  | 90 => ⟨S200000x128, .f32⟩
  | 91 => ⟨S1x1x128x128, .f32⟩
  | 92 => ⟨S128x128, .f32⟩
  | 93 => ⟨S200000x128, .f32⟩
  | 94 => ⟨S200000x128, .f32⟩
  | 95 => ⟨S_, .f32⟩
  | 96 => ⟨S128, .f32⟩
  | 97 => ⟨S_, .f32⟩
  | 98 => ⟨S128, .f32⟩
  | 99 => ⟨S128, .f32⟩
  | 100 => ⟨S_, .i32⟩
  | 101 => ⟨S_, .f32⟩
  | 102 => ⟨S128, .f32⟩
  | 103 => ⟨S1x128, .f32⟩
  | 104 => ⟨S_, .f32⟩
  | 105 => ⟨S1x128, .f32⟩
  | 106 => ⟨S1x128, .f32⟩
  | 107 => ⟨S200000x128, .f32⟩
  | 108 => ⟨S200000x128, .f32⟩
  | 109 => ⟨S200000x128, .f32⟩
  | 110 => ⟨S_, .f32⟩
  | 111 => ⟨S_, .f32⟩
  | 112 => ⟨S_, .f32⟩
  | 113 => ⟨S_, .f32⟩
  | 114 => ⟨S128, .f32⟩
  | 115 => ⟨S128, .f32⟩
  | 116 => ⟨S128, .f32⟩
  | 117 => ⟨S_, .f32⟩
  | 118 => ⟨S_, .i1⟩
  | 119 => ⟨S_, .f32⟩
  | 120 => ⟨S_, .f32⟩
  | 121 => ⟨S128, .f32⟩
  | 122 => ⟨S128, .f32⟩
  | 123 => ⟨S1x128, .f32⟩
  | 124 => ⟨S200000x128, .f32⟩
  | 125 => ⟨S200000x128, .f32⟩
  | 126 => ⟨S_, .f32⟩
  | 127 => ⟨S128, .f32⟩
  | _ => ⟨S200000x128, .f32⟩

abbrev hbmTy0_2 (i : Nat) : BufTy := match i % 128 with
  | 0 => ⟨S128, .f32⟩
  | 1 => ⟨S128, .f32⟩
  | 2 => ⟨S1x128, .f32⟩
  | 3 => ⟨S200000x128, .f32⟩
  | 4 => ⟨S200000x128, .f32⟩
  | 5 => ⟨S1x128, .f32⟩
  | 6 => ⟨S128, .f32⟩
  | 7 => ⟨S1x128, .f32⟩
  | 8 => ⟨S200000x128, .f32⟩
  | 9 => ⟨S200000x128, .f32⟩
  | 10 => ⟨S1x128, .f32⟩
  | 11 => ⟨S128, .f32⟩
  | 12 => ⟨S1x128, .f32⟩
  | 13 => ⟨S200000x128, .f32⟩
  | 14 => ⟨S200000x128, .f32⟩
  | 15 => ⟨S200000x128, .f32⟩
  | 16 => ⟨S200000x128, .f32⟩
  | 17 => ⟨S_, .f32⟩
  | 18 => ⟨S200000x128, .f32⟩
  | 19 => ⟨S200000x128, .f32⟩
  | 20 => ⟨S_, .f32⟩
  | 21 => ⟨S200000x128, .f32⟩
  | 22 => ⟨S200000x128, .f32⟩
  | 23 => ⟨S200000x128, .f32⟩
  | 24 => ⟨S200000x128, .f32⟩
  | _ => ⟨S200000x128, .f32⟩

abbrev hbmTy (i : Nat) : BufTy := match i / 128 with
  | 0 => hbmTy0_0 i
  | 1 => hbmTy0_1 i
  | 2 => hbmTy0_2 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_cst_1 : Ref sig .tc := ⟨.hbm, 59, rfl⟩
abbrev main_call0_v8 : Ref sig .tc := ⟨.hbm, 60, rfl⟩
abbrev main_call0_cst_2 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_cst_3 : Ref sig .tc := ⟨.hbm, 65, rfl⟩
abbrev main_call0_v12 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_7 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_8 : Ref sig .tc := ⟨.hbm, 93, rfl⟩
abbrev main_v57 : Ref sig .tc := ⟨.hbm, 94, rfl⟩
abbrev main_v58 : Ref sig .tc := ⟨.hbm, 95, rfl⟩
abbrev main_cst_9 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_c_10 : Ref sig .tc := ⟨.hbm, 102, rfl⟩
abbrev main_v64 : Ref sig .tc := ⟨.hbm, 103, rfl⟩
abbrev main_v65 : Ref sig .tc := ⟨.hbm, 104, rfl⟩
abbrev main_c_11 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_c_12 : Ref sig .tc := ⟨.hbm, 113, rfl⟩
abbrev main_v73 : Ref sig .tc := ⟨.hbm, 114, rfl⟩
abbrev main_v74 : Ref sig .tc := ⟨.hbm, 115, rfl⟩
abbrev main_c_13 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_14 : Ref sig .tc := ⟨.hbm, 133, rfl⟩
abbrev main_v91 : Ref sig .tc := ⟨.hbm, 134, rfl⟩
abbrev main_cst_15 : Ref sig .tc := ⟨.hbm, 135, rfl⟩
abbrev main_v92 : Ref sig .tc := ⟨.hbm, 136, rfl⟩
abbrev main_v93 : Ref sig .tc := ⟨.hbm, 137, rfl⟩
abbrev main_c_16 : Ref sig .tc := ⟨.hbm, 138, rfl⟩
abbrev main_call1_cst : Ref sig .tc := ⟨.hbm, 139, rfl⟩
abbrev main_call1_v0 : Ref sig .tc := ⟨.hbm, 140, rfl⟩
abbrev main_call1_v1 : Ref sig .tc := ⟨.hbm, 141, rfl⟩
abbrev main_call1_cst_0 : Ref sig .tc := ⟨.hbm, 142, rfl⟩
abbrev main_call1_v2 : Ref sig .tc := ⟨.hbm, 143, rfl⟩
abbrev main_call1_v3 : Ref sig .tc := ⟨.hbm, 144, rfl⟩
abbrev main_call1_v4 : Ref sig .tc := ⟨.hbm, 145, rfl⟩
abbrev main_call1_v5 : Ref sig .tc := ⟨.hbm, 146, rfl⟩
abbrev main_call1_v6 : Ref sig .tc := ⟨.hbm, 147, rfl⟩
abbrev main_call1_v7 : Ref sig .tc := ⟨.hbm, 148, rfl⟩
abbrev main_call1_cst_1 : Ref sig .tc := ⟨.hbm, 149, rfl⟩
abbrev main_call1_v8 : Ref sig .tc := ⟨.hbm, 150, rfl⟩
abbrev main_call1_cst_2 : Ref sig .tc := ⟨.hbm, 151, rfl⟩
abbrev main_call1_v9 : Ref sig .tc := ⟨.hbm, 152, rfl⟩
abbrev main_call1_v10 : Ref sig .tc := ⟨.hbm, 153, rfl⟩
abbrev main_call1_v11 : Ref sig .tc := ⟨.hbm, 154, rfl⟩
abbrev main_call1_cst_3 : Ref sig .tc := ⟨.hbm, 155, rfl⟩
abbrev main_call1_v12 : Ref sig .tc := ⟨.hbm, 156, rfl⟩
abbrev main_call1_cst_4 : Ref sig .tc := ⟨.hbm, 157, rfl⟩
abbrev main_call1_call0_v0 : Ref sig .tc := ⟨.hbm, 158, rfl⟩
abbrev main_call1_call0_v1 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_cst_17 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_cst_18 : Ref sig .tc := ⟨.hbm, 183, rfl⟩
abbrev main_v116 : Ref sig .tc := ⟨.hbm, 184, rfl⟩
abbrev main_v117 : Ref sig .tc := ⟨.hbm, 185, rfl⟩
abbrev main_cst_19 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_c_20 : Ref sig .tc := ⟨.hbm, 192, rfl⟩
abbrev main_v123 : Ref sig .tc := ⟨.hbm, 193, rfl⟩
abbrev main_v124 : Ref sig .tc := ⟨.hbm, 194, rfl⟩
abbrev main_c_21 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_c_22 : Ref sig .tc := ⟨.hbm, 203, rfl⟩
abbrev main_v132 : Ref sig .tc := ⟨.hbm, 204, rfl⟩
abbrev main_v133 : Ref sig .tc := ⟨.hbm, 205, rfl⟩
abbrev main_c_23 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_cst_24 : Ref sig .tc := ⟨.hbm, 223, rfl⟩
abbrev main_v150 : Ref sig .tc := ⟨.hbm, 224, rfl⟩
abbrev main_cst_25 : Ref sig .tc := ⟨.hbm, 225, rfl⟩
abbrev main_v151 : Ref sig .tc := ⟨.hbm, 226, rfl⟩
abbrev main_v152 : Ref sig .tc := ⟨.hbm, 227, rfl⟩
abbrev main_c_26 : Ref sig .tc := ⟨.hbm, 228, rfl⟩
abbrev main_call2_cst : Ref sig .tc := ⟨.hbm, 229, rfl⟩
abbrev main_call2_v0 : Ref sig .tc := ⟨.hbm, 230, rfl⟩
abbrev main_call2_v1 : Ref sig .tc := ⟨.hbm, 231, rfl⟩
abbrev main_call2_cst_0 : Ref sig .tc := ⟨.hbm, 232, rfl⟩
abbrev main_call2_v2 : Ref sig .tc := ⟨.hbm, 233, rfl⟩
abbrev main_call2_v3 : Ref sig .tc := ⟨.hbm, 234, rfl⟩
abbrev main_call2_v4 : Ref sig .tc := ⟨.hbm, 235, rfl⟩
abbrev main_call2_v5 : Ref sig .tc := ⟨.hbm, 236, rfl⟩
abbrev main_call2_v6 : Ref sig .tc := ⟨.hbm, 237, rfl⟩
abbrev main_call2_v7 : Ref sig .tc := ⟨.hbm, 238, rfl⟩
abbrev main_call2_cst_1 : Ref sig .tc := ⟨.hbm, 239, rfl⟩
abbrev main_call2_v8 : Ref sig .tc := ⟨.hbm, 240, rfl⟩
abbrev main_call2_cst_2 : Ref sig .tc := ⟨.hbm, 241, rfl⟩
abbrev main_call2_v9 : Ref sig .tc := ⟨.hbm, 242, rfl⟩
abbrev main_call2_v10 : Ref sig .tc := ⟨.hbm, 243, rfl⟩
abbrev main_call2_v11 : Ref sig .tc := ⟨.hbm, 244, rfl⟩
abbrev main_call2_cst_3 : Ref sig .tc := ⟨.hbm, 245, rfl⟩
abbrev main_call2_v12 : Ref sig .tc := ⟨.hbm, 246, rfl⟩
abbrev main_call2_cst_4 : Ref sig .tc := ⟨.hbm, 247, rfl⟩
abbrev main_call2_call0_v0 : Ref sig .tc := ⟨.hbm, 248, rfl⟩
abbrev main_call2_call0_v1 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_cst_27 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_v174 : Ref sig .tc := ⟨.hbm, 272, rfl⟩
abbrev main_cst_28 : Ref sig .tc := ⟨.hbm, 273, rfl⟩
abbrev main_v175 : Ref sig .tc := ⟨.hbm, 274, rfl⟩
abbrev main_v176 : Ref sig .tc := ⟨.hbm, 275, rfl⟩
abbrev main_cst_29 : Ref sig .tc := ⟨.hbm, 276, rfl⟩
abbrev main_v177 : Ref sig .tc := ⟨.hbm, 277, rfl⟩
abbrev main_v178 : Ref sig .tc := ⟨.hbm, 278, rfl⟩
abbrev main_v179 : Ref sig .tc := ⟨.hbm, 279, rfl⟩
abbrev main_v180 : Ref sig .tc := ⟨.hbm, 280, rfl⟩

abbrev nD : Nat := 1
abbrev τ : Topo := Topo.v7x

variable {F : FTy → Type} [FloatOps F]

class Facts₀ : Prop where
  bcast_S_S1x128 : S_.BroadcastsInDim S1x128 (![] : Fin 0 → Fin S1x128.rank)
  concatenates_S200000x128_S1x128_S200001x128_d0 : Shape.Concatenates [S200000x128, S1x128] S200001x128 0
  bcast_S_S200000x128 : S_.BroadcastsInDim S200000x128 (![] : Fin 0 → Fin S200000x128.rank)
  slices_S3x2x200000_S1x1x200000_0_0_0 : S3x2x200000.Slices ![0, 0, 0] S1x1x200000
  shapeCasts_S1x1x200000_S200000 : S1x1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S3x2x200000_S1x1x200000_0_1_0 : S3x2x200000.Slices ![0, 1, 0] S1x1x200000
  slices_S3x3x128x128_S1x1x128x128_0_0_0_0 : S3x3x128x128.Slices ![0, 0, 0, 0] S1x1x128x128
  shapeCasts_S1x1x128x128_S128x128 : S1x1x128x128.ShapeCasts S128x128
  slices_S3x3x128x128_S1x1x128x128_0_1_0_0 : S3x3x128x128.Slices ![0, 1, 0, 0] S1x1x128x128
  slices_S3x3x128x128_S1x1x128x128_0_2_0_0 : S3x3x128x128.Slices ![0, 2, 0, 0] S1x1x128x128
  reducesTo_S200000x128_S128_d0 : S200000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  slices_S3x128_S1x128_0_0 : S3x128.Slices ![0, 0] S1x128
  shapeCasts_S1x128_S128 : S1x128.ShapeCasts S128
  slices_S3x2x200000_S1x1x200000_1_0_0 : S3x2x200000.Slices ![1, 0, 0] S1x1x200000
  slices_S3x2x200000_S1x1x200000_1_1_0 : S3x2x200000.Slices ![1, 1, 0] S1x1x200000
  slices_S3x3x128x128_S1x1x128x128_1_0_0_0 : S3x3x128x128.Slices ![1, 0, 0, 0] S1x1x128x128
  slices_S3x3x128x128_S1x1x128x128_1_1_0_0 : S3x3x128x128.Slices ![1, 1, 0, 0] S1x1x128x128
  slices_S3x3x128x128_S1x1x128x128_1_2_0_0 : S3x3x128x128.Slices ![1, 2, 0, 0] S1x1x128x128
  slices_S3x128_S1x128_1_0 : S3x128.Slices ![1, 0] S1x128
  slices_S3x2x200000_S1x1x200000_2_0_0 : S3x2x200000.Slices ![2, 0, 0] S1x1x200000
  slices_S3x2x200000_S1x1x200000_2_1_0 : S3x2x200000.Slices ![2, 1, 0] S1x1x200000
  slices_S3x3x128x128_S1x1x128x128_2_0_0_0 : S3x3x128x128.Slices ![2, 0, 0, 0] S1x1x128x128
  slices_S3x3x128x128_S1x1x128x128_2_1_0_0 : S3x3x128x128.Slices ![2, 1, 0, 0] S1x1x128x128
  slices_S3x3x128x128_S1x1x128x128_2_2_0_0 : S3x3x128x128.Slices ![2, 2, 0, 0] S1x1x128x128
  slices_S3x128_S1x128_2_0 : S3x128.Slices ![2, 0] S1x128
  gather_S200001x128_S200000x1_S200000x128_1_0_n_n_0_1_1128_wf : GatherDims.WF S200001x128 S200000x1 S200000x128 [1] [0] [] [0] [] 1 ![1, 128]
  dot_S200000x128_S128x128_S200000x128_1_0_0_1_n_n_wf : DotDims.WF S200000x128 S128x128 S200000x128 [1] [0] [0] [1] [] []

variable [Facts₀]

def gather_S200001x128_S200000x1_S200000x128_1_0_n_n_0_1_1128 : GatherDims S200001x128 S200000x1 S200000x128 where
  offsetDims := [1]
  collapsedSliceDims := [0]
  operandBatchingDims := []
  startIndicesBatchingDims := []
  startIndexMap := [0]
  indexVectorDim := 1
  sliceSizes := ![1, 128]
  wf := gather_S200001x128_S200000x1_S200000x128_1_0_n_n_0_1_1128_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf

class Facts : Prop extends Facts₀ where

variable [Facts]
-- ==== Proof.KRun.lean ====
/-
  The run of the idealized kernel program with its result buffer named.

  From any launch memory with zero counters, every weakly fair execution of the program on the cores terminates
  without fault, and in every final state the result buffer holds the last boundary's contents at that buffer,
  while the five argument arrays hold what they held at launch.
-/
import proofs.«134539_j3152505995485_2_alg».proof.Proof.Gen.KernelIdeal.Frame

set_option maxRecDepth 16384

noncomputable section

namespace Cert.KernelIdeal.KV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- Every weakly fair execution terminates, nothing faulting; the result buffer ends at the last boundary's contents
    and every argument array as launched. -/
theorem run_value : θ_run defs (onTc (τ := τ) (main (F := F))) ⟨m, fun _ => 0, ρ⟩ (fun r => ∀ c : Dev nD,
      r.2.mem ((c.tc : Thread nD τ).loc main_v126) = Gen.W12 m ρ c (Proc.devRef .tc main_v126)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v126 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c)⟩)

/-- info: 'Cert.KernelIdeal.KV.run_value' depends on axioms: [propext, Classical.choice, Quot.sound] -/
#guard_msgs in #print axioms run_value

end Cert.KernelIdeal.KV

end
-- ==== Proof.KGlueDefs.lean ====
/-
  The host computations of the kernel program between its regions, as whole-array functions.

  Each definition is the composition of the operations one stretch of the program applies, in the program's order:
  the rows narrowed to bf16 with a zero row appended (`kPadded`), the gather of rows at an index vector with negative
  indices wrapped (`kRowsAt`), the six index vectors and nine weight matrices cut out of their tables, the per-channel
  mean of forty per-tile sums (`kMeanOf`), the reciprocal square root of the clamped variance plus the offset
  (`kInvOf`), and the rows of the scale and shift tables.
-/
import proofs.«134539_j3152505995485_2_alg».proof.Proof.Gen.KernelIdeal.Launch

noncomputable section

namespace Cert.KernelIdeal.KV

open Idealize.ShloMosaic Idealize.ShloMosaic.TcCoe
open Cert.KernelIdeal Cert.KernelIdeal.Gen

/-- An array of shape `s` and element type `e`. -/
abbrev Arr (F : FTy → Type) (s : Shape) (e : EltTy) : Type := (⟨s, e⟩ : BufTy).Contents (Elt F)

variable {F : FTy → Type} [FloatOps F]

/-! ## The rows and the weights narrowed to bf16 -/

/-- The rows narrowed to bf16. -/
def kXb (X : Arr F S200000x128 .f32) : Arr F S200000x128 .bf16 := truncf .bf16 X bitsLt_bf16_f32

/-- The weights narrowed to bf16. -/
def kWb (Wt : Arr F S3x3x128x128 .f32) : Arr F S3x3x128x128 .bf16 := truncf .bf16 Wt bitsLt_bf16_f32

/-- The rows narrowed to bf16 with one zero row appended: 200001 rows. -/
def kPadded (X : Arr F S200000x128 .f32) : Arr F S200001x128 .bf16 :=
  concatenate S200001x128 0
    [⟨S200000x128, kXb X⟩,
     ⟨S1x128, (broadcastInDim S1x128 ![] bcast_S_S1x128 (constant S_ .bf16 0x0000#16 : Arr F S_ .bf16) : Arr F S1x128 .bf16)⟩]
    concatenates_S200000x128_S1x128_S200001x128_d0

/-! ## A gather of rows -/

/-- The rows of a 200001-row table at an index vector, a negative index counted from the end: each index below zero
    has 200001 added, and row `r` of the result is the table's row at the adjusted index `r`. -/
def kRowsAt (Xp : Arr F S200001x128 .bf16) (idx : Arr F S200000 .i32) : Arr F S200000x128 .bf16 :=
  Host.gather gather_S200001x128_S200000x1_S200000x128_1_0_n_n_0_1_1128 Xp
    (broadcastInDim S200000x1 ![0] bcast_S200000_S200000x1_0
      (select
        (cmpi .slt idx (broadcastInDim S200000 ![] bcast_S_S200000 (constantI S_ 32 0#32 : Arr F S_ .i32) : Arr F S200000 .i32))
        (addi idx (broadcastInDim S200000 ![] bcast_S_S200000 (constantI S_ 32 200001#32 : Arr F S_ .i32) : Arr F S200000 .i32))
        idx) : Arr F S200000x1 .i32)

/-! ## The index vectors -/

/-- The index vector of axis 0, previous neighbour: the slice `[0:1, 0:1, 0:200000]` of the index table, as a vector of 200000 indices. -/
def kIdx00 (I : Arr F S3x2x200000 .i32) : Arr F S200000 .i32 :=
  fun i => shapeCast S200000 (extractStridedSlice S1x1x200000 ![0, 0, 0] I slices_S3x2x200000_S1x1x200000_0_0_0) shapeCasts_S1x1x200000_S200000 i

/-- The index vector of axis 0, next neighbour: the slice `[0:1, 1:2, 0:200000]` of the index table, as a vector of 200000 indices. -/
def kIdx01 (I : Arr F S3x2x200000 .i32) : Arr F S200000 .i32 :=
  fun i => shapeCast S200000 (extractStridedSlice S1x1x200000 ![0, 1, 0] I slices_S3x2x200000_S1x1x200000_0_1_0) shapeCasts_S1x1x200000_S200000 i

/-- The index vector of axis 1, previous neighbour: the slice `[1:2, 0:1, 0:200000]` of the index table, as a vector of 200000 indices. -/
def kIdx10 (I : Arr F S3x2x200000 .i32) : Arr F S200000 .i32 :=
  fun i => shapeCast S200000 (extractStridedSlice S1x1x200000 ![1, 0, 0] I slices_S3x2x200000_S1x1x200000_1_0_0) shapeCasts_S1x1x200000_S200000 i

/-- The index vector of axis 1, next neighbour: the slice `[1:2, 1:2, 0:200000]` of the index table, as a vector of 200000 indices. -/
def kIdx11 (I : Arr F S3x2x200000 .i32) : Arr F S200000 .i32 :=
  fun i => shapeCast S200000 (extractStridedSlice S1x1x200000 ![1, 1, 0] I slices_S3x2x200000_S1x1x200000_1_1_0) shapeCasts_S1x1x200000_S200000 i

/-- The index vector of axis 2, previous neighbour: the slice `[2:3, 0:1, 0:200000]` of the index table, as a vector of 200000 indices. -/
def kIdx20 (I : Arr F S3x2x200000 .i32) : Arr F S200000 .i32 :=
  fun i => shapeCast S200000 (extractStridedSlice S1x1x200000 ![2, 0, 0] I slices_S3x2x200000_S1x1x200000_2_0_0) shapeCasts_S1x1x200000_S200000 i

/-- The index vector of axis 2, next neighbour: the slice `[2:3, 1:2, 0:200000]` of the index table, as a vector of 200000 indices. -/
def kIdx21 (I : Arr F S3x2x200000 .i32) : Arr F S200000 .i32 :=
  fun i => shapeCast S200000 (extractStridedSlice S1x1x200000 ![2, 1, 0] I slices_S3x2x200000_S1x1x200000_2_1_0) shapeCasts_S1x1x200000_S200000 i

/-! ## The weight matrices -/

/-- The matrix of axis 0, tap 0: the slice `[0:1, 0:1, 0:128, 0:128]` of the weights narrowed to bf16, as a 128-by-128 matrix. -/
def kW00 (Wt : Arr F S3x3x128x128 .f32) : Arr F S128x128 .bf16 :=
  fun i => shapeCast S128x128 (extractStridedSlice S1x1x128x128 ![0, 0, 0, 0] (kWb Wt) slices_S3x3x128x128_S1x1x128x128_0_0_0_0) shapeCasts_S1x1x128x128_S128x128 i

/-- The matrix of axis 0, tap 1: the slice `[0:1, 1:2, 0:128, 0:128]` of the weights narrowed to bf16, as a 128-by-128 matrix. -/
def kW01 (Wt : Arr F S3x3x128x128 .f32) : Arr F S128x128 .bf16 :=
  fun i => shapeCast S128x128 (extractStridedSlice S1x1x128x128 ![0, 1, 0, 0] (kWb Wt) slices_S3x3x128x128_S1x1x128x128_0_1_0_0) shapeCasts_S1x1x128x128_S128x128 i

/-- The matrix of axis 0, tap 2: the slice `[0:1, 2:3, 0:128, 0:128]` of the weights narrowed to bf16, as a 128-by-128 matrix. -/
def kW02 (Wt : Arr F S3x3x128x128 .f32) : Arr F S128x128 .bf16 :=
  fun i => shapeCast S128x128 (extractStridedSlice S1x1x128x128 ![0, 2, 0, 0] (kWb Wt) slices_S3x3x128x128_S1x1x128x128_0_2_0_0) shapeCasts_S1x1x128x128_S128x128 i

/-- The matrix of axis 1, tap 0: the slice `[1:2, 0:1, 0:128, 0:128]` of the weights narrowed to bf16, as a 128-by-128 matrix. -/
def kW10 (Wt : Arr F S3x3x128x128 .f32) : Arr F S128x128 .bf16 :=
  fun i => shapeCast S128x128 (extractStridedSlice S1x1x128x128 ![1, 0, 0, 0] (kWb Wt) slices_S3x3x128x128_S1x1x128x128_1_0_0_0) shapeCasts_S1x1x128x128_S128x128 i

/-- The matrix of axis 1, tap 1: the slice `[1:2, 1:2, 0:128, 0:128]` of the weights narrowed to bf16, as a 128-by-128 matrix. -/
def kW11 (Wt : Arr F S3x3x128x128 .f32) : Arr F S128x128 .bf16 :=
  fun i => shapeCast S128x128 (extractStridedSlice S1x1x128x128 ![1, 1, 0, 0] (kWb Wt) slices_S3x3x128x128_S1x1x128x128_1_1_0_0) shapeCasts_S1x1x128x128_S128x128 i

/-- The matrix of axis 1, tap 2: the slice `[1:2, 2:3, 0:128, 0:128]` of the weights narrowed to bf16, as a 128-by-128 matrix. -/
def kW12 (Wt : Arr F S3x3x128x128 .f32) : Arr F S128x128 .bf16 :=
  fun i => shapeCast S128x128 (extractStridedSlice S1x1x128x128 ![1, 2, 0, 0] (kWb Wt) slices_S3x3x128x128_S1x1x128x128_1_2_0_0) shapeCasts_S1x1x128x128_S128x128 i

/-- The matrix of axis 2, tap 0: the slice `[2:3, 0:1, 0:128, 0:128]` of the weights narrowed to bf16, as a 128-by-128 matrix. -/
def kW20 (Wt : Arr F S3x3x128x128 .f32) : Arr F S128x128 .bf16 :=
  fun i => shapeCast S128x128 (extractStridedSlice S1x1x128x128 ![2, 0, 0, 0] (kWb Wt) slices_S3x3x128x128_S1x1x128x128_2_0_0_0) shapeCasts_S1x1x128x128_S128x128 i

/-- The matrix of axis 2, tap 1: the slice `[2:3, 1:2, 0:128, 0:128]` of the weights narrowed to bf16, as a 128-by-128 matrix. -/
def kW21 (Wt : Arr F S3x3x128x128 .f32) : Arr F S128x128 .bf16 :=
  fun i => shapeCast S128x128 (extractStridedSlice S1x1x128x128 ![2, 1, 0, 0] (kWb Wt) slices_S3x3x128x128_S1x1x128x128_2_1_0_0) shapeCasts_S1x1x128x128_S128x128 i

/-- The matrix of axis 2, tap 2: the slice `[2:3, 2:3, 0:128, 0:128]` of the weights narrowed to bf16, as a 128-by-128 matrix. -/
def kW22 (Wt : Arr F S3x3x128x128 .f32) : Arr F S128x128 .bf16 :=
  fun i => shapeCast S128x128 (extractStridedSlice S1x1x128x128 ![2, 2, 0, 0] (kWb Wt) slices_S3x3x128x128_S1x1x128x128_2_2_0_0) shapeCasts_S1x1x128x128_S128x128 i

/-! ## The statistics -/

/-- The per-channel mean from forty per-tile sums: their sum from a zero start, divided by the row count 200000. -/
def kMeanOf (S : Arr F S40x1x128 .f32) : Arr F S1x128 .f32 :=
  Host.divf
    (Host.reduceAdd S (constant S_ .f32 0x00000000#32 : Arr F S_ .f32) reducesTo_S40x1x128_S1x128_d0 h_S_)
    (broadcastInDim S1x128 ![] bcast_S_S1x128 (constant S_ .f32 0x48435000#32 : Arr F S_ .f32) : Arr F S1x128 .f32)

/-- The per-channel reciprocal standard deviation from the per-tile sums `S` and sums of squares `Q`: the mean of
    the squares minus the squared mean, clamped below at zero, plus the offset, through the reciprocal square root. -/
def kInvOf (S Q : Arr F S40x1x128 .f32) : Arr F S1x128 .f32 :=
  Host.rsqrt
    (addf
      (maximumf
        (subf (kMeanOf Q) (mulf (kMeanOf S) (kMeanOf S)))
        (broadcastInDim S1x128 ![] bcast_S_S1x128 (constant S_ .f32 0x00000000#32 : Arr F S_ .f32) : Arr F S1x128 .f32))
      (broadcastInDim S1x128 ![] bcast_S_S1x128 (constant S_ .f32 0x3727C5AC#32 : Arr F S_ .f32) : Arr F S1x128 .f32))

/-! ## The scale and shift rows -/

/-- Row 0 of the scale table, as a [1, 128] array. -/
def kG0 (G : Arr F S3x128 .f32) : Arr F S1x128 .f32 := extractStridedSlice S1x128 ![0, 0] G slices_S3x128_S1x128_0_0
/-- Row 0 of the shift table, as a [1, 128] array. -/
def kB0 (B : Arr F S3x128 .f32) : Arr F S1x128 .f32 := extractStridedSlice S1x128 ![0, 0] B slices_S3x128_S1x128_0_0
/-- Row 1 of the scale table, as a [1, 128] array. -/
def kG1 (G : Arr F S3x128 .f32) : Arr F S1x128 .f32 := extractStridedSlice S1x128 ![1, 0] G slices_S3x128_S1x128_1_0
/-- Row 1 of the shift table, as a [1, 128] array. -/
def kB1 (B : Arr F S3x128 .f32) : Arr F S1x128 .f32 := extractStridedSlice S1x128 ![1, 0] B slices_S3x128_S1x128_1_0
/-- Row 2 of the scale table, as a [1, 128] array. -/
def kG2 (G : Arr F S3x128 .f32) : Arr F S1x128 .f32 := extractStridedSlice S1x128 ![2, 0] G slices_S3x128_S1x128_2_0
/-- Row 2 of the shift table, as a [1, 128] array. -/
def kB2 (B : Arr F S3x128 .f32) : Arr F S1x128 .f32 := extractStridedSlice S1x128 ![2, 0] B slices_S3x128_S1x128_2_0

end Cert.KernelIdeal.KV

end
-- ==== Proof.Spec.lean ====
/-
  The mathematics both programs compute, stated once over plain finite index types.

  A table is an array of 200000 rows by 128 channels of extended reals. For each of the three axes the
  programs form a convolution table `conv P X N W0 W1 W2` (three 128-by-128 products: the previous-neighbour
  rows, the rows themselves, the next-neighbour rows), normalise it per channel by its mean and biased variance
  over all 200000 rows, scale and shift it, and apply the logistic function; the three results are summed and
  multiplied by the rows.

  The two programs differ only in how the per-channel statistics are formed. One side sums each channel over
  40 tiles of 5000 rows and then over the tiles, and takes the variance as the mean of the squares minus the
  square of the mean, clamped below at zero (`kMean`, `kVar`). The other sums over all rows at once and takes
  the variance as the mean of the squared deviations (`rMean`, `rVar`). On tables of real numbers these agree.
-/
import Idealize.ShloMosaic.PureOps.Ideal
import Idealize.ShloMosaic.Lib.ValueIdx

noncomputable section

namespace Cert.Spec

open Idealize.ShloMosaic Idealize.ShloMosaic.ValueIdx
open scoped BigOperators

/-- 200000 rows by 128 channels. -/
abbrev Tab := Fin 200000 → Fin 128 → EReal
/-- One value per channel. -/
abbrev Row := Fin 128 → EReal
/-- A 128-by-128 matrix, contraction index first. -/
abbrev Mat := Fin 128 → Fin 128 → EReal

/-- An array of shape [200000, 128] as a table. -/
def tab (A : (⟨2, ![200000, 128]⟩ : Shape).Idx → EReal) : Tab := fun r q => A (ix2 r q)
/-- An array of shape [1, 128] as a row. -/
def row (A : (⟨2, ![1, 128]⟩ : Shape).Idx → EReal) : Row := fun q => A (ix2 (0 : Fin 1) q)
/-- An array of shape [128, 128] as a matrix. -/
def mat (A : (⟨2, ![128, 128]⟩ : Shape).Idx → EReal) : Mat := fun k q => A (ix2 k q)

/-- The row count 200000 as the float literal both programs divide by. -/
def cN : EReal := Ideal.ofBits .f32 0x48435000#32
/-- The variance offset (the float nearest 1e-5). -/
def cEps : EReal := Ideal.ofBits .f32 0x3727C5AC#32
/-- The float literal 1. -/
def cOne : EReal := Ideal.ofBits .f32 0x3F800000#32

/-- Row `r'` of tile `i`: row `5000 i + r'` of the table. -/
def tileRow (i : Fin 40) (r' : Fin 5000) : Fin 200000 := ⟨5000 * i.val + r'.val, by omega⟩

/-- One tap of the convolution: the table times a 128-by-128 matrix. -/
def tap (A : Tab) (W : Mat) : Tab := fun r q => ∑ k : Fin 128, A r k * W k q

/-- The convolution along one axis: previous rows, the rows, next rows, each through its own matrix. -/
def conv (P X N : Tab) (W0 W1 W2 : Mat) : Tab := fun r q => (tap P W0 r q + tap X W1 r q) + tap N W2 r q

/-! ## Statistics by tiles, variance as mean of squares minus squared mean -/

def kSum (T : Tab) : Row := fun q => ∑ i : Fin 40, ∑ r' : Fin 5000, T (tileRow i r') q
def kSumSq (T : Tab) : Row := fun q => ∑ i : Fin 40, ∑ r' : Fin 5000, T (tileRow i r') q * T (tileRow i r') q
def kMean (T : Tab) : Row := fun q => Ideal.div (kSum T q) cN
def kVar (T : Tab) : Row := fun q => max (Ideal.div (kSumSq T q) cN - kMean T q * kMean T q) 0
def kInv (T : Tab) : Row := fun q => Ideal.rsqrt (kVar T q + cEps)
/-- The normalised, scaled, shifted table through the logistic function. -/
def kSig (T : Tab) (g b : Row) : Tab := fun r q => Ideal.logistic ((T r q - kMean T q) * kInv T q * g q + b q)

/-! ## Statistics over all rows at once, variance as mean squared deviation -/

def rMean (T : Tab) : Row := fun q => Ideal.div (∑ r : Fin 200000, T r q) cN
def rVar (T : Tab) : Row := fun q => Ideal.div (∑ r : Fin 200000, (T r q - rMean T q) * (T r q - rMean T q)) cN
def rInv (T : Tab) : Row := fun q => Ideal.rsqrt (rVar T q + cEps)
/-- The same with the logistic function spelt out as `1 / (1 + exp (-x))` over the literal 1. -/
def rSig (T : Tab) (g b : Row) : Tab :=
  fun r q => Ideal.div cOne (cOne + Ideal.exp (-((T r q - rMean T q) * rInv T q * g q + b q)))

/-! ## The results -/

/-- The sum of the three axes' tables (first axis stored, the others added on), times the rows. -/
def kOut (T0 T1 T2 : Tab) (g0 b0 g1 b1 g2 b2 : Row) (X : Tab) : Tab :=
  fun r q => ((kSig T0 g0 b0 r q + kSig T1 g1 b1 r q) + kSig T2 g2 b2 r q) * X r q

/-- The same accumulated onto a zero table. -/
def rOut (T0 T1 T2 : Tab) (g0 b0 g1 b1 g2 b2 : Row) (X : Tab) : Tab :=
  fun r q => (((0 + rSig T0 g0 b0 r q) + rSig T1 g1 b1 r q) + rSig T2 g2 b2 r q) * X r q

/-- A table all of whose entries are real numbers. -/
def Finite (T : Tab) : Prop := ∀ r q, ∃ x : ℝ, T r q = (x : EReal)

end Cert.Spec

end
-- ==== Proof.KTables.lean ====
/-
  The three convolution tables as the kernel program forms them from its arguments: for each axis, the previous- and
  next-neighbour rows gathered from the padded rows, and the axis's three matrices.
-/
import proofs.«134539_j3152505995485_2_alg».proof.Proof.KGlueDefs
import proofs.«134539_j3152505995485_2_alg».proof.Proof.Spec

noncomputable section

namespace Cert.KernelIdeal.KV

open Idealize.ShloMosaic Cert.Spec Cert.KernelIdeal

/-- The first axis's convolution table. -/
def kT0 (X : Arr Ideal S200000x128 .f32) (I : Arr Ideal S3x2x200000 .i32) (Wt : Arr Ideal S3x3x128x128 .f32) : Tab :=
  conv (tab (kRowsAt (F := Ideal) (kPadded X) (kIdx00 I))) (tab (kXb (F := Ideal) X)) (tab (kRowsAt (F := Ideal) (kPadded X) (kIdx01 I)))
    (mat (kW00 (F := Ideal) Wt)) (mat (kW01 (F := Ideal) Wt)) (mat (kW02 (F := Ideal) Wt))

/-- The second axis's convolution table. -/
def kT1 (X : Arr Ideal S200000x128 .f32) (I : Arr Ideal S3x2x200000 .i32) (Wt : Arr Ideal S3x3x128x128 .f32) : Tab :=
  conv (tab (kRowsAt (F := Ideal) (kPadded X) (kIdx10 I))) (tab (kXb (F := Ideal) X)) (tab (kRowsAt (F := Ideal) (kPadded X) (kIdx11 I)))
    (mat (kW10 (F := Ideal) Wt)) (mat (kW11 (F := Ideal) Wt)) (mat (kW12 (F := Ideal) Wt))

/-- The third axis's convolution table. -/
def kT2 (X : Arr Ideal S200000x128 .f32) (I : Arr Ideal S3x2x200000 .i32) (Wt : Arr Ideal S3x3x128x128 .f32) : Tab :=
  conv (tab (kRowsAt (F := Ideal) (kPadded X) (kIdx20 I))) (tab (kXb (F := Ideal) X)) (tab (kRowsAt (F := Ideal) (kPadded X) (kIdx21 I)))
    (mat (kW20 (F := Ideal) Wt)) (mat (kW21 (F := Ideal) Wt)) (mat (kW22 (F := Ideal) Wt))

/-- Row `a` of a three-row table of per-channel values. -/
def rowOf3 (G : Arr Ideal S3x128 .f32) (a : Fin 3) : Row := fun q => G (Idealize.ShloMosaic.ValueIdx.ix2 a q)

/-- The kernel program's result as a table of its five arguments. -/
def kTable (X : Arr Ideal S200000x128 .f32) (I : Arr Ideal S3x2x200000 .i32) (Wt : Arr Ideal S3x3x128x128 .f32)
    (G B : Arr Ideal S3x128 .f32) : Tab :=
  kOut (kT0 X I Wt) (kT1 X I Wt) (kT2 X I Wt) (rowOf3 G 0) (rowOf3 B 0) (rowOf3 G 1) (rowOf3 B 1) (rowOf3 G 2) (rowOf3 B 2) (tab X)

end Cert.KernelIdeal.KV

end
-- ==== Proof.KRegionLib.lean ====
/-
  Shared pieces for reading the output arrays of the six tiled regions index by index.

  Every region walks 40 tiles of 5000 rows. Three of them normalise a 200000-by-128 table per channel: an entry
  `x` of channel `q` becomes `(x − mean q) · inv q · scale q + shift q`, where mean, inverse deviation, scale and
  shift are rows of 128 values. `zAt` is that entry at the level of the whole arrays; `norm_core` says that one
  tile's normalised block, read at `(p, q)`, is the same expression of the tile's entry `(p, q)` and the four rows'
  entries at `q` (a row broadcast over the tile's rows reads its one row; widening the tile's format is the
  identity on extended reals).
-/
import proofs.«134539_j3152505995485_2_alg».proof.Proof.Gen.KernelIdeal.Skeleton
import proofs.«134539_j3152505995485_2_alg».proof.Proof.Spec
import Idealize.ShloMosaic.Lib.ValueIdx
import Idealize.ShloMosaic.Lib.ValueLayout

noncomputable section

namespace Cert.KernelIdeal.KV

open Cert.KernelIdeal Cert.KernelIdeal.Gen Idealize.ShloMosaic Idealize.ShloMosaic.ValueIdx
open Cert.Spec (tab row mat)

/-- The zero offsets of a rank-2 whole-block rectangle, as a constant function. -/
theorem hz2 : (![0, 0] : Fin 2 → Nat) = fun _ => 0 := funext fun a => by fin_cases a <;> rfl

/-- The zero offsets of a rank-3 whole-block rectangle, as a constant function. -/
theorem hz3 : (![0, 0, 0] : Fin 3 → Nat) = fun _ => 0 := funext fun a => by fin_cases a <;> rfl

/-- The normalised, scaled and shifted entry `(r, q)` of a table: `(x − mean) · inverse deviation · scale + shift`,
    the four per-channel rows read at channel `q`. -/
def zAt (a0 : S200000x128.Idx → EReal) (a1 a2 a3 a4 : S1x128.Idx → EReal) (r : Fin 200000) (q : Fin 128) : EReal :=
  (tab a0 r q - row a1 q) * row a2 q * row a3 q + row a4 q

/-- One tile's normalised block at `(p, q)`: the tile's entry minus the first row's entry at `q`, times the second's
    and the third's, plus the fourth's. -/
theorem norm_core (x0 : FVec Ideal S5000x128 .bf16) (x1 x2 x3 x4 : FVec Ideal S1x128 .f32) (p : Fin 5000) (q : Fin 128) :
    (addf (F := Ideal) (mulf (mulf (subf (extf (F := Ideal) .f32 x0 bitsLt_bf16_f32) (broadcastTo S5000x128 x1 broadcasts_S1x128_S5000x128))
        (broadcastTo S5000x128 x2 broadcasts_S1x128_S5000x128)) (broadcastTo S5000x128 x3 broadcasts_S1x128_S5000x128))
        (broadcastTo S5000x128 x4 broadcasts_S1x128_S5000x128) : FVec Ideal S5000x128 .f32) (ix2 p q)
      = ((x0 (ix2 p q) - x1 (ix2 (0 : Fin 1) q)) * x2 (ix2 (0 : Fin 1) q) * x3 (ix2 (0 : Fin 1) q) + x4 (ix2 (0 : Fin 1) q) : EReal) := by
  have b1 := broadcastTo_1b_ab_apply x1 broadcasts_S1x128_S5000x128 p q
  have b2 := broadcastTo_1b_ab_apply x2 broadcasts_S1x128_S5000x128 p q
  have b3 := broadcastTo_1b_ab_apply x3 broadcasts_S1x128_S5000x128 p q
  have b4 := broadcastTo_1b_ab_apply x4 broadcasts_S1x128_S5000x128 p q
  show (x0 (ix2 p q) - broadcastTo S5000x128 x1 broadcasts_S1x128_S5000x128 (ix2 p q))
      * broadcastTo S5000x128 x2 broadcasts_S1x128_S5000x128 (ix2 p q)
      * broadcastTo S5000x128 x3 broadcasts_S1x128_S5000x128 (ix2 p q)
      + broadcastTo S5000x128 x4 broadcasts_S1x128_S5000x128 (ix2 p q) = _
  rw [b1, b2, b3, b4]

end Cert.KernelIdeal.KV

end
-- ==== Proof.LibGatherRows.lean ====
/-
  jnp's row gather `x[idx]` read at an index. The gather takes whole rows of an `[N, C]` table at start indices `[R, 1]`:
  result row `r` is the table's row `idx[r, 0]`, read as a signed integer and clamped into `[0, N − 1]`; its column `q`
  is the row's column `q`. Stated over any extents, for the dimension numbers of that gather.
-/
import Idealize.ShloMosaic.Lib.ValueIdx

namespace Idealize.ShloMosaic.GatherRows

open Idealize.ShloMosaic Idealize.ShloMosaic.ValueIdx

variable {α : Type}

/-- The dimension numbers of a gather of whole rows: the result's axis 1 is the offset axis, the table's axis 0 is collapsed and
    indexed by the one component of the start index, which sits on axis 1 of the start indices. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at `(r, q)`: the table at row `idx[r, 0]` (signed, clamped into the table) and column `q`. -/
theorem gatherRows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowDims N C R wf) x idx (ix2 r q)
      = x (ix2 ⟨min (idx (ix2 r (0 : Fin 1))).toInt.toNat (N - 1), by omega⟩ q) := by
  unfold Host.gather
  congr 1
  funext a
  refine Fin.ext ?_
  show (rowDims N C R wf).start (ix2 r q) idx a + (rowDims N C R wf).batchCoord (ix2 r q) a
      + (rowDims N C R wf).offCoord (ix2 r q) a = _
  rw [GatherDims.batchCoord_eq_zero _ _ _ List.not_mem_nil, Nat.add_zero]
  match a with
  | ⟨0, _⟩ =>
    show (rowDims N C R wf).start (ix2 r q) idx (0 : Fin 2) + (rowDims N C R wf).offCoord (ix2 r q) (0 : Fin 2) = _
    rw [GatherDims.offCoord_eq_zero _ _ _ (fun h => ((GatherDims.mem_sKept _ _).mp h).1 (List.mem_singleton.mpr rfl)), Nat.add_zero]
    unfold GatherDims.start
    rw [dif_pos (show (0 : Fin 2) ∈ (rowDims N C R wf).startIndexMap from List.mem_singleton.mpr rfl)]
    have hsi : (rowDims N C R wf).siIdx (ix2 r q) ⟨List.idxOf (0 : Fin 2) (rowDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N C R wf).start (ix2 r q) idx (1 : Fin 2) + (rowDims N C R wf).offCoord (ix2 r q) (1 : Fin 2) = _
    unfold GatherDims.start
    rw [dif_neg (show (1 : Fin 2) ∉ (rowDims N C R wf).startIndexMap from by
      intro h; exact Nat.one_ne_zero (congrArg Fin.val (List.mem_singleton.mp h))), Nat.zero_add]
    rfl

end Idealize.ShloMosaic.GatherRows
-- ==== Proof.LibDot.lean ====
/-
  A product of an `n × K` matrix by a `K × c` right factor, read entry by entry: the kernel's product accumulated
  into a zero array and the host's product are the same finite sum.

  For an `n × K` array `a` and a `K × c` array `b` contracted over the middle axis, entry `(p, q)` of the product is
  `∑ k : Fin K, a (p, k) * b (k, q)`. The dimension-number record `D` is abstract: what is asked of it is that it
  contracts one axis of extent `K` and where its operand indices sit (row of the result and contraction index on the
  left operand, contraction index and column of the result on the right one) — four coordinate facts that hold by
  computation at any literal record of this kind.
-/
import Idealize.ShloMosaic.Lib.ValueIdx
import Idealize.ShloMosaic.PureOps.Ideal.Laws

noncomputable section

namespace Cert.LibDot

open Idealize.ShloMosaic Idealize.ShloMosaic.ValueIdx
open scoped BigOperators

variable {n K c : Nat} {φ₁ φ₂ : FTy} (D : DotDims ⟨2, ![n, K]⟩ ⟨2, ![K, c]⟩ ⟨2, ![n, c]⟩)
  (hr : D.contr.rank = 1) (hs : D.contr.size ⟨0, by omega⟩ = K)
  (hl0 : ∀ j k, (D.lhsIdx j k 0).val = (j 0).val) (hl1 : ∀ j k, (D.lhsIdx j k 1).val = (k ⟨0, by omega⟩).val)
  (hr0 : ∀ j k, (D.rhsIdx j k 0).val = (k ⟨0, by omega⟩).val) (hr1 : ∀ j k, (D.rhsIdx j k 1).val = (j 1).val)

include hs hl0 hl1 hr0 hr1 in
/-- The sum over the record's contraction index is the sum over the middle coordinate. -/
theorem sum_contr (a : (⟨2, ![n, K]⟩ : Shape).Idx → EReal) (b : (⟨2, ![K, c]⟩ : Shape).Idx → EReal) (p : Fin n) (q : Fin c) :
    ∑ k : D.contr.Idx, a (D.lhsIdx (ix2 p q) k) * b (D.rhsIdx (ix2 p q) k) = ∑ k : Fin K, a (ix2 p k) * b (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

include hs hl0 hl1 hr0 hr1 in
/-- The kernel's product into a zero accumulator, at entry `(p, q)`. -/
theorem matmul_zero_apply (prec : Option ContractPrecision) (a : FVec Ideal ⟨2, ![n, K]⟩ φ₁) (b : FVec Ideal ⟨2, ![K, c]⟩ φ₂)
    (p : Fin n) (q : Fin c) :
    matmul D prec a b (constant ⟨2, ![n, c]⟩ .f32 0x00000000#32) (ix2 p q) = ∑ k : Fin K, a (ix2 p k) * b (ix2 k q) :=
  (Ideal.matmul_constant_zero_apply D prec a b (ix2 p q)).trans (sum_contr D hr hs hl0 hl1 hr0 hr1 a b p q)

include hs hl0 hl1 hr0 hr1 in
/-- The host's product, at entry `(p, q)`. -/
theorem dotGeneral_apply (prec : Option ContractPrecision) (a : FVec Ideal ⟨2, ![n, K]⟩ φ₁) (b : FVec Ideal ⟨2, ![K, c]⟩ φ₂)
    (p : Fin n) (q : Fin c) :
    Host.dotGeneral D prec a b (ix2 p q) = ∑ k : Fin K, a (ix2 p k) * b (ix2 k q) :=
  (Ideal.dotGeneral_apply D prec _ a b (ix2 p q)).trans (sum_contr D hr hs hl0 hl1 hr0 hr1 a b p q)

end Cert.LibDot

end
-- ==== Proof.ReadLib.lean ====
/-
  The host programs' whole-array operations read at one index, over the extended reals.

  Both programs compute on whole arrays: a sum over the rows of a 200000-by-128 table, or over the 40 tiles of a
  40-by-1-by-128 array of per-tile sums; a value, a row or a column copied along new axes; one axis or one matrix cut out of a
  stacked argument and reshaped; a zero row appended to a table; whole rows of the extended table taken at a column of row
  numbers. Each lemma here says what one such operation holds at an index given by its coordinates, in terms of the operand
  at coordinates. The shapes are the literal ones; the shape facts the operations carry are variables, so the lemmas apply
  to either program's own facts.
-/
import Idealize.ShloMosaic.Lib.IdealHost
import Idealize.ShloMosaic.Lib.Pipeline.Value
import Idealize.ShloMosaic.Lib.KernelVsHost
import Idealize.ShloMosaic.Lib.ValueLayout
import proofs.«134539_j3152505995485_2_alg».proof.Proof.LibGatherRows
import proofs.«134539_j3152505995485_2_alg».proof.Proof.LibDot

noncomputable section

namespace Cert.ReadLib

open Idealize.ShloMosaic Idealize.ShloMosaic.ValueIdx Idealize.ShloMosaic.GatherRows
open scoped BigOperators

variable {α : Type}

/-! ## Sums down an axis -/

/-- The sum over the 200000 rows of a table, at channel `q`: the initial value plus the sum of column `q`. -/
theorem reduceAdd_rows_apply {φ : FTy} (x : FVec Ideal ⟨2, ![200000, 128]⟩ φ) (v : (⟨0, ![]⟩ : Shape).Idx → Ideal φ)
    (h : (⟨2, ![200000, 128]⟩ : Shape).ReducesTo [0] ⟨1, ![128]⟩) (hS : 0 < (⟨0, ![]⟩ : Shape).numel) (q : Fin 128) :
    Host.reduceAdd x v h hS (ix1 q) = v ix0 + ∑ r : Fin 200000, x (ix2 r q) := by
  have hR : (⟨2, ![200000, 128]⟩ : Shape).Reduces [0] ⟨1, ![128]⟩ := by decide
  refine (hostReduceAdd_apply x v h hS (ix1 q)).trans ?_
  refine (Ideal.hostReduceAdd_single h hR x _ (ix1 q)).trans ?_
  refine congrArg₂ (· + ·) (congrArg v (eq_ix0 _)) ?_
  refine Finset.sum_congr rfl fun r _ => congrArg x ?_
  funext a
  refine Fin.ext ?_
  match a with
  | ⟨0, _⟩ => rfl
  | ⟨1, _⟩ => rfl

/-- The sum over the 40 tiles of an array of per-tile rows, at channel `q`: the initial value plus the sum over the tiles. -/
theorem reduceAdd_tiles_apply {φ : FTy} (x : FVec Ideal ⟨3, ![40, 1, 128]⟩ φ) (v : (⟨0, ![]⟩ : Shape).Idx → Ideal φ)
    (h : (⟨3, ![40, 1, 128]⟩ : Shape).ReducesTo [0] ⟨2, ![1, 128]⟩) (hS : 0 < (⟨0, ![]⟩ : Shape).numel) (q : Fin 128) :
    Host.reduceAdd x v h hS (ix2 (0 : Fin 1) q) = v ix0 + ∑ i : Fin 40, x (ix3 i (0 : Fin 1) q) := by
  have hR : (⟨3, ![40, 1, 128]⟩ : Shape).Reduces [0] ⟨2, ![1, 128]⟩ := by decide
  refine (hostReduceAdd_apply x v h hS (ix2 (0 : Fin 1) q)).trans ?_
  refine (Ideal.hostReduceAdd_single h hR x _ (ix2 (0 : Fin 1) q)).trans ?_
  refine congrArg₂ (· + ·) (congrArg v (eq_ix0 _)) ?_
  refine Finset.sum_congr rfl fun i _ => congrArg x ?_
  funext a
  refine Fin.ext ?_
  match a with
  | ⟨0, _⟩ => rfl
  | ⟨1, _⟩ => rfl
  | ⟨2, _⟩ => rfl

/-! ## Copies along new axes -/

/-- A single value copied to any shape reads that value everywhere. -/
theorem bcast_scalar_apply {T : Shape} (h : (⟨0, ![]⟩ : Shape).BroadcastsInDim T ![])
    (x : (⟨0, ![]⟩ : Shape).Idx → α) (j : T.Idx) : broadcastInDim T ![] h x j = x ix0 :=
  broadcastInDim_scalar_apply h x j

/-- A vector of 128 channels viewed as a one-row matrix. -/
theorem bcast_vec_row_apply (h : (⟨1, ![128]⟩ : Shape).BroadcastsInDim ⟨2, ![1, 128]⟩ ![1])
    (x : (⟨1, ![128]⟩ : Shape).Idx → α) (u : Fin 1) (q : Fin 128) :
    broadcastInDim ⟨2, ![1, 128]⟩ ![1] h x (ix2 u q) = x (ix1 q) :=
  broadcastInDim_apply ![1] h x (ix2 u q) (ix1 q) fun a => match a with | ⟨0, _⟩ => rfl

/-- A one-row matrix copied down the 200000 rows. -/
theorem bcast_row_rows_apply (h : (⟨2, ![1, 128]⟩ : Shape).BroadcastsInDim ⟨2, ![200000, 128]⟩ ![0, 1])
    (y : (⟨2, ![1, 128]⟩ : Shape).Idx → α) (r : Fin 200000) (q : Fin 128) :
    broadcastInDim ⟨2, ![200000, 128]⟩ ![0, 1] h y (ix2 r q) = y (ix2 (0 : Fin 1) q) :=
  broadcastInDim_oneRow_apply h y r q

/-- A vector of 200000 entries viewed as a one-column matrix. -/
theorem bcast_vec_col_apply (h : (⟨1, ![200000]⟩ : Shape).BroadcastsInDim ⟨2, ![200000, 1]⟩ ![0])
    (x : (⟨1, ![200000]⟩ : Shape).Idx → α) (r : Fin 200000) (u : Fin 1) :
    broadcastInDim ⟨2, ![200000, 1]⟩ ![0] h x (ix2 r u) = x (ix1 r) :=
  broadcastInDim_apply ![0] h x (ix2 r u) (ix1 r) fun a => match a with | ⟨0, _⟩ => rfl

/-! ## One member of a stacked argument -/

/-- Row `(a, s)` of the stacked table of row numbers, as a vector of 200000 entries. -/
theorem slice_index_row_apply (a s : Nat)
    (hs : (⟨3, ![3, 2, 200000]⟩ : Shape).Slices ![a, s, 0] ⟨3, ![1, 1, 200000]⟩)
    (hc : (⟨3, ![1, 1, 200000]⟩ : Shape).ShapeCasts ⟨1, ![200000]⟩)
    (I : (⟨3, ![3, 2, 200000]⟩ : Shape).Idx → α) (a' : Fin 3) (s' : Fin 2) (ha : a'.val = a) (hs' : s'.val = s)
    (r : Fin 200000) :
    shapeCast ⟨1, ![200000]⟩ (extractStridedSlice ⟨3, ![1, 1, 200000]⟩ ![a, s, 0] I hs) hc (ix1 r) = I (ix3 a' s' r) := by
  refine (shapeCast_apply _ hc (ix1 r) (ix3 (0 : Fin 1) (0 : Fin 1) r) ?_).trans ?_
  · rw [Shape.rowMajor_val_three, Shape.rowMajor_val_one]
    show ((0 : Nat) * 1 + 0) * 200000 + r.val = r.val
    omega
  · refine extractStridedSlice_apply ![a, s, 0] I hs _ (ix3 a' s' r) fun b => ?_
    match b with
    | ⟨0, _⟩ => show a'.val = a + 0; omega
    | ⟨1, _⟩ => show s'.val = s + 0; omega
    | ⟨2, _⟩ => show r.val = 0 + r.val; omega

/-- Matrix `(a, t)` of the stacked weights, as a 128-by-128 matrix. -/
theorem slice_matrix_apply (a t : Nat)
    (hs : (⟨4, ![3, 3, 128, 128]⟩ : Shape).Slices ![a, t, 0, 0] ⟨4, ![1, 1, 128, 128]⟩)
    (hc : (⟨4, ![1, 1, 128, 128]⟩ : Shape).ShapeCasts ⟨2, ![128, 128]⟩)
    (W : (⟨4, ![3, 3, 128, 128]⟩ : Shape).Idx → α) (a' : Fin 3) (t' : Fin 3) (ha : a'.val = a) (ht : t'.val = t)
    (k q : Fin 128) :
    shapeCast ⟨2, ![128, 128]⟩ (extractStridedSlice ⟨4, ![1, 1, 128, 128]⟩ ![a, t, 0, 0] W hs) hc (ix2 k q)
      = W (ix4 a' t' k q) := by
  refine (shapeCast_apply _ hc (ix2 k q) (ix4 (0 : Fin 1) (0 : Fin 1) k q) ?_).trans ?_
  · rw [Shape.rowMajor_val_four, Shape.rowMajor_val_two]
    show ((((0 : Nat) * 1 + 0) * 128 + k.val) * 128 + q.val) = k.val * 128 + q.val
    omega
  · refine extractStridedSlice_apply ![a, t, 0, 0] W hs _ (ix4 a' t' k q) fun b => ?_
    match b with
    | ⟨0, _⟩ => show a'.val = a + 0; omega
    | ⟨1, _⟩ => show t'.val = t + 0; omega
    | ⟨2, _⟩ => show k.val = 0 + k.val; omega
    | ⟨3, _⟩ => show q.val = 0 + q.val; omega

/-- Row `a` of a three-row table of per-channel values, as a one-row matrix. -/
theorem slice_row_apply (a : Nat) (hs : (⟨2, ![3, 128]⟩ : Shape).Slices ![a, 0] ⟨2, ![1, 128]⟩)
    (G : (⟨2, ![3, 128]⟩ : Shape).Idx → α) (a' : Fin 3) (ha : a'.val = a) (u : Fin 1) (q : Fin 128) :
    extractStridedSlice ⟨2, ![1, 128]⟩ ![a, 0] G hs (ix2 u q) = G (ix2 a' q) := by
  have hu : u.val = 0 := by omega
  refine extractStridedSlice_apply ![a, 0] G hs _ (ix2 a' q) fun b => ?_
  match b with
  | ⟨0, _⟩ => show a'.val = a + u.val; omega
  | ⟨1, _⟩ => show q.val = 0 + q.val; omega

/-- A one-row matrix of 128 channels as a vector. -/
theorem reshape_row_vec_apply (hc : (⟨2, ![1, 128]⟩ : Shape).ShapeCasts ⟨1, ![128]⟩)
    (y : (⟨2, ![1, 128]⟩ : Shape).Idx → α) (q : Fin 128) :
    shapeCast ⟨1, ![128]⟩ y hc (ix1 q) = y (ix2 (0 : Fin 1) q) :=
  shapeCast_1a_a_apply y hc q

/-- Row `a` of a three-row table of per-channel values, as a vector. -/
theorem slice_row_vec_apply (a : Nat) (hs : (⟨2, ![3, 128]⟩ : Shape).Slices ![a, 0] ⟨2, ![1, 128]⟩)
    (hc : (⟨2, ![1, 128]⟩ : Shape).ShapeCasts ⟨1, ![128]⟩)
    (G : (⟨2, ![3, 128]⟩ : Shape).Idx → α) (a' : Fin 3) (ha : a'.val = a) (q : Fin 128) :
    shapeCast ⟨1, ![128]⟩ (extractStridedSlice ⟨2, ![1, 128]⟩ ![a, 0] G hs) hc (ix1 q) = G (ix2 a' q) :=
  (reshape_row_vec_apply hc _ q).trans (slice_row_apply a hs G a' ha 0 q)

/-! ## A row appended to a table -/

/-- The table with one row appended, at a row of the table itself. -/
theorem concat_row_apply_of_lt
    (h : Shape.Concatenates [(⟨2, ![200000, 128]⟩ : Shape), (⟨2, ![1, 128]⟩ : Shape)] ⟨2, ![200001, 128]⟩ 0)
    (x : (⟨2, ![200000, 128]⟩ : Shape).Idx → α) (z : (⟨2, ![1, 128]⟩ : Shape).Idx → α)
    (r' : Fin 200001) (q : Fin 128) (hr : r'.val < 200000) :
    concatenate ⟨2, ![200001, 128]⟩ 0 [⟨⟨2, ![200000, 128]⟩, x⟩, ⟨⟨2, ![1, 128]⟩, z⟩] h (ix2 r' q)
      = x (ix2 ⟨r'.val, hr⟩ q) :=
  concatenate_pair_apply_left 0 x z h (ix2 r' q) rfl (ix2 ⟨r'.val, hr⟩ q) fun b =>
    match b with
    | ⟨0, _⟩ => rfl
    | ⟨1, _⟩ => rfl

/-- The table with one row appended, at the appended row. -/
theorem concat_row_apply_of_ge
    (h : Shape.Concatenates [(⟨2, ![200000, 128]⟩ : Shape), (⟨2, ![1, 128]⟩ : Shape)] ⟨2, ![200001, 128]⟩ 0)
    (x : (⟨2, ![200000, 128]⟩ : Shape).Idx → α) (z : (⟨2, ![1, 128]⟩ : Shape).Idx → α)
    (r' : Fin 200001) (q : Fin 128) (hr : 200000 ≤ r'.val) :
    concatenate ⟨2, ![200001, 128]⟩ 0 [⟨⟨2, ![200000, 128]⟩, x⟩, ⟨⟨2, ![1, 128]⟩, z⟩] h (ix2 r' q)
      = z (ix2 (0 : Fin 1) q) :=
  concatenate_pair_apply_right 0 x z h (ix2 r' q) rfl rfl (ix2 (0 : Fin 1) q)
    (fun b hb => match b, hb with
      | ⟨0, _⟩, hb => absurd rfl hb
      | ⟨1, _⟩, _ => rfl)
    (by have := r'.isLt; show (0 : Nat) + 200000 = r'.val; omega)

/-- The table with one row appended, at any row: the table's row, or the appended one. -/
theorem concat_row_apply
    (h : Shape.Concatenates [(⟨2, ![200000, 128]⟩ : Shape), (⟨2, ![1, 128]⟩ : Shape)] ⟨2, ![200001, 128]⟩ 0)
    (x : (⟨2, ![200000, 128]⟩ : Shape).Idx → α) (z : (⟨2, ![1, 128]⟩ : Shape).Idx → α)
    (r' : Fin 200001) (q : Fin 128) :
    concatenate ⟨2, ![200001, 128]⟩ 0 [⟨⟨2, ![200000, 128]⟩, x⟩, ⟨⟨2, ![1, 128]⟩, z⟩] h (ix2 r' q)
      = if hr : r'.val < 200000 then x (ix2 ⟨r'.val, hr⟩ q) else z (ix2 (0 : Fin 1) q) := by
  by_cases hr : r'.val < 200000
  · rw [dif_pos hr]; exact concat_row_apply_of_lt h x z r' q hr
  · rw [dif_neg hr]; exact concat_row_apply_of_ge h x z r' q (Nat.le_of_not_lt hr)

/-! ## Whole rows taken at a column of row numbers -/

/-- A 32-bit row number read as a signed integer and clamped into the 200001 rows of the extended table. -/
abbrev clampRow (w : BitVec 32) : Fin 200001 := ⟨min w.toInt.toNat (200001 - 1), by omega⟩

/-- Rows of the extended table taken at a vector of row numbers (laid out as one column): entry `(r, q)` is the
    table's entry in column `q` of the row numbered by entry `r` of the vector, clamped into the table. -/
theorem gather_col_apply
    (wf : GatherDims.WF ⟨2, ![200001, 128]⟩ ⟨2, ![200000, 1]⟩ ⟨2, ![200000, 128]⟩ [1] [0] [] [0] [] 1 ![1, 128])
    (hb : (⟨1, ![200000]⟩ : Shape).BroadcastsInDim ⟨2, ![200000, 1]⟩ ![0])
    (x : (⟨2, ![200001, 128]⟩ : Shape).Idx → α) (i : IVec ⟨1, ![200000]⟩ 32) (r : Fin 200000) (q : Fin 128) :
    Host.gather (rowDims 200001 128 200000 wf) x (broadcastInDim ⟨2, ![200000, 1]⟩ ![0] hb i) (ix2 r q)
      = x (ix2 (clampRow (i (ix1 r))) q) :=
  (gatherRows_apply (by decide) wf x _ r q).trans
    (congrArg (fun w => x (ix2 (clampRow w) q)) (bcast_vec_col_apply hb i r 0))

/-- Every entry of the gathered rows is an entry of the extended table in the same column. -/
theorem gather_col_mem
    (wf : GatherDims.WF ⟨2, ![200001, 128]⟩ ⟨2, ![200000, 1]⟩ ⟨2, ![200000, 128]⟩ [1] [0] [] [0] [] 1 ![1, 128])
    (hb : (⟨1, ![200000]⟩ : Shape).BroadcastsInDim ⟨2, ![200000, 1]⟩ ![0])
    (x : (⟨2, ![200001, 128]⟩ : Shape).Idx → α) (i : IVec ⟨1, ![200000]⟩ 32) (r : Fin 200000) (q : Fin 128) :
    ∃ r' : Fin 200001,
      Host.gather (rowDims 200001 128 200000 wf) x (broadcastInDim ⟨2, ![200000, 1]⟩ ![0] hb i) (ix2 r q)
        = x (ix2 r' q) :=
  ⟨_, gather_col_apply wf hb x i r q⟩

/-- The row of the extended table a 32-bit row number selects: a negative number is first moved up by 200001, the
    extended row count; the number is then read signed and clamped into the extended table. -/
def rowOf (w : BitVec 32) : Fin 200001 :=
  clampRow (Scalar.select (IntOp.cmpi .slt w 0#32) (IntOp.addi w 200001#32) w)

/-- A vector of row numbers with its negative entries moved up by 200001, at entry `r`. -/
theorem wrapped_apply (h0 : (⟨0, ![]⟩ : Shape).BroadcastsInDim ⟨1, ![200000]⟩ ![]) (i : IVec ⟨1, ![200000]⟩ 32)
    (r : Fin 200000) :
    select (cmpi .slt i (broadcastInDim ⟨1, ![200000]⟩ ![] h0 (constantI ⟨0, ![]⟩ 32 0#32)))
        (addi i (broadcastInDim ⟨1, ![200000]⟩ ![] h0 (constantI ⟨0, ![]⟩ 32 200001#32))) i (ix1 r)
      = Scalar.select (IntOp.cmpi .slt (i (ix1 r)) 0#32) (IntOp.addi (i (ix1 r)) 200001#32) (i (ix1 r)) := by
  show Scalar.select
      (IntOp.cmpi .slt (i (ix1 r)) (broadcastInDim ⟨1, ![200000]⟩ ![] h0 (constantI ⟨0, ![]⟩ 32 0#32) (ix1 r)))
      (IntOp.addi (i (ix1 r)) (broadcastInDim ⟨1, ![200000]⟩ ![] h0 (constantI ⟨0, ![]⟩ 32 200001#32) (ix1 r)))
      (i (ix1 r)) = _
  rw [bcast_scalar_apply, bcast_scalar_apply]
  rfl

/-- Rows of the extended table taken at a vector of row numbers whose negative entries are first moved up by 200001:
    entry `(r, q)` is the table's entry in column `q` of the row that entry `r` of the vector selects. -/
theorem gather_wrapped_apply
    (wf : GatherDims.WF ⟨2, ![200001, 128]⟩ ⟨2, ![200000, 1]⟩ ⟨2, ![200000, 128]⟩ [1] [0] [] [0] [] 1 ![1, 128])
    (hb : (⟨1, ![200000]⟩ : Shape).BroadcastsInDim ⟨2, ![200000, 1]⟩ ![0])
    (h0 : (⟨0, ![]⟩ : Shape).BroadcastsInDim ⟨1, ![200000]⟩ ![])
    (x : (⟨2, ![200001, 128]⟩ : Shape).Idx → α) (i : IVec ⟨1, ![200000]⟩ 32) (r : Fin 200000) (q : Fin 128) :
    Host.gather (rowDims 200001 128 200000 wf) x
        (broadcastInDim ⟨2, ![200000, 1]⟩ ![0] hb
          (select (cmpi .slt i (broadcastInDim ⟨1, ![200000]⟩ ![] h0 (constantI ⟨0, ![]⟩ 32 0#32)))
            (addi i (broadcastInDim ⟨1, ![200000]⟩ ![] h0 (constantI ⟨0, ![]⟩ 32 200001#32))) i)) (ix2 r q)
      = x (ix2 (rowOf (i (ix1 r))) q) :=
  (gather_col_apply wf hb x _ r q).trans
    (congrArg (fun w => x (ix2 (clampRow w) q)) (wrapped_apply h0 i r))

end Cert.ReadLib

end
-- ==== Proof.KStats.lean ====
/-
  The statistics the kernel program forms on the host from per-tile sums, read per channel: with the forty
  per-tile sums and sums of squares of a table `T` in hand, the mean is `kMean T` and the reciprocal deviation
  `kInv T`. The scale and shift rows are rows of their three-row tables.
-/
import proofs.«134539_j3152505995485_2_alg».proof.Proof.KGlueDefs
import proofs.«134539_j3152505995485_2_alg».proof.Proof.ReadLib
import proofs.«134539_j3152505995485_2_alg».proof.Proof.Spec
import Idealize.ShloMosaic.PureOps.Ideal.Laws

noncomputable section

namespace Cert.KernelIdeal.KV

open Idealize.ShloMosaic Idealize.ShloMosaic.ValueIdx Cert.Spec Cert.KernelIdeal Cert.KernelIdeal.Gen
open scoped BigOperators

/-- The mean row at channel `q`: the forty per-tile entries summed, over the row count. -/
theorem kMeanOf_at (S : Arr Ideal S40x1x128 .f32) (q : Fin 128) :
    kMeanOf (F := Ideal) S (ix2 (0 : Fin 1) q) = Ideal.div (∑ i : Fin 40, S (ix3 i (0 : Fin 1) q)) cN := by
  unfold kMeanOf
  show Ideal.div _ _ = _
  rw [Cert.ReadLib.reduceAdd_tiles_apply, Cert.ReadLib.bcast_scalar_apply]
  show Ideal.div (Ideal.ofBits .f32 0x00000000#32 + _) (Ideal.ofBits .f32 0x48435000#32) = _
  rw [Ideal.ofBits_zero_f32, zero_add]
  rfl

/-- With the per-tile sums of `T` in hand, the mean row is `kMean T`. -/
theorem kMean_of_sums (S : Arr Ideal S40x1x128 .f32) (T : Tab)
    (hS : ∀ (i : Fin 40) (q : Fin 128), S (ix3 i (0 : Fin 1) q) = ∑ r' : Fin 5000, T (tileRow i r') q) (q : Fin 128) :
    row (kMeanOf (F := Ideal) S) q = kMean T q := by
  unfold row kMean kSum
  rw [kMeanOf_at]
  exact congrArg (fun s => Ideal.div s cN) (Finset.sum_congr rfl fun i _ => hS i q)

/-- With the per-tile sums and sums of squares of `T` in hand, the reciprocal-deviation row is `kInv T`. -/
theorem kInv_of_sums (S Q : Arr Ideal S40x1x128 .f32) (T : Tab)
    (hS : ∀ (i : Fin 40) (q : Fin 128), S (ix3 i (0 : Fin 1) q) = ∑ r' : Fin 5000, T (tileRow i r') q)
    (hQ : ∀ (i : Fin 40) (q : Fin 128), Q (ix3 i (0 : Fin 1) q) = ∑ r' : Fin 5000, T (tileRow i r') q * T (tileRow i r') q)
    (q : Fin 128) :
    row (kInvOf (F := Ideal) S Q) q = kInv T q := by
  have hm : kMeanOf (F := Ideal) S (ix2 (0 : Fin 1) q) = kMean T q := kMean_of_sums S T hS q
  have hq : kMeanOf (F := Ideal) Q (ix2 (0 : Fin 1) q) = Ideal.div (kSumSq T q) cN := by
    rw [kMeanOf_at]
    exact congrArg (fun s => Ideal.div s cN) (Finset.sum_congr rfl fun i _ => hQ i q)
  unfold row kInvOf kInv kVar
  show Ideal.rsqrt (max (kMeanOf (F := Ideal) Q (ix2 (0 : Fin 1) q) - kMeanOf (F := Ideal) S (ix2 (0 : Fin 1) q) * kMeanOf (F := Ideal) S (ix2 (0 : Fin 1) q)) _ + _) = _
  rw [hm, hq, Cert.ReadLib.bcast_scalar_apply, Cert.ReadLib.bcast_scalar_apply]
  show Ideal.rsqrt (max _ (Ideal.ofBits .f32 0x00000000#32) + Ideal.ofBits .f32 0x3727C5AC#32) = _
  rw [Ideal.ofBits_zero_f32]
  rfl

/-- The scale and shift rows are rows of their three-row tables. -/
theorem kG0_at (G : Arr Ideal S3x128 .f32) (q : Fin 128) : row (kG0 (F := Ideal) G) q = G (ix2 (0 : Fin 3) q) :=
  Cert.ReadLib.slice_row_apply 0 slices_S3x128_S1x128_0_0 G 0 rfl 0 q
theorem kG1_at (G : Arr Ideal S3x128 .f32) (q : Fin 128) : row (kG1 (F := Ideal) G) q = G (ix2 (1 : Fin 3) q) :=
  Cert.ReadLib.slice_row_apply 1 slices_S3x128_S1x128_1_0 G 1 rfl 0 q
theorem kG2_at (G : Arr Ideal S3x128 .f32) (q : Fin 128) : row (kG2 (F := Ideal) G) q = G (ix2 (2 : Fin 3) q) :=
  Cert.ReadLib.slice_row_apply 2 slices_S3x128_S1x128_2_0 G 2 rfl 0 q
theorem kB0_at (B : Arr Ideal S3x128 .f32) (q : Fin 128) : row (kB0 (F := Ideal) B) q = B (ix2 (0 : Fin 3) q) :=
  Cert.ReadLib.slice_row_apply 0 slices_S3x128_S1x128_0_0 B 0 rfl 0 q
theorem kB1_at (B : Arr Ideal S3x128 .f32) (q : Fin 128) : row (kB1 (F := Ideal) B) q = B (ix2 (1 : Fin 3) q) :=
  Cert.ReadLib.slice_row_apply 1 slices_S3x128_S1x128_1_0 B 1 rfl 0 q
theorem kB2_at (B : Arr Ideal S3x128 .f32) (q : Fin 128) : row (kB2 (F := Ideal) B) q = B (ix2 (2 : Fin 3) q) :=
  Cert.ReadLib.slice_row_apply 2 slices_S3x128_S1x128_2_0 B 2 rfl 0 q

end Cert.KernelIdeal.KV

end
-- ==== Proof.KAxis.lean ====
/-
  One axis of the kernel program, per entry: when the table a normalising region reads is the convolution table
  `T`, its mean and reciprocal-deviation rows are the host statistics of `T`'s per-tile sums and sums of squares,
  and its scale and shift rows are rows `a` of the two three-row tables, the logistic of the normalised entry is
  `kSig T` at that entry.
-/
import proofs.«134539_j3152505995485_2_alg».proof.Proof.KRegionLib
import proofs.«134539_j3152505995485_2_alg».proof.Proof.KStats

noncomputable section

namespace Cert.KernelIdeal.KV

open Idealize.ShloMosaic Idealize.ShloMosaic.ValueIdx Cert.Spec Cert.KernelIdeal
open scoped BigOperators

theorem axis_sig (A0 : S200000x128.Idx → EReal) (A1 A2 A3 A4 : S1x128.Idx → EReal) (S Q : Arr Ideal S40x1x128 .f32)
    (T : Tab) (g b : Row)
    (h0 : ∀ r q, A0 (ix2 r q) = T r q)
    (hS : ∀ (i : Fin 40) (q : Fin 128), S (ix3 i (0 : Fin 1) q) = ∑ r' : Fin 5000, T (tileRow i r') q)
    (hQ : ∀ (i : Fin 40) (q : Fin 128), Q (ix3 i (0 : Fin 1) q) = ∑ r' : Fin 5000, T (tileRow i r') q * T (tileRow i r') q)
    (h1 : A1 = kMeanOf (F := Ideal) S) (h2 : A2 = kInvOf (F := Ideal) S Q)
    (h3 : ∀ q, row A3 q = g q) (h4 : ∀ q, row A4 q = b q) (r : Fin 200000) (q : Fin 128) :
    Ideal.logistic (zAt A0 A1 A2 A3 A4 r q) = kSig T g b r q := by
  unfold zAt kSig
  rw [show tab A0 r q = T r q from h0 r q, h1, h2, kMean_of_sums S T hS q, kInv_of_sums S Q T hS hQ q, h3 q, h4 q]

/-- What a convolution region leaves: the table `T`, and per tile and channel the sum and the sum of squares of the
    tile's 5000 entries. -/
structure ConvFacts (D6 : S200000x128.Idx → EReal) (D7 D8 : Arr Ideal S40x1x128 .f32) (T : Tab) : Prop where
  tbl : ∀ (r : Fin 200000) (q : Fin 128), D6 (ix2 r q) = T r q
  sum : ∀ (i : Fin 40) (q : Fin 128), D7 (ix3 i (0 : Fin 1) q) = ∑ r' : Fin 5000, T (tileRow i r') q
  sumsq : ∀ (i : Fin 40) (q : Fin 128), D8 (ix3 i (0 : Fin 1) q) = ∑ r' : Fin 5000, T (tileRow i r') q * T (tileRow i r') q

/-- A region that stores the logistic of the normalised entry: the axis's table through `kSig`. -/
theorem core_first (D a0 D6 : S200000x128.Idx → EReal) (a1 a2 a3 a4 : S1x128.Idx → EReal) (S Q : Arr Ideal S40x1x128 .f32)
    (T : Tab) (g b : Row)
    (hD : ∀ (r : Fin 200000) (q : Fin 128), D (ix2 r q) = Ideal.logistic (zAt a0 a1 a2 a3 a4 r q))
    (e0 : a0 = D6) (h : ConvFacts D6 S Q T) (e1 : a1 = kMeanOf (F := Ideal) S) (e2 : a2 = kInvOf (F := Ideal) S Q)
    (h3 : ∀ q, row a3 q = g q) (h4 : ∀ q, row a4 q = b q) (r : Fin 200000) (q : Fin 128) :
    D (ix2 r q) = kSig T g b r q :=
  (hD r q).trans (axis_sig a0 a1 a2 a3 a4 S Q T g b (fun r q => by rw [e0]; exact h.tbl r q) h.sum h.sumsq e1 e2 h3 h4 r q)

/-- A region that adds the logistic of the normalised entry onto a running table `P`. -/
theorem core_add (D a0 D6 a5 D1 : S200000x128.Idx → EReal) (a1 a2 a3 a4 : S1x128.Idx → EReal) (S Q : Arr Ideal S40x1x128 .f32)
    (T : Tab) (g b : Row) (P : Tab)
    (hD : ∀ (r : Fin 200000) (q : Fin 128), D (ix2 r q) = tab a5 r q + Ideal.logistic (zAt a0 a1 a2 a3 a4 r q))
    (e5 : a5 = D1) (hP : ∀ (r : Fin 200000) (q : Fin 128), D1 (ix2 r q) = P r q)
    (e0 : a0 = D6) (h : ConvFacts D6 S Q T) (e1 : a1 = kMeanOf (F := Ideal) S) (e2 : a2 = kInvOf (F := Ideal) S Q)
    (h3 : ∀ q, row a3 q = g q) (h4 : ∀ q, row a4 q = b q) (r : Fin 200000) (q : Fin 128) :
    D (ix2 r q) = P r q + kSig T g b r q :=
  (hD r q).trans (congrArg₂ (· + ·) (by unfold tab; rw [e5]; exact hP r q)
    (axis_sig a0 a1 a2 a3 a4 S Q T g b (fun r q => by rw [e0]; exact h.tbl r q) h.sum h.sumsq e1 e2 h3 h4 r q))

/-- The last region: the same sum, times the rows `X`. -/
theorem core_last (D a0 D6 a5 D1 a6 X : S200000x128.Idx → EReal) (a1 a2 a3 a4 : S1x128.Idx → EReal) (S Q : Arr Ideal S40x1x128 .f32)
    (T : Tab) (g b : Row) (P : Tab)
    (hD : ∀ (r : Fin 200000) (q : Fin 128),
      D (ix2 r q) = (tab a5 r q + Ideal.logistic (zAt a0 a1 a2 a3 a4 r q)) * tab a6 r q)
    (e5 : a5 = D1) (hP : ∀ (r : Fin 200000) (q : Fin 128), D1 (ix2 r q) = P r q) (e6 : a6 = X)
    (e0 : a0 = D6) (h : ConvFacts D6 S Q T) (e1 : a1 = kMeanOf (F := Ideal) S) (e2 : a2 = kInvOf (F := Ideal) S Q)
    (h3 : ∀ q, row a3 q = g q) (h4 : ∀ q, row a4 q = b q) (r : Fin 200000) (q : Fin 128) :
    D (ix2 r q) = (P r q + kSig T g b r q) * tab X r q :=
  (hD r q).trans (congrArg₂ (· * ·) (congrArg₂ (· + ·) (by unfold tab; rw [e5]; exact hP r q)
    (axis_sig a0 a1 a2 a3 a4 S Q T g b (fun r q => by rw [e0]; exact h.tbl r q) h.sum h.sumsq e1 e2 h3 h4 r q))
    (by rw [e6]))

end Cert.KernelIdeal.KV

end
-- ==== Proof.KAcc1.lean ====
/-
  Region 1's output table, entry by entry.

  The region walks 40 tiles of 5000 rows. At tile `t` it reads rows `5000 t … 5000 t + 4999` of a table and four whole rows of 128
  values (mean, inverse deviation, scale, shift), and writes the same rows of its output table: the logistic function of the normalised entry.
  Since every tile writes exactly its own rows and the 40 tiles cover all 200000 rows, the output table holds that
  expression of the input arrays at every entry `(r, q)` (`acc_1`).
-/
import proofs.«134539_j3152505995485_2_alg».proof.Proof.KRegionLib
import proofs.«134539_j3152505995485_2_alg».proof.Proof.Gen.KernelIdeal.Frame
import Idealize.ShloMosaic.Lib.Pipeline.Value

noncomputable section

namespace Cert.KernelIdeal.KV

open Cert.KernelIdeal Cert.KernelIdeal.Gen Idealize.ShloMosaic Idealize.ShloMosaic.TcCoe Idealize.ShloMosaic.ValueIdx Idealize.SL.Sem
open Idealize.ShloMosaic.Pipeline (Dat)
open Cert.Spec (tab row mat)

/-! ## One tile's result at an entry -/

/-- The tile's result at `(p, q)`: the logistic function of the normalised entry. -/
theorem acc1_pay (x0 : FVec Ideal S5000x128 .bf16) (x1 x2 x3 x4 : FVec Ideal S1x128 .f32) (p : Fin 5000) (q : Fin 128) :
    k1_pay1 (F := Ideal) x0 x1 x2 x3 x4 (ix2 p q)
      = (Ideal.logistic ((x0 (ix2 p q) - x1 (ix2 (0 : Fin 1) q)) * x2 (ix2 (0 : Fin 1) q) * x3 (ix2 (0 : Fin 1) q) + x4 (ix2 (0 : Fin 1) q)) : EReal) := by
  unfold k1_pay1
  simp only [shapeCast_self]
  exact congrArg (fun z : EReal => Ideal.logistic z) (norm_core x0 x1 x2 x3 x4 p q)

/-- What the output table ends holding, as one function of the input arrays. -/
def acc1G (a0 : S200000x128.Idx → EReal) (a1 a2 a3 a4 : S1x128.Idx → EReal) : S200000x128.Idx → EReal :=
  fun i => Ideal.logistic (zAt a0 a1 a2 a3 a4 (i 0) (i 1))

/-- One entry of a tile's result is the table-level entry, once the tile's entries are the tables' at the matching
    index and the four rows are the arrays' own. -/
theorem acc1_point (A0 : S200000x128.Idx → EReal) (A1 A2 A3 A4 : S1x128.Idx → EReal) (x0 : FVec Ideal S5000x128 .bf16) (x1 x2 x3 x4 : FVec Ideal S1x128 .f32)
    (y : S5000x128.Idx) (i : S200000x128.Idx)
    (h0 : x0 y = A0 i) (h1 : x1 = A1) (h2 : x2 = A2) (h3 : x3 = A3) (h4 : x4 = A4)
    (hq : (i 1).val = (y 1).val) :
    k1_pay1 (F := Ideal) x0 x1 x2 x3 x4 y = acc1G A0 A1 A2 A3 A4 i := by
  obtain ⟨p, q, rfl⟩ : ∃ (p : Fin 5000) (q : Fin 128), y = ix2 p q := ⟨y 0, y 1, eq_ix2 y⟩
  obtain ⟨r, q', rfl⟩ : ∃ (r : Fin 200000) (q' : Fin 128), i = ix2 r q' := ⟨i 0, i 1, eq_ix2 i⟩
  obtain rfl : q' = q := Fin.ext hq
  subst h1 h2 h3 h4
  rw [acc1_pay, h0]
  rfl

/-! ## From tiles to the table -/

/-- The windows' block indices at tile `t`, decided over the 40 tiles: the tables move with the tile, the rows stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b)) (c : Dev nD)

/-- Table window 0's block at tile `t` holds the rows the output's block at `t` holds: both sit at block index `(t, 0)`. -/
theorem iblk1_0 (t : Fin cfg1.N) (j : S5000x128.Idx) :
    (iblk1 V c 0 t : S5000x128.Idx → EReal) j = V c (Pipeline.arrRef spec1 0) (((cfg1.win 5).blk t).view.emb j) := by
  obtain ⟨e00, e01, e10, e11, e20, e21, e30, e31, e40, e41, e50, e51⟩ := idx_facts1 t
  unfold iblk1
  rw [View.read_apply]
  show V c (Pipeline.arrRef spec1 0) _ = V c (Pipeline.arrRef spec1 0) _
  refine congrArg _ (funext fun a => Fin.ext ?_)
  match a with
  | ⟨0, _⟩ => show win1_0.index t (0 : Fin 2) * 5000 + 1 * (j 0).val = win1_5.index t (0 : Fin 2) * 5000 + 1 * (j 0).val; omega
  | ⟨1, _⟩ => show win1_0.index t (1 : Fin 2) * 128 + 1 * (j 1).val = win1_5.index t (1 : Fin 2) * 128 + 1 * (j 1).val; omega

/-- Row window 1's block is its whole array at every tile: its block index is (0, 0). -/
theorem iblk1_1 (t : Fin cfg1.N) : (iblk1 V c 1 t : Vec Ideal S1x128 .f32) = V c (Pipeline.arrRef spec1 1) := by
  obtain ⟨e00, e01, e10, e11, e20, e21, e30, e31, e40, e41, e50, e51⟩ := idx_facts1 t
  funext y
  unfold iblk1
  rw [View.read_apply]
  show V c (Pipeline.arrRef spec1 1) _ = V c (Pipeline.arrRef spec1 1) _
  refine congrArg _ (funext fun a => Fin.ext ?_)
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- Row window 2's block is its whole array at every tile: its block index is (0, 0). -/
theorem iblk1_2 (t : Fin cfg1.N) : (iblk1 V c 2 t : Vec Ideal S1x128 .f32) = V c (Pipeline.arrRef spec1 2) := by
  obtain ⟨e00, e01, e10, e11, e20, e21, e30, e31, e40, e41, e50, e51⟩ := idx_facts1 t
  funext y
  unfold iblk1
  rw [View.read_apply]
  show V c (Pipeline.arrRef spec1 2) _ = V c (Pipeline.arrRef spec1 2) _
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- Row window 3's block is its whole array at every tile: its block index is (0, 0). -/
theorem iblk1_3 (t : Fin cfg1.N) : (iblk1 V c 3 t : Vec Ideal S1x128 .f32) = V c (Pipeline.arrRef spec1 3) := by
  obtain ⟨e00, e01, e10, e11, e20, e21, e30, e31, e40, e41, e50, e51⟩ := idx_facts1 t
  funext y
  unfold iblk1
  rw [View.read_apply]
  show V c (Pipeline.arrRef spec1 3) _ = V c (Pipeline.arrRef spec1 3) _
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Row window 4's block is its whole array at every tile: its block index is (0, 0). -/
theorem iblk1_4 (t : Fin cfg1.N) : (iblk1 V c 4 t : Vec Ideal S1x128 .f32) = V c (Pipeline.arrRef spec1 4) := by
  obtain ⟨e00, e01, e10, e11, e20, e21, e30, e31, e40, e41, e50, e51⟩ := idx_facts1 t
  funext y
  unfold iblk1
  rw [View.read_apply]
  show V c (Pipeline.arrRef spec1 4) _ = V c (Pipeline.arrRef spec1 4) _
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- What the output table ends holding, of the arrays as the region finds them. -/
def acc1GV : S200000x128.Idx → EReal :=
  acc1G (V c (Pipeline.arrRef spec1 0)) (V c (Pipeline.arrRef spec1 1)) (V c (Pipeline.arrRef spec1 2)) (V c (Pipeline.arrRef spec1 3)) (V c (Pipeline.arrRef spec1 4))

/-- What tile `t` writes back is the tile's result over the windows' blocks at `t` (its one whole-block store over its
    whole-block loads). -/
theorem flushed1_pay (t : Fin cfg1.N) :
    (dat1 V c).flushed 5 t = (cfg1.win 5).cut (grid1.coords t)
      (k1_pay1 (iblk1 V c 0 t) (iblk1 V c 1 t) (iblk1 V c 2 t) (iblk1 V c 3 t) (iblk1 V c 4 t)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S1x128) hz2]

/-- Entry `j` of the tile's result at `t` is the table-level entry at the index of the output's block `t` that `j` names. -/
theorem blk1_eq (t : Fin cfg1.N) (j : S5000x128.Idx) :
    k1_pay1 (F := Ideal) (iblk1 V c 0 t) (iblk1 V c 1 t) (iblk1 V c 2 t) (iblk1 V c 3 t) (iblk1 V c 4 t) j
      = acc1GV V c (((cfg1.win 5).blk t).view.emb j) := by
  obtain ⟨e00, e01, e10, e11, e20, e21, e30, e31, e40, e41, e50, e51⟩ := idx_facts1 t
  unfold acc1GV
  refine acc1_point _ _ _ _ _
    (iblk1 V c 0 t) (iblk1 V c 1 t) (iblk1 V c 2 t) (iblk1 V c 3 t) (iblk1 V c 4 t) j _
    (iblk1_0 V c t j) (iblk1_1 V c t) (iblk1_2 V c t) (iblk1_3 V c t) (iblk1_4 V c t) ?_
  show win1_5.index t (1 : Fin 2) * 128 + 1 * (j 1).val = (j 1).val
  omega

/-- What tile `t` writes back is block `t` of `acc1GV`. -/
theorem flushed1_eq (t : Fin cfg1.N) :
    (dat1 V c).flushed 5 t = ((cfg1.win 5).blk t).view.read (Elt Ideal) (acc1GV V c) := by
  refine (flushed1_pay V c t).trans ?_
  funext j
  exact blk1_eq V c t j

/-- An index of the output table is in tile `t`'s block iff each coordinate is in the block's range on its axis. -/
theorem mem_blk1 (t : Fin cfg1.N) (i : S200000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v44).slice (win1_5.rect t)).set ↔ _
  rw [View.set_slice_whole, Rect.mem_set_unit]
  exact Iff.rfl

/-- Every entry of the output table is in some tile's block: row `r` is in tile `r / 5000`. -/
theorem cover1 (i : S200000x128.Idx) :
    ∃ t : Fin cfg1.N, (cfg1.win 5).flush t = true ∧ i ∈ ((cfg1.win 5).blk t).view.set := by
  have hi0 : (i 0).val < 200000 := (i 0).isLt
  have hi1 : (i 1).val < 128 := (i 1).isLt
  obtain ⟨t, ht⟩ : ∃ t : Fin cfg1.N, t.val = (i 0).val / 5000 :=
    ⟨⟨(i 0).val / 5000, by rw [show cfg1.N = 40 from N_1]; omega⟩, rfl⟩
  obtain ⟨e00, e01, e10, e11, e20, e21, e30, e31, e40, e41, e50, e51⟩ := idx_facts1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output table after the region, as one function of the arrays the region finds. -/
theorem final1 : (dat1 V c).arrAt 5 cfg1.N = acc1GV V c :=
  (dat1 V c).arrAt_eq_of_cover 5 (acc1GV V c) (fun t _ => flushed1_eq V c t) cover1

/-- Entry `(r, q)` of the output table after the region: the logistic function of the normalised entry. -/
theorem acc_1 (r : Fin 200000) (q : Fin 128) :
    ((dat1 V c).arrAt 5 cfg1.N (ix2 r q) : EReal)
      = Ideal.logistic (zAt (V c (Pipeline.arrRef spec1 0)) (V c (Pipeline.arrRef spec1 1)) (V c (Pipeline.arrRef spec1 2)) (V c (Pipeline.arrRef spec1 3)) (V c (Pipeline.arrRef spec1 4)) r q) :=
  (congrFun (final1 V c) (ix2 r q)).trans rfl

end Cert.KernelIdeal.KV

end
-- ==== Proof.KAcc3.lean ====
/-
  Region 3's output table, entry by entry.

  The region walks 40 tiles of 5000 rows. At tile `t` it reads rows `5000 t … 5000 t + 4999` of two tables and four whole rows of 128
  values (mean, inverse deviation, scale, shift), and writes the same rows of its output table: the running table's entry plus the logistic function of the normalised entry.
  Since every tile writes exactly its own rows and the 40 tiles cover all 200000 rows, the output table holds that
  expression of the input arrays at every entry `(r, q)` (`acc_3`).
-/
import proofs.«134539_j3152505995485_2_alg».proof.Proof.KRegionLib
import proofs.«134539_j3152505995485_2_alg».proof.Proof.Gen.KernelIdeal.Frame
import Idealize.ShloMosaic.Lib.Pipeline.Value

noncomputable section

namespace Cert.KernelIdeal.KV

open Cert.KernelIdeal Cert.KernelIdeal.Gen Idealize.ShloMosaic Idealize.ShloMosaic.TcCoe Idealize.ShloMosaic.ValueIdx Idealize.SL.Sem
open Idealize.ShloMosaic.Pipeline (Dat)
open Cert.Spec (tab row mat)

/-! ## One tile's result at an entry -/

/-- The tile's result at `(p, q)`: the running table's entry plus the logistic function of the normalised entry. -/
theorem acc3_pay (x0 : FVec Ideal S5000x128 .bf16) (x1 x2 x3 x4 : FVec Ideal S1x128 .f32) (x5 : FVec Ideal S5000x128 .f32) (p : Fin 5000) (q : Fin 128) :
    k3_pay1 (F := Ideal) x0 x1 x2 x3 x4 x5 (ix2 p q)
      = (x5 (ix2 p q) + Ideal.logistic ((x0 (ix2 p q) - x1 (ix2 (0 : Fin 1) q)) * x2 (ix2 (0 : Fin 1) q) * x3 (ix2 (0 : Fin 1) q) + x4 (ix2 (0 : Fin 1) q)) : EReal) := by
  unfold k3_pay1
  simp only [shapeCast_self]
  exact congrArg (fun z : EReal => x5 (ix2 p q) + Ideal.logistic z) (norm_core x0 x1 x2 x3 x4 p q)

/-- What the output table ends holding, as one function of the input arrays. -/
def acc3G (a0 : S200000x128.Idx → EReal) (a1 a2 a3 a4 : S1x128.Idx → EReal) (a5 : S200000x128.Idx → EReal) : S200000x128.Idx → EReal :=
  fun i => tab a5 (i 0) (i 1) + Ideal.logistic (zAt a0 a1 a2 a3 a4 (i 0) (i 1))

/-- One entry of a tile's result is the table-level entry, once the tile's entries are the tables' at the matching
    index and the four rows are the arrays' own. -/
theorem acc3_point (A0 : S200000x128.Idx → EReal) (A1 A2 A3 A4 : S1x128.Idx → EReal) (A5 : S200000x128.Idx → EReal) (x0 : FVec Ideal S5000x128 .bf16) (x1 x2 x3 x4 : FVec Ideal S1x128 .f32) (x5 : FVec Ideal S5000x128 .f32)
    (y : S5000x128.Idx) (i : S200000x128.Idx)
    (h0 : x0 y = A0 i) (h1 : x1 = A1) (h2 : x2 = A2) (h3 : x3 = A3) (h4 : x4 = A4) (h5 : x5 y = A5 i)
    (hq : (i 1).val = (y 1).val) :
    k3_pay1 (F := Ideal) x0 x1 x2 x3 x4 x5 y = acc3G A0 A1 A2 A3 A4 A5 i := by
  obtain ⟨p, q, rfl⟩ : ∃ (p : Fin 5000) (q : Fin 128), y = ix2 p q := ⟨y 0, y 1, eq_ix2 y⟩
  obtain ⟨r, q', rfl⟩ : ∃ (r : Fin 200000) (q' : Fin 128), i = ix2 r q' := ⟨i 0, i 1, eq_ix2 i⟩
  obtain rfl : q' = q := Fin.ext hq
  subst h1 h2 h3 h4
  rw [acc3_pay, h0, h5]
  rfl

/-! ## From tiles to the table -/

/-- The windows' block indices at tile `t`, decided over the 40 tiles: the tables move with the tile, the rows stay. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

variable (V : (c : Dev nD) → (b : Ref sig .tc) → Buf (Elt Ideal) ((c : Thread nD τ).loc b)) (c : Dev nD)

/-- Table window 0's block at tile `t` holds the rows the output's block at `t` holds: both sit at block index `(t, 0)`. -/
theorem iblk3_0 (t : Fin cfg3.N) (j : S5000x128.Idx) :
    (iblk3 V c 0 t : S5000x128.Idx → EReal) j = V c (Pipeline.arrRef spec3 0) (((cfg3.win 6).blk t).view.emb j) := by
  obtain ⟨e00, e01, e10, e11, e20, e21, e30, e31, e40, e41, e50, e51, e60, e61⟩ := idx_facts3 t
  unfold iblk3
  rw [View.read_apply]
  show V c (Pipeline.arrRef spec3 0) _ = V c (Pipeline.arrRef spec3 0) _
  refine congrArg _ (funext fun a => Fin.ext ?_)
  match a with
  | ⟨0, _⟩ => show win3_0.index t (0 : Fin 2) * 5000 + 1 * (j 0).val = win3_6.index t (0 : Fin 2) * 5000 + 1 * (j 0).val; omega
  | ⟨1, _⟩ => show win3_0.index t (1 : Fin 2) * 128 + 1 * (j 1).val = win3_6.index t (1 : Fin 2) * 128 + 1 * (j 1).val; omega

/-- Table window 5's block at tile `t` holds the rows the output's block at `t` holds: both sit at block index `(t, 0)`. -/
theorem iblk3_5 (t : Fin cfg3.N) (j : S5000x128.Idx) :
    (iblk3 V c 5 t : S5000x128.Idx → EReal) j = V c (Pipeline.arrRef spec3 5) (((cfg3.win 6).blk t).view.emb j) := by
  obtain ⟨e00, e01, e10, e11, e20, e21, e30, e31, e40, e41, e50, e51, e60, e61⟩ := idx_facts3 t
  unfold iblk3
  rw [View.read_apply]
  show V c (Pipeline.arrRef spec3 5) _ = V c (Pipeline.arrRef spec3 5) _
  refine congrArg _ (funext fun a => Fin.ext ?_)
  match a with
  | ⟨0, _⟩ => show win3_5.index t (0 : Fin 2) * 5000 + 1 * (j 0).val = win3_6.index t (0 : Fin 2) * 5000 + 1 * (j 0).val; omega
  | ⟨1, _⟩ => show win3_5.index t (1 : Fin 2) * 128 + 1 * (j 1).val = win3_6.index t (1 : Fin 2) * 128 + 1 * (j 1).val; omega

/-- Row window 1's block is its whole array at every tile: its block index is (0, 0). -/
theorem iblk3_1 (t : Fin cfg3.N) : (iblk3 V c 1 t : Vec Ideal S1x128 .f32) = V c (Pipeline.arrRef spec3 1) := by
  obtain ⟨e00, e01, e10, e11, e20, e21, e30, e31, e40, e41, e50, e51, e60, e61⟩ := idx_facts3 t
  funext y
  unfold iblk3
  rw [View.read_apply]
  show V c (Pipeline.arrRef spec3 1) _ = V c (Pipeline.arrRef spec3 1) _
  refine congrArg _ (funext fun a => Fin.ext ?_)
  match a with
  | ⟨0, _⟩ => show win3_1.index t (0 : Fin 2) * 1 + 1 * (y 0).val = (y 0).val; omega
  | ⟨1, _⟩ => show win3_1.index t (1 : Fin 2) * 128 + 1 * (y 1).val = (y 1).val; omega

/-- Row window 2's block is its whole array at every tile: its block index is (0, 0). -/
theorem iblk3_2 (t : Fin cfg3.N) : (iblk3 V c 2 t : Vec Ideal S1x128 .f32) = V c (Pipeline.arrRef spec3 2) := by
  obtain ⟨e00, e01, e10, e11, e20, e21, e30, e31, e40, e41, e50, e51, e60, e61⟩ := idx_facts3 t
  funext y
  unfold iblk3
  rw [View.read_apply]
  show V c (Pipeline.arrRef spec3 2) _ = V c (Pipeline.arrRef spec3 2) _
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- Row window 3's block is its whole array at every tile: its block index is (0, 0). -/
theorem iblk3_3 (t : Fin cfg3.N) : (iblk3 V c 3 t : Vec Ideal S1x128 .f32) = V c (Pipeline.arrRef spec3 3) := by
  obtain ⟨e00, e01, e10, e11, e20, e21, e30, e31, e40, e41, e50, e51, e60, e61⟩ := idx_facts3 t
  funext y
  unfold iblk3
  rw [View.read_apply]
  show V c (Pipeline.arrRef spec3 3) _ = V c (Pipeline.arrRef spec3 3) _
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- Row window 4's block is its whole array at every tile: its block index is (0, 0). -/
theorem iblk3_4 (t : Fin cfg3.N) : (iblk3 V c 4 t : Vec Ideal S1x128 .f32) = V c (Pipeline.arrRef spec3 4) := by
  obtain ⟨e00, e01, e10, e11, e20, e21, e30, e31, e40, e41, e50, e51, e60, e61⟩ := idx_facts3 t
  funext y
  unfold iblk3
  rw [View.read_apply]
  show V c (Pipeline.arrRef spec3 4) _ = V c (Pipeline.arrRef spec3 4) _
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- What the output table ends holding, of the arrays as the region finds them. -/
def acc3GV : S200000x128.Idx → EReal :=
  acc3G (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))

/-- What tile `t` writes back is the tile's result over the windows' blocks at `t` (its one whole-block store over its
    whole-block loads). -/
theorem flushed3_pay (t : Fin cfg3.N) :
    (dat3 V c).flushed 6 t = (cfg3.win 6).cut (grid3.coords t)
      (k3_pay1 (iblk3 V c 0 t) (iblk3 V c 1 t) (iblk3 V c 2 t) (iblk3 V c 3 t) (iblk3 V c 4 t) (iblk3 V c 5 t)) := by
  show (cfg3.win 6).cut (grid3.coords t) ((dat3 V c).after 6 t) = _
  rw [after3_6]
  unfold out3_6
  rw [View.canon_unit_zero hz2]
  simp only [View.ld_unit_zero (S := S5000x128) hz2, View.ld_unit_zero (S := S1x128) hz2]

/-- Entry `j` of the tile's result at `t` is the table-level entry at the index of the output's block `t` that `j` names. -/
theorem blk3_eq (t : Fin cfg3.N) (j : S5000x128.Idx) :
    k3_pay1 (F := Ideal) (iblk3 V c 0 t) (iblk3 V c 1 t) (iblk3 V c 2 t) (iblk3 V c 3 t) (iblk3 V c 4 t) (iblk3 V c 5 t) j
      = acc3GV V c (((cfg3.win 6).blk t).view.emb j) := by
  obtain ⟨e00, e01, e10, e11, e20, e21, e30, e31, e40, e41, e50, e51, e60, e61⟩ := idx_facts3 t
  unfold acc3GV
  refine acc3_point _ _ _ _ _ _
    (iblk3 V c 0 t) (iblk3 V c 1 t) (iblk3 V c 2 t) (iblk3 V c 3 t) (iblk3 V c 4 t) (iblk3 V c 5 t) j _
    (iblk3_0 V c t j) (iblk3_1 V c t) (iblk3_2 V c t) (iblk3_3 V c t) (iblk3_4 V c t) (iblk3_5 V c t j) ?_
  show win3_6.index t (1 : Fin 2) * 128 + 1 * (j 1).val = (j 1).val
  omega

/-- What tile `t` writes back is block `t` of `acc3GV`. -/
theorem flushed3_eq (t : Fin cfg3.N) :
    (dat3 V c).flushed 6 t = ((cfg3.win 6).blk t).view.read (Elt Ideal) (acc3GV V c) := by
  refine (flushed3_pay V c t).trans ?_
  funext j
  exact blk3_eq V c t j

/-- An index of the output table is in tile `t`'s block iff each coordinate is in the block's range on its axis. -/
theorem mem_blk3 (t : Fin cfg3.N) (i : S200000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v85).slice (win3_6.rect t)).set ↔ _
  rw [View.set_slice_whole, Rect.mem_set_unit]
  exact Iff.rfl

/-- Every entry of the output table is in some tile's block: row `r` is in tile `r / 5000`. -/
theorem cover3 (i : S200000x128.Idx) :
    ∃ t : Fin cfg3.N, (cfg3.win 6).flush t = true ∧ i ∈ ((cfg3.win 6).blk t).view.set := by
  have hi0 : (i 0).val < 200000 := (i 0).isLt
  have hi1 : (i 1).val < 128 := (i 1).isLt
  obtain ⟨t, ht⟩ : ∃ t : Fin cfg3.N, t.val = (i 0).val / 5000 :=
    ⟨⟨(i 0).val / 5000, by rw [show cfg3.N = 40 from N_3]; omega⟩, rfl⟩
  obtain ⟨e00, e01, e10, e11, e20, e21, e30, e31, e40, e41, e50, e51, e60, e61⟩ := idx_facts3 t
  refine ⟨t, flush3_6 t, ?_⟩
  rw [mem_blk3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- The output table after the region, as one function of the arrays the region finds. -/
theorem final3 : (dat3 V c).arrAt 6 cfg3.N = acc3GV V c :=
  (dat3 V c).arrAt_eq_of_cover 6 (acc3GV V c) (fun t _ => flushed3_eq V c t) cover3

/-- Entry `(r, q)` of the output table after the region: the running table's entry plus the logistic function of the normalised entry. -/
theorem acc_3 (r : Fin 200000) (q : Fin 128) :
    ((dat3 V c).arrAt 6 cfg3.N (ix2 r q) : EReal)
      = tab (V c (Pipeline.arrRef spec3 5)) r q + Ideal.logistic (zAt (V c (Pipeline.arrRef spec3 0)) (V c (Pipeline.arrRef spec3 1)) (V c (Pipeline.arrRef spec3 2)) (V c (Pipeline.arrRef spec3 3)) (V c (Pipeline.arrRef spec3 4)) r q) :=
  (congrFun (final3 V c) (ix2 r q)).trans rfl

end Cert.KernelIdeal.KV

end
-- ==== Proof.KAcc5.lean ====
/-
  Region 5's output table, entry by entry.

  The region walks 40 tiles of 5000 rows. At tile `t` it reads rows `5000 t … 5000 t + 4999` of three tables and four whole rows of 128
  values (mean, inverse deviation, scale, shift), and writes the same rows of its output table: the running table's entry plus the logistic function of the normalised entry, times the entry of the last table.
  Since every tile writes exactly its own rows and the 40 tiles cover all 200000 rows, the output table holds that
  expression of the input arrays at every entry `(r, q)` (`acc_5`).
-/
import proofs.«134539_j3152505995485_2_alg».proof.Proof.KRegionLib
import proofs.«134539_j3152505995485_2_alg».proof.Proof.Gen.KernelIdeal.Frame
import Idealize.ShloMosaic.Lib.Pipeline.Value

noncomputable section

namespace Cert.KernelIdeal.KV

open Cert.KernelIdeal Cert.KernelIdeal.Gen Idealize.ShloMosaic Idealize.ShloMosaic.TcCoe Idealize.ShloMosaic.ValueIdx Idealize.SL.Sem
open Idealize.ShloMosaic.Pipeline (Dat)
open Cert.Spec (tab row mat)

/-! ## One tile's result at an entry -/

/-- The tile's result at `(p, q)`: the running table's entry plus the logistic function of the normalised entry, times the entry of the last table. -/
theorem acc5_pay (x0 : FVec Ideal S5000x128 .bf16) (x1 x2 x3 x4 : FVec Ideal S1x128 .f32) (x5 x6 : FVec Ideal S5000x128 .f32) (p : Fin 5000) (q : Fin 128) :
    k5_pay1 (F := Ideal) x0 x1 x2 x3 x4 x5 x6 (ix2 p q)
      = ((x5 (ix2 p q) + Ideal.logistic ((x0 (ix2 p q) - x1 (ix2 (0 : Fin 1) q)) * x2 (ix2 (0 : Fin 1) q) * x3 (ix2 (0 : Fin 1) q) + x4 (ix2 (0 : Fin 1) q))) * x6 (ix2 p q) : EReal) := by
  unfold k5_pay1
  simp only [shapeCast_self]
  exact congrArg (fun z : EReal => (x5 (ix2 p q) + Ideal.logistic z) * x6 (ix2 p q)) (norm_core x0 x1 x2 x3 x4 p q)

/-- What the output table ends holding, as one function of the input arrays. -/
def acc5G (a0 : S200000x128.Idx → EReal) (a1 a2 a3 a4 : S1x128.Idx → EReal) (a5 a6 : S200000x128.Idx → EReal) : S200000x128.Idx → EReal :=
  fun i => (tab a5 (i 0) (i 1) + Ideal.logistic (zAt a0 a1 a2 a3 a4 (i 0) (i 1))) * tab a6 (i 0) (i 1)

/-- One entry of a tile's result is the table-level entry, once the tile's entries are the tables' at the matching
    index and the four rows are the arrays' own. -/
theorem acc5_point (A0 : S200000x128.Idx → EReal) (A1 A2 A3 A4 : S1x128.Idx → EReal) (A5 A6 : S200000x128.Idx → EReal) (x0 : FVec Ideal S5000x128 .bf16) (x1 x2 x3 x4 : FVec Ideal S1x128 .f32) (x5 x6 : FVec Ideal S5000x128 .f32)
    (y : S5000x128.Idx) (i : S200000x128.Idx)
    (h0 : x0 y = A0 i) (h1 : x1 = A1) (h2 : x2 = A2) (h3 : x3 = A3) (h4 : x4 = A4) (h5 : x5 y = A5 i) (h6 : x6 y = A6 i)
    (hq : (i 1).val = (y 1).val) :
    k5_pay1 (F := Ideal) x0 x1 x2 x3 x4 x5 x6 y = acc5G A0 A1 A2 A3 A4 A5 A6 i := by
  obtain ⟨p, q, rfl⟩ : ∃ (p : Fin 5000) (q : Fin 128), y = ix2 p q := ⟨y 0, y 1, eq_ix2 y⟩
  obtain ⟨r, q', rfl⟩ : ∃ (r : Fin 200000) (q' : Fin 128), i = ix2 r q' := ⟨i 0, i 1, eq_ix2 i⟩
  obtain rfl : q' = q := Fin.ext hq
  subst h1 h2 h3 h4
  rw [acc5_pay, h0, h5, h6]
  rfl

/-! ## From tiles to the table -/

/-- The windows' block indices at tile `t`, decided over the 40 tiles: the tables move with the tile, the rows stay. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0
    ∧ win5_7.index t (0 : Fin 2) = t.val ∧ win5_7.index t (1 : Fin 2) = 0 :=
  (by decide +kernel : ∀ t : Fin grid5.N, _)

variable (V : (c : Dev nD) → (b : Ref sig .tc) → Buf (Elt Ideal) ((c : Thread nD τ).loc b)) (c : Dev nD)

/-- Table window 0's block at tile `t` holds the rows the output's block at `t` holds: both sit at block index `(t, 0)`. -/
theorem iblk5_0 (t : Fin cfg5.N) (j : S5000x128.Idx) :
    (iblk5 V c 0 t : S5000x128.Idx → EReal) j = V c (Pipeline.arrRef spec5 0) (((cfg5.win 7).blk t).view.emb j) := by
  obtain ⟨e00, e01, e10, e11, e20, e21, e30, e31, e40, e41, e50, e51, e60, e61, e70, e71⟩ := idx_facts5 t
  unfold iblk5
  rw [View.read_apply]
  show V c (Pipeline.arrRef spec5 0) _ = V c (Pipeline.arrRef spec5 0) _
  refine congrArg _ (funext fun a => Fin.ext ?_)
  match a with
  | ⟨0, _⟩ => show win5_0.index t (0 : Fin 2) * 5000 + 1 * (j 0).val = win5_7.index t (0 : Fin 2) * 5000 + 1 * (j 0).val; omega
  | ⟨1, _⟩ => show win5_0.index t (1 : Fin 2) * 128 + 1 * (j 1).val = win5_7.index t (1 : Fin 2) * 128 + 1 * (j 1).val; omega

/-- Table window 5's block at tile `t` holds the rows the output's block at `t` holds: both sit at block index `(t, 0)`. -/
theorem iblk5_5 (t : Fin cfg5.N) (j : S5000x128.Idx) :
    (iblk5 V c 5 t : S5000x128.Idx → EReal) j = V c (Pipeline.arrRef spec5 5) (((cfg5.win 7).blk t).view.emb j) := by
  obtain ⟨e00, e01, e10, e11, e20, e21, e30, e31, e40, e41, e50, e51, e60, e61, e70, e71⟩ := idx_facts5 t
  unfold iblk5
  rw [View.read_apply]
  show V c (Pipeline.arrRef spec5 5) _ = V c (Pipeline.arrRef spec5 5) _
  refine congrArg _ (funext fun a => Fin.ext ?_)
  match a with
  | ⟨0, _⟩ => show win5_5.index t (0 : Fin 2) * 5000 + 1 * (j 0).val = win5_7.index t (0 : Fin 2) * 5000 + 1 * (j 0).val; omega
  | ⟨1, _⟩ => show win5_5.index t (1 : Fin 2) * 128 + 1 * (j 1).val = win5_7.index t (1 : Fin 2) * 128 + 1 * (j 1).val; omega

/-- Table window 6's block at tile `t` holds the rows the output's block at `t` holds: both sit at block index `(t, 0)`. -/
theorem iblk5_6 (t : Fin cfg5.N) (j : S5000x128.Idx) :
    (iblk5 V c 6 t : S5000x128.Idx → EReal) j = V c (Pipeline.arrRef spec5 6) (((cfg5.win 7).blk t).view.emb j) := by
  obtain ⟨e00, e01, e10, e11, e20, e21, e30, e31, e40, e41, e50, e51, e60, e61, e70, e71⟩ := idx_facts5 t
  unfold iblk5
  rw [View.read_apply]
  show V c (Pipeline.arrRef spec5 6) _ = V c (Pipeline.arrRef spec5 6) _
  refine congrArg _ (funext fun a => Fin.ext ?_)
  match a with
  | ⟨0, _⟩ => show win5_6.index t (0 : Fin 2) * 5000 + 1 * (j 0).val = win5_7.index t (0 : Fin 2) * 5000 + 1 * (j 0).val; omega
  | ⟨1, _⟩ => show win5_6.index t (1 : Fin 2) * 128 + 1 * (j 1).val = win5_7.index t (1 : Fin 2) * 128 + 1 * (j 1).val; omega

/-- Row window 1's block is its whole array at every tile: its block index is (0, 0). -/
theorem iblk5_1 (t : Fin cfg5.N) : (iblk5 V c 1 t : Vec Ideal S1x128 .f32) = V c (Pipeline.arrRef spec5 1) := by
  obtain ⟨e00, e01, e10, e11, e20, e21, e30, e31, e40, e41, e50, e51, e60, e61, e70, e71⟩ := idx_facts5 t
  funext y
  unfold iblk5
  rw [View.read_apply]
  show V c (Pipeline.arrRef spec5 1) _ = V c (Pipeline.arrRef spec5 1) _
  refine congrArg _ (funext fun a => Fin.ext ?_)
  match a with
  | ⟨0, _⟩ => show win5_1.index t (0 : Fin 2) * 1 + 1 * (y 0).val = (y 0).val; omega
  | ⟨1, _⟩ => show win5_1.index t (1 : Fin 2) * 128 + 1 * (y 1).val = (y 1).val; omega

/-- Row window 2's block is its whole array at every tile: its block index is (0, 0). -/
theorem iblk5_2 (t : Fin cfg5.N) : (iblk5 V c 2 t : Vec Ideal S1x128 .f32) = V c (Pipeline.arrRef spec5 2) := by
  obtain ⟨e00, e01, e10, e11, e20, e21, e30, e31, e40, e41, e50, e51, e60, e61, e70, e71⟩ := idx_facts5 t
  funext y
  unfold iblk5
  rw [View.read_apply]
  show V c (Pipeline.arrRef spec5 2) _ = V c (Pipeline.arrRef spec5 2) _
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- Row window 3's block is its whole array at every tile: its block index is (0, 0). -/
theorem iblk5_3 (t : Fin cfg5.N) : (iblk5 V c 3 t : Vec Ideal S1x128 .f32) = V c (Pipeline.arrRef spec5 3) := by
  obtain ⟨e00, e01, e10, e11, e20, e21, e30, e31, e40, e41, e50, e51, e60, e61, e70, e71⟩ := idx_facts5 t
  funext y
  unfold iblk5
  rw [View.read_apply]
  show V c (Pipeline.arrRef spec5 3) _ = V c (Pipeline.arrRef spec5 3) _
  refine congrArg _ (funext fun a => Fin.ext ?_)
  match a with
  | ⟨0, _⟩ => show win5_3.index t (0 : Fin 2) * 1 + 1 * (y 0).val = (y 0).val; omega
  | ⟨1, _⟩ => show win5_3.index t (1 : Fin 2) * 128 + 1 * (y 1).val = (y 1).val; omega

/-- Row window 4's block is its whole array at every tile: its block index is (0, 0). -/
theorem iblk5_4 (t : Fin cfg5.N) : (iblk5 V c 4 t : Vec Ideal S1x128 .f32) = V c (Pipeline.arrRef spec5 4) := by
  obtain ⟨e00, e01, e10, e11, e20, e21, e30, e31, e40, e41, e50, e51, e60, e61, e70, e71⟩ := idx_facts5 t
  funext y
  unfold iblk5
  rw [View.read_apply]
  show V c (Pipeline.arrRef spec5 4) _ = V c (Pipeline.arrRef spec5 4) _
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 128 + 1 * (y 1).val = (y 1).val; omega

/-- What the output table ends holding, of the arrays as the region finds them. -/
def acc5GV : S200000x128.Idx → EReal :=
  acc5G (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6))

/-- What tile `t` writes back is the tile's result over the windows' blocks at `t` (its one whole-block store over its
    whole-block loads). -/
theorem flushed5_pay (t : Fin cfg5.N) :
    (dat5 V c).flushed 7 t = (cfg5.win 7).cut (grid5.coords t)
      (k5_pay1 (iblk5 V c 0 t) (iblk5 V c 1 t) (iblk5 V c 2 t) (iblk5 V c 3 t) (iblk5 V c 4 t) (iblk5 V c 5 t) (iblk5 V c 6 t)) := by
  show (cfg5.win 7).cut (grid5.coords t) ((dat5 V c).after 7 t) = _
  rw [after5_7]
  unfold out5_7
  rw [View.canon_unit_zero hz2]
  simp only [View.ld_unit_zero (S := S5000x128) hz2, View.ld_unit_zero (S := S1x128) hz2]

/-- Entry `j` of the tile's result at `t` is the table-level entry at the index of the output's block `t` that `j` names. -/
theorem blk5_eq (t : Fin cfg5.N) (j : S5000x128.Idx) :
    k5_pay1 (F := Ideal) (iblk5 V c 0 t) (iblk5 V c 1 t) (iblk5 V c 2 t) (iblk5 V c 3 t) (iblk5 V c 4 t) (iblk5 V c 5 t) (iblk5 V c 6 t) j
      = acc5GV V c (((cfg5.win 7).blk t).view.emb j) := by
  obtain ⟨e00, e01, e10, e11, e20, e21, e30, e31, e40, e41, e50, e51, e60, e61, e70, e71⟩ := idx_facts5 t
  unfold acc5GV
  refine acc5_point _ _ _ _ _ _ _
    (iblk5 V c 0 t) (iblk5 V c 1 t) (iblk5 V c 2 t) (iblk5 V c 3 t) (iblk5 V c 4 t) (iblk5 V c 5 t) (iblk5 V c 6 t) j _
    (iblk5_0 V c t j) (iblk5_1 V c t) (iblk5_2 V c t) (iblk5_3 V c t) (iblk5_4 V c t) (iblk5_5 V c t j) (iblk5_6 V c t j) ?_
  show win5_7.index t (1 : Fin 2) * 128 + 1 * (j 1).val = (j 1).val
  omega

/-- What tile `t` writes back is block `t` of `acc5GV`. -/
theorem flushed5_eq (t : Fin cfg5.N) :
    (dat5 V c).flushed 7 t = ((cfg5.win 7).blk t).view.read (Elt Ideal) (acc5GV V c) := by
  refine (flushed5_pay V c t).trans ?_
  funext j
  exact blk5_eq V c t j

/-- An index of the output table is in tile `t`'s block iff each coordinate is in the block's range on its axis. -/
theorem mem_blk5 (t : Fin cfg5.N) (i : S200000x128.Idx) :
    i ∈ ((cfg5.win 7).blk t).view.set ↔ ∀ a : Fin 2, win5_7.index t a * S5000x128.size a ≤ (i a).val ∧ (i a).val < win5_7.index t a * S5000x128.size a + S5000x128.size a := by
  show i ∈ ((View.whole main_v126).slice (win5_7.rect t)).set ↔ _
  rw [View.set_slice_whole, Rect.mem_set_unit]
  exact Iff.rfl

/-- Every entry of the output table is in some tile's block: row `r` is in tile `r / 5000`. -/
theorem cover5 (i : S200000x128.Idx) :
    ∃ t : Fin cfg5.N, (cfg5.win 7).flush t = true ∧ i ∈ ((cfg5.win 7).blk t).view.set := by
  have hi0 : (i 0).val < 200000 := (i 0).isLt
  have hi1 : (i 1).val < 128 := (i 1).isLt
  obtain ⟨t, ht⟩ : ∃ t : Fin cfg5.N, t.val = (i 0).val / 5000 :=
    ⟨⟨(i 0).val / 5000, by rw [show cfg5.N = 40 from N_5]; omega⟩, rfl⟩
  obtain ⟨e00, e01, e10, e11, e20, e21, e30, e31, e40, e41, e50, e51, e60, e61, e70, e71⟩ := idx_facts5 t
  refine ⟨t, flush5_7 t, ?_⟩
  rw [mem_blk5]
  intro a
  match a with
  | ⟨0, _⟩ => show win5_7.index t (0 : Fin 2) * 5000 ≤ (i 0).val ∧ (i 0).val < win5_7.index t (0 : Fin 2) * 5000 + 5000; omega
  | ⟨1, _⟩ => show win5_7.index t (1 : Fin 2) * 128 ≤ (i 1).val ∧ (i 1).val < win5_7.index t (1 : Fin 2) * 128 + 128; omega

/-- The output table after the region, as one function of the arrays the region finds. -/
theorem final5 : (dat5 V c).arrAt 7 cfg5.N = acc5GV V c :=
  (dat5 V c).arrAt_eq_of_cover 7 (acc5GV V c) (fun t _ => flushed5_eq V c t) cover5

/-- Entry `(r, q)` of the output table after the region: the running table's entry plus the logistic function of the normalised entry, times the entry of the last table. -/
theorem acc_5 (r : Fin 200000) (q : Fin 128) :
    ((dat5 V c).arrAt 7 cfg5.N (ix2 r q) : EReal)
      = (tab (V c (Pipeline.arrRef spec5 5)) r q + Ideal.logistic (zAt (V c (Pipeline.arrRef spec5 0)) (V c (Pipeline.arrRef spec5 1)) (V c (Pipeline.arrRef spec5 2)) (V c (Pipeline.arrRef spec5 3)) (V c (Pipeline.arrRef spec5 4)) r q)) * tab (V c (Pipeline.arrRef spec5 6)) r q :=
  (congrFun (final5 V c) (ix2 r q)).trans rfl

end Cert.KernelIdeal.KV

end
-- ==== Proof.KGlueTac.lean ====
/-
  A tactic for one step of following a buffer back through the program: a stretch of host operations none of which
  writes the buffer leaves it as it was.
-/
import Idealize.ShloMosaic.Lib.StableHlo.Run

namespace Cert.KernelIdeal.KV

open Idealize.ShloMosaic

/-- Closes `StableHlo.after ops V (Proc.devRef .tc b) = V (Proc.devRef .tc b)` for a literal list `ops` of host
    operations none of which writes `b`: each operation's written buffer is a single reference, different from `b`. -/
macro "stretch_keeps " ops:ident b:ident : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

end Cert.KernelIdeal.KV
-- ==== Proof.KGlueKeepA.lean ====
/-
  The argument arrays at the boundaries of the kernel program.

  No host operation writes an argument array and no region before the last holds one among its arrays, so at every
  boundary up to the last region's entry an argument array holds what it held at launch. Stated for the rows (to the
  last region's entry), the index table (to the third gather stretch), and the scale and shift tables (to the last
  statistics stretch).
-/
import proofs.«134539_j3152505995485_2_alg».proof.Proof.Gen.KernelIdeal.Frame
import proofs.«134539_j3152505995485_2_alg».proof.Proof.KGlueDefs
import proofs.«134539_j3152505995485_2_alg».proof.Proof.KGlueTac

set_option maxRecDepth 16384

noncomputable section

namespace Cert.KernelIdeal.KV

open Idealize.ShloMosaic Idealize.ShloMosaic.TcCoe Idealize.ShloMosaic.Tactic
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-! ## Argument 0 (the rows): as launched at every boundary up to 11 -/

theorem W1_arg0 (c : Dev nD) : Gen.W1 m ρ c (Proc.devRef .tc main_arg0) = m ((c : Thread nD τ).loc main_arg0) :=
  (show Gen.W1 m ρ c (Proc.devRef .tc main_arg0) = Gen.W0 m ρ c (Proc.devRef .tc main_arg0) by stretch_keeps hostOps0 main_arg0).trans rfl
theorem W2_arg0 (c : Dev nD) : Gen.W2 m ρ c (Proc.devRef .tc main_arg0) = m ((c : Thread nD τ).loc main_arg0) :=
  (Gen.W2_of_ne m ρ c main_arg0 (by decide)).trans (W1_arg0 m ρ c)
theorem W3_arg0 (c : Dev nD) : Gen.W3 m ρ c (Proc.devRef .tc main_arg0) = m ((c : Thread nD τ).loc main_arg0) :=
  (show Gen.W3 m ρ c (Proc.devRef .tc main_arg0) = Gen.W2 m ρ c (Proc.devRef .tc main_arg0) by stretch_keeps hostOps1 main_arg0).trans (W2_arg0 m ρ c)
theorem W4_arg0 (c : Dev nD) : Gen.W4 m ρ c (Proc.devRef .tc main_arg0) = m ((c : Thread nD τ).loc main_arg0) :=
  (Gen.W4_of_ne m ρ c main_arg0 (by decide)).trans (W3_arg0 m ρ c)
theorem W5_arg0 (c : Dev nD) : Gen.W5 m ρ c (Proc.devRef .tc main_arg0) = m ((c : Thread nD τ).loc main_arg0) :=
  (show Gen.W5 m ρ c (Proc.devRef .tc main_arg0) = Gen.W4 m ρ c (Proc.devRef .tc main_arg0) by stretch_keeps hostOps2 main_arg0).trans (W4_arg0 m ρ c)
theorem W6_arg0 (c : Dev nD) : Gen.W6 m ρ c (Proc.devRef .tc main_arg0) = m ((c : Thread nD τ).loc main_arg0) :=
  (Gen.W6_of_ne m ρ c main_arg0 (by decide)).trans (W5_arg0 m ρ c)
theorem W7_arg0 (c : Dev nD) : Gen.W7 m ρ c (Proc.devRef .tc main_arg0) = m ((c : Thread nD τ).loc main_arg0) :=
  (show Gen.W7 m ρ c (Proc.devRef .tc main_arg0) = Gen.W6 m ρ c (Proc.devRef .tc main_arg0) by stretch_keeps hostOps3 main_arg0).trans (W6_arg0 m ρ c)
theorem W8_arg0 (c : Dev nD) : Gen.W8 m ρ c (Proc.devRef .tc main_arg0) = m ((c : Thread nD τ).loc main_arg0) :=
  (Gen.W8_of_ne m ρ c main_arg0 (by decide)).trans (W7_arg0 m ρ c)
theorem W9_arg0 (c : Dev nD) : Gen.W9 m ρ c (Proc.devRef .tc main_arg0) = m ((c : Thread nD τ).loc main_arg0) :=
  (show Gen.W9 m ρ c (Proc.devRef .tc main_arg0) = Gen.W8 m ρ c (Proc.devRef .tc main_arg0) by stretch_keeps hostOps4 main_arg0).trans (W8_arg0 m ρ c)
theorem W10_arg0 (c : Dev nD) : Gen.W10 m ρ c (Proc.devRef .tc main_arg0) = m ((c : Thread nD τ).loc main_arg0) :=
  (Gen.W10_of_ne m ρ c main_arg0 (by decide)).trans (W9_arg0 m ρ c)
theorem W11_arg0 (c : Dev nD) : Gen.W11 m ρ c (Proc.devRef .tc main_arg0) = m ((c : Thread nD τ).loc main_arg0) :=
  (show Gen.W11 m ρ c (Proc.devRef .tc main_arg0) = Gen.W10 m ρ c (Proc.devRef .tc main_arg0) by stretch_keeps hostOps5 main_arg0).trans (W10_arg0 m ρ c)

/-! ## Argument 1 (the index table): as launched at every boundary up to 8 -/

theorem W1_arg1 (c : Dev nD) : Gen.W1 m ρ c (Proc.devRef .tc main_arg1) = m ((c : Thread nD τ).loc main_arg1) :=
  (show Gen.W1 m ρ c (Proc.devRef .tc main_arg1) = Gen.W0 m ρ c (Proc.devRef .tc main_arg1) by stretch_keeps hostOps0 main_arg1).trans rfl
theorem W2_arg1 (c : Dev nD) : Gen.W2 m ρ c (Proc.devRef .tc main_arg1) = m ((c : Thread nD τ).loc main_arg1) :=
  (Gen.W2_of_ne m ρ c main_arg1 (by decide)).trans (W1_arg1 m ρ c)
theorem W3_arg1 (c : Dev nD) : Gen.W3 m ρ c (Proc.devRef .tc main_arg1) = m ((c : Thread nD τ).loc main_arg1) :=
  (show Gen.W3 m ρ c (Proc.devRef .tc main_arg1) = Gen.W2 m ρ c (Proc.devRef .tc main_arg1) by stretch_keeps hostOps1 main_arg1).trans (W2_arg1 m ρ c)
theorem W4_arg1 (c : Dev nD) : Gen.W4 m ρ c (Proc.devRef .tc main_arg1) = m ((c : Thread nD τ).loc main_arg1) :=
  (Gen.W4_of_ne m ρ c main_arg1 (by decide)).trans (W3_arg1 m ρ c)
theorem W5_arg1 (c : Dev nD) : Gen.W5 m ρ c (Proc.devRef .tc main_arg1) = m ((c : Thread nD τ).loc main_arg1) :=
  (show Gen.W5 m ρ c (Proc.devRef .tc main_arg1) = Gen.W4 m ρ c (Proc.devRef .tc main_arg1) by stretch_keeps hostOps2 main_arg1).trans (W4_arg1 m ρ c)
theorem W6_arg1 (c : Dev nD) : Gen.W6 m ρ c (Proc.devRef .tc main_arg1) = m ((c : Thread nD τ).loc main_arg1) :=
  (Gen.W6_of_ne m ρ c main_arg1 (by decide)).trans (W5_arg1 m ρ c)
theorem W7_arg1 (c : Dev nD) : Gen.W7 m ρ c (Proc.devRef .tc main_arg1) = m ((c : Thread nD τ).loc main_arg1) :=
  (show Gen.W7 m ρ c (Proc.devRef .tc main_arg1) = Gen.W6 m ρ c (Proc.devRef .tc main_arg1) by stretch_keeps hostOps3 main_arg1).trans (W6_arg1 m ρ c)
theorem W8_arg1 (c : Dev nD) : Gen.W8 m ρ c (Proc.devRef .tc main_arg1) = m ((c : Thread nD τ).loc main_arg1) :=
  (Gen.W8_of_ne m ρ c main_arg1 (by decide)).trans (W7_arg1 m ρ c)

/-! ## Argument 3 (the scale table): as launched at every boundary up to 10 -/

theorem W1_arg3 (c : Dev nD) : Gen.W1 m ρ c (Proc.devRef .tc main_arg3) = m ((c : Thread nD τ).loc main_arg3) :=
  (show Gen.W1 m ρ c (Proc.devRef .tc main_arg3) = Gen.W0 m ρ c (Proc.devRef .tc main_arg3) by stretch_keeps hostOps0 main_arg3).trans rfl
theorem W2_arg3 (c : Dev nD) : Gen.W2 m ρ c (Proc.devRef .tc main_arg3) = m ((c : Thread nD τ).loc main_arg3) :=
  (Gen.W2_of_ne m ρ c main_arg3 (by decide)).trans (W1_arg3 m ρ c)
theorem W3_arg3 (c : Dev nD) : Gen.W3 m ρ c (Proc.devRef .tc main_arg3) = m ((c : Thread nD τ).loc main_arg3) :=
  (show Gen.W3 m ρ c (Proc.devRef .tc main_arg3) = Gen.W2 m ρ c (Proc.devRef .tc main_arg3) by stretch_keeps hostOps1 main_arg3).trans (W2_arg3 m ρ c)
theorem W4_arg3 (c : Dev nD) : Gen.W4 m ρ c (Proc.devRef .tc main_arg3) = m ((c : Thread nD τ).loc main_arg3) :=
  (Gen.W4_of_ne m ρ c main_arg3 (by decide)).trans (W3_arg3 m ρ c)
theorem W5_arg3 (c : Dev nD) : Gen.W5 m ρ c (Proc.devRef .tc main_arg3) = m ((c : Thread nD τ).loc main_arg3) :=
  (show Gen.W5 m ρ c (Proc.devRef .tc main_arg3) = Gen.W4 m ρ c (Proc.devRef .tc main_arg3) by stretch_keeps hostOps2 main_arg3).trans (W4_arg3 m ρ c)
theorem W6_arg3 (c : Dev nD) : Gen.W6 m ρ c (Proc.devRef .tc main_arg3) = m ((c : Thread nD τ).loc main_arg3) :=
  (Gen.W6_of_ne m ρ c main_arg3 (by decide)).trans (W5_arg3 m ρ c)
theorem W7_arg3 (c : Dev nD) : Gen.W7 m ρ c (Proc.devRef .tc main_arg3) = m ((c : Thread nD τ).loc main_arg3) :=
  (show Gen.W7 m ρ c (Proc.devRef .tc main_arg3) = Gen.W6 m ρ c (Proc.devRef .tc main_arg3) by stretch_keeps hostOps3 main_arg3).trans (W6_arg3 m ρ c)
theorem W8_arg3 (c : Dev nD) : Gen.W8 m ρ c (Proc.devRef .tc main_arg3) = m ((c : Thread nD τ).loc main_arg3) :=
  (Gen.W8_of_ne m ρ c main_arg3 (by decide)).trans (W7_arg3 m ρ c)
theorem W9_arg3 (c : Dev nD) : Gen.W9 m ρ c (Proc.devRef .tc main_arg3) = m ((c : Thread nD τ).loc main_arg3) :=
  (show Gen.W9 m ρ c (Proc.devRef .tc main_arg3) = Gen.W8 m ρ c (Proc.devRef .tc main_arg3) by stretch_keeps hostOps4 main_arg3).trans (W8_arg3 m ρ c)
theorem W10_arg3 (c : Dev nD) : Gen.W10 m ρ c (Proc.devRef .tc main_arg3) = m ((c : Thread nD τ).loc main_arg3) :=
  (Gen.W10_of_ne m ρ c main_arg3 (by decide)).trans (W9_arg3 m ρ c)

/-! ## Argument 4 (the shift table): as launched at every boundary up to 10 -/

theorem W1_arg4 (c : Dev nD) : Gen.W1 m ρ c (Proc.devRef .tc main_arg4) = m ((c : Thread nD τ).loc main_arg4) :=
  (show Gen.W1 m ρ c (Proc.devRef .tc main_arg4) = Gen.W0 m ρ c (Proc.devRef .tc main_arg4) by stretch_keeps hostOps0 main_arg4).trans rfl
theorem W2_arg4 (c : Dev nD) : Gen.W2 m ρ c (Proc.devRef .tc main_arg4) = m ((c : Thread nD τ).loc main_arg4) :=
  (Gen.W2_of_ne m ρ c main_arg4 (by decide)).trans (W1_arg4 m ρ c)
theorem W3_arg4 (c : Dev nD) : Gen.W3 m ρ c (Proc.devRef .tc main_arg4) = m ((c : Thread nD τ).loc main_arg4) :=
  (show Gen.W3 m ρ c (Proc.devRef .tc main_arg4) = Gen.W2 m ρ c (Proc.devRef .tc main_arg4) by stretch_keeps hostOps1 main_arg4).trans (W2_arg4 m ρ c)
theorem W4_arg4 (c : Dev nD) : Gen.W4 m ρ c (Proc.devRef .tc main_arg4) = m ((c : Thread nD τ).loc main_arg4) :=
  (Gen.W4_of_ne m ρ c main_arg4 (by decide)).trans (W3_arg4 m ρ c)
theorem W5_arg4 (c : Dev nD) : Gen.W5 m ρ c (Proc.devRef .tc main_arg4) = m ((c : Thread nD τ).loc main_arg4) :=
  (show Gen.W5 m ρ c (Proc.devRef .tc main_arg4) = Gen.W4 m ρ c (Proc.devRef .tc main_arg4) by stretch_keeps hostOps2 main_arg4).trans (W4_arg4 m ρ c)
theorem W6_arg4 (c : Dev nD) : Gen.W6 m ρ c (Proc.devRef .tc main_arg4) = m ((c : Thread nD τ).loc main_arg4) :=
  (Gen.W6_of_ne m ρ c main_arg4 (by decide)).trans (W5_arg4 m ρ c)
theorem W7_arg4 (c : Dev nD) : Gen.W7 m ρ c (Proc.devRef .tc main_arg4) = m ((c : Thread nD τ).loc main_arg4) :=
  (show Gen.W7 m ρ c (Proc.devRef .tc main_arg4) = Gen.W6 m ρ c (Proc.devRef .tc main_arg4) by stretch_keeps hostOps3 main_arg4).trans (W6_arg4 m ρ c)
theorem W8_arg4 (c : Dev nD) : Gen.W8 m ρ c (Proc.devRef .tc main_arg4) = m ((c : Thread nD τ).loc main_arg4) :=
  (Gen.W8_of_ne m ρ c main_arg4 (by decide)).trans (W7_arg4 m ρ c)
theorem W9_arg4 (c : Dev nD) : Gen.W9 m ρ c (Proc.devRef .tc main_arg4) = m ((c : Thread nD τ).loc main_arg4) :=
  (show Gen.W9 m ρ c (Proc.devRef .tc main_arg4) = Gen.W8 m ρ c (Proc.devRef .tc main_arg4) by stretch_keeps hostOps4 main_arg4).trans (W8_arg4 m ρ c)
theorem W10_arg4 (c : Dev nD) : Gen.W10 m ρ c (Proc.devRef .tc main_arg4) = m ((c : Thread nD τ).loc main_arg4) :=
  (Gen.W10_of_ne m ρ c main_arg4 (by decide)).trans (W9_arg4 m ρ c)

end Cert.KernelIdeal.KV

end
-- ==== Proof.KGlueKeepT.lean ====
/-
  The three tables the first host stretch computes, at the later boundaries of the kernel program.

  The first stretch narrows the rows and the weights to bf16 and appends a zero row to the narrowed rows. No later
  host operation writes these three buffers; a region either does not hold them among its arrays or reads one through
  an input window, which it leaves as entered. So each holds its first-stretch value at every later boundary where a
  stretch or a region reads it.
-/
import proofs.«134539_j3152505995485_2_alg».proof.Proof.Gen.KernelIdeal.Frame
import proofs.«134539_j3152505995485_2_alg».proof.Proof.KGlueDefs
import proofs.«134539_j3152505995485_2_alg».proof.Proof.KGlueTac

set_option maxRecDepth 16384

noncomputable section

namespace Cert.KernelIdeal.KV

open Idealize.ShloMosaic Idealize.ShloMosaic.TcCoe Idealize.ShloMosaic.Tactic
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-! ## main_v0 (the rows narrowed to bf16; regions 0 and 2 read it through their window 1) -/

theorem W1_v0 (c : Dev nD) : Gen.W1 m ρ c (Proc.devRef .tc main_v0) = kXb (m ((c : Thread nD τ).loc main_arg0)) := by
  show StableHlo.after hostOps0 (Gen.W0 m ρ c) (Proc.devRef .tc main_v0) = _
  after_results_simp
  rfl
theorem W2_v0 (c : Dev nD) : Gen.W2 m ρ c (Proc.devRef .tc main_v0) = kXb (m ((c : Thread nD τ).loc main_arg0)) :=
  ((Gen.W2_arr m ρ c 1).trans (((Gen.dat0 (Gen.V1 m ρ) c).arrAt_in 1 rfl _).trans (Gen.A_eq0 (Gen.V1 m ρ) c 1))).trans (W1_v0 m ρ c)
theorem W3_v0 (c : Dev nD) : Gen.W3 m ρ c (Proc.devRef .tc main_v0) = kXb (m ((c : Thread nD τ).loc main_arg0)) :=
  (show Gen.W3 m ρ c (Proc.devRef .tc main_v0) = Gen.W2 m ρ c (Proc.devRef .tc main_v0) by stretch_keeps hostOps1 main_v0).trans (W2_v0 m ρ c)
theorem W4_v0 (c : Dev nD) : Gen.W4 m ρ c (Proc.devRef .tc main_v0) = kXb (m ((c : Thread nD τ).loc main_arg0)) :=
  (Gen.W4_of_ne m ρ c main_v0 (by decide)).trans (W3_v0 m ρ c)
theorem W5_v0 (c : Dev nD) : Gen.W5 m ρ c (Proc.devRef .tc main_v0) = kXb (m ((c : Thread nD τ).loc main_arg0)) :=
  (show Gen.W5 m ρ c (Proc.devRef .tc main_v0) = Gen.W4 m ρ c (Proc.devRef .tc main_v0) by stretch_keeps hostOps2 main_v0).trans (W4_v0 m ρ c)
theorem W6_v0 (c : Dev nD) : Gen.W6 m ρ c (Proc.devRef .tc main_v0) = kXb (m ((c : Thread nD τ).loc main_arg0)) :=
  ((Gen.W6_arr m ρ c 1).trans (((Gen.dat2 (Gen.V5 m ρ) c).arrAt_in 1 rfl _).trans (Gen.A_eq2 (Gen.V5 m ρ) c 1))).trans (W5_v0 m ρ c)
theorem W7_v0 (c : Dev nD) : Gen.W7 m ρ c (Proc.devRef .tc main_v0) = kXb (m ((c : Thread nD τ).loc main_arg0)) :=
  (show Gen.W7 m ρ c (Proc.devRef .tc main_v0) = Gen.W6 m ρ c (Proc.devRef .tc main_v0) by stretch_keeps hostOps3 main_v0).trans (W6_v0 m ρ c)
theorem W8_v0 (c : Dev nD) : Gen.W8 m ρ c (Proc.devRef .tc main_v0) = kXb (m ((c : Thread nD τ).loc main_arg0)) :=
  (Gen.W8_of_ne m ρ c main_v0 (by decide)).trans (W7_v0 m ρ c)
theorem W9_v0 (c : Dev nD) : Gen.W9 m ρ c (Proc.devRef .tc main_v0) = kXb (m ((c : Thread nD τ).loc main_arg0)) :=
  (show Gen.W9 m ρ c (Proc.devRef .tc main_v0) = Gen.W8 m ρ c (Proc.devRef .tc main_v0) by stretch_keeps hostOps4 main_v0).trans (W8_v0 m ρ c)

/-! ## main_v1 (the weights narrowed to bf16) -/

theorem W1_v1 (c : Dev nD) : Gen.W1 m ρ c (Proc.devRef .tc main_v1) = kWb (m ((c : Thread nD τ).loc main_arg2)) := by
  show StableHlo.after hostOps0 (Gen.W0 m ρ c) (Proc.devRef .tc main_v1) = _
  after_results_simp
  rfl
theorem W2_v1 (c : Dev nD) : Gen.W2 m ρ c (Proc.devRef .tc main_v1) = kWb (m ((c : Thread nD τ).loc main_arg2)) :=
  (Gen.W2_of_ne m ρ c main_v1 (by decide)).trans (W1_v1 m ρ c)
theorem W3_v1 (c : Dev nD) : Gen.W3 m ρ c (Proc.devRef .tc main_v1) = kWb (m ((c : Thread nD τ).loc main_arg2)) :=
  (show Gen.W3 m ρ c (Proc.devRef .tc main_v1) = Gen.W2 m ρ c (Proc.devRef .tc main_v1) by stretch_keeps hostOps1 main_v1).trans (W2_v1 m ρ c)
theorem W4_v1 (c : Dev nD) : Gen.W4 m ρ c (Proc.devRef .tc main_v1) = kWb (m ((c : Thread nD τ).loc main_arg2)) :=
  (Gen.W4_of_ne m ρ c main_v1 (by decide)).trans (W3_v1 m ρ c)
theorem W5_v1 (c : Dev nD) : Gen.W5 m ρ c (Proc.devRef .tc main_v1) = kWb (m ((c : Thread nD τ).loc main_arg2)) :=
  (show Gen.W5 m ρ c (Proc.devRef .tc main_v1) = Gen.W4 m ρ c (Proc.devRef .tc main_v1) by stretch_keeps hostOps2 main_v1).trans (W4_v1 m ρ c)
theorem W6_v1 (c : Dev nD) : Gen.W6 m ρ c (Proc.devRef .tc main_v1) = kWb (m ((c : Thread nD τ).loc main_arg2)) :=
  (Gen.W6_of_ne m ρ c main_v1 (by decide)).trans (W5_v1 m ρ c)
theorem W7_v1 (c : Dev nD) : Gen.W7 m ρ c (Proc.devRef .tc main_v1) = kWb (m ((c : Thread nD τ).loc main_arg2)) :=
  (show Gen.W7 m ρ c (Proc.devRef .tc main_v1) = Gen.W6 m ρ c (Proc.devRef .tc main_v1) by stretch_keeps hostOps3 main_v1).trans (W6_v1 m ρ c)
theorem W8_v1 (c : Dev nD) : Gen.W8 m ρ c (Proc.devRef .tc main_v1) = kWb (m ((c : Thread nD τ).loc main_arg2)) :=
  (Gen.W8_of_ne m ρ c main_v1 (by decide)).trans (W7_v1 m ρ c)

/-! ## main_v3 (the padded bf16 table) -/

theorem W1_v3 (c : Dev nD) : Gen.W1 m ρ c (Proc.devRef .tc main_v3) = kPadded (m ((c : Thread nD τ).loc main_arg0)) := by
  show StableHlo.after hostOps0 (Gen.W0 m ρ c) (Proc.devRef .tc main_v3) = _
  after_results_simp
  rfl
theorem W2_v3 (c : Dev nD) : Gen.W2 m ρ c (Proc.devRef .tc main_v3) = kPadded (m ((c : Thread nD τ).loc main_arg0)) :=
  (Gen.W2_of_ne m ρ c main_v3 (by decide)).trans (W1_v3 m ρ c)
theorem W3_v3 (c : Dev nD) : Gen.W3 m ρ c (Proc.devRef .tc main_v3) = kPadded (m ((c : Thread nD τ).loc main_arg0)) :=
  (show Gen.W3 m ρ c (Proc.devRef .tc main_v3) = Gen.W2 m ρ c (Proc.devRef .tc main_v3) by stretch_keeps hostOps1 main_v3).trans (W2_v3 m ρ c)
theorem W4_v3 (c : Dev nD) : Gen.W4 m ρ c (Proc.devRef .tc main_v3) = kPadded (m ((c : Thread nD τ).loc main_arg0)) :=
  (Gen.W4_of_ne m ρ c main_v3 (by decide)).trans (W3_v3 m ρ c)
theorem W5_v3 (c : Dev nD) : Gen.W5 m ρ c (Proc.devRef .tc main_v3) = kPadded (m ((c : Thread nD τ).loc main_arg0)) :=
  (show Gen.W5 m ρ c (Proc.devRef .tc main_v3) = Gen.W4 m ρ c (Proc.devRef .tc main_v3) by stretch_keeps hostOps2 main_v3).trans (W4_v3 m ρ c)
theorem W6_v3 (c : Dev nD) : Gen.W6 m ρ c (Proc.devRef .tc main_v3) = kPadded (m ((c : Thread nD τ).loc main_arg0)) :=
  (Gen.W6_of_ne m ρ c main_v3 (by decide)).trans (W5_v3 m ρ c)
theorem W7_v3 (c : Dev nD) : Gen.W7 m ρ c (Proc.devRef .tc main_v3) = kPadded (m ((c : Thread nD τ).loc main_arg0)) :=
  (show Gen.W7 m ρ c (Proc.devRef .tc main_v3) = Gen.W6 m ρ c (Proc.devRef .tc main_v3) by stretch_keeps hostOps3 main_v3).trans (W6_v3 m ρ c)
theorem W8_v3 (c : Dev nD) : Gen.W8 m ρ c (Proc.devRef .tc main_v3) = kPadded (m ((c : Thread nD τ).loc main_arg0)) :=
  (Gen.W8_of_ne m ρ c main_v3 (by decide)).trans (W7_v3 m ρ c)

end Cert.KernelIdeal.KV

end
-- ==== Proof.KGlue1.lean ====
/-
  What region 1 finds in its input arrays.

  The stretch before it sums the first axis's per-tile sums and sums of squares over the forty tiles and forms the
  per-channel mean and reciprocal standard deviation; it cuts the axis's rows out of the scale and shift tables. So the
  region's inputs are the convolution table and statistics that region 0 left, through those host functions, and the
  two table rows.
-/
import proofs.«134539_j3152505995485_2_alg».proof.Proof.Gen.KernelIdeal.Frame
import proofs.«134539_j3152505995485_2_alg».proof.Proof.KGlueDefs
import proofs.«134539_j3152505995485_2_alg».proof.Proof.KGlueTac
import proofs.«134539_j3152505995485_2_alg».proof.Proof.KGlueKeepA
import proofs.«134539_j3152505995485_2_alg».proof.Proof.KGlueKeepT

set_option maxRecDepth 16384

noncomputable section

namespace Cert.KernelIdeal.KV

open Idealize.ShloMosaic Idealize.ShloMosaic.TcCoe Idealize.ShloMosaic.Tactic
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-! ## Region 0's three outputs at its exit, by buffer -/

theorem W2_v28_0 (c : Dev nD) : Gen.W2 m ρ c (Proc.devRef .tc main_v28_0) = (Gen.dat0 (Gen.V1 m ρ) c).arrAt 6 cfg0.N := Gen.W2_arr m ρ c 6
theorem W2_v28_1 (c : Dev nD) : Gen.W2 m ρ c (Proc.devRef .tc main_v28_1) = (Gen.dat0 (Gen.V1 m ρ) c).arrAt 7 cfg0.N := Gen.W2_arr m ρ c 7
theorem W2_v28_2 (c : Dev nD) : Gen.W2 m ρ c (Proc.devRef .tc main_v28_2) = (Gen.dat0 (Gen.V1 m ρ) c).arrAt 8 cfg0.N := Gen.W2_arr m ρ c 8

/-! ## The input windows -/

/-- Window 0: the convolution table region 0 left (no operation of the stretch writes it). -/
theorem entry_1_0 (c : Dev nD) : Gen.V3 m ρ c (Pipeline.arrRef spec1 0) = (Gen.dat0 (Gen.V1 m ρ) c).arrAt 6 cfg0.N :=
  (show Gen.W3 m ρ c (Proc.devRef .tc main_v28_0) = Gen.W2 m ρ c (Proc.devRef .tc main_v28_0) by stretch_keeps hostOps1 main_v28_0).trans (W2_v28_0 m ρ c)

/-- Window 1: the per-channel mean of region 0's per-tile sums. -/
theorem entry_1_1 (c : Dev nD) : Gen.V3 m ρ c (Pipeline.arrRef spec1 1) = kMeanOf ((Gen.dat0 (Gen.V1 m ρ) c).arrAt 7 cfg0.N) := by
  show StableHlo.after hostOps1 (Gen.W2 m ρ c) (Proc.devRef .tc main_v32) = _
  after_results_simp
  rw [W2_v28_1 m ρ c]
  rfl

/-- Window 2: the per-channel reciprocal standard deviation from region 0's per-tile sums and sums of squares. -/
theorem entry_1_2 (c : Dev nD) : Gen.V3 m ρ c (Pipeline.arrRef spec1 2) = kInvOf ((Gen.dat0 (Gen.V1 m ρ) c).arrAt 7 cfg0.N) ((Gen.dat0 (Gen.V1 m ρ) c).arrAt 8 cfg0.N) := by
  show StableHlo.after hostOps1 (Gen.W2 m ρ c) (Proc.devRef .tc main_v41) = _
  after_results_simp
  rw [W2_v28_1 m ρ c, W2_v28_2 m ρ c]
  rfl

/-- Window 3: the first axis's row of the scale table. -/
theorem entry_1_3 (c : Dev nD) : Gen.V3 m ρ c (Pipeline.arrRef spec1 3) = kG0 (m ((c : Thread nD τ).loc main_arg3)) := by
  show StableHlo.after hostOps1 (Gen.W2 m ρ c) (Proc.devRef .tc main_v42) = _
  after_results_simp
  rw [W2_arg3 m ρ c]
  rfl

/-- Window 4: the first axis's row of the shift table. -/
theorem entry_1_4 (c : Dev nD) : Gen.V3 m ρ c (Pipeline.arrRef spec1 4) = kB0 (m ((c : Thread nD τ).loc main_arg4)) := by
  show StableHlo.after hostOps1 (Gen.W2 m ρ c) (Proc.devRef .tc main_v43) = _
  after_results_simp
  rw [W2_arg4 m ρ c]
  rfl

end Cert.KernelIdeal.KV

end
-- ==== Proof.KGlue3.lean ====
/-
  What region 3 finds in its input arrays.

  The stretch before it sums the second axis's per-tile sums and sums of squares over the forty tiles and forms the
  per-channel mean and reciprocal standard deviation; it cuts the axis's rows out of the scale and shift tables. So the
  region's inputs are the convolution table and statistics that region 2 left, through those host functions, and the
  two table rows.
  Its sixth input is the accumulator region 1 left; the stretch also copies that accumulator into the region's output
  array, which is what the output array holds when the region is entered.
-/
import proofs.«134539_j3152505995485_2_alg».proof.Proof.Gen.KernelIdeal.Frame
import proofs.«134539_j3152505995485_2_alg».proof.Proof.KGlueDefs
import proofs.«134539_j3152505995485_2_alg».proof.Proof.KGlueTac
import proofs.«134539_j3152505995485_2_alg».proof.Proof.KGlueKeepA
import proofs.«134539_j3152505995485_2_alg».proof.Proof.KGlueKeepT

set_option maxRecDepth 16384

noncomputable section

namespace Cert.KernelIdeal.KV

open Idealize.ShloMosaic Idealize.ShloMosaic.TcCoe Idealize.ShloMosaic.Tactic
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-! ## Region 2's three outputs at its exit, by buffer -/

theorem W6_v69_0 (c : Dev nD) : Gen.W6 m ρ c (Proc.devRef .tc main_v69_0) = (Gen.dat2 (Gen.V5 m ρ) c).arrAt 6 cfg2.N := Gen.W6_arr m ρ c 6
theorem W6_v69_1 (c : Dev nD) : Gen.W6 m ρ c (Proc.devRef .tc main_v69_1) = (Gen.dat2 (Gen.V5 m ρ) c).arrAt 7 cfg2.N := Gen.W6_arr m ρ c 7
theorem W6_v69_2 (c : Dev nD) : Gen.W6 m ρ c (Proc.devRef .tc main_v69_2) = (Gen.dat2 (Gen.V5 m ρ) c).arrAt 8 cfg2.N := Gen.W6_arr m ρ c 8

/-! ## The input windows -/

/-- Window 0: the convolution table region 2 left (no operation of the stretch writes it). -/
theorem entry_3_0 (c : Dev nD) : Gen.V7 m ρ c (Pipeline.arrRef spec3 0) = (Gen.dat2 (Gen.V5 m ρ) c).arrAt 6 cfg2.N :=
  (show Gen.W7 m ρ c (Proc.devRef .tc main_v69_0) = Gen.W6 m ρ c (Proc.devRef .tc main_v69_0) by stretch_keeps hostOps3 main_v69_0).trans (W6_v69_0 m ρ c)

/-- Window 1: the per-channel mean of region 2's per-tile sums. -/
theorem entry_3_1 (c : Dev nD) : Gen.V7 m ρ c (Pipeline.arrRef spec3 1) = kMeanOf ((Gen.dat2 (Gen.V5 m ρ) c).arrAt 7 cfg2.N) := by
  show StableHlo.after hostOps3 (Gen.W6 m ρ c) (Proc.devRef .tc main_v73) = _
  after_results_simp
  rw [W6_v69_1 m ρ c]
  rfl

/-- Window 2: the per-channel reciprocal standard deviation from region 2's per-tile sums and sums of squares. -/
theorem entry_3_2 (c : Dev nD) : Gen.V7 m ρ c (Pipeline.arrRef spec3 2) = kInvOf ((Gen.dat2 (Gen.V5 m ρ) c).arrAt 7 cfg2.N) ((Gen.dat2 (Gen.V5 m ρ) c).arrAt 8 cfg2.N) := by
  show StableHlo.after hostOps3 (Gen.W6 m ρ c) (Proc.devRef .tc main_v82) = _
  after_results_simp
  rw [W6_v69_1 m ρ c, W6_v69_2 m ρ c]
  rfl

/-- Window 3: the second axis's row of the scale table. -/
theorem entry_3_3 (c : Dev nD) : Gen.V7 m ρ c (Pipeline.arrRef spec3 3) = kG1 (m ((c : Thread nD τ).loc main_arg3)) := by
  show StableHlo.after hostOps3 (Gen.W6 m ρ c) (Proc.devRef .tc main_v83) = _
  after_results_simp
  rw [W6_arg3 m ρ c]
  rfl

/-- Window 4: the second axis's row of the shift table. -/
theorem entry_3_4 (c : Dev nD) : Gen.V7 m ρ c (Pipeline.arrRef spec3 4) = kB1 (m ((c : Thread nD τ).loc main_arg4)) := by
  show StableHlo.after hostOps3 (Gen.W6 m ρ c) (Proc.devRef .tc main_v84) = _
  after_results_simp
  rw [W6_arg4 m ρ c]
  rfl

/-! ## The accumulator -/

/-- Region 1's output at the exit of region 2: no operation of the stretch between writes it, and region 2 does not
    hold it among its arrays. -/
theorem W6_v44 (c : Dev nD) : Gen.W6 m ρ c (Proc.devRef .tc main_v44) = (Gen.dat1 (Gen.V3 m ρ) c).arrAt 5 cfg1.N :=
  (Gen.W6_of_ne m ρ c main_v44 (by decide)).trans ((show Gen.W5 m ρ c (Proc.devRef .tc main_v44) = Gen.W4 m ρ c (Proc.devRef .tc main_v44) by stretch_keeps hostOps2 main_v44).trans (Gen.W4_arr m ρ c 5))

/-- The same at the entry of region 3: no operation of the stretch before it writes that buffer (the last one reads it). -/
theorem W7_v44 (c : Dev nD) : Gen.W7 m ρ c (Proc.devRef .tc main_v44) = (Gen.dat1 (Gen.V3 m ρ) c).arrAt 5 cfg1.N :=
  (show Gen.W7 m ρ c (Proc.devRef .tc main_v44) = Gen.W6 m ρ c (Proc.devRef .tc main_v44) by stretch_keeps hostOps3 main_v44).trans (W6_v44 m ρ c)

/-- Window 5: the accumulator region 1 left. -/
theorem entry_3_5 (c : Dev nD) : Gen.V7 m ρ c (Pipeline.arrRef spec3 5) = (Gen.dat1 (Gen.V3 m ρ) c).arrAt 5 cfg1.N := W7_v44 m ρ c

/-- The output window 6 when the region is entered: a copy of the accumulator region 1 left. -/
theorem entry_3_6_init (c : Dev nD) : Gen.V7 m ρ c (Pipeline.arrRef spec3 6) = (Gen.dat1 (Gen.V3 m ρ) c).arrAt 5 cfg1.N := by
  show StableHlo.after hostOps3 (Gen.W6 m ρ c) (Proc.devRef .tc main_v85) = _
  after_results_simp
  exact W6_v44 m ρ c

end Cert.KernelIdeal.KV

end
-- ==== Proof.KGlue5.lean ====
/-
  What region 5 finds in its input arrays.

  The stretch before it sums the third axis's per-tile sums and sums of squares over the forty tiles and forms the
  per-channel mean and reciprocal standard deviation; it cuts the axis's rows out of the scale and shift tables. So the
  region's inputs are the convolution table and statistics that region 4 left, through those host functions, and the
  two table rows.
  Its sixth input is the accumulator region 3 left and its seventh the rows as launched.
-/
import proofs.«134539_j3152505995485_2_alg».proof.Proof.Gen.KernelIdeal.Frame
import proofs.«134539_j3152505995485_2_alg».proof.Proof.KGlueDefs
import proofs.«134539_j3152505995485_2_alg».proof.Proof.KGlueTac
import proofs.«134539_j3152505995485_2_alg».proof.Proof.KGlueKeepA
import proofs.«134539_j3152505995485_2_alg».proof.Proof.KGlueKeepT

set_option maxRecDepth 16384

noncomputable section

namespace Cert.KernelIdeal.KV

open Idealize.ShloMosaic Idealize.ShloMosaic.TcCoe Idealize.ShloMosaic.Tactic
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-! ## Region 4's three outputs at its exit, by buffer -/

theorem W10_v110_0 (c : Dev nD) : Gen.W10 m ρ c (Proc.devRef .tc main_v110_0) = (Gen.dat4 (Gen.V9 m ρ) c).arrAt 6 cfg4.N := Gen.W10_arr m ρ c 6
theorem W10_v110_1 (c : Dev nD) : Gen.W10 m ρ c (Proc.devRef .tc main_v110_1) = (Gen.dat4 (Gen.V9 m ρ) c).arrAt 7 cfg4.N := Gen.W10_arr m ρ c 7
theorem W10_v110_2 (c : Dev nD) : Gen.W10 m ρ c (Proc.devRef .tc main_v110_2) = (Gen.dat4 (Gen.V9 m ρ) c).arrAt 8 cfg4.N := Gen.W10_arr m ρ c 8

/-! ## The input windows -/

/-- Window 0: the convolution table region 4 left (no operation of the stretch writes it). -/
theorem entry_5_0 (c : Dev nD) : Gen.V11 m ρ c (Pipeline.arrRef spec5 0) = (Gen.dat4 (Gen.V9 m ρ) c).arrAt 6 cfg4.N :=
  (show Gen.W11 m ρ c (Proc.devRef .tc main_v110_0) = Gen.W10 m ρ c (Proc.devRef .tc main_v110_0) by stretch_keeps hostOps5 main_v110_0).trans (W10_v110_0 m ρ c)

/-- Window 1: the per-channel mean of region 4's per-tile sums. -/
theorem entry_5_1 (c : Dev nD) : Gen.V11 m ρ c (Pipeline.arrRef spec5 1) = kMeanOf ((Gen.dat4 (Gen.V9 m ρ) c).arrAt 7 cfg4.N) := by
  show StableHlo.after hostOps5 (Gen.W10 m ρ c) (Proc.devRef .tc main_v114) = _
  after_results_simp
  rw [W10_v110_1 m ρ c]
  rfl

/-- Window 2: the per-channel reciprocal standard deviation from region 4's per-tile sums and sums of squares. -/
theorem entry_5_2 (c : Dev nD) : Gen.V11 m ρ c (Pipeline.arrRef spec5 2) = kInvOf ((Gen.dat4 (Gen.V9 m ρ) c).arrAt 7 cfg4.N) ((Gen.dat4 (Gen.V9 m ρ) c).arrAt 8 cfg4.N) := by
  show StableHlo.after hostOps5 (Gen.W10 m ρ c) (Proc.devRef .tc main_v123) = _
  after_results_simp
  rw [W10_v110_1 m ρ c, W10_v110_2 m ρ c]
  rfl

/-- Window 3: the third axis's row of the scale table. -/
theorem entry_5_3 (c : Dev nD) : Gen.V11 m ρ c (Pipeline.arrRef spec5 3) = kG2 (m ((c : Thread nD τ).loc main_arg3)) := by
  show StableHlo.after hostOps5 (Gen.W10 m ρ c) (Proc.devRef .tc main_v124) = _
  after_results_simp
  rw [W10_arg3 m ρ c]
  rfl

/-- Window 4: the third axis's row of the shift table. -/
theorem entry_5_4 (c : Dev nD) : Gen.V11 m ρ c (Pipeline.arrRef spec5 4) = kB2 (m ((c : Thread nD τ).loc main_arg4)) := by
  show StableHlo.after hostOps5 (Gen.W10 m ρ c) (Proc.devRef .tc main_v125) = _
  after_results_simp
  rw [W10_arg4 m ρ c]
  rfl

/-! ## The accumulator and the rows -/

/-- Region 3's output at the entry of region 5: no operation of the two stretches between writes it, and region 4
    does not hold it among its arrays. -/
theorem W11_v85 (c : Dev nD) : Gen.W11 m ρ c (Proc.devRef .tc main_v85) = (Gen.dat3 (Gen.V7 m ρ) c).arrAt 6 cfg3.N :=
  (show Gen.W11 m ρ c (Proc.devRef .tc main_v85) = Gen.W10 m ρ c (Proc.devRef .tc main_v85) by stretch_keeps hostOps5 main_v85).trans ((Gen.W10_of_ne m ρ c main_v85 (by decide)).trans ((show Gen.W9 m ρ c (Proc.devRef .tc main_v85) = Gen.W8 m ρ c (Proc.devRef .tc main_v85) by stretch_keeps hostOps4 main_v85).trans (Gen.W8_arr m ρ c 6)))

/-- Window 5: the accumulator region 3 left. -/
theorem entry_5_5 (c : Dev nD) : Gen.V11 m ρ c (Pipeline.arrRef spec5 5) = (Gen.dat3 (Gen.V7 m ρ) c).arrAt 6 cfg3.N := W11_v85 m ρ c

/-- Window 6: the rows as launched. -/
theorem entry_5_6 (c : Dev nD) : Gen.V11 m ρ c (Pipeline.arrRef spec5 6) = m ((c : Thread nD τ).loc main_arg0) := W11_arg0 m ρ c

/-! ## The result -/

/-- The result buffer at the last boundary is what region 5's write-backs leave in its output window. -/
theorem exit_value (c : Dev nD) : Gen.W12 m ρ c (Proc.devRef .tc main_v126) = (Gen.dat5 (Gen.V11 m ρ) c).arrAt 7 cfg5.N := Gen.W12_arr m ρ c 7

end Cert.KernelIdeal.KV

end
-- ==== Proof.KValue.lean ====
/-
  The kernel program's result, entry by entry, from its arguments.

  Regions 0, 2 and 4 leave an axis's convolution table with its per-tile sums and sums of squares (`ConvFacts`); the
  host forms the statistics; regions 1, 3 and 5 send the normalised table through the logistic function and add the
  axes up, the last one multiplying by the rows.
-/
import proofs.«134539_j3152505995485_2_alg».proof.Proof.KTables
import proofs.«134539_j3152505995485_2_alg».proof.Proof.KAxis
import proofs.«134539_j3152505995485_2_alg».proof.Proof.KAcc1
import proofs.«134539_j3152505995485_2_alg».proof.Proof.KAcc3
import proofs.«134539_j3152505995485_2_alg».proof.Proof.KAcc5
import proofs.«134539_j3152505995485_2_alg».proof.Proof.KGlue1
import proofs.«134539_j3152505995485_2_alg».proof.Proof.KGlue3
import proofs.«134539_j3152505995485_2_alg».proof.Proof.KGlue5

noncomputable section

namespace Cert.KernelIdeal.KV

open Idealize.ShloMosaic Idealize.ShloMosaic.TcCoe Idealize.ShloMosaic.ValueIdx Idealize.SL.Sem Cert.Spec
open Cert.KernelIdeal Cert.KernelIdeal.Gen
open scoped BigOperators

variable (m : (ℓ : Loc nD τ sig) → Buf (Elt Ideal) ℓ) (ρ : Dev nD → PrngReg) (c : Dev nD)

/-- After region 1: the first axis's table through the logistic function. -/
theorem sig0_at (T0 : Tab) (h0 : ConvFacts ((Gen.dat0 (Gen.V1 m ρ) c).arrAt 6 cfg0.N) ((Gen.dat0 (Gen.V1 m ρ) c).arrAt 7 cfg0.N) ((Gen.dat0 (Gen.V1 m ρ) c).arrAt 8 cfg0.N) T0) (r : Fin 200000) (q : Fin 128) :
    ((Gen.dat1 (Gen.V3 m ρ) c).arrAt 5 cfg1.N (ix2 r q) : EReal) = kSig T0 (rowOf3 (m ((c : Thread nD τ).loc main_arg3)) 0) (rowOf3 (m ((c : Thread nD τ).loc main_arg4)) 0) r q :=
  core_first _ _ _ _ _ _ _ _ _ T0 _ _ (acc_1 (Gen.V3 m ρ) c) (entry_1_0 m ρ c) h0 (entry_1_1 m ρ c) (entry_1_2 m ρ c)
    (fun q => (congrArg (fun A => row A q) (entry_1_3 m ρ c)).trans (kG0_at _ q))
    (fun q => (congrArg (fun A => row A q) (entry_1_4 m ρ c)).trans (kB0_at _ q)) r q

/-- After region 3: the first two axes' tables added. -/
theorem sig1_at (T0 T1 : Tab) (h0 : ConvFacts ((Gen.dat0 (Gen.V1 m ρ) c).arrAt 6 cfg0.N) ((Gen.dat0 (Gen.V1 m ρ) c).arrAt 7 cfg0.N) ((Gen.dat0 (Gen.V1 m ρ) c).arrAt 8 cfg0.N) T0) (h1 : ConvFacts ((Gen.dat2 (Gen.V5 m ρ) c).arrAt 6 cfg2.N) ((Gen.dat2 (Gen.V5 m ρ) c).arrAt 7 cfg2.N) ((Gen.dat2 (Gen.V5 m ρ) c).arrAt 8 cfg2.N) T1) (r : Fin 200000) (q : Fin 128) :
    ((Gen.dat3 (Gen.V7 m ρ) c).arrAt 6 cfg3.N (ix2 r q) : EReal)
      = kSig T0 (rowOf3 (m ((c : Thread nD τ).loc main_arg3)) 0) (rowOf3 (m ((c : Thread nD τ).loc main_arg4)) 0) r q + kSig T1 (rowOf3 (m ((c : Thread nD τ).loc main_arg3)) 1) (rowOf3 (m ((c : Thread nD τ).loc main_arg4)) 1) r q :=
  core_add _ _ _ _ _ _ _ _ _ _ _ T1 _ _ _ (acc_3 (Gen.V7 m ρ) c) (entry_3_5 m ρ c) (sig0_at m ρ c T0 h0)
    (entry_3_0 m ρ c) h1 (entry_3_1 m ρ c) (entry_3_2 m ρ c)
    (fun q => (congrArg (fun A => row A q) (entry_3_3 m ρ c)).trans (kG1_at _ q))
    (fun q => (congrArg (fun A => row A q) (entry_3_4 m ρ c)).trans (kB1_at _ q)) r q

/-- After region 5: the three axes' tables added, times the rows. -/
theorem last_at (T0 T1 T2 : Tab) (h0 : ConvFacts ((Gen.dat0 (Gen.V1 m ρ) c).arrAt 6 cfg0.N) ((Gen.dat0 (Gen.V1 m ρ) c).arrAt 7 cfg0.N) ((Gen.dat0 (Gen.V1 m ρ) c).arrAt 8 cfg0.N) T0) (h1 : ConvFacts ((Gen.dat2 (Gen.V5 m ρ) c).arrAt 6 cfg2.N) ((Gen.dat2 (Gen.V5 m ρ) c).arrAt 7 cfg2.N) ((Gen.dat2 (Gen.V5 m ρ) c).arrAt 8 cfg2.N) T1) (h2 : ConvFacts ((Gen.dat4 (Gen.V9 m ρ) c).arrAt 6 cfg4.N) ((Gen.dat4 (Gen.V9 m ρ) c).arrAt 7 cfg4.N) ((Gen.dat4 (Gen.V9 m ρ) c).arrAt 8 cfg4.N) T2)
    (r : Fin 200000) (q : Fin 128) :
    ((Gen.dat5 (Gen.V11 m ρ) c).arrAt 7 cfg5.N (ix2 r q) : EReal)
      = ((kSig T0 (rowOf3 (m ((c : Thread nD τ).loc main_arg3)) 0) (rowOf3 (m ((c : Thread nD τ).loc main_arg4)) 0) r q + kSig T1 (rowOf3 (m ((c : Thread nD τ).loc main_arg3)) 1) (rowOf3 (m ((c : Thread nD τ).loc main_arg4)) 1) r q)
          + kSig T2 (rowOf3 (m ((c : Thread nD τ).loc main_arg3)) 2) (rowOf3 (m ((c : Thread nD τ).loc main_arg4)) 2) r q) * tab (m ((c : Thread nD τ).loc main_arg0)) r q :=
  core_last _ _ _ _ _ _ _ _ _ _ _ _ _ T2 _ _ _ (acc_5 (Gen.V11 m ρ) c) (entry_5_5 m ρ c) (sig1_at m ρ c T0 T1 h0 h1) (entry_5_6 m ρ c)
    (entry_5_0 m ρ c) h2 (entry_5_1 m ρ c) (entry_5_2 m ρ c)
    (fun q => (congrArg (fun A => row A q) (entry_5_3 m ρ c)).trans (kG2_at _ q))
    (fun q => (congrArg (fun A => row A q) (entry_5_4 m ρ c)).trans (kB2_at _ q)) r q

/-- The result buffer's final contents, entry by entry. -/
theorem out_at (T0 T1 T2 : Tab) (h0 : ConvFacts ((Gen.dat0 (Gen.V1 m ρ) c).arrAt 6 cfg0.N) ((Gen.dat0 (Gen.V1 m ρ) c).arrAt 7 cfg0.N) ((Gen.dat0 (Gen.V1 m ρ) c).arrAt 8 cfg0.N) T0) (h1 : ConvFacts ((Gen.dat2 (Gen.V5 m ρ) c).arrAt 6 cfg2.N) ((Gen.dat2 (Gen.V5 m ρ) c).arrAt 7 cfg2.N) ((Gen.dat2 (Gen.V5 m ρ) c).arrAt 8 cfg2.N) T1) (h2 : ConvFacts ((Gen.dat4 (Gen.V9 m ρ) c).arrAt 6 cfg4.N) ((Gen.dat4 (Gen.V9 m ρ) c).arrAt 7 cfg4.N) ((Gen.dat4 (Gen.V9 m ρ) c).arrAt 8 cfg4.N) T2)
    (r : Fin 200000) (q : Fin 128) :
    (Gen.W12 m ρ c (Proc.devRef .tc main_v126) (ix2 r q) : EReal)
      = kOut T0 T1 T2 (rowOf3 (m ((c : Thread nD τ).loc main_arg3)) 0) (rowOf3 (m ((c : Thread nD τ).loc main_arg4)) 0) (rowOf3 (m ((c : Thread nD τ).loc main_arg3)) 1) (rowOf3 (m ((c : Thread nD τ).loc main_arg4)) 1) (rowOf3 (m ((c : Thread nD τ).loc main_arg3)) 2) (rowOf3 (m ((c : Thread nD τ).loc main_arg4)) 2)
          (tab (m ((c : Thread nD τ).loc main_arg0))) r q :=
  (congrFun (exit_value m ρ c) (ix2 r q)).trans (last_at m ρ c T0 T1 T2 h0 h1 h2 r q)

end Cert.KernelIdeal.KV

end
-- ==== Proof.KGlue0.lean ====
/-
  What the first region finds in its input arrays.

  The first host stretch runs from the launch memory, so each of the region's six input arrays is a function of the
  argument arrays alone: the rows gathered at the first axis's previous-neighbour and next-neighbour index vectors
  from the padded bf16 table, the rows narrowed to bf16, and the first axis's three weight matrices.
-/
import proofs.«134539_j3152505995485_2_alg».proof.Proof.Gen.KernelIdeal.Frame
import proofs.«134539_j3152505995485_2_alg».proof.Proof.KGlueDefs
import proofs.«134539_j3152505995485_2_alg».proof.Proof.KGlueTac

set_option maxRecDepth 16384

noncomputable section

namespace Cert.KernelIdeal.KV

open Idealize.ShloMosaic Idealize.ShloMosaic.TcCoe Idealize.ShloMosaic.Tactic
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- Window 0: the padded table's rows at the first axis's previous-neighbour indices. -/
theorem entry_0_0 (c : Dev nD) : Gen.V1 m ρ c (Pipeline.arrRef spec0 0) = kRowsAt (kPadded (m ((c : Thread nD τ).loc main_arg0))) (kIdx00 (m ((c : Thread nD τ).loc main_arg1))) := by
  show StableHlo.after hostOps0 (Gen.W0 m ρ c) (Proc.devRef .tc main_v12) = _
  after_results_simp
  rfl

/-- Window 1: the rows narrowed to bf16. -/
theorem entry_0_1 (c : Dev nD) : Gen.V1 m ρ c (Pipeline.arrRef spec0 1) = kXb (m ((c : Thread nD τ).loc main_arg0)) := by
  show StableHlo.after hostOps0 (Gen.W0 m ρ c) (Proc.devRef .tc main_v0) = _
  after_results_simp
  rfl

/-- Window 2: the padded table's rows at the first axis's next-neighbour indices. -/
theorem entry_0_2 (c : Dev nD) : Gen.V1 m ρ c (Pipeline.arrRef spec0 2) = kRowsAt (kPadded (m ((c : Thread nD τ).loc main_arg0))) (kIdx01 (m ((c : Thread nD τ).loc main_arg1))) := by
  show StableHlo.after hostOps0 (Gen.W0 m ρ c) (Proc.devRef .tc main_v21) = _
  after_results_simp
  rfl

/-- Windows 3 to 5: the first axis's three weight matrices. -/
theorem entry_0_3 (c : Dev nD) : Gen.V1 m ρ c (Pipeline.arrRef spec0 3) = kW00 (m ((c : Thread nD τ).loc main_arg2)) := by
  show StableHlo.after hostOps0 (Gen.W0 m ρ c) (Proc.devRef .tc main_v23) = _
  after_results_simp
  rfl

theorem entry_0_4 (c : Dev nD) : Gen.V1 m ρ c (Pipeline.arrRef spec0 4) = kW01 (m ((c : Thread nD τ).loc main_arg2)) := by
  show StableHlo.after hostOps0 (Gen.W0 m ρ c) (Proc.devRef .tc main_v25) = _
  after_results_simp
  rfl

theorem entry_0_5 (c : Dev nD) : Gen.V1 m ρ c (Pipeline.arrRef spec0 5) = kW02 (m ((c : Thread nD τ).loc main_arg2)) := by
  show StableHlo.after hostOps0 (Gen.W0 m ρ c) (Proc.devRef .tc main_v27) = _
  after_results_simp
  rfl

end Cert.KernelIdeal.KV

end
-- ==== Proof.KGlue2.lean ====
/-
  What region 2 finds in its input arrays.

  The stretch before it gathers the padded bf16 table's rows at the second axis's two index vectors and cuts the axis's
  three matrices out of the narrowed weights. The padded table, the narrowed weights and the narrowed rows were formed
  by the first stretch and are unchanged since; the index table is as launched. So each input array is a function of
  the argument arrays alone.
-/
import proofs.«134539_j3152505995485_2_alg».proof.Proof.Gen.KernelIdeal.Frame
import proofs.«134539_j3152505995485_2_alg».proof.Proof.KGlueDefs
import proofs.«134539_j3152505995485_2_alg».proof.Proof.KGlueTac
import proofs.«134539_j3152505995485_2_alg».proof.Proof.KGlueKeepA
import proofs.«134539_j3152505995485_2_alg».proof.Proof.KGlueKeepT

set_option maxRecDepth 16384

noncomputable section

namespace Cert.KernelIdeal.KV

open Idealize.ShloMosaic Idealize.ShloMosaic.TcCoe Idealize.ShloMosaic.Tactic
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- Window 0: the padded table's rows at the second axis's previous-neighbour indices. -/
theorem entry_2_0 (c : Dev nD) : Gen.V5 m ρ c (Pipeline.arrRef spec2 0) = kRowsAt (kPadded (m ((c : Thread nD τ).loc main_arg0))) (kIdx10 (m ((c : Thread nD τ).loc main_arg1))) := by
  show StableHlo.after hostOps2 (Gen.W4 m ρ c) (Proc.devRef .tc main_v53) = _
  after_results_simp
  rw [W4_v3 m ρ c, W4_arg1 m ρ c]
  rfl

/-- Window 1: the rows narrowed to bf16. -/
theorem entry_2_1 (c : Dev nD) : Gen.V5 m ρ c (Pipeline.arrRef spec2 1) = kXb (m ((c : Thread nD τ).loc main_arg0)) := W5_v0 m ρ c

/-- Window 2: the padded table's rows at the second axis's next-neighbour indices. -/
theorem entry_2_2 (c : Dev nD) : Gen.V5 m ρ c (Pipeline.arrRef spec2 2) = kRowsAt (kPadded (m ((c : Thread nD τ).loc main_arg0))) (kIdx11 (m ((c : Thread nD τ).loc main_arg1))) := by
  show StableHlo.after hostOps2 (Gen.W4 m ρ c) (Proc.devRef .tc main_v62) = _
  after_results_simp
  rw [W4_v3 m ρ c, W4_arg1 m ρ c]
  rfl

/-- Windows 3 to 5: the second axis's three weight matrices. -/
theorem entry_2_3 (c : Dev nD) : Gen.V5 m ρ c (Pipeline.arrRef spec2 3) = kW10 (m ((c : Thread nD τ).loc main_arg2)) := by
  show StableHlo.after hostOps2 (Gen.W4 m ρ c) (Proc.devRef .tc main_v64) = _
  after_results_simp
  rw [W4_v1 m ρ c]
  rfl

theorem entry_2_4 (c : Dev nD) : Gen.V5 m ρ c (Pipeline.arrRef spec2 4) = kW11 (m ((c : Thread nD τ).loc main_arg2)) := by
  show StableHlo.after hostOps2 (Gen.W4 m ρ c) (Proc.devRef .tc main_v66) = _
  after_results_simp
  rw [W4_v1 m ρ c]
  rfl

theorem entry_2_5 (c : Dev nD) : Gen.V5 m ρ c (Pipeline.arrRef spec2 5) = kW12 (m ((c : Thread nD τ).loc main_arg2)) := by
  show StableHlo.after hostOps2 (Gen.W4 m ρ c) (Proc.devRef .tc main_v68) = _
  after_results_simp
  rw [W4_v1 m ρ c]
  rfl

end Cert.KernelIdeal.KV

end
-- ==== Proof.KGlue4.lean ====
/-
  What region 4 finds in its input arrays.

  The stretch before it gathers the padded bf16 table's rows at the third axis's two index vectors and cuts the axis's
  three matrices out of the narrowed weights. The padded table, the narrowed weights and the narrowed rows were formed
  by the first stretch and are unchanged since; the index table is as launched. So each input array is a function of
  the argument arrays alone.
-/
import proofs.«134539_j3152505995485_2_alg».proof.Proof.Gen.KernelIdeal.Frame
import proofs.«134539_j3152505995485_2_alg».proof.Proof.KGlueDefs
import proofs.«134539_j3152505995485_2_alg».proof.Proof.KGlueTac
import proofs.«134539_j3152505995485_2_alg».proof.Proof.KGlueKeepA
import proofs.«134539_j3152505995485_2_alg».proof.Proof.KGlueKeepT

set_option maxRecDepth 16384

noncomputable section

namespace Cert.KernelIdeal.KV

open Idealize.ShloMosaic Idealize.ShloMosaic.TcCoe Idealize.ShloMosaic.Tactic
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- Window 0: the padded table's rows at the third axis's previous-neighbour indices. -/
theorem entry_4_0 (c : Dev nD) : Gen.V9 m ρ c (Pipeline.arrRef spec4 0) = kRowsAt (kPadded (m ((c : Thread nD τ).loc main_arg0))) (kIdx20 (m ((c : Thread nD τ).loc main_arg1))) := by
  show StableHlo.after hostOps4 (Gen.W8 m ρ c) (Proc.devRef .tc main_v94) = _
  after_results_simp
  rw [W8_v3 m ρ c, W8_arg1 m ρ c]
  rfl

/-- Window 1: the rows narrowed to bf16. -/
theorem entry_4_1 (c : Dev nD) : Gen.V9 m ρ c (Pipeline.arrRef spec4 1) = kXb (m ((c : Thread nD τ).loc main_arg0)) := W9_v0 m ρ c

/-- Window 2: the padded table's rows at the third axis's next-neighbour indices. -/
theorem entry_4_2 (c : Dev nD) : Gen.V9 m ρ c (Pipeline.arrRef spec4 2) = kRowsAt (kPadded (m ((c : Thread nD τ).loc main_arg0))) (kIdx21 (m ((c : Thread nD τ).loc main_arg1))) := by
  show StableHlo.after hostOps4 (Gen.W8 m ρ c) (Proc.devRef .tc main_v103) = _
  after_results_simp
  rw [W8_v3 m ρ c, W8_arg1 m ρ c]
  rfl

/-- Windows 3 to 5: the third axis's three weight matrices. -/
theorem entry_4_3 (c : Dev nD) : Gen.V9 m ρ c (Pipeline.arrRef spec4 3) = kW20 (m ((c : Thread nD τ).loc main_arg2)) := by
  show StableHlo.after hostOps4 (Gen.W8 m ρ c) (Proc.devRef .tc main_v105) = _
  after_results_simp
  rw [W8_v1 m ρ c]
  rfl

theorem entry_4_4 (c : Dev nD) : Gen.V9 m ρ c (Pipeline.arrRef spec4 4) = kW21 (m ((c : Thread nD τ).loc main_arg2)) := by
  show StableHlo.after hostOps4 (Gen.W8 m ρ c) (Proc.devRef .tc main_v107) = _
  after_results_simp
  rw [W8_v1 m ρ c]
  rfl

theorem entry_4_5 (c : Dev nD) : Gen.V9 m ρ c (Pipeline.arrRef spec4 5) = kW22 (m ((c : Thread nD τ).loc main_arg2)) := by
  show StableHlo.after hostOps4 (Gen.W8 m ρ c) (Proc.devRef .tc main_v109) = _
  after_results_simp
  rw [W8_v1 m ρ c]
  rfl

end Cert.KernelIdeal.KV

end
-- ==== Proof.KConvLib.lean ====
/-
  Region 0's tile computation and its input blocks, shared by the three output arrays of the region.

  The region walks 40 tiles of 5000 rows. At tile `t` it reads rows `5000 t … 5000 t + 4999` of three tables and
  three whole 128-by-128 matrices, and forms the tile's convolution: entry `(p, q)` is the sum of three products,
  `(∑ k, x0 (p, k) · x3 (k, q) + ∑ k, x1 (p, k) · x4 (k, q)) + ∑ k, x2 (p, k) · x5 (k, q)` — each product accumulates
  into zero, so no accumulator is left (`conv0_pay`). A table window's block at tile `t`, read at `(p, k)`, is the
  table's entry at row `5000 t + p` (`iblk0_0_at` …); a matrix window's block is the whole matrix (`iblk0_3` …).
  Hence the tile's convolution is the tables' convolution at the tile's rows (`conv0_blk`).
-/
import proofs.«134539_j3152505995485_2_alg».proof.Proof.KRegionLib
import proofs.«134539_j3152505995485_2_alg».proof.Proof.LibDot
import proofs.«134539_j3152505995485_2_alg».proof.Proof.Gen.KernelIdeal.Frame
import Idealize.ShloMosaic.Lib.Pipeline.Value

noncomputable section

namespace Cert.KernelIdeal.KV

open Cert.KernelIdeal Cert.KernelIdeal.Gen Idealize.ShloMosaic Idealize.ShloMosaic.TcCoe Idealize.ShloMosaic.ValueIdx Idealize.SL.Sem
open Idealize.ShloMosaic.Pipeline (Dat)
open scoped BigOperators

/-! ## One tile's convolution at an entry -/

/-- A 5000-by-128 block times a 128-by-128 matrix into a zero accumulator, at `(p, q)`: the sum over the middle index. -/
theorem mm0_apply (a : FVec Ideal S5000x128 .bf16) (b : FVec Ideal S128x128 .bf16) (p : Fin 5000) (q : Fin 128) :
    matmul dot_S5000x128_S128x128_S5000x128_1_0_0_1_n_n none a b (constant S5000x128 .f32 0x00000000#32) (ix2 p q)
      = ∑ k : Fin 128, a (ix2 p k) * b (ix2 k q) :=
  Cert.LibDot.matmul_zero_apply dot_S5000x128_S128x128_S5000x128_1_0_0_1_n_n rfl rfl
    (fun _ _ => rfl) (fun _ _ => rfl) (fun _ _ => rfl) (fun _ _ => rfl) none a b p q

/-- The tile's convolution at `(p, q)`: three products summed, the first two first. -/
theorem conv0_pay (x0 x1 x2 : FVec Ideal S5000x128 .bf16) (x3 x4 x5 : FVec Ideal S128x128 .bf16) (p : Fin 5000) (q : Fin 128) :
    k0_pay1 (F := Ideal) x0 x1 x2 x3 x4 x5 (ix2 p q)
      = ((∑ k : Fin 128, x0 (ix2 p k) * x3 (ix2 k q)) + ∑ k : Fin 128, x1 (ix2 p k) * x4 (ix2 k q))
          + ∑ k : Fin 128, x2 (ix2 p k) * x5 (ix2 k q) := by
  unfold k0_pay1
  simp only [shapeCast_self]
  show (matmul dot_S5000x128_S128x128_S5000x128_1_0_0_1_n_n none x0 x3 (constant S5000x128 .f32 0x00000000#32) (ix2 p q)
      + matmul dot_S5000x128_S128x128_S5000x128_1_0_0_1_n_n none x1 x4 (constant S5000x128 .f32 0x00000000#32) (ix2 p q))
      + matmul dot_S5000x128_S128x128_S5000x128_1_0_0_1_n_n none x2 x5 (constant S5000x128 .f32 0x00000000#32) (ix2 p q) = _
  rw [mm0_apply, mm0_apply, mm0_apply]

/-- The same statement under the payload's own name. -/
theorem k0_pay1_apply (x0 x1 x2 : FVec Ideal S5000x128 .bf16) (x3 x4 x5 : FVec Ideal S128x128 .bf16) (p : Fin 5000) (q : Fin 128) :
    k0_pay1 (F := Ideal) x0 x1 x2 x3 x4 x5 (ix2 p q)
      = ((∑ k : Fin 128, x0 (ix2 p k) * x3 (ix2 k q)) + ∑ k : Fin 128, x1 (ix2 p k) * x4 (ix2 k q))
          + ∑ k : Fin 128, x2 (ix2 p k) * x5 (ix2 k q) := conv0_pay x0 x1 x2 x3 x4 x5 p q

/-- The convolution table of three tables and three matrices given as arrays. -/
def convT0 (a0 a1 a2 : S200000x128.Idx → EReal) (a3 a4 a5 : S128x128.Idx → EReal) : Cert.Spec.Tab :=
  Cert.Spec.conv (Cert.Spec.tab a0) (Cert.Spec.tab a1) (Cert.Spec.tab a2) (Cert.Spec.mat a3) (Cert.Spec.mat a4) (Cert.Spec.mat a5)

/-! ## The windows' blocks at a tile -/

/-- The windows' block indices at tile `t`, decided over the 40 tiles: the tables move with the tile, the matrices stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b)) (c : Dev nD)

/-- Table window 0's block at tile `t`, read at `(p, k)`, is the table's entry at row `5000 t + p`, column `k`. -/
theorem iblk0_0_at (t : Fin cfg0.N) (i : Fin 40) (hti : t.val = i.val) (p : Fin 5000) (k : Fin 128) :
    (iblk0 V c 0 t : S5000x128.Idx → EReal) (ix2 p k) = Cert.Spec.tab (V c (Pipeline.arrRef spec0 0)) (Cert.Spec.tileRow i p) k := by
  obtain ⟨e00, e01, e10, e11, e20, e21, e30, e31, e40, e41, e50, e51, e60, e61⟩ := idx_facts0 t
  unfold iblk0
  rw [View.read_apply]
  show V c (Pipeline.arrRef spec0 0) _ = V c (Pipeline.arrRef spec0 0) (ix2 (Cert.Spec.tileRow i p) k)
  refine congrArg _ (funext fun a => Fin.ext ?_)
  match a with
  | ⟨0, _⟩ => show win0_0.index t (0 : Fin 2) * 5000 + 1 * p.val = 5000 * i.val + p.val; omega
  | ⟨1, _⟩ => show win0_0.index t (1 : Fin 2) * 128 + 1 * k.val = k.val; omega

/-- Table window 1's block at tile `t`, read at `(p, k)`, is the table's entry at row `5000 t + p`, column `k`. -/
theorem iblk0_1_at (t : Fin cfg0.N) (i : Fin 40) (hti : t.val = i.val) (p : Fin 5000) (k : Fin 128) :
    (iblk0 V c 1 t : S5000x128.Idx → EReal) (ix2 p k) = Cert.Spec.tab (V c (Pipeline.arrRef spec0 1)) (Cert.Spec.tileRow i p) k := by
  obtain ⟨e00, e01, e10, e11, e20, e21, e30, e31, e40, e41, e50, e51, e60, e61⟩ := idx_facts0 t
  unfold iblk0
  rw [View.read_apply]
  show V c (Pipeline.arrRef spec0 1) _ = V c (Pipeline.arrRef spec0 1) (ix2 (Cert.Spec.tileRow i p) k)
  refine congrArg _ (funext fun a => Fin.ext ?_)
  match a with
  | ⟨0, _⟩ => show win0_1.index t (0 : Fin 2) * 5000 + 1 * p.val = 5000 * i.val + p.val; omega
  | ⟨1, _⟩ => show win0_1.index t (1 : Fin 2) * 128 + 1 * k.val = k.val; omega

/-- Table window 2's block at tile `t`, read at `(p, k)`, is the table's entry at row `5000 t + p`, column `k`. -/
theorem iblk0_2_at (t : Fin cfg0.N) (i : Fin 40) (hti : t.val = i.val) (p : Fin 5000) (k : Fin 128) :
    (iblk0 V c 2 t : S5000x128.Idx → EReal) (ix2 p k) = Cert.Spec.tab (V c (Pipeline.arrRef spec0 2)) (Cert.Spec.tileRow i p) k := by
  obtain ⟨e00, e01, e10, e11, e20, e21, e30, e31, e40, e41, e50, e51, e60, e61⟩ := idx_facts0 t
  unfold iblk0
  rw [View.read_apply]
  show V c (Pipeline.arrRef spec0 2) _ = V c (Pipeline.arrRef spec0 2) (ix2 (Cert.Spec.tileRow i p) k)
  refine congrArg _ (funext fun a => Fin.ext ?_)
  match a with
  | ⟨0, _⟩ => show win0_2.index t (0 : Fin 2) * 5000 + 1 * p.val = 5000 * i.val + p.val; omega
  | ⟨1, _⟩ => show win0_2.index t (1 : Fin 2) * 128 + 1 * k.val = k.val; omega

/-- Matrix window 3's block is its whole array at every tile: its block index is (0, 0). -/
theorem iblk0_3 (t : Fin cfg0.N) : (iblk0 V c 3 t : Vec Ideal S128x128 .bf16) = V c (Pipeline.arrRef spec0 3) := by
  obtain ⟨e00, e01, e10, e11, e20, e21, e30, e31, e40, e41, e50, e51, e60, e61⟩ := idx_facts0 t
  funext y
  unfold iblk0
  rw [View.read_apply]
  show V c (Pipeline.arrRef spec0 3) _ = V c (Pipeline.arrRef spec0 3) _
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Matrix window 4's block is its whole array at every tile: its block index is (0, 0). -/
theorem iblk0_4 (t : Fin cfg0.N) : (iblk0 V c 4 t : Vec Ideal S128x128 .bf16) = V c (Pipeline.arrRef spec0 4) := by
  obtain ⟨e00, e01, e10, e11, e20, e21, e30, e31, e40, e41, e50, e51, e60, e61⟩ := idx_facts0 t
  funext y
  unfold iblk0
  rw [View.read_apply]
  show V c (Pipeline.arrRef spec0 4) _ = V c (Pipeline.arrRef spec0 4) _
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Matrix window 5's block is its whole array at every tile: its block index is (0, 0). -/
theorem iblk0_5 (t : Fin cfg0.N) : (iblk0 V c 5 t : Vec Ideal S128x128 .bf16) = V c (Pipeline.arrRef spec0 5) := by
  obtain ⟨e00, e01, e10, e11, e20, e21, e30, e31, e40, e41, e50, e51, e60, e61⟩ := idx_facts0 t
  funext y
  unfold iblk0
  rw [View.read_apply]
  show V c (Pipeline.arrRef spec0 5) _ = V c (Pipeline.arrRef spec0 5) _
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- The tile's convolution, computed from the six windows' blocks at tile `t`, is the tables' convolution at row `5000 t + p`. -/
theorem conv0_blk (t : Fin cfg0.N) (i : Fin 40) (hti : t.val = i.val) (p : Fin 5000) (q : Fin 128) :
    k0_pay1 (F := Ideal) (iblk0 V c 0 t) (iblk0 V c 1 t) (iblk0 V c 2 t) (iblk0 V c 3 t) (iblk0 V c 4 t) (iblk0 V c 5 t) (ix2 p q)
      = convT0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (Cert.Spec.tileRow i p) q := by
  refine (conv0_pay _ _ _ _ _ _ p q).trans ?_
  rw [iblk0_3 V c t, iblk0_4 V c t, iblk0_5 V c t]
  simp only [iblk0_0_at V c t i hti, iblk0_1_at V c t i hti, iblk0_2_at V c t i hti]
  rfl

end Cert.KernelIdeal.KV

end
-- ==== Proof.KConv0.lean ====
/-
  Region 0's output table, entry by entry.

  The region walks 40 tiles of 5000 rows. At tile `t` it reads rows `5000 t … 5000 t + 4999` of three tables and three
  whole 128-by-128 matrices, and writes the same rows of its output table: the tile's convolution, narrowed to the
  table's format (the identity on extended reals). Since every tile writes exactly its own rows and the 40 tiles cover
  all 200000 rows, the output table holds the convolution of the three input tables through the three input matrices
  at every entry `(r, q)` (`conv_0`).
-/
import proofs.«134539_j3152505995485_2_alg».proof.Proof.KConvLib

noncomputable section

namespace Cert.KernelIdeal.KV

open Cert.KernelIdeal Cert.KernelIdeal.Gen Idealize.ShloMosaic Idealize.ShloMosaic.TcCoe Idealize.ShloMosaic.ValueIdx Idealize.SL.Sem
open Idealize.ShloMosaic.Pipeline (Dat)
open Cert.Spec (tab row mat)
open scoped BigOperators

/-- What the output table ends holding, as one function of the input arrays: the convolution table, entry by entry. -/
def conv0G (a0 a1 a2 : S200000x128.Idx → EReal) (a3 a4 a5 : S128x128.Idx → EReal) : S200000x128.Idx → EReal :=
  fun i => convT0 a0 a1 a2 a3 a4 a5 (i 0) (i 1)

variable (V : (c : Dev nD) → (b : Ref sig .tc) → Buf (Elt Ideal) ((c : Thread nD τ).loc b)) (c : Dev nD)

/-- One entry of tile `t`'s convolution is the table-level entry at the index the output block places it at:
    row `5000 t + p`, column `q`. -/
theorem conv0_point (t : Fin cfg0.N) (i : Fin 40) (hti : t.val = i.val) (p : Fin 5000) (q : Fin 128) :
    k0_pay1 (F := Ideal) (iblk0 V c 0 t) (iblk0 V c 1 t) (iblk0 V c 2 t) (iblk0 V c 3 t) (iblk0 V c 4 t) (iblk0 V c 5 t) (ix2 p q)
      = conv0G (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (((cfg0.win 6).blk t).view.emb (ix2 p q)) := by
  obtain ⟨e00, e01, e10, e11, e20, e21, e30, e31, e40, e41, e50, e51, e60, e61⟩ := idx_facts0 t
  refine (conv0_blk V c t i hti p q).trans ?_
  have h0 : ((cfg0.win 6).blk t).view.emb (ix2 p q) (0 : Fin 2) = Cert.Spec.tileRow i p :=
    Fin.ext (by show win0_6.index t (0 : Fin 2) * 5000 + 1 * p.val = 5000 * i.val + p.val; omega)
  have h1 : ((cfg0.win 6).blk t).view.emb (ix2 p q) (1 : Fin 2) = q :=
    Fin.ext (by show win0_6.index t (1 : Fin 2) * 128 + 1 * q.val = q.val; omega)
  show _ = convT0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))
    (((cfg0.win 6).blk t).view.emb (ix2 p q) (0 : Fin 2)) (((cfg0.win 6).blk t).view.emb (ix2 p q) (1 : Fin 2))
  rw [h0, h1]

/-- What tile `t` writes back, read at an index of the block, is the stored tile value there: the one store fills the whole
    staging block, and the block is written back as it stands. -/
theorem flushed0_6_pay (t : Fin cfg0.N) (j : S5000x128.Idx) :
    ((dat0 V c).flushed 6 t : S5000x128.Idx → EReal) j = k0_pay2 (F := Ideal) (iblk0 V c 0 t) (iblk0 V c 1 t) (iblk0 V c 2 t) (iblk0 V c 3 t) (iblk0 V c 4 t) (iblk0 V c 5 t) j := by
  show ((cfg0.win 6).cut (grid0.coords t) ((dat0 V c).after 6 t) : S5000x128.Idx → EReal) j = _
  rw [after0_6]
  unfold out0_6
  rw [View.canon_unit_zero hz2]
  simp only [View.ld_unit_zero (S := S5000x128) hz2, View.ld_unit_zero (S := S128x128) hz2]
  rfl

/-- What tile `t` writes back is block `t` of the convolution table of the input arrays as the region finds them:
    narrowing the tile's format is the identity on extended reals, and the tile's convolution is the tables' at its rows. -/
theorem flushed0_6_eq (t : Fin cfg0.N) :
    (dat0 V c).flushed 6 t = ((cfg0.win 6).blk t).view.read (Elt Ideal) (conv0G (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) := by
  obtain ⟨i, hti⟩ : ∃ i : Fin 40, t.val = i.val :=
    ⟨⟨t.val, by have h := t.isLt; have hN : cfg0.N = 40 := N_0; omega⟩, rfl⟩
  funext j
  obtain ⟨p, q, rfl⟩ : ∃ (p : Fin 5000) (q : Fin 128), j = ix2 p q := ⟨j 0, j 1, eq_ix2 j⟩
  refine (flushed0_6_pay V c t (ix2 p q)).trans ?_
  rw [View.read_apply]
  unfold k0_pay2
  refine (truncf_apply (ψ := .bf16) _ bitsLt_bf16_f32 (ix2 p q)).trans ?_
  exact conv0_point V c t i hti p q

/-- An index of the output table is in tile `t`'s block iff each coordinate is in the block's range on its axis. -/
theorem mem_blk0_6 (t : Fin cfg0.N) (i : S200000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v28_0).slice (win0_6.rect t)).set ↔ _
  rw [View.set_slice_whole, Rect.mem_set_unit]
  exact Iff.rfl

/-- Every entry of the output table is in some tile's block: row `r` is in tile `r / 5000`. -/
theorem cover0_6_arr (i : S200000x128.Idx) :
    ∃ t : Fin cfg0.N, (cfg0.win 6).flush t = true ∧ i ∈ ((cfg0.win 6).blk t).view.set := by
  have hi0 : (i 0).val < 200000 := (i 0).isLt
  have hi1 : (i 1).val < 128 := (i 1).isLt
  obtain ⟨t, ht⟩ : ∃ t : Fin cfg0.N, t.val = (i 0).val / 5000 :=
    ⟨⟨(i 0).val / 5000, by rw [show cfg0.N = 40 from N_0]; omega⟩, rfl⟩
  obtain ⟨e00, e01, e10, e11, e20, e21, e30, e31, e40, e41, e50, e51, e60, e61⟩ := idx_facts0 t
  refine ⟨t, flush0_6 t, ?_⟩
  rw [mem_blk0_6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The output table after the region, as one function of the input arrays. -/
theorem final0_6 : (dat0 V c).arrAt 6 cfg0.N = conv0G (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (dat0 V c).arrAt_eq_of_cover 6 (conv0G (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)))
    (fun t _ => flushed0_6_eq V c t) cover0_6_arr

/-- Entry `(r, q)` of the output table after the region: the convolution of the three input tables through the three
    input matrices, at `(r, q)`. -/
theorem conv_0 (r : Fin 200000) (q : Fin 128) :
    (dat0 V c).arrAt 6 cfg0.N (ix2 r q)
      = Cert.Spec.conv (tab (V c (Pipeline.arrRef spec0 0))) (tab (V c (Pipeline.arrRef spec0 1))) (tab (V c (Pipeline.arrRef spec0 2)))
          (mat (V c (Pipeline.arrRef spec0 3))) (mat (V c (Pipeline.arrRef spec0 4))) (mat (V c (Pipeline.arrRef spec0 5))) r q :=
  congrFun (final0_6 V c) (ix2 r q)

end Cert.KernelIdeal.KV

end
-- ==== Proof.KConvLib2.lean ====
/-
  Region 2's tile computation and its input blocks, shared by the three output arrays of the region.

  The region walks 40 tiles of 5000 rows. At tile `t` it reads rows `5000 t … 5000 t + 4999` of three tables and
  three whole 128-by-128 matrices, and forms the tile's convolution: entry `(p, q)` is the sum of three products,
  `(∑ k, x0 (p, k) · x3 (k, q) + ∑ k, x1 (p, k) · x4 (k, q)) + ∑ k, x2 (p, k) · x5 (k, q)` — each product accumulates
  into zero, so no accumulator is left (`conv2_pay`). A table window's block at tile `t`, read at `(p, k)`, is the
  table's entry at row `5000 t + p` (`iblk2_0_at` …); a matrix window's block is the whole matrix (`iblk2_3` …).
  Hence the tile's convolution is the tables' convolution at the tile's rows (`conv2_blk`).
-/
import proofs.«134539_j3152505995485_2_alg».proof.Proof.KConvLib
import proofs.«134539_j3152505995485_2_alg».proof.Proof.LibDot
import proofs.«134539_j3152505995485_2_alg».proof.Proof.Gen.KernelIdeal.Frame
import Idealize.ShloMosaic.Lib.Pipeline.Value

noncomputable section

namespace Cert.KernelIdeal.KV

open Cert.KernelIdeal Cert.KernelIdeal.Gen Idealize.ShloMosaic Idealize.ShloMosaic.TcCoe Idealize.ShloMosaic.ValueIdx Idealize.SL.Sem
open Idealize.ShloMosaic.Pipeline (Dat)
open scoped BigOperators

/-! ## One tile's convolution at an entry -/

/-- The tile's convolution at `(p, q)`: three products summed, the first two first. -/
theorem conv2_pay (x0 x1 x2 : FVec Ideal S5000x128 .bf16) (x3 x4 x5 : FVec Ideal S128x128 .bf16) (p : Fin 5000) (q : Fin 128) :
    k2_pay1 (F := Ideal) x0 x1 x2 x3 x4 x5 (ix2 p q)
      = ((∑ k : Fin 128, x0 (ix2 p k) * x3 (ix2 k q)) + ∑ k : Fin 128, x1 (ix2 p k) * x4 (ix2 k q))
          + ∑ k : Fin 128, x2 (ix2 p k) * x5 (ix2 k q) := by
  unfold k2_pay1
  simp only [shapeCast_self]
  show (matmul dot_S5000x128_S128x128_S5000x128_1_0_0_1_n_n none x0 x3 (constant S5000x128 .f32 0x00000000#32) (ix2 p q)
      + matmul dot_S5000x128_S128x128_S5000x128_1_0_0_1_n_n none x1 x4 (constant S5000x128 .f32 0x00000000#32) (ix2 p q))
      + matmul dot_S5000x128_S128x128_S5000x128_1_0_0_1_n_n none x2 x5 (constant S5000x128 .f32 0x00000000#32) (ix2 p q) = _
  rw [mm0_apply, mm0_apply, mm0_apply]

/-! ## The windows' blocks at a tile -/

/-- The windows' block indices at tile `t`, decided over the 40 tiles: the tables move with the tile, the matrices stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b)) (c : Dev nD)

/-- Table window 0's block at tile `t`, read at `(p, k)`, is the table's entry at row `5000 t + p`, column `k`. -/
theorem iblk2_0_at (t : Fin cfg2.N) (i : Fin 40) (hti : t.val = i.val) (p : Fin 5000) (k : Fin 128) :
    (iblk2 V c 0 t : S5000x128.Idx → EReal) (ix2 p k) = Cert.Spec.tab (V c (Pipeline.arrRef spec2 0)) (Cert.Spec.tileRow i p) k := by
  obtain ⟨e00, e01, e10, e11, e20, e21, e30, e31, e40, e41, e50, e51, e60, e61⟩ := idx_facts2 t
  unfold iblk2
  rw [View.read_apply]
  show V c (Pipeline.arrRef spec2 0) _ = V c (Pipeline.arrRef spec2 0) (ix2 (Cert.Spec.tileRow i p) k)
  refine congrArg _ (funext fun a => Fin.ext ?_)
  match a with
  | ⟨0, _⟩ => show win2_0.index t (0 : Fin 2) * 5000 + 1 * p.val = 5000 * i.val + p.val; omega
  | ⟨1, _⟩ => show win2_0.index t (1 : Fin 2) * 128 + 1 * k.val = k.val; omega

/-- Table window 1's block at tile `t`, read at `(p, k)`, is the table's entry at row `5000 t + p`, column `k`. -/
theorem iblk2_1_at (t : Fin cfg2.N) (i : Fin 40) (hti : t.val = i.val) (p : Fin 5000) (k : Fin 128) :
    (iblk2 V c 1 t : S5000x128.Idx → EReal) (ix2 p k) = Cert.Spec.tab (V c (Pipeline.arrRef spec2 1)) (Cert.Spec.tileRow i p) k := by
  obtain ⟨e00, e01, e10, e11, e20, e21, e30, e31, e40, e41, e50, e51, e60, e61⟩ := idx_facts2 t
  unfold iblk2
  rw [View.read_apply]
  show V c (Pipeline.arrRef spec2 1) _ = V c (Pipeline.arrRef spec2 1) (ix2 (Cert.Spec.tileRow i p) k)
  refine congrArg _ (funext fun a => Fin.ext ?_)
  match a with
  | ⟨0, _⟩ => show win2_1.index t (0 : Fin 2) * 5000 + 1 * p.val = 5000 * i.val + p.val; omega
  | ⟨1, _⟩ => show win2_1.index t (1 : Fin 2) * 128 + 1 * k.val = k.val; omega

/-- Table window 2's block at tile `t`, read at `(p, k)`, is the table's entry at row `5000 t + p`, column `k`. -/
theorem iblk2_2_at (t : Fin cfg2.N) (i : Fin 40) (hti : t.val = i.val) (p : Fin 5000) (k : Fin 128) :
    (iblk2 V c 2 t : S5000x128.Idx → EReal) (ix2 p k) = Cert.Spec.tab (V c (Pipeline.arrRef spec2 2)) (Cert.Spec.tileRow i p) k := by
  obtain ⟨e00, e01, e10, e11, e20, e21, e30, e31, e40, e41, e50, e51, e60, e61⟩ := idx_facts2 t
  unfold iblk2
  rw [View.read_apply]
  show V c (Pipeline.arrRef spec2 2) _ = V c (Pipeline.arrRef spec2 2) (ix2 (Cert.Spec.tileRow i p) k)
  refine congrArg _ (funext fun a => Fin.ext ?_)
  match a with
  | ⟨0, _⟩ => show win2_2.index t (0 : Fin 2) * 5000 + 1 * p.val = 5000 * i.val + p.val; omega
  | ⟨1, _⟩ => show win2_2.index t (1 : Fin 2) * 128 + 1 * k.val = k.val; omega

/-- Matrix window 3's block is its whole array at every tile: its block index is (0, 0). -/
theorem iblk2_3 (t : Fin cfg2.N) : (iblk2 V c 3 t : Vec Ideal S128x128 .bf16) = V c (Pipeline.arrRef spec2 3) := by
  obtain ⟨e00, e01, e10, e11, e20, e21, e30, e31, e40, e41, e50, e51, e60, e61⟩ := idx_facts2 t
  funext y
  unfold iblk2
  rw [View.read_apply]
  show V c (Pipeline.arrRef spec2 3) _ = V c (Pipeline.arrRef spec2 3) _
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Matrix window 4's block is its whole array at every tile: its block index is (0, 0). -/
theorem iblk2_4 (t : Fin cfg2.N) : (iblk2 V c 4 t : Vec Ideal S128x128 .bf16) = V c (Pipeline.arrRef spec2 4) := by
  obtain ⟨e00, e01, e10, e11, e20, e21, e30, e31, e40, e41, e50, e51, e60, e61⟩ := idx_facts2 t
  funext y
  unfold iblk2
  rw [View.read_apply]
  show V c (Pipeline.arrRef spec2 4) _ = V c (Pipeline.arrRef spec2 4) _
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- Matrix window 5's block is its whole array at every tile: its block index is (0, 0). -/
theorem iblk2_5 (t : Fin cfg2.N) : (iblk2 V c 5 t : Vec Ideal S128x128 .bf16) = V c (Pipeline.arrRef spec2 5) := by
  obtain ⟨e00, e01, e10, e11, e20, e21, e30, e31, e40, e41, e50, e51, e60, e61⟩ := idx_facts2 t
  funext y
  unfold iblk2
  rw [View.read_apply]
  show V c (Pipeline.arrRef spec2 5) _ = V c (Pipeline.arrRef spec2 5) _
  refine congrArg _ (funext fun a => Fin.ext ?_)
  match a with
  | ⟨0, _⟩ => show win2_5.index t (0 : Fin 2) * 128 + 1 * (y 0).val = (y 0).val; omega
  | ⟨1, _⟩ => show win2_5.index t (1 : Fin 2) * 128 + 1 * (y 1).val = (y 1).val; omega

/-- The tile's convolution, computed from the six windows' blocks at tile `t`, is the tables' convolution at row `5000 t + p`. -/
theorem conv2_blk (t : Fin cfg2.N) (i : Fin 40) (hti : t.val = i.val) (p : Fin 5000) (q : Fin 128) :
    k2_pay1 (F := Ideal) (iblk2 V c 0 t) (iblk2 V c 1 t) (iblk2 V c 2 t) (iblk2 V c 3 t) (iblk2 V c 4 t) (iblk2 V c 5 t) (ix2 p q)
      = convT0 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (Cert.Spec.tileRow i p) q := by
  refine (conv2_pay _ _ _ _ _ _ p q).trans ?_
  rw [iblk2_3 V c t, iblk2_4 V c t, iblk2_5 V c t]
  simp only [iblk2_0_at V c t i hti, iblk2_1_at V c t i hti, iblk2_2_at V c t i hti]
  rfl

end Cert.KernelIdeal.KV

end
-- ==== Proof.KConv2.lean ====
/-
  Region 2's output table, entry by entry.

  The region walks 40 tiles of 5000 rows. At tile `t` it reads rows `5000 t … 5000 t + 4999` of three tables and three
  whole 128-by-128 matrices, and writes the same rows of its output table: the tile's convolution, narrowed to the
  table's format (the identity on extended reals). Since every tile writes exactly its own rows and the 40 tiles cover
  all 200000 rows, the output table holds the convolution of the three input tables through the three input matrices
  at every entry `(r, q)` (`conv_2`).
-/
import proofs.«134539_j3152505995485_2_alg».proof.Proof.KConvLib
import proofs.«134539_j3152505995485_2_alg».proof.Proof.KConvLib2

noncomputable section

namespace Cert.KernelIdeal.KV

open Cert.KernelIdeal Cert.KernelIdeal.Gen Idealize.ShloMosaic Idealize.ShloMosaic.TcCoe Idealize.ShloMosaic.ValueIdx Idealize.SL.Sem
open Idealize.ShloMosaic.Pipeline (Dat)
open Cert.Spec (tab row mat)
open scoped BigOperators

/-- What the output table ends holding, as one function of the input arrays: the convolution table, entry by entry. -/
def conv2G (a0 a1 a2 : S200000x128.Idx → EReal) (a3 a4 a5 : S128x128.Idx → EReal) : S200000x128.Idx → EReal :=
  fun i => convT0 a0 a1 a2 a3 a4 a5 (i 0) (i 1)

variable (V : (c : Dev nD) → (b : Ref sig .tc) → Buf (Elt Ideal) ((c : Thread nD τ).loc b)) (c : Dev nD)

/-- One entry of tile `t`'s convolution is the table-level entry at the index the output block places it at:
    row `5000 t + p`, column `q`. -/
theorem conv2_point (t : Fin cfg2.N) (i : Fin 40) (hti : t.val = i.val) (p : Fin 5000) (q : Fin 128) :
    k2_pay1 (F := Ideal) (iblk2 V c 0 t) (iblk2 V c 1 t) (iblk2 V c 2 t) (iblk2 V c 3 t) (iblk2 V c 4 t) (iblk2 V c 5 t) (ix2 p q)
      = conv2G (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (((cfg2.win 6).blk t).view.emb (ix2 p q)) := by
  obtain ⟨e00, e01, e10, e11, e20, e21, e30, e31, e40, e41, e50, e51, e60, e61⟩ := idx_facts2 t
  refine (conv2_blk V c t i hti p q).trans ?_
  have h0 : ((cfg2.win 6).blk t).view.emb (ix2 p q) (0 : Fin 2) = Cert.Spec.tileRow i p :=
    Fin.ext (by show win2_6.index t (0 : Fin 2) * 5000 + 1 * p.val = 5000 * i.val + p.val; omega)
  have h1 : ((cfg2.win 6).blk t).view.emb (ix2 p q) (1 : Fin 2) = q :=
    Fin.ext (by show win2_6.index t (1 : Fin 2) * 128 + 1 * q.val = q.val; omega)
  show _ = convT0 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))
    (((cfg2.win 6).blk t).view.emb (ix2 p q) (0 : Fin 2)) (((cfg2.win 6).blk t).view.emb (ix2 p q) (1 : Fin 2))
  rw [h0, h1]

/-- What tile `t` writes back, read at an index of the block, is the stored tile value there: the one store fills the whole
    staging block, and the block is written back as it stands. -/
theorem flushed2_6_pay (t : Fin cfg2.N) (j : S5000x128.Idx) :
    ((dat2 V c).flushed 6 t : S5000x128.Idx → EReal) j = k2_pay2 (F := Ideal) (iblk2 V c 0 t) (iblk2 V c 1 t) (iblk2 V c 2 t) (iblk2 V c 3 t) (iblk2 V c 4 t) (iblk2 V c 5 t) j := by
  show ((cfg2.win 6).cut (grid2.coords t) ((dat2 V c).after 6 t) : S5000x128.Idx → EReal) j = _
  rw [after2_6]
  unfold out2_6
  rw [View.canon_unit_zero hz2]
  simp only [View.ld_unit_zero (S := S5000x128) hz2, View.ld_unit_zero (S := S128x128) hz2]
  rfl

/-- What tile `t` writes back is block `t` of the convolution table of the input arrays as the region finds them:
    narrowing the tile's format is the identity on extended reals, and the tile's convolution is the tables' at its rows. -/
theorem flushed2_6_eq (t : Fin cfg2.N) :
    (dat2 V c).flushed 6 t = ((cfg2.win 6).blk t).view.read (Elt Ideal) (conv2G (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  obtain ⟨i, hti⟩ : ∃ i : Fin 40, t.val = i.val :=
    ⟨⟨t.val, by have h := t.isLt; have hN : cfg2.N = 40 := N_2; omega⟩, rfl⟩
  funext j
  obtain ⟨p, q, rfl⟩ : ∃ (p : Fin 5000) (q : Fin 128), j = ix2 p q := ⟨j 0, j 1, eq_ix2 j⟩
  refine (flushed2_6_pay V c t (ix2 p q)).trans ?_
  rw [View.read_apply]
  unfold k2_pay2
  refine (truncf_apply (ψ := .bf16) _ bitsLt_bf16_f32 (ix2 p q)).trans ?_
  exact conv2_point V c t i hti p q

/-- An index of the output table is in tile `t`'s block iff each coordinate is in the block's range on its axis. -/
theorem mem_blk2_6 (t : Fin cfg2.N) (i : S200000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v69_0).slice (win2_6.rect t)).set ↔ _
  rw [View.set_slice_whole, Rect.mem_set_unit]
  exact Iff.rfl

/-- Every entry of the output table is in some tile's block: row `r` is in tile `r / 5000`. -/
theorem cover2_6_arr (i : S200000x128.Idx) :
    ∃ t : Fin cfg2.N, (cfg2.win 6).flush t = true ∧ i ∈ ((cfg2.win 6).blk t).view.set := by
  have hi0 : (i 0).val < 200000 := (i 0).isLt
  have hi1 : (i 1).val < 128 := (i 1).isLt
  obtain ⟨t, ht⟩ : ∃ t : Fin cfg2.N, t.val = (i 0).val / 5000 :=
    ⟨⟨(i 0).val / 5000, by rw [show cfg2.N = 40 from N_2]; omega⟩, rfl⟩
  obtain ⟨e00, e01, e10, e11, e20, e21, e30, e31, e40, e41, e50, e51, e60, e61⟩ := idx_facts2 t
  refine ⟨t, flush2_6 t, ?_⟩
  rw [mem_blk2_6]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The output table after the region, as one function of the input arrays. -/
theorem final2_6 : (dat2 V c).arrAt 6 cfg2.N = conv2G (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 V c).arrAt_eq_of_cover 6 (conv2G (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)))
    (fun t _ => flushed2_6_eq V c t) cover2_6_arr

/-- Entry `(r, q)` of the output table after the region: the convolution of the three input tables through the three
    input matrices, at `(r, q)`. -/
theorem conv_2 (r : Fin 200000) (q : Fin 128) :
    (dat2 V c).arrAt 6 cfg2.N (ix2 r q)
      = Cert.Spec.conv (tab (V c (Pipeline.arrRef spec2 0))) (tab (V c (Pipeline.arrRef spec2 1))) (tab (V c (Pipeline.arrRef spec2 2)))
          (mat (V c (Pipeline.arrRef spec2 3))) (mat (V c (Pipeline.arrRef spec2 4))) (mat (V c (Pipeline.arrRef spec2 5))) r q :=
  congrFun (final2_6 V c) (ix2 r q)

end Cert.KernelIdeal.KV

end
-- ==== Proof.KConvLib4.lean ====
/-
  Region 4's tile computation and its input blocks, shared by the three output arrays of the region.

  The region walks 40 tiles of 5000 rows. At tile `t` it reads rows `5000 t … 5000 t + 4999` of three tables and
  three whole 128-by-128 matrices, and forms the tile's convolution: entry `(p, q)` is the sum of three products,
  `(∑ k, x0 (p, k) · x3 (k, q) + ∑ k, x1 (p, k) · x4 (k, q)) + ∑ k, x2 (p, k) · x5 (k, q)` — each product accumulates
  into zero, so no accumulator is left (`conv4_pay`). A table window's block at tile `t`, read at `(p, k)`, is the
  table's entry at row `5000 t + p` (`iblk4_0_at` …); a matrix window's block is the whole matrix (`iblk4_3` …).
  Hence the tile's convolution is the tables' convolution at the tile's rows (`conv4_blk`).
-/
import proofs.«134539_j3152505995485_2_alg».proof.Proof.KConvLib
import proofs.«134539_j3152505995485_2_alg».proof.Proof.LibDot
import proofs.«134539_j3152505995485_2_alg».proof.Proof.Gen.KernelIdeal.Frame
import Idealize.ShloMosaic.Lib.Pipeline.Value

noncomputable section

namespace Cert.KernelIdeal.KV

open Cert.KernelIdeal Cert.KernelIdeal.Gen Idealize.ShloMosaic Idealize.ShloMosaic.TcCoe Idealize.ShloMosaic.ValueIdx Idealize.SL.Sem
open Idealize.ShloMosaic.Pipeline (Dat)
open scoped BigOperators

/-! ## One tile's convolution at an entry -/

/-- The tile's convolution at `(p, q)`: three products summed, the first two first. -/
theorem conv4_pay (x0 x1 x2 : FVec Ideal S5000x128 .bf16) (x3 x4 x5 : FVec Ideal S128x128 .bf16) (p : Fin 5000) (q : Fin 128) :
    k4_pay1 (F := Ideal) x0 x1 x2 x3 x4 x5 (ix2 p q)
      = ((∑ k : Fin 128, x0 (ix2 p k) * x3 (ix2 k q)) + ∑ k : Fin 128, x1 (ix2 p k) * x4 (ix2 k q))
          + ∑ k : Fin 128, x2 (ix2 p k) * x5 (ix2 k q) := by
  unfold k4_pay1
  simp only [shapeCast_self]
  show (matmul dot_S5000x128_S128x128_S5000x128_1_0_0_1_n_n none x0 x3 (constant S5000x128 .f32 0x00000000#32) (ix2 p q)
      + matmul dot_S5000x128_S128x128_S5000x128_1_0_0_1_n_n none x1 x4 (constant S5000x128 .f32 0x00000000#32) (ix2 p q))
      + matmul dot_S5000x128_S128x128_S5000x128_1_0_0_1_n_n none x2 x5 (constant S5000x128 .f32 0x00000000#32) (ix2 p q) = _
  rw [mm0_apply, mm0_apply, mm0_apply]

/-! ## The windows' blocks at a tile -/

/-- The windows' block indices at tile `t`, decided over the 40 tiles: the tables move with the tile, the matrices stay. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

variable (V : (c : Dev nD) → (b : Ref sig .tc) → Buf (Elt Ideal) ((c : Thread nD τ).loc b)) (c : Dev nD)

/-- Table window 0's block at tile `t`, read at `(p, k)`, is the table's entry at row `5000 t + p`, column `k`. -/
theorem iblk4_0_at (t : Fin cfg4.N) (i : Fin 40) (hti : t.val = i.val) (p : Fin 5000) (k : Fin 128) :
    (iblk4 V c 0 t : S5000x128.Idx → EReal) (ix2 p k) = Cert.Spec.tab (V c (Pipeline.arrRef spec4 0)) (Cert.Spec.tileRow i p) k := by
  obtain ⟨e00, e01, e10, e11, e20, e21, e30, e31, e40, e41, e50, e51, e60, e61⟩ := idx_facts4 t
  unfold iblk4
  rw [View.read_apply]
  show V c (Pipeline.arrRef spec4 0) _ = V c (Pipeline.arrRef spec4 0) (ix2 (Cert.Spec.tileRow i p) k)
  refine congrArg _ (funext fun a => Fin.ext ?_)
  match a with
  | ⟨0, _⟩ => show win4_0.index t (0 : Fin 2) * 5000 + 1 * p.val = 5000 * i.val + p.val; omega
  | ⟨1, _⟩ => show win4_0.index t (1 : Fin 2) * 128 + 1 * k.val = k.val; omega

/-- Table window 1's block at tile `t`, read at `(p, k)`, is the table's entry at row `5000 t + p`, column `k`. -/
theorem iblk4_1_at (t : Fin cfg4.N) (i : Fin 40) (hti : t.val = i.val) (p : Fin 5000) (k : Fin 128) :
    (iblk4 V c 1 t : S5000x128.Idx → EReal) (ix2 p k) = Cert.Spec.tab (V c (Pipeline.arrRef spec4 1)) (Cert.Spec.tileRow i p) k := by
  obtain ⟨e00, e01, e10, e11, e20, e21, e30, e31, e40, e41, e50, e51, e60, e61⟩ := idx_facts4 t
  unfold iblk4
  rw [View.read_apply]
  show V c (Pipeline.arrRef spec4 1) _ = V c (Pipeline.arrRef spec4 1) (ix2 (Cert.Spec.tileRow i p) k)
  refine congrArg _ (funext fun a => Fin.ext ?_)
  match a with
  | ⟨0, _⟩ => show win4_1.index t (0 : Fin 2) * 5000 + 1 * p.val = 5000 * i.val + p.val; omega
  | ⟨1, _⟩ => show win4_1.index t (1 : Fin 2) * 128 + 1 * k.val = k.val; omega

/-- Table window 2's block at tile `t`, read at `(p, k)`, is the table's entry at row `5000 t + p`, column `k`. -/
theorem iblk4_2_at (t : Fin cfg4.N) (i : Fin 40) (hti : t.val = i.val) (p : Fin 5000) (k : Fin 128) :
    (iblk4 V c 2 t : S5000x128.Idx → EReal) (ix2 p k) = Cert.Spec.tab (V c (Pipeline.arrRef spec4 2)) (Cert.Spec.tileRow i p) k := by
  obtain ⟨e00, e01, e10, e11, e20, e21, e30, e31, e40, e41, e50, e51, e60, e61⟩ := idx_facts4 t
  unfold iblk4
  rw [View.read_apply]
  show V c (Pipeline.arrRef spec4 2) _ = V c (Pipeline.arrRef spec4 2) (ix2 (Cert.Spec.tileRow i p) k)
  refine congrArg _ (funext fun a => Fin.ext ?_)
  match a with
  | ⟨0, _⟩ => show win4_2.index t (0 : Fin 2) * 5000 + 1 * p.val = 5000 * i.val + p.val; omega
  | ⟨1, _⟩ => show win4_2.index t (1 : Fin 2) * 128 + 1 * k.val = k.val; omega

/-- Matrix window 3's block is its whole array at every tile: its block index is (0, 0). -/
theorem iblk4_3 (t : Fin cfg4.N) : (iblk4 V c 3 t : Vec Ideal S128x128 .bf16) = V c (Pipeline.arrRef spec4 3) := by
  obtain ⟨e00, e01, e10, e11, e20, e21, e30, e31, e40, e41, e50, e51, e60, e61⟩ := idx_facts4 t
  funext y
  unfold iblk4
  rw [View.read_apply]
  show V c (Pipeline.arrRef spec4 3) _ = V c (Pipeline.arrRef spec4 3) _
  refine congrArg _ (funext fun a => Fin.ext ?_)
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- Matrix window 4's block is its whole array at every tile: its block index is (0, 0). -/
theorem iblk4_4 (t : Fin cfg4.N) : (iblk4 V c 4 t : Vec Ideal S128x128 .bf16) = V c (Pipeline.arrRef spec4 4) := by
  obtain ⟨e00, e01, e10, e11, e20, e21, e30, e31, e40, e41, e50, e51, e60, e61⟩ := idx_facts4 t
  funext y
  unfold iblk4
  rw [View.read_apply]
  show V c (Pipeline.arrRef spec4 4) _ = V c (Pipeline.arrRef spec4 4) _
  refine congrArg _ (funext fun a => Fin.ext ?_)
  match a with
  | ⟨0, _⟩ => show win4_4.index t (0 : Fin 2) * 128 + 1 * (y 0).val = (y 0).val; omega
  | ⟨1, _⟩ => show win4_4.index t (1 : Fin 2) * 128 + 1 * (y 1).val = (y 1).val; omega

/-- Matrix window 5's block is its whole array at every tile: its block index is (0, 0). -/
theorem iblk4_5 (t : Fin cfg4.N) : (iblk4 V c 5 t : Vec Ideal S128x128 .bf16) = V c (Pipeline.arrRef spec4 5) := by
  obtain ⟨e00, e01, e10, e11, e20, e21, e30, e31, e40, e41, e50, e51, e60, e61⟩ := idx_facts4 t
  funext y
  unfold iblk4
  rw [View.read_apply]
  show V c (Pipeline.arrRef spec4 5) _ = V c (Pipeline.arrRef spec4 5) _
  refine congrArg _ (funext fun a => Fin.ext ?_)
  match a with
  | ⟨0, _⟩ => show win4_5.index t (0 : Fin 2) * 128 + 1 * (y 0).val = (y 0).val; omega
  | ⟨1, _⟩ => show win4_5.index t (1 : Fin 2) * 128 + 1 * (y 1).val = (y 1).val; omega

/-- The tile's convolution, computed from the six windows' blocks at tile `t`, is the tables' convolution at row `5000 t + p`. -/
theorem conv4_blk (t : Fin cfg4.N) (i : Fin 40) (hti : t.val = i.val) (p : Fin 5000) (q : Fin 128) :
    k4_pay1 (F := Ideal) (iblk4 V c 0 t) (iblk4 V c 1 t) (iblk4 V c 2 t) (iblk4 V c 3 t) (iblk4 V c 4 t) (iblk4 V c 5 t) (ix2 p q)
      = convT0 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (Cert.Spec.tileRow i p) q := by
  refine (conv4_pay _ _ _ _ _ _ p q).trans ?_
  rw [iblk4_3 V c t, iblk4_4 V c t, iblk4_5 V c t]
  simp only [iblk4_0_at V c t i hti, iblk4_1_at V c t i hti, iblk4_2_at V c t i hti]
  rfl

end Cert.KernelIdeal.KV

end
-- ==== Proof.KConv4.lean ====
/-
  Region 4's output table, entry by entry.

  The region walks 40 tiles of 5000 rows. At tile `t` it reads rows `5000 t … 5000 t + 4999` of three tables and three
  whole 128-by-128 matrices, and writes the same rows of its output table: the tile's convolution, narrowed to the
  table's format (the identity on extended reals). Since every tile writes exactly its own rows and the 40 tiles cover
  all 200000 rows, the output table holds the convolution of the three input tables through the three input matrices
  at every entry `(r, q)` (`conv_4`).
-/
import proofs.«134539_j3152505995485_2_alg».proof.Proof.KConvLib
import proofs.«134539_j3152505995485_2_alg».proof.Proof.KConvLib4

noncomputable section

namespace Cert.KernelIdeal.KV

open Cert.KernelIdeal Cert.KernelIdeal.Gen Idealize.ShloMosaic Idealize.ShloMosaic.TcCoe Idealize.ShloMosaic.ValueIdx Idealize.SL.Sem
open Idealize.ShloMosaic.Pipeline (Dat)
open Cert.Spec (tab row mat)
open scoped BigOperators

/-- What the output table ends holding, as one function of the input arrays: the convolution table, entry by entry. -/
def conv4G (a0 a1 a2 : S200000x128.Idx → EReal) (a3 a4 a5 : S128x128.Idx → EReal) : S200000x128.Idx → EReal :=
  fun i => convT0 a0 a1 a2 a3 a4 a5 (i 0) (i 1)

variable (V : (c : Dev nD) → (b : Ref sig .tc) → Buf (Elt Ideal) ((c : Thread nD τ).loc b)) (c : Dev nD)

/-- One entry of tile `t`'s convolution is the table-level entry at the index the output block places it at:
    row `5000 t + p`, column `q`. -/
theorem conv4_point (t : Fin cfg4.N) (i : Fin 40) (hti : t.val = i.val) (p : Fin 5000) (q : Fin 128) :
    k4_pay1 (F := Ideal) (iblk4 V c 0 t) (iblk4 V c 1 t) (iblk4 V c 2 t) (iblk4 V c 3 t) (iblk4 V c 4 t) (iblk4 V c 5 t) (ix2 p q)
      = conv4G (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (((cfg4.win 6).blk t).view.emb (ix2 p q)) := by
  obtain ⟨e00, e01, e10, e11, e20, e21, e30, e31, e40, e41, e50, e51, e60, e61⟩ := idx_facts4 t
  refine (conv4_blk V c t i hti p q).trans ?_
  have h0 : ((cfg4.win 6).blk t).view.emb (ix2 p q) (0 : Fin 2) = Cert.Spec.tileRow i p :=
    Fin.ext (by show win4_6.index t (0 : Fin 2) * 5000 + 1 * p.val = 5000 * i.val + p.val; omega)
  have h1 : ((cfg4.win 6).blk t).view.emb (ix2 p q) (1 : Fin 2) = q :=
    Fin.ext (by show win4_6.index t (1 : Fin 2) * 128 + 1 * q.val = q.val; omega)
  show _ = convT0 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))
    (((cfg4.win 6).blk t).view.emb (ix2 p q) (0 : Fin 2)) (((cfg4.win 6).blk t).view.emb (ix2 p q) (1 : Fin 2))
  rw [h0, h1]

/-- What tile `t` writes back, read at an index of the block, is the stored tile value there: the one store fills the whole
    staging block, and the block is written back as it stands. -/
theorem flushed4_6_pay (t : Fin cfg4.N) (j : S5000x128.Idx) :
    ((dat4 V c).flushed 6 t : S5000x128.Idx → EReal) j = k4_pay2 (F := Ideal) (iblk4 V c 0 t) (iblk4 V c 1 t) (iblk4 V c 2 t) (iblk4 V c 3 t) (iblk4 V c 4 t) (iblk4 V c 5 t) j := by
  show ((cfg4.win 6).cut (grid4.coords t) ((dat4 V c).after 6 t) : S5000x128.Idx → EReal) j = _
  rw [after4_6]
  unfold out4_6
  rw [View.canon_unit_zero hz2]
  simp only [View.ld_unit_zero (S := S5000x128) hz2, View.ld_unit_zero (S := S128x128) hz2]
  rfl

/-- What tile `t` writes back is block `t` of the convolution table of the input arrays as the region finds them:
    narrowing the tile's format is the identity on extended reals, and the tile's convolution is the tables' at its rows. -/
theorem flushed4_6_eq (t : Fin cfg4.N) :
    (dat4 V c).flushed 6 t = ((cfg4.win 6).blk t).view.read (Elt Ideal) (conv4G (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) := by
  obtain ⟨i, hti⟩ : ∃ i : Fin 40, t.val = i.val :=
    ⟨⟨t.val, by have h := t.isLt; have hN : cfg4.N = 40 := N_4; omega⟩, rfl⟩
  funext j
  obtain ⟨p, q, rfl⟩ : ∃ (p : Fin 5000) (q : Fin 128), j = ix2 p q := ⟨j 0, j 1, eq_ix2 j⟩
  refine (flushed4_6_pay V c t (ix2 p q)).trans ?_
  rw [View.read_apply]
  unfold k4_pay2
  refine (truncf_apply (ψ := .bf16) _ bitsLt_bf16_f32 (ix2 p q)).trans ?_
  exact conv4_point V c t i hti p q

/-- An index of the output table is in tile `t`'s block iff each coordinate is in the block's range on its axis. -/
theorem mem_blk4_6 (t : Fin cfg4.N) (i : S200000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v110_0).slice (win4_6.rect t)).set ↔ _
  rw [View.set_slice_whole, Rect.mem_set_unit]
  exact Iff.rfl

/-- Every entry of the output table is in some tile's block: row `r` is in tile `r / 5000`. -/
theorem cover4_6_arr (i : S200000x128.Idx) :
    ∃ t : Fin cfg4.N, (cfg4.win 6).flush t = true ∧ i ∈ ((cfg4.win 6).blk t).view.set := by
  have hi0 : (i 0).val < 200000 := (i 0).isLt
  have hi1 : (i 1).val < 128 := (i 1).isLt
  obtain ⟨t, ht⟩ : ∃ t : Fin cfg4.N, t.val = (i 0).val / 5000 :=
    ⟨⟨(i 0).val / 5000, by rw [show cfg4.N = 40 from N_4]; omega⟩, rfl⟩
  obtain ⟨e00, e01, e10, e11, e20, e21, e30, e31, e40, e41, e50, e51, e60, e61⟩ := idx_facts4 t
  refine ⟨t, flush4_6 t, ?_⟩
  rw [mem_blk4_6]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 128 ≤ (i 1).val ∧ (i 1).val < win4_6.index t (1 : Fin 2) * 128 + 128; omega

/-- The output table after the region, as one function of the input arrays. -/
theorem final4_6 : (dat4 V c).arrAt 6 cfg4.N = conv4G (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) :=
  (dat4 V c).arrAt_eq_of_cover 6 (conv4G (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)))
    (fun t _ => flushed4_6_eq V c t) cover4_6_arr

/-- Entry `(r, q)` of the output table after the region: the convolution of the three input tables through the three
    input matrices, at `(r, q)`. -/
theorem conv_4 (r : Fin 200000) (q : Fin 128) :
    (dat4 V c).arrAt 6 cfg4.N (ix2 r q)
      = Cert.Spec.conv (tab (V c (Pipeline.arrRef spec4 0))) (tab (V c (Pipeline.arrRef spec4 1))) (tab (V c (Pipeline.arrRef spec4 2)))
          (mat (V c (Pipeline.arrRef spec4 3))) (mat (V c (Pipeline.arrRef spec4 4))) (mat (V c (Pipeline.arrRef spec4 5))) r q :=
  congrFun (final4_6 V c) (ix2 r q)

end Cert.KernelIdeal.KV

end
-- ==== Proof.KSum0.lean ====
/-
  Region 0's two arrays of per-tile statistics, entry by entry.

  The region walks 40 tiles of 5000 rows. At tile `t` it forms the tile's block of the convolution table (three
  products of the tile's rows of three tables with three 128-by-128 matrices, summed) and writes, besides the block
  itself, two rows of 128 values: each channel's sum over the tile's 5000 rows of the block, and the same sum of the
  block's squares. The rows land in row `t` of two 40-by-1-by-128 arrays. Since tile `t` writes exactly row `t` and
  the 40 tiles cover the 40 rows, entry `(i, 0, q)` of the first array is the sum over tile `i`'s rows of channel `q`
  of the whole convolution table (`sum_0`), and of the second the sum of its squares (`sumsq_0`).
-/
import proofs.«134539_j3152505995485_2_alg».proof.Proof.KConvLib
import proofs.«134539_j3152505995485_2_alg».proof.Proof.Gen.KernelIdeal.Frame
import Idealize.ShloMosaic.Lib.Pipeline.Value
import Idealize.ShloMosaic.PureOps.Ideal.Laws

noncomputable section

namespace Cert.KernelIdeal.KV

open Cert.KernelIdeal Cert.KernelIdeal.Gen Idealize.ShloMosaic Idealize.ShloMosaic.TcCoe Idealize.ShloMosaic.ValueIdx Idealize.SL.Sem
open Idealize.ShloMosaic.Pipeline (Dat)
open Cert.Spec (tab row mat tileRow)
open scoped BigOperators

/-! ## One tile's two rows at an entry -/

/-- A column sum over the 5000 rows of a tile, laid out as a 1-by-1-by-128 block, at channel `q`. -/
theorem colsum_block_apply (y : FVec Ideal S5000x128 .f32) (hφ : FKind.Formats .f32)
    (hacc : (0x00000000#32 : BitVec 32) = FKind.add.neutral .f32 hφ) (u v : Fin 1) (q : Fin 128) :
    shapeCast S1x1x128 (shapeCast S1x128 (multiReduction (F := Ideal) .add [0] S128 y 0x00000000#32 reduces_S5000x128_S128 hφ hacc)
        shapeCasts_S128_S1x128) shapeCasts_S1x128_S1x1x128 (ix3 u v q)
      = ∑ p : Fin 5000, y (ix2 p q) := by
  refine (shapeCast_ab_1ab_apply _ shapeCasts_S1x128_S1x1x128 u v q).trans ?_
  refine (shapeCast_a_1a_apply _ shapeCasts_S128_S1x128 v q).trans ?_
  refine (Ideal.multiReduction_add_single y 0x00000000#32 reduces_S5000x128_S128 hφ hacc (ix1 q)).trans ?_
  refine Finset.sum_congr rfl fun p _ => congrArg y ?_
  funext a
  refine Fin.ext ?_
  match a with
  | ⟨0, _⟩ => rfl
  | ⟨1, _⟩ => rfl

/-- The tile's row of sums at channel `q`: the sum of the tile's convolution block down column `q`. -/
theorem pay3_apply (x0 x1 x2 : Vec Ideal S5000x128 .bf16) (x3 x4 x5 : Vec Ideal S128x128 .bf16) (u v : Fin 1) (q : Fin 128) :
    k0_pay3 (F := Ideal) x0 x1 x2 x3 x4 x5 (ix3 u v q) = ∑ p : Fin 5000, k0_pay1 (F := Ideal) x0 x1 x2 x3 x4 x5 (ix2 p q) :=
  colsum_block_apply (k0_pay1 (F := Ideal) x0 x1 x2 x3 x4 x5) _ _ u v q

/-- The tile's row of sums of squares at channel `q`. -/
theorem pay4_apply (x0 x1 x2 : Vec Ideal S5000x128 .bf16) (x3 x4 x5 : Vec Ideal S128x128 .bf16) (u v : Fin 1) (q : Fin 128) :
    k0_pay4 (F := Ideal) x0 x1 x2 x3 x4 x5 (ix3 u v q)
      = ∑ p : Fin 5000, k0_pay1 (F := Ideal) x0 x1 x2 x3 x4 x5 (ix2 p q) * k0_pay1 (F := Ideal) x0 x1 x2 x3 x4 x5 (ix2 p q) :=
  colsum_block_apply (mulf (k0_pay1 (F := Ideal) x0 x1 x2 x3 x4 x5) (k0_pay1 (F := Ideal) x0 x1 x2 x3 x4 x5)) _ _ u v q

/-! ## What the two arrays end holding -/

/-- Per tile and channel, the sum over the tile's rows of the convolution table of the six arrays. -/
def sum0G (a0 a1 a2 : S200000x128.Idx → EReal) (a3 a4 a5 : S128x128.Idx → EReal) : S40x1x128.Idx → EReal :=
  fun i => ∑ r' : Fin 5000, convT0 a0 a1 a2 a3 a4 a5 (tileRow (i 0) r') (i 2)

/-- Per tile and channel, the sum over the tile's rows of the squares of the convolution table. -/
def sumsq0G (a0 a1 a2 : S200000x128.Idx → EReal) (a3 a4 a5 : S128x128.Idx → EReal) : S40x1x128.Idx → EReal :=
  fun i => ∑ r' : Fin 5000, convT0 a0 a1 a2 a3 a4 a5 (tileRow (i 0) r') (i 2) * convT0 a0 a1 a2 a3 a4 a5 (tileRow (i 0) r') (i 2)

/-! ## From tiles to the arrays -/

/-- The two per-tile windows' block indices at tile `t`, decided over the 40 tiles: row `t`, nothing else moves. -/
theorem idx_facts0_78 : ∀ t : Fin cfg0.N,
    win0_7.index t (0 : Fin 3) = t.val ∧ win0_7.index t (1 : Fin 3) = 0 ∧ win0_7.index t (2 : Fin 3) = 0
    ∧ win0_8.index t (0 : Fin 3) = t.val ∧ win0_8.index t (1 : Fin 3) = 0 ∧ win0_8.index t (2 : Fin 3) = 0 :=
  (by decide +kernel : ∀ t : Fin grid0.N, _)

variable (V : (c : Dev nD) → (b : Ref sig .tc) → Buf (Elt Ideal) ((c : Thread nD τ).loc b)) (c : Dev nD)

/-- What tile `t` writes back to the array of sums is block `t` of `sum0G` of the input arrays as the region finds them. -/
theorem flushed0_7_eq (t : Fin cfg0.N) :
    (dat0 V c).flushed 7 t = ((cfg0.win 7).blk t).view.read (Elt Ideal)
      (sum0G (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))) := by
  obtain ⟨e70, e71, e72, e80, e81, e82⟩ := idx_facts0_78 t
  obtain ⟨i, hti⟩ : ∃ i : Fin 40, t.val = i.val :=
    ⟨⟨t.val, Nat.lt_of_lt_of_eq t.isLt (show cfg0.N = 40 from N_0)⟩, rfl⟩
  show (cfg0.win 7).cut (grid0.coords t) ((dat0 V c).after 7 t) = _
  rw [after0_7]
  unfold out0_7
  rw [View.canon_unit_zero hz3]
  simp only [View.ld_unit_zero (S := S5000x128) hz2, View.ld_unit_zero (S := S128x128) hz2]
  funext j
  obtain ⟨u, v, q, rfl⟩ : ∃ (u v : Fin 1) (q : Fin 128), j = ix3 u v q := ⟨j 0, j 1, j 2, eq_ix3 j⟩
  have hu : u.val = 0 := by omega
  have hv : v.val = 0 := by omega
  have hemb : ((cfg0.win 7).blk t).view.emb (ix3 u v q) = (ix3 i (0 : Fin 1) q : S40x1x128.Idx) :=
    funext fun a => Fin.ext (by
      match a with
      | ⟨0, _⟩ => show win0_7.index t (0 : Fin 3) * 1 + 1 * u.val = i.val; omega
      | ⟨1, _⟩ => show win0_7.index t (1 : Fin 3) * 1 + 1 * v.val = 0; omega
      | ⟨2, _⟩ => show win0_7.index t (2 : Fin 3) * 128 + 1 * q.val = q.val; omega)
  show k0_pay3 (iblk0 V c 0 t) (iblk0 V c 1 t) (iblk0 V c 2 t) (iblk0 V c 3 t) (iblk0 V c 4 t) (iblk0 V c 5 t) (ix3 u v q)
    = sum0G (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (((cfg0.win 7).blk t).view.emb (ix3 u v q))
  rw [hemb, pay3_apply]
  exact Finset.sum_congr rfl fun p _ => conv0_blk V c t i hti p q

/-- What tile `t` writes back to the array of sums of squares is block `t` of `sumsq0G` of the input arrays. -/
theorem flushed0_8_eq (t : Fin cfg0.N) :
    (dat0 V c).flushed 8 t = ((cfg0.win 8).blk t).view.read (Elt Ideal)
      (sumsq0G (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))) := by
  obtain ⟨e70, e71, e72, e80, e81, e82⟩ := idx_facts0_78 t
  obtain ⟨i, hti⟩ : ∃ i : Fin 40, t.val = i.val :=
    ⟨⟨t.val, Nat.lt_of_lt_of_eq t.isLt (show cfg0.N = 40 from N_0)⟩, rfl⟩
  show (cfg0.win 8).cut (grid0.coords t) ((dat0 V c).after 8 t) = _
  rw [after0_8]
  unfold out0_8
  rw [View.canon_unit_zero hz3]
  simp only [View.ld_unit_zero (S := S5000x128) hz2, View.ld_unit_zero (S := S128x128) hz2]
  funext j
  obtain ⟨u, v, q, rfl⟩ : ∃ (u v : Fin 1) (q : Fin 128), j = ix3 u v q := ⟨j 0, j 1, j 2, eq_ix3 j⟩
  have hu : u.val = 0 := by omega
  have hv : v.val = 0 := by omega
  have hemb : ((cfg0.win 8).blk t).view.emb (ix3 u v q) = (ix3 i (0 : Fin 1) q : S40x1x128.Idx) :=
    funext fun a => Fin.ext (by
      match a with
      | ⟨0, _⟩ => show win0_8.index t (0 : Fin 3) * 1 + 1 * u.val = i.val; omega
      | ⟨1, _⟩ => show win0_8.index t (1 : Fin 3) * 1 + 1 * v.val = 0; omega
      | ⟨2, _⟩ => show win0_8.index t (2 : Fin 3) * 128 + 1 * q.val = q.val; omega)
  show k0_pay4 (iblk0 V c 0 t) (iblk0 V c 1 t) (iblk0 V c 2 t) (iblk0 V c 3 t) (iblk0 V c 4 t) (iblk0 V c 5 t) (ix3 u v q)
    = sumsq0G (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (((cfg0.win 8).blk t).view.emb (ix3 u v q))
  rw [hemb, pay4_apply]
  exact Finset.sum_congr rfl fun p _ =>
    congrArg₂ (fun a b : EReal => a * b) (conv0_blk V c t i hti p q) (conv0_blk V c t i hti p q)

/-- An index of the array of sums is in tile `t`'s block iff each coordinate is in the block's range on its axis. -/
theorem mem_blk0_7 (t : Fin cfg0.N) (i : S40x1x128.Idx) :
    i ∈ ((cfg0.win 7).blk t).view.set ↔ ∀ a : Fin 3, win0_7.index t a * S1x1x128.size a ≤ (i a).val ∧ (i a).val < win0_7.index t a * S1x1x128.size a + S1x1x128.size a := by
  show i ∈ ((View.whole main_v28_1).slice (win0_7.rect t)).set ↔ _
  rw [View.set_slice_whole, Rect.mem_set_unit]
  exact Iff.rfl

/-- The same for the array of sums of squares. -/
theorem mem_blk0_8 (t : Fin cfg0.N) (i : S40x1x128.Idx) :
    i ∈ ((cfg0.win 8).blk t).view.set ↔ ∀ a : Fin 3, win0_8.index t a * S1x1x128.size a ≤ (i a).val ∧ (i a).val < win0_8.index t a * S1x1x128.size a + S1x1x128.size a := by
  show i ∈ ((View.whole main_v28_2).slice (win0_8.rect t)).set ↔ _
  rw [View.set_slice_whole, Rect.mem_set_unit]
  exact Iff.rfl

/-- Every entry of the array of sums is in some tile's block: row `i` is tile `i`'s. -/
theorem cover0_7_arr (i : S40x1x128.Idx) :
    ∃ t : Fin cfg0.N, (cfg0.win 7).flush t = true ∧ i ∈ ((cfg0.win 7).blk t).view.set := by
  have hi0 : (i 0).val < 40 := (i 0).isLt
  have hi1 : (i 1).val < 1 := (i 1).isLt
  have hi2 : (i 2).val < 128 := (i 2).isLt
  obtain ⟨t, ht⟩ : ∃ t : Fin cfg0.N, t.val = (i 0).val :=
    ⟨⟨(i 0).val, by rw [show cfg0.N = 40 from N_0]; exact hi0⟩, rfl⟩
  obtain ⟨e70, e71, e72, e80, e81, e82⟩ := idx_facts0_78 t
  refine ⟨t, flush0_7 t, ?_⟩
  rw [mem_blk0_7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1 ≤ (i 1).val ∧ (i 1).val < win0_7.index t (1 : Fin 3) * 1 + 1; omega
  | ⟨2, _⟩ => show win0_7.index t (2 : Fin 3) * 128 ≤ (i 2).val ∧ (i 2).val < win0_7.index t (2 : Fin 3) * 128 + 128; omega

/-- Every entry of the array of sums of squares is in some tile's block. -/
theorem cover0_8_arr (i : S40x1x128.Idx) :
    ∃ t : Fin cfg0.N, (cfg0.win 8).flush t = true ∧ i ∈ ((cfg0.win 8).blk t).view.set := by
  have hi0 : (i 0).val < 40 := (i 0).isLt
  have hi1 : (i 1).val < 1 := (i 1).isLt
  have hi2 : (i 2).val < 128 := (i 2).isLt
  obtain ⟨t, ht⟩ : ∃ t : Fin cfg0.N, t.val = (i 0).val :=
    ⟨⟨(i 0).val, by rw [show cfg0.N = 40 from N_0]; exact hi0⟩, rfl⟩
  obtain ⟨e70, e71, e72, e80, e81, e82⟩ := idx_facts0_78 t
  refine ⟨t, flush0_8 t, ?_⟩
  rw [mem_blk0_8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1 ≤ (i 1).val ∧ (i 1).val < win0_8.index t (1 : Fin 3) * 1 + 1; omega
  | ⟨2, _⟩ => show win0_8.index t (2 : Fin 3) * 128 ≤ (i 2).val ∧ (i 2).val < win0_8.index t (2 : Fin 3) * 128 + 128; omega

/-- The array of sums after the region, as one function of the input arrays. -/
theorem final0_7 : (dat0 V c).arrAt 7 cfg0.N
    = sum0G (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) :=
  (dat0 V c).arrAt_eq_of_cover 7
    (sum0G (V c (Pipeline.arrRef spec0 0)) (V c (Pipeline.arrRef spec0 1)) (V c (Pipeline.arrRef spec0 2))
      (V c (Pipeline.arrRef spec0 3)) (V c (Pipeline.arrRef spec0 4)) (V c (Pipeline.arrRef spec0 5)))
    (fun t _ => flushed0_7_eq V c t) cover0_7_arr

/-- The array of sums of squares after the region, as one function of the input arrays. -/
theorem final0_8 : (dat0 V c).arrAt 8 cfg0.N
    = sumsq0G (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) :=
  (dat0 V c).arrAt_eq_of_cover 8
    (sumsq0G (V c (Pipeline.arrRef spec0 0)) (V c (Pipeline.arrRef spec0 1)) (V c (Pipeline.arrRef spec0 2))
      (V c (Pipeline.arrRef spec0 3)) (V c (Pipeline.arrRef spec0 4)) (V c (Pipeline.arrRef spec0 5)))
    (fun t _ => flushed0_8_eq V c t) cover0_8_arr

/-- Entry `(i, 0, q)` of the array of sums after the region: the sum over tile `i`'s 5000 rows of channel `q` of the
    convolution table. -/
theorem sum_0 (i : Fin 40) (q : Fin 128) :
    (dat0 V c).arrAt 7 cfg0.N (ix3 i (0 : Fin 1) q)
      = ∑ r' : Fin 5000, convT0 (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) (tileRow i r') q :=
  congrFun (final0_7 V c) (ix3 i (0 : Fin 1) q)

/-- Entry `(i, 0, q)` of the array of sums of squares after the region. -/
theorem sumsq_0 (i : Fin 40) (q : Fin 128) :
    (dat0 V c).arrAt 8 cfg0.N (ix3 i (0 : Fin 1) q)
      = ∑ r' : Fin 5000,
          convT0 (V c (Pipeline.arrRef spec0 0)) (V c (Pipeline.arrRef spec0 1)) (V c (Pipeline.arrRef spec0 2))
            (V c (Pipeline.arrRef spec0 3)) (V c (Pipeline.arrRef spec0 4)) (V c (Pipeline.arrRef spec0 5)) (tileRow i r') q
          * convT0 (V c (Pipeline.arrRef spec0 0)) (V c (Pipeline.arrRef spec0 1)) (V c (Pipeline.arrRef spec0 2))
            (V c (Pipeline.arrRef spec0 3)) (V c (Pipeline.arrRef spec0 4)) (V c (Pipeline.arrRef spec0 5)) (tileRow i r') q :=
  congrFun (final0_8 V c) (ix3 i (0 : Fin 1) q)

end Cert.KernelIdeal.KV

end
-- ==== Proof.KSum2.lean ====
/-
  Region 2's two arrays of per-tile statistics, entry by entry.

  The region walks 40 tiles of 5000 rows. At tile `t` it forms the tile's block of the convolution table (three
  products of the tile's rows of three tables with three 128-by-128 matrices, summed) and writes, besides the block
  itself, two rows of 128 values: each channel's sum over the tile's 5000 rows of the block, and the same sum of the
  block's squares. The rows land in row `t` of two 40-by-1-by-128 arrays. Since tile `t` writes exactly row `t` and
  the 40 tiles cover the 40 rows, entry `(i, 0, q)` of the first array is the sum over tile `i`'s rows of channel `q`
  of the whole convolution table (`sum_2`), and of the second the sum of its squares (`sumsq_2`).
-/
import proofs.«134539_j3152505995485_2_alg».proof.Proof.KConvLib2
import proofs.«134539_j3152505995485_2_alg».proof.Proof.KSum0
import proofs.«134539_j3152505995485_2_alg».proof.Proof.Gen.KernelIdeal.Frame
import Idealize.ShloMosaic.Lib.Pipeline.Value
import Idealize.ShloMosaic.PureOps.Ideal.Laws

noncomputable section

namespace Cert.KernelIdeal.KV

open Cert.KernelIdeal Cert.KernelIdeal.Gen Idealize.ShloMosaic Idealize.ShloMosaic.TcCoe Idealize.ShloMosaic.ValueIdx Idealize.SL.Sem
open Idealize.ShloMosaic.Pipeline (Dat)
open Cert.Spec (tab row mat tileRow)
open scoped BigOperators

/-! ## One tile's two rows at an entry -/

/-- The tile's row of sums at channel `q`: the sum of the tile's convolution block down column `q`. -/
theorem pay3_2_apply (x0 x1 x2 : Vec Ideal S5000x128 .bf16) (x3 x4 x5 : Vec Ideal S128x128 .bf16) (u v : Fin 1) (q : Fin 128) :
    k2_pay3 (F := Ideal) x0 x1 x2 x3 x4 x5 (ix3 u v q) = ∑ p : Fin 5000, k2_pay1 (F := Ideal) x0 x1 x2 x3 x4 x5 (ix2 p q) :=
  colsum_block_apply (k2_pay1 (F := Ideal) x0 x1 x2 x3 x4 x5) _ _ u v q

/-- The tile's row of sums of squares at channel `q`. -/
theorem pay4_2_apply (x0 x1 x2 : Vec Ideal S5000x128 .bf16) (x3 x4 x5 : Vec Ideal S128x128 .bf16) (u v : Fin 1) (q : Fin 128) :
    k2_pay4 (F := Ideal) x0 x1 x2 x3 x4 x5 (ix3 u v q)
      = ∑ p : Fin 5000, k2_pay1 (F := Ideal) x0 x1 x2 x3 x4 x5 (ix2 p q) * k2_pay1 (F := Ideal) x0 x1 x2 x3 x4 x5 (ix2 p q) :=
  colsum_block_apply (mulf (k2_pay1 (F := Ideal) x0 x1 x2 x3 x4 x5) (k2_pay1 (F := Ideal) x0 x1 x2 x3 x4 x5)) _ _ u v q

/-! ## What the two arrays end holding -/

/-- Per tile and channel, the sum over the tile's rows of the convolution table of the six arrays. -/
def sum2G (a0 a1 a2 : S200000x128.Idx → EReal) (a3 a4 a5 : S128x128.Idx → EReal) : S40x1x128.Idx → EReal :=
  fun i => ∑ r' : Fin 5000, convT0 a0 a1 a2 a3 a4 a5 (tileRow (i 0) r') (i 2)

/-- Per tile and channel, the sum over the tile's rows of the squares of the convolution table. -/
def sumsq2G (a0 a1 a2 : S200000x128.Idx → EReal) (a3 a4 a5 : S128x128.Idx → EReal) : S40x1x128.Idx → EReal :=
  fun i => ∑ r' : Fin 5000, convT0 a0 a1 a2 a3 a4 a5 (tileRow (i 0) r') (i 2) * convT0 a0 a1 a2 a3 a4 a5 (tileRow (i 0) r') (i 2)

/-! ## From tiles to the arrays -/

/-- The two per-tile windows' block indices at tile `t`, decided over the 40 tiles: row `t`, nothing else moves. -/
theorem idx_facts2_78 : ∀ t : Fin cfg2.N,
    win2_7.index t (0 : Fin 3) = t.val ∧ win2_7.index t (1 : Fin 3) = 0 ∧ win2_7.index t (2 : Fin 3) = 0
    ∧ win2_8.index t (0 : Fin 3) = t.val ∧ win2_8.index t (1 : Fin 3) = 0 ∧ win2_8.index t (2 : Fin 3) = 0 :=
  (by decide +kernel : ∀ t : Fin grid2.N, _)

/-- Tile `t`'s block of window 7 sits at row `t` of its array: entry `(u, v, q)` of the block is entry `(t, 0, q)` of the array. -/
theorem emb2_7 (t : Fin cfg2.N) (i : Fin 40) (hti : t.val = i.val) (u v : Fin 1) (q : Fin 128) :
    ((cfg2.win 7).blk t).view.emb (ix3 u v q) = (ix3 i (0 : Fin 1) q : S40x1x128.Idx) := by
  obtain ⟨e70, e71, e72, e80, e81, e82⟩ := idx_facts2_78 t
  have hu : u.val = 0 := by omega
  have hv : v.val = 0 := by omega
  exact funext fun a => Fin.ext (by
    match a with
    | ⟨0, _⟩ => show win2_7.index t (0 : Fin 3) * 1 + 1 * u.val = i.val; omega
    | ⟨1, _⟩ => show win2_7.index t (1 : Fin 3) * 1 + 1 * v.val = 0; omega
    | ⟨2, _⟩ => show win2_7.index t (2 : Fin 3) * 128 + 1 * q.val = q.val; omega)

/-- Tile `t`'s block of window 8 sits at row `t` of its array: entry `(u, v, q)` of the block is entry `(t, 0, q)` of the array. -/
theorem emb2_8 (t : Fin cfg2.N) (i : Fin 40) (hti : t.val = i.val) (u v : Fin 1) (q : Fin 128) :
    ((cfg2.win 8).blk t).view.emb (ix3 u v q) = (ix3 i (0 : Fin 1) q : S40x1x128.Idx) := by
  obtain ⟨e70, e71, e72, e80, e81, e82⟩ := idx_facts2_78 t
  have hu : u.val = 0 := by omega
  have hv : v.val = 0 := by omega
  exact funext fun a => Fin.ext (by
    match a with
    | ⟨0, _⟩ => show win2_8.index t (0 : Fin 3) * 1 + 1 * u.val = i.val; omega
    | ⟨1, _⟩ => show win2_8.index t (1 : Fin 3) * 1 + 1 * v.val = 0; omega
    | ⟨2, _⟩ => show win2_8.index t (2 : Fin 3) * 128 + 1 * q.val = q.val; omega)

variable (V : (c : Dev nD) → (b : Ref sig .tc) → Buf (Elt Ideal) ((c : Thread nD τ).loc b)) (c : Dev nD)

set_option maxHeartbeats 400000 in
/-- What tile `t` writes back to the array of sums is block `t` of `sum2G` of the input arrays as the region finds them. -/
theorem flushed2_7_eq (t : Fin cfg2.N) :
    (dat2 V c).flushed 7 t = ((cfg2.win 7).blk t).view.read (Elt Ideal)
      (sum2G (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  obtain ⟨e70, e71, e72, e80, e81, e82⟩ := idx_facts2_78 t
  obtain ⟨i, hti⟩ : ∃ i : Fin 40, t.val = i.val :=
    ⟨⟨t.val, Nat.lt_of_lt_of_eq t.isLt (show cfg2.N = 40 from N_2)⟩, rfl⟩
  show (cfg2.win 7).cut (grid2.coords t) ((dat2 V c).after 7 t) = _
  rw [after2_7]
  unfold out2_7
  rw [View.canon_unit_zero hz3]
  simp only [View.ld_unit_zero (S := S5000x128) hz2, View.ld_unit_zero (S := S128x128) hz2]
  funext j
  obtain ⟨u, v, q, rfl⟩ : ∃ (u v : Fin 1) (q : Fin 128), j = ix3 u v q := ⟨j 0, j 1, j 2, eq_ix3 j⟩
  show k2_pay3 (iblk2 V c 0 t) (iblk2 V c 1 t) (iblk2 V c 2 t) (iblk2 V c 3 t) (iblk2 V c 4 t) (iblk2 V c 5 t) (ix3 u v q)
    = sum2G (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (((cfg2.win 7).blk t).view.emb (ix3 u v q))
  rw [emb2_7 t i hti u v q, pay3_2_apply]
  exact Finset.sum_congr rfl fun p _ => conv2_blk V c t i hti p q

set_option maxHeartbeats 400000 in
/-- What tile `t` writes back to the array of sums of squares is block `t` of `sumsq2G` of the input arrays. -/
theorem flushed2_8_eq (t : Fin cfg2.N) :
    (dat2 V c).flushed 8 t = ((cfg2.win 8).blk t).view.read (Elt Ideal)
      (sumsq2G (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  obtain ⟨e70, e71, e72, e80, e81, e82⟩ := idx_facts2_78 t
  obtain ⟨i, hti⟩ : ∃ i : Fin 40, t.val = i.val :=
    ⟨⟨t.val, Nat.lt_of_lt_of_eq t.isLt (show cfg2.N = 40 from N_2)⟩, rfl⟩
  show (cfg2.win 8).cut (grid2.coords t) ((dat2 V c).after 8 t) = _
  rw [after2_8]
  unfold out2_8
  rw [View.canon_unit_zero hz3]
  simp only [View.ld_unit_zero (S := S5000x128) hz2, View.ld_unit_zero (S := S128x128) hz2]
  funext j
  obtain ⟨u, v, q, rfl⟩ : ∃ (u v : Fin 1) (q : Fin 128), j = ix3 u v q := ⟨j 0, j 1, j 2, eq_ix3 j⟩
  show k2_pay4 (iblk2 V c 0 t) (iblk2 V c 1 t) (iblk2 V c 2 t) (iblk2 V c 3 t) (iblk2 V c 4 t) (iblk2 V c 5 t) (ix3 u v q)
    = sumsq2G (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (((cfg2.win 8).blk t).view.emb (ix3 u v q))
  rw [emb2_8 t i hti u v q, pay4_2_apply]
  exact Finset.sum_congr rfl fun p _ =>
    congrArg₂ (fun a b : EReal => a * b) (conv2_blk V c t i hti p q) (conv2_blk V c t i hti p q)

/-- An index of the array of sums is in tile `t`'s block iff each coordinate is in the block's range on its axis. -/
theorem mem_blk2_7 (t : Fin cfg2.N) (i : S40x1x128.Idx) :
    i ∈ ((cfg2.win 7).blk t).view.set ↔ ∀ a : Fin 3, win2_7.index t a * S1x1x128.size a ≤ (i a).val ∧ (i a).val < win2_7.index t a * S1x1x128.size a + S1x1x128.size a := by
  show i ∈ ((View.whole main_v69_1).slice (win2_7.rect t)).set ↔ _
  rw [View.set_slice_whole, Rect.mem_set_unit]
  exact Iff.rfl

/-- The same for the array of sums of squares. -/
theorem mem_blk2_8 (t : Fin cfg2.N) (i : S40x1x128.Idx) :
    i ∈ ((cfg2.win 8).blk t).view.set ↔ ∀ a : Fin 3, win2_8.index t a * S1x1x128.size a ≤ (i a).val ∧ (i a).val < win2_8.index t a * S1x1x128.size a + S1x1x128.size a := by
  show i ∈ ((View.whole main_v69_2).slice (win2_8.rect t)).set ↔ _
  rw [View.set_slice_whole, Rect.mem_set_unit]
  exact Iff.rfl

/-- Every entry of the array of sums is in some tile's block: row `i` is tile `i`'s. -/
theorem cover2_7_arr (i : S40x1x128.Idx) :
    ∃ t : Fin cfg2.N, (cfg2.win 7).flush t = true ∧ i ∈ ((cfg2.win 7).blk t).view.set := by
  have hi0 : (i 0).val < 40 := (i 0).isLt
  have hi1 : (i 1).val < 1 := (i 1).isLt
  have hi2 : (i 2).val < 128 := (i 2).isLt
  obtain ⟨t, ht⟩ : ∃ t : Fin cfg2.N, t.val = (i 0).val :=
    ⟨⟨(i 0).val, by rw [show cfg2.N = 40 from N_2]; exact hi0⟩, rfl⟩
  obtain ⟨e70, e71, e72, e80, e81, e82⟩ := idx_facts2_78 t
  refine ⟨t, flush2_7 t, ?_⟩
  rw [mem_blk2_7]
  intro a
  match a with
  | ⟨0, _⟩ => show win2_7.index t (0 : Fin 3) * 1 ≤ (i 0).val ∧ (i 0).val < win2_7.index t (0 : Fin 3) * 1 + 1; omega
  | ⟨1, _⟩ => show win2_7.index t (1 : Fin 3) * 1 ≤ (i 1).val ∧ (i 1).val < win2_7.index t (1 : Fin 3) * 1 + 1; omega
  | ⟨2, _⟩ => show win2_7.index t (2 : Fin 3) * 128 ≤ (i 2).val ∧ (i 2).val < win2_7.index t (2 : Fin 3) * 128 + 128; omega

/-- Every entry of the array of sums of squares is in some tile's block. -/
theorem cover2_8_arr (i : S40x1x128.Idx) :
    ∃ t : Fin cfg2.N, (cfg2.win 8).flush t = true ∧ i ∈ ((cfg2.win 8).blk t).view.set := by
  have hi0 : (i 0).val < 40 := (i 0).isLt
  have hi1 : (i 1).val < 1 := (i 1).isLt
  have hi2 : (i 2).val < 128 := (i 2).isLt
  obtain ⟨t, ht⟩ : ∃ t : Fin cfg2.N, t.val = (i 0).val :=
    ⟨⟨(i 0).val, by rw [show cfg2.N = 40 from N_2]; exact hi0⟩, rfl⟩
  obtain ⟨e70, e71, e72, e80, e81, e82⟩ := idx_facts2_78 t
  refine ⟨t, flush2_8 t, ?_⟩
  rw [mem_blk2_8]
  intro a
  match a with
  | ⟨0, _⟩ => show win2_8.index t (0 : Fin 3) * 1 ≤ (i 0).val ∧ (i 0).val < win2_8.index t (0 : Fin 3) * 1 + 1; omega
  | ⟨1, _⟩ => show win2_8.index t (1 : Fin 3) * 1 ≤ (i 1).val ∧ (i 1).val < win2_8.index t (1 : Fin 3) * 1 + 1; omega
  | ⟨2, _⟩ => show win2_8.index t (2 : Fin 3) * 128 ≤ (i 2).val ∧ (i 2).val < win2_8.index t (2 : Fin 3) * 128 + 128; omega

/-- The array of sums after the region, as one function of the input arrays. -/
theorem final2_7 : (dat2 V c).arrAt 7 cfg2.N
    = sum2G (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) :=
  (dat2 V c).arrAt_eq_of_cover 7
    (sum2G (V c (Pipeline.arrRef spec2 0)) (V c (Pipeline.arrRef spec2 1)) (V c (Pipeline.arrRef spec2 2))
      (V c (Pipeline.arrRef spec2 3)) (V c (Pipeline.arrRef spec2 4)) (V c (Pipeline.arrRef spec2 5)))
    (fun t _ => flushed2_7_eq V c t) cover2_7_arr

/-- The array of sums of squares after the region, as one function of the input arrays. -/
theorem final2_8 : (dat2 V c).arrAt 8 cfg2.N
    = sumsq2G (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) :=
  (dat2 V c).arrAt_eq_of_cover 8
    (sumsq2G (V c (Pipeline.arrRef spec2 0)) (V c (Pipeline.arrRef spec2 1)) (V c (Pipeline.arrRef spec2 2))
      (V c (Pipeline.arrRef spec2 3)) (V c (Pipeline.arrRef spec2 4)) (V c (Pipeline.arrRef spec2 5)))
    (fun t _ => flushed2_8_eq V c t) cover2_8_arr

/-- Entry `(i, 0, q)` of the array of sums after the region: the sum over tile `i`'s 5000 rows of channel `q` of the
    convolution table. -/
theorem sum_2 (i : Fin 40) (q : Fin 128) :
    (dat2 V c).arrAt 7 cfg2.N (ix3 i (0 : Fin 1) q)
      = ∑ r' : Fin 5000, convT0 (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) (tileRow i r') q :=
  congrFun (final2_7 V c) (ix3 i (0 : Fin 1) q)

/-- Entry `(i, 0, q)` of the array of sums of squares after the region. -/
theorem sumsq_2 (i : Fin 40) (q : Fin 128) :
    (dat2 V c).arrAt 8 cfg2.N (ix3 i (0 : Fin 1) q)
      = ∑ r' : Fin 5000,
          convT0 (V c (Pipeline.arrRef spec2 0)) (V c (Pipeline.arrRef spec2 1)) (V c (Pipeline.arrRef spec2 2))
            (V c (Pipeline.arrRef spec2 3)) (V c (Pipeline.arrRef spec2 4)) (V c (Pipeline.arrRef spec2 5)) (tileRow i r') q
          * convT0 (V c (Pipeline.arrRef spec2 0)) (V c (Pipeline.arrRef spec2 1)) (V c (Pipeline.arrRef spec2 2))
            (V c (Pipeline.arrRef spec2 3)) (V c (Pipeline.arrRef spec2 4)) (V c (Pipeline.arrRef spec2 5)) (tileRow i r') q :=
  congrFun (final2_8 V c) (ix3 i (0 : Fin 1) q)

end Cert.KernelIdeal.KV

end
-- ==== Proof.KSum4.lean ====
/-
  Region 4's two arrays of per-tile statistics, entry by entry.

  The region walks 40 tiles of 5000 rows. At tile `t` it forms the tile's block of the convolution table (three
  products of the tile's rows of three tables with three 128-by-128 matrices, summed) and writes, besides the block
  itself, two rows of 128 values: each channel's sum over the tile's 5000 rows of the block, and the same sum of the
  block's squares. The rows land in row `t` of two 40-by-1-by-128 arrays. Since tile `t` writes exactly row `t` and
  the 40 tiles cover the 40 rows, entry `(i, 0, q)` of the first array is the sum over tile `i`'s rows of channel `q`
  of the whole convolution table (`sum_4`), and of the second the sum of its squares (`sumsq_4`).
-/
import proofs.«134539_j3152505995485_2_alg».proof.Proof.KConvLib4
import proofs.«134539_j3152505995485_2_alg».proof.Proof.KSum0
import proofs.«134539_j3152505995485_2_alg».proof.Proof.Gen.KernelIdeal.Frame
import Idealize.ShloMosaic.Lib.Pipeline.Value
import Idealize.ShloMosaic.PureOps.Ideal.Laws

noncomputable section

namespace Cert.KernelIdeal.KV

open Cert.KernelIdeal Cert.KernelIdeal.Gen Idealize.ShloMosaic Idealize.ShloMosaic.TcCoe Idealize.ShloMosaic.ValueIdx Idealize.SL.Sem
open Idealize.ShloMosaic.Pipeline (Dat)
open Cert.Spec (tab row mat tileRow)
open scoped BigOperators

/-! ## One tile's two rows at an entry -/

/-- The tile's row of sums at channel `q`: the sum of the tile's convolution block down column `q`. -/
theorem pay3_4_apply (x0 x1 x2 : Vec Ideal S5000x128 .bf16) (x3 x4 x5 : Vec Ideal S128x128 .bf16) (u v : Fin 1) (q : Fin 128) :
    k4_pay3 (F := Ideal) x0 x1 x2 x3 x4 x5 (ix3 u v q) = ∑ p : Fin 5000, k4_pay1 (F := Ideal) x0 x1 x2 x3 x4 x5 (ix2 p q) :=
  colsum_block_apply (k4_pay1 (F := Ideal) x0 x1 x2 x3 x4 x5) _ _ u v q

/-- The tile's row of sums of squares at channel `q`. -/
theorem pay4_4_apply (x0 x1 x2 : Vec Ideal S5000x128 .bf16) (x3 x4 x5 : Vec Ideal S128x128 .bf16) (u v : Fin 1) (q : Fin 128) :
    k4_pay4 (F := Ideal) x0 x1 x2 x3 x4 x5 (ix3 u v q)
      = ∑ p : Fin 5000, k4_pay1 (F := Ideal) x0 x1 x2 x3 x4 x5 (ix2 p q) * k4_pay1 (F := Ideal) x0 x1 x2 x3 x4 x5 (ix2 p q) :=
  colsum_block_apply (mulf (k4_pay1 (F := Ideal) x0 x1 x2 x3 x4 x5) (k4_pay1 (F := Ideal) x0 x1 x2 x3 x4 x5)) _ _ u v q

/-! ## What the two arrays end holding -/

/-- Per tile and channel, the sum over the tile's rows of the convolution table of the six arrays. -/
def sum4G (a0 a1 a2 : S200000x128.Idx → EReal) (a3 a4 a5 : S128x128.Idx → EReal) : S40x1x128.Idx → EReal :=
  fun i => ∑ r' : Fin 5000, convT0 a0 a1 a2 a3 a4 a5 (tileRow (i 0) r') (i 2)

/-- Per tile and channel, the sum over the tile's rows of the squares of the convolution table. -/
def sumsq4G (a0 a1 a2 : S200000x128.Idx → EReal) (a3 a4 a5 : S128x128.Idx → EReal) : S40x1x128.Idx → EReal :=
  fun i => ∑ r' : Fin 5000, convT0 a0 a1 a2 a3 a4 a5 (tileRow (i 0) r') (i 2) * convT0 a0 a1 a2 a3 a4 a5 (tileRow (i 0) r') (i 2)

/-! ## From tiles to the arrays -/

/-- The two per-tile windows' block indices at tile `t`, decided over the 40 tiles: row `t`, nothing else moves. -/
theorem idx_facts4_78 : ∀ t : Fin cfg4.N,
    win4_7.index t (0 : Fin 3) = t.val ∧ win4_7.index t (1 : Fin 3) = 0 ∧ win4_7.index t (2 : Fin 3) = 0
    ∧ win4_8.index t (0 : Fin 3) = t.val ∧ win4_8.index t (1 : Fin 3) = 0 ∧ win4_8.index t (2 : Fin 3) = 0 :=
  (by decide +kernel : ∀ t : Fin grid4.N, _)

variable (V : (c : Dev nD) → (b : Ref sig .tc) → Buf (Elt Ideal) ((c : Thread nD τ).loc b)) (c : Dev nD)

/-- What tile `t` writes back to the array of sums is block `t` of `sum4G` of the input arrays as the region finds them. -/
theorem flushed4_7_eq (t : Fin cfg4.N) :
    (dat4 V c).flushed 7 t = ((cfg4.win 7).blk t).view.read (Elt Ideal)
      (sum4G (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))) := by
  obtain ⟨e70, e71, e72, e80, e81, e82⟩ := idx_facts4_78 t
  obtain ⟨i, hti⟩ : ∃ i : Fin 40, t.val = i.val :=
    ⟨⟨t.val, Nat.lt_of_lt_of_eq t.isLt (show cfg4.N = 40 from N_4)⟩, rfl⟩
  show (cfg4.win 7).cut (grid4.coords t) ((dat4 V c).after 7 t) = _
  rw [after4_7]
  unfold out4_7
  rw [View.canon_unit_zero hz3]
  simp only [View.ld_unit_zero (S := S5000x128) hz2, View.ld_unit_zero (S := S128x128) hz2]
  funext j
  obtain ⟨u, v, q, rfl⟩ : ∃ (u v : Fin 1) (q : Fin 128), j = ix3 u v q := ⟨j 0, j 1, j 2, eq_ix3 j⟩
  have hu : u.val = 0 := by omega
  have hv : v.val = 0 := by omega
  have hemb : ((cfg4.win 7).blk t).view.emb (ix3 u v q) = (ix3 i (0 : Fin 1) q : S40x1x128.Idx) :=
    funext fun a => Fin.ext (by
      match a with
      | ⟨0, _⟩ => show win4_7.index t (0 : Fin 3) * 1 + 1 * u.val = i.val; omega
      | ⟨1, _⟩ => show win4_7.index t (1 : Fin 3) * 1 + 1 * v.val = 0; omega
      | ⟨2, _⟩ => show win4_7.index t (2 : Fin 3) * 128 + 1 * q.val = q.val; omega)
  show k4_pay3 (iblk4 V c 0 t) (iblk4 V c 1 t) (iblk4 V c 2 t) (iblk4 V c 3 t) (iblk4 V c 4 t) (iblk4 V c 5 t) (ix3 u v q)
    = sum4G (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))
        (((cfg4.win 7).blk t).view.emb (ix3 u v q))
  rw [hemb, pay3_4_apply]
  exact Finset.sum_congr rfl fun p _ => conv4_blk V c t i hti p q

/-- What tile `t` writes back to the array of sums of squares is block `t` of `sumsq4G` of the input arrays. -/
theorem flushed4_8_eq (t : Fin cfg4.N) :
    (dat4 V c).flushed 8 t = ((cfg4.win 8).blk t).view.read (Elt Ideal)
      (sumsq4G (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))) := by
  obtain ⟨e70, e71, e72, e80, e81, e82⟩ := idx_facts4_78 t
  obtain ⟨i, hti⟩ : ∃ i : Fin 40, t.val = i.val :=
    ⟨⟨t.val, Nat.lt_of_lt_of_eq t.isLt (show cfg4.N = 40 from N_4)⟩, rfl⟩
  show (cfg4.win 8).cut (grid4.coords t) ((dat4 V c).after 8 t) = _
  rw [after4_8]
  unfold out4_8
  rw [View.canon_unit_zero hz3]
  simp only [View.ld_unit_zero (S := S5000x128) hz2, View.ld_unit_zero (S := S128x128) hz2]
  funext j
  obtain ⟨u, v, q, rfl⟩ : ∃ (u v : Fin 1) (q : Fin 128), j = ix3 u v q := ⟨j 0, j 1, j 2, eq_ix3 j⟩
  have hu : u.val = 0 := by omega
  have hv : v.val = 0 := by omega
  have hemb : ((cfg4.win 8).blk t).view.emb (ix3 u v q) = (ix3 i (0 : Fin 1) q : S40x1x128.Idx) :=
    funext fun a => Fin.ext (by
      match a with
      | ⟨0, _⟩ => show win4_8.index t (0 : Fin 3) * 1 + 1 * u.val = i.val; omega
      | ⟨1, _⟩ => show win4_8.index t (1 : Fin 3) * 1 + 1 * v.val = 0; omega
      | ⟨2, _⟩ => show win4_8.index t (2 : Fin 3) * 128 + 1 * q.val = q.val; omega)
  show k4_pay4 (iblk4 V c 0 t) (iblk4 V c 1 t) (iblk4 V c 2 t) (iblk4 V c 3 t) (iblk4 V c 4 t) (iblk4 V c 5 t) (ix3 u v q)
    = sumsq4G (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))
        (((cfg4.win 8).blk t).view.emb (ix3 u v q))
  rw [hemb, pay4_4_apply]
  exact Finset.sum_congr rfl fun p _ =>
    congrArg₂ (fun a b : EReal => a * b) (conv4_blk V c t i hti p q) (conv4_blk V c t i hti p q)

/-- An index of the array of sums is in tile `t`'s block iff each coordinate is in the block's range on its axis. -/
theorem mem_blk4_7 (t : Fin cfg4.N) (i : S40x1x128.Idx) :
    i ∈ ((cfg4.win 7).blk t).view.set ↔ ∀ a : Fin 3, win4_7.index t a * S1x1x128.size a ≤ (i a).val ∧ (i a).val < win4_7.index t a * S1x1x128.size a + S1x1x128.size a := by
  show i ∈ ((View.whole main_v110_1).slice (win4_7.rect t)).set ↔ _
  rw [View.set_slice_whole, Rect.mem_set_unit]
  exact Iff.rfl

/-- The same for the array of sums of squares. -/
theorem mem_blk4_8 (t : Fin cfg4.N) (i : S40x1x128.Idx) :
    i ∈ ((cfg4.win 8).blk t).view.set ↔ ∀ a : Fin 3, win4_8.index t a * S1x1x128.size a ≤ (i a).val ∧ (i a).val < win4_8.index t a * S1x1x128.size a + S1x1x128.size a := by
  show i ∈ ((View.whole main_v110_2).slice (win4_8.rect t)).set ↔ _
  rw [View.set_slice_whole, Rect.mem_set_unit]
  exact Iff.rfl

/-- Every entry of the array of sums is in some tile's block: row `i` is tile `i`'s. -/
theorem cover4_7_arr (i : S40x1x128.Idx) :
    ∃ t : Fin cfg4.N, (cfg4.win 7).flush t = true ∧ i ∈ ((cfg4.win 7).blk t).view.set := by
  have hi0 : (i 0).val < 40 := (i 0).isLt
  have hi1 : (i 1).val < 1 := (i 1).isLt
  have hi2 : (i 2).val < 128 := (i 2).isLt
  obtain ⟨t, ht⟩ : ∃ t : Fin cfg4.N, t.val = (i 0).val :=
    ⟨⟨(i 0).val, by rw [show cfg4.N = 40 from N_4]; exact hi0⟩, rfl⟩
  obtain ⟨e70, e71, e72, e80, e81, e82⟩ := idx_facts4_78 t
  refine ⟨t, flush4_7 t, ?_⟩
  rw [mem_blk4_7]
  intro a
  match a with
  | ⟨0, _⟩ => show win4_7.index t (0 : Fin 3) * 1 ≤ (i 0).val ∧ (i 0).val < win4_7.index t (0 : Fin 3) * 1 + 1; omega
  | ⟨1, _⟩ => show win4_7.index t (1 : Fin 3) * 1 ≤ (i 1).val ∧ (i 1).val < win4_7.index t (1 : Fin 3) * 1 + 1; omega
  | ⟨2, _⟩ => show win4_7.index t (2 : Fin 3) * 128 ≤ (i 2).val ∧ (i 2).val < win4_7.index t (2 : Fin 3) * 128 + 128; omega

/-- Every entry of the array of sums of squares is in some tile's block. -/
theorem cover4_8_arr (i : S40x1x128.Idx) :
    ∃ t : Fin cfg4.N, (cfg4.win 8).flush t = true ∧ i ∈ ((cfg4.win 8).blk t).view.set := by
  have hi0 : (i 0).val < 40 := (i 0).isLt
  have hi1 : (i 1).val < 1 := (i 1).isLt
  have hi2 : (i 2).val < 128 := (i 2).isLt
  obtain ⟨t, ht⟩ : ∃ t : Fin cfg4.N, t.val = (i 0).val :=
    ⟨⟨(i 0).val, by rw [show cfg4.N = 40 from N_4]; exact hi0⟩, rfl⟩
  obtain ⟨e70, e71, e72, e80, e81, e82⟩ := idx_facts4_78 t
  refine ⟨t, flush4_8 t, ?_⟩
  rw [mem_blk4_8]
  intro a
  match a with
  | ⟨0, _⟩ => show win4_8.index t (0 : Fin 3) * 1 ≤ (i 0).val ∧ (i 0).val < win4_8.index t (0 : Fin 3) * 1 + 1; omega
  | ⟨1, _⟩ => show win4_8.index t (1 : Fin 3) * 1 ≤ (i 1).val ∧ (i 1).val < win4_8.index t (1 : Fin 3) * 1 + 1; omega
  | ⟨2, _⟩ => show win4_8.index t (2 : Fin 3) * 128 ≤ (i 2).val ∧ (i 2).val < win4_8.index t (2 : Fin 3) * 128 + 128; omega

/-- The array of sums after the region, as one function of the input arrays. -/
theorem final4_7 : (dat4 V c).arrAt 7 cfg4.N
    = sum4G (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)) :=
  (dat4 V c).arrAt_eq_of_cover 7
    (sum4G (V c (Pipeline.arrRef spec4 0)) (V c (Pipeline.arrRef spec4 1)) (V c (Pipeline.arrRef spec4 2))
      (V c (Pipeline.arrRef spec4 3)) (V c (Pipeline.arrRef spec4 4)) (V c (Pipeline.arrRef spec4 5)))
    (fun t _ => flushed4_7_eq V c t) cover4_7_arr

/-- The array of sums of squares after the region, as one function of the input arrays. -/
theorem final4_8 : (dat4 V c).arrAt 8 cfg4.N
    = sumsq4G (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)) :=
  (dat4 V c).arrAt_eq_of_cover 8
    (sumsq4G (V c (Pipeline.arrRef spec4 0)) (V c (Pipeline.arrRef spec4 1)) (V c (Pipeline.arrRef spec4 2))
      (V c (Pipeline.arrRef spec4 3)) (V c (Pipeline.arrRef spec4 4)) (V c (Pipeline.arrRef spec4 5)))
    (fun t _ => flushed4_8_eq V c t) cover4_8_arr

/-- Entry `(i, 0, q)` of the array of sums after the region: the sum over tile `i`'s 5000 rows of channel `q` of the
    convolution table. -/
theorem sum_4 (i : Fin 40) (q : Fin 128) :
    (dat4 V c).arrAt 7 cfg4.N (ix3 i (0 : Fin 1) q)
      = ∑ r' : Fin 5000, convT0 (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5)) (tileRow i r') q :=
  congrFun (final4_7 V c) (ix3 i (0 : Fin 1) q)

/-- Entry `(i, 0, q)` of the array of sums of squares after the region. -/
theorem sumsq_4 (i : Fin 40) (q : Fin 128) :
    (dat4 V c).arrAt 8 cfg4.N (ix3 i (0 : Fin 1) q)
      = ∑ r' : Fin 5000,
          convT0 (V c (Pipeline.arrRef spec4 0)) (V c (Pipeline.arrRef spec4 1)) (V c (Pipeline.arrRef spec4 2))
            (V c (Pipeline.arrRef spec4 3)) (V c (Pipeline.arrRef spec4 4)) (V c (Pipeline.arrRef spec4 5)) (tileRow i r') q
          * convT0 (V c (Pipeline.arrRef spec4 0)) (V c (Pipeline.arrRef spec4 1)) (V c (Pipeline.arrRef spec4 2))
            (V c (Pipeline.arrRef spec4 3)) (V c (Pipeline.arrRef spec4 4)) (V c (Pipeline.arrRef spec4 5)) (tileRow i r') q :=
  congrFun (final4_8 V c) (ix3 i (0 : Fin 1) q)

end Cert.KernelIdeal.KV

end
-- ==== Proof.KConvFacts.lean ====
/-
  What the three convolution regions leave, in terms of the program's arguments: each axis's convolution table,
  with its per-tile sums and sums of squares.
-/
import proofs.«134539_j3152505995485_2_alg».proof.Proof.KValue
import proofs.«134539_j3152505995485_2_alg».proof.Proof.KGlue0
import proofs.«134539_j3152505995485_2_alg».proof.Proof.KGlue2
import proofs.«134539_j3152505995485_2_alg».proof.Proof.KGlue4
import proofs.«134539_j3152505995485_2_alg».proof.Proof.KConv0
import proofs.«134539_j3152505995485_2_alg».proof.Proof.KConv2
import proofs.«134539_j3152505995485_2_alg».proof.Proof.KConv4
import proofs.«134539_j3152505995485_2_alg».proof.Proof.KSum0
import proofs.«134539_j3152505995485_2_alg».proof.Proof.KSum2
import proofs.«134539_j3152505995485_2_alg».proof.Proof.KSum4

noncomputable section

namespace Cert.KernelIdeal.KV

open Idealize.ShloMosaic Idealize.ShloMosaic.TcCoe Idealize.ShloMosaic.ValueIdx Idealize.SL.Sem Cert.Spec
open Cert.KernelIdeal Cert.KernelIdeal.Gen

variable (m : (ℓ : Loc nD τ sig) → Buf (Elt Ideal) ℓ) (ρ : Dev nD → PrngReg) (c : Dev nD)

theorem convT0_entry0 : convT0 (Gen.V1 m ρ c (Pipeline.arrRef spec0 0)) (Gen.V1 m ρ c (Pipeline.arrRef spec0 1)) (Gen.V1 m ρ c (Pipeline.arrRef spec0 2))
      (Gen.V1 m ρ c (Pipeline.arrRef spec0 3)) (Gen.V1 m ρ c (Pipeline.arrRef spec0 4)) (Gen.V1 m ρ c (Pipeline.arrRef spec0 5))
    = kT0 (m ((c : Thread nD τ).loc main_arg0)) (m ((c : Thread nD τ).loc main_arg1)) (m ((c : Thread nD τ).loc main_arg2)) := by
  rw [entry_0_0 m ρ c, entry_0_1 m ρ c, entry_0_2 m ρ c, entry_0_3 m ρ c, entry_0_4 m ρ c, entry_0_5 m ρ c]
  rfl

/-- Region 0 leaves axis 0's table and its per-tile sums. -/
theorem conv0_facts : ConvFacts ((Gen.dat0 (Gen.V1 m ρ) c).arrAt 6 cfg0.N) ((Gen.dat0 (Gen.V1 m ρ) c).arrAt 7 cfg0.N)
    ((Gen.dat0 (Gen.V1 m ρ) c).arrAt 8 cfg0.N)
    (kT0 (m ((c : Thread nD τ).loc main_arg0)) (m ((c : Thread nD τ).loc main_arg1)) (m ((c : Thread nD τ).loc main_arg2))) where
  tbl r q := (conv_0 (Gen.V1 m ρ) c r q).trans (congrFun (congrFun (convT0_entry0 m ρ c) r) q)
  sum i q := by rw [sum_0 (Gen.V1 m ρ) c i q, convT0_entry0 m ρ c]
  sumsq i q := by rw [sumsq_0 (Gen.V1 m ρ) c i q, convT0_entry0 m ρ c]

theorem convT0_entry2 : convT0 (Gen.V5 m ρ c (Pipeline.arrRef spec2 0)) (Gen.V5 m ρ c (Pipeline.arrRef spec2 1)) (Gen.V5 m ρ c (Pipeline.arrRef spec2 2))
      (Gen.V5 m ρ c (Pipeline.arrRef spec2 3)) (Gen.V5 m ρ c (Pipeline.arrRef spec2 4)) (Gen.V5 m ρ c (Pipeline.arrRef spec2 5))
    = kT1 (m ((c : Thread nD τ).loc main_arg0)) (m ((c : Thread nD τ).loc main_arg1)) (m ((c : Thread nD τ).loc main_arg2)) := by
  rw [entry_2_0 m ρ c, entry_2_1 m ρ c, entry_2_2 m ρ c, entry_2_3 m ρ c, entry_2_4 m ρ c, entry_2_5 m ρ c]
  rfl

/-- Region 2 leaves axis 1's table and its per-tile sums. -/
theorem conv2_facts : ConvFacts ((Gen.dat2 (Gen.V5 m ρ) c).arrAt 6 cfg2.N) ((Gen.dat2 (Gen.V5 m ρ) c).arrAt 7 cfg2.N)
    ((Gen.dat2 (Gen.V5 m ρ) c).arrAt 8 cfg2.N)
    (kT1 (m ((c : Thread nD τ).loc main_arg0)) (m ((c : Thread nD τ).loc main_arg1)) (m ((c : Thread nD τ).loc main_arg2))) where
  tbl r q := (conv_2 (Gen.V5 m ρ) c r q).trans (congrFun (congrFun (convT0_entry2 m ρ c) r) q)
  sum i q := by rw [sum_2 (Gen.V5 m ρ) c i q, convT0_entry2 m ρ c]
  sumsq i q := by rw [sumsq_2 (Gen.V5 m ρ) c i q, convT0_entry2 m ρ c]

theorem convT0_entry4 : convT0 (Gen.V9 m ρ c (Pipeline.arrRef spec4 0)) (Gen.V9 m ρ c (Pipeline.arrRef spec4 1)) (Gen.V9 m ρ c (Pipeline.arrRef spec4 2))
      (Gen.V9 m ρ c (Pipeline.arrRef spec4 3)) (Gen.V9 m ρ c (Pipeline.arrRef spec4 4)) (Gen.V9 m ρ c (Pipeline.arrRef spec4 5))
    = kT2 (m ((c : Thread nD τ).loc main_arg0)) (m ((c : Thread nD τ).loc main_arg1)) (m ((c : Thread nD τ).loc main_arg2)) := by
  rw [entry_4_0 m ρ c, entry_4_1 m ρ c, entry_4_2 m ρ c, entry_4_3 m ρ c, entry_4_4 m ρ c, entry_4_5 m ρ c]
  rfl

/-- Region 4 leaves axis 2's table and its per-tile sums. -/
theorem conv4_facts : ConvFacts ((Gen.dat4 (Gen.V9 m ρ) c).arrAt 6 cfg4.N) ((Gen.dat4 (Gen.V9 m ρ) c).arrAt 7 cfg4.N)
    ((Gen.dat4 (Gen.V9 m ρ) c).arrAt 8 cfg4.N)
    (kT2 (m ((c : Thread nD τ).loc main_arg0)) (m ((c : Thread nD τ).loc main_arg1)) (m ((c : Thread nD τ).loc main_arg2))) where
  tbl r q := (conv_4 (Gen.V9 m ρ) c r q).trans (congrFun (congrFun (convT0_entry4 m ρ c) r) q)
  sum i q := by rw [sum_4 (Gen.V9 m ρ) c i q, convT0_entry4 m ρ c]
  sumsq i q := by rw [sumsq_4 (Gen.V9 m ρ) c i q, convT0_entry4 m ρ c]

end Cert.KernelIdeal.KV

end
-- ==== Proof.RefDefs.lean ====
/-
  The reference program's result as one named whole-array term of its five arguments.

  The features `X` get one zero row appended (`padded`). For each of the three axes, the two neighbour tables are
  rows of the padded table gathered at the axis's two index rows, a negative index first moved up by the padded
  row count (`rowsOf`, `rowsAt`); the convolution table is the sum of three products with the axis's three
  128-by-128 matrices (`convOf`); the table is centred by its per-channel mean (`meanOf`, `centOf`), scaled by the
  reciprocal square root of its per-channel variance plus a small constant (`varOf`, `veOf`), scaled and shifted by
  the axis's two rows, and sent through `1 / (1 + exp (-x))` (`sigTail`, `sigOf`). The three tables are added onto a
  zero table and the sum is multiplied by `X` (`refOut`).

  The variance (`varOf`) is the mean of the squared deviations from the mean, the divisor being the row count
  minus a zero correction converted from an integer; were that divisor not positive the result would be the
  not-a-number constant instead (`cntOf`, the comparison and the selection are kept as the program has them).

  Every definition is the composition of the program's own operations, in the program's order.
-/
import proofs.«134539_j3152505995485_2_alg».proof.Proof.Gen.ReferenceIdeal

noncomputable section

namespace Cert.ReferenceIdeal.RefValue

open Cert.ReferenceIdeal Cert.ReferenceIdeal.Gen Idealize.ShloMosaic

variable {F : FTy → Type} [FloatOps F]

/-! ## Constant rows and tables -/

/-- The zero table the three axes' results are added onto. -/
def zeroTab : FVec F S200000x128 .f32 :=
  broadcastInDim S200000x128 ![] bcast_S_S200000x128 (constant (F := F) S_ .f32 0x00000000#32)

/-- The table of ones. -/
def oneTab : FVec F S200000x128 .f32 :=
  broadcastInDim S200000x128 ![] bcast_S_S200000x128 (constant (F := F) S_ .f32 0x3F800000#32)

/-- The row count 200000, once per channel. -/
def cntRow : FVec F S128 .f32 :=
  broadcastInDim S128 ![] bcast_S_S128 (constant (F := F) S_ .f32 0x48435000#32)

/-- The variance offset, once per channel. -/
def epsRow : FVec F S128 .f32 :=
  broadcastInDim S128 ![] bcast_S_S128 (constant (F := F) S_ .f32 0x3727C5AC#32)

/-- A row of 128 channels repeated over the 200000 rows. -/
def rowTab (v : FVec F S128 .f32) : FVec F S200000x128 .f32 :=
  broadcastInDim S200000x128 ![0, 1] bcast_S1x128_S200000x128_0_1 (broadcastInDim S1x128 ![1] bcast_S128_S1x128_1 v)

/-! ## The padded table and the row gathers -/

/-- The features with one zero row appended. -/
def padded (X : FVec F S200000x128 .f32) : FVec F S200001x128 .f32 :=
  concatenate S200001x128 0
    [⟨S200000x128, X⟩, ⟨S1x128, broadcastInDim S1x128 ![] bcast_S_S1x128 (constant (F := F) S_ .f32 0x00000000#32)⟩]
    concatenates_S200000x128_S1x128_S200001x128_d0

/-- An index row with its negative entries moved up by 200001, as a column of start indices. -/
def startsOf (idx : IVec S200000 32) : IVec S200000x1 32 :=
  broadcastInDim S200000x1 ![0] bcast_S200000_S200000x1_0
    (select (cmpi .slt idx (broadcastInDim S200000 ![] bcast_S_S200000 (constantI S_ 32 0#32)))
      (addi idx (broadcastInDim S200000 ![] bcast_S_S200000 (constantI S_ 32 200001#32)))
      idx)

/-- The rows of a padded table at an index row. -/
def rowsOf (P : FVec F S200001x128 .f32) (idx : IVec S200000 32) : FVec F S200000x128 .f32 :=
  Host.gather gather_S200001x128_S200000x1_S200000x128_1_0_n_n_0_1_1128 P (startsOf idx)

/-- The rows of the padded features at an index row. -/
def rowsAt (X : FVec F S200000x128 .f32) (idx : IVec S200000 32) : FVec F S200000x128 .f32 :=
  rowsOf (padded X) idx

/-! ## The convolution along one axis -/

/-- Previous rows, the rows, next rows, each through its own matrix, summed. -/
def convOf (P X N : FVec F S200000x128 .f32) (W0 W1 W2 : FVec F S128x128 .f32) : FVec F S200000x128 .f32 :=
  addf
    (addf (Host.dotGeneral dot_S200000x128_S128x128_S200000x128_1_0_0_1_n_n none P W0)
      (Host.dotGeneral dot_S200000x128_S128x128_S200000x128_1_0_0_1_n_n none X W1))
    (Host.dotGeneral dot_S200000x128_S128x128_S200000x128_1_0_0_1_n_n none N W2)

/-! ## Per-channel statistics -/

/-- The per-channel sum over the 200000 rows. -/
def sumOf (T : FVec F S200000x128 .f32) : FVec F S128 .f32 :=
  Host.reduceAdd T (constant (F := F) S_ .f32 0x00000000#32) reducesTo_S200000x128_S128_d0 h_S_

/-- The per-channel mean. -/
def meanOf (T : FVec F S200000x128 .f32) : FVec F S128 .f32 :=
  Host.divf (sumOf T) cntRow

/-- The table minus its per-channel mean. -/
def centOf (T : FVec F S200000x128 .f32) : FVec F S200000x128 .f32 :=
  subf T (rowTab (meanOf T))

/-- The variance's divisor: the row count minus a zero correction converted from an integer. -/
def cntOf : FVec F S_ .f32 :=
  subf (constant (F := F) S_ .f32 0x48435000#32) (sitofp .f32 (constantI S_ 32 0#32))

/-- The deviations from the mean, as the variance forms them: the mean kept as a one-row table. -/
def devOf (T : FVec F S200000x128 .f32) : FVec F S200000x128 .f32 :=
  subf T
    (broadcastInDim S200000x128 ![0, 1] bcast_S1x128_S200000x128_0_1
      (Host.divf (broadcastInDim S1x128 ![1] bcast_S128_S1x128_1 (sumOf T))
        (broadcastInDim S1x128 ![] bcast_S_S1x128 (constant (F := F) S_ .f32 0x48435000#32))))

/-- The per-channel biased variance: the mean squared deviation, or not-a-number were the divisor not positive. -/
def varOf (T : FVec F S200000x128 .f32) : FVec F S128 .f32 :=
  select
    (broadcastInDim S128 ![] bcast_S_S128 (cmpf .ogt (cntOf (F := F)) (constant (F := F) S_ .f32 0x00000000#32)))
    (Host.divf
      (Host.reduceAdd (mulf (devOf T) (devOf T)) (constant (F := F) S_ .f32 0x00000000#32) reducesTo_S200000x128_S128_d0 h_S_)
      (broadcastInDim S128 ![] bcast_S_S128 (cntOf (F := F))))
    (broadcastInDim S128 ![] bcast_S_S128 (id (constant (F := F) S_ .f32 0x7FC00000#32)))

/-- The variance plus the offset. -/
def veOf (T : FVec F S200000x128 .f32) : FVec F S128 .f32 :=
  addf (varOf T) epsRow

/-! ## Normalisation and the logistic function -/

/-- A centred table `c` scaled by the reciprocal square root of the row `ve`, then by the row `g`. -/
def scaleBy (c : FVec F S200000x128 .f32) (ve g : FVec F S128 .f32) : FVec F S200000x128 .f32 :=
  mulf (mulf c (rowTab (Host.rsqrt ve))) (rowTab g)

/-- The normalised table scaled by the row `g`. -/
def scaledOf (T : FVec F S200000x128 .f32) (g : FVec F S128 .f32) : FVec F S200000x128 .f32 :=
  scaleBy (centOf T) (veOf T) g

/-- A table `s` shifted by the row `b` and sent through `1 / (1 + exp (-x))`. -/
def sigTail (s : FVec F S200000x128 .f32) (b : FVec F S128 .f32) : FVec F S200000x128 .f32 :=
  Host.divf oneTab (addf oneTab (Host.exp (Host.negf (addf s (rowTab b)))))

/-- One axis's table: normalised, scaled, shifted, through the logistic function. -/
def sigOf (T : FVec F S200000x128 .f32) (g b : FVec F S128 .f32) : FVec F S200000x128 .f32 :=
  sigTail (scaledOf T g) b

/-! ## The arguments' slices -/

/-- Index row 0 of axis 0. -/
def idxOf00 (I : IVec S3x2x200000 32) : IVec S200000 32 :=
  shapeCast S200000 (extractStridedSlice S1x1x200000 ![0, 0, 0] I slices_S3x2x200000_S1x1x200000_0_0_0) shapeCasts_S1x1x200000_S200000

/-- Index row 1 of axis 0. -/
def idxOf01 (I : IVec S3x2x200000 32) : IVec S200000 32 :=
  shapeCast S200000 (extractStridedSlice S1x1x200000 ![0, 1, 0] I slices_S3x2x200000_S1x1x200000_0_1_0) shapeCasts_S1x1x200000_S200000

/-- Index row 0 of axis 1. -/
def idxOf10 (I : IVec S3x2x200000 32) : IVec S200000 32 :=
  shapeCast S200000 (extractStridedSlice S1x1x200000 ![1, 0, 0] I slices_S3x2x200000_S1x1x200000_1_0_0) shapeCasts_S1x1x200000_S200000

/-- Index row 1 of axis 1. -/
def idxOf11 (I : IVec S3x2x200000 32) : IVec S200000 32 :=
  shapeCast S200000 (extractStridedSlice S1x1x200000 ![1, 1, 0] I slices_S3x2x200000_S1x1x200000_1_1_0) shapeCasts_S1x1x200000_S200000

/-- Index row 0 of axis 2. -/
def idxOf20 (I : IVec S3x2x200000 32) : IVec S200000 32 :=
  shapeCast S200000 (extractStridedSlice S1x1x200000 ![2, 0, 0] I slices_S3x2x200000_S1x1x200000_2_0_0) shapeCasts_S1x1x200000_S200000

/-- Index row 1 of axis 2. -/
def idxOf21 (I : IVec S3x2x200000 32) : IVec S200000 32 :=
  shapeCast S200000 (extractStridedSlice S1x1x200000 ![2, 1, 0] I slices_S3x2x200000_S1x1x200000_2_1_0) shapeCasts_S1x1x200000_S200000

/-- Matrix 0 of axis 0. -/
def wOf00 (Wt : FVec F S3x3x128x128 .f32) : FVec F S128x128 .f32 :=
  shapeCast S128x128 (extractStridedSlice S1x1x128x128 ![0, 0, 0, 0] Wt slices_S3x3x128x128_S1x1x128x128_0_0_0_0) shapeCasts_S1x1x128x128_S128x128

/-- Matrix 1 of axis 0. -/
def wOf01 (Wt : FVec F S3x3x128x128 .f32) : FVec F S128x128 .f32 :=
  shapeCast S128x128 (extractStridedSlice S1x1x128x128 ![0, 1, 0, 0] Wt slices_S3x3x128x128_S1x1x128x128_0_1_0_0) shapeCasts_S1x1x128x128_S128x128

/-- Matrix 2 of axis 0. -/
def wOf02 (Wt : FVec F S3x3x128x128 .f32) : FVec F S128x128 .f32 :=
  shapeCast S128x128 (extractStridedSlice S1x1x128x128 ![0, 2, 0, 0] Wt slices_S3x3x128x128_S1x1x128x128_0_2_0_0) shapeCasts_S1x1x128x128_S128x128

/-- Matrix 0 of axis 1. -/
def wOf10 (Wt : FVec F S3x3x128x128 .f32) : FVec F S128x128 .f32 :=
  shapeCast S128x128 (extractStridedSlice S1x1x128x128 ![1, 0, 0, 0] Wt slices_S3x3x128x128_S1x1x128x128_1_0_0_0) shapeCasts_S1x1x128x128_S128x128

/-- Matrix 1 of axis 1. -/
def wOf11 (Wt : FVec F S3x3x128x128 .f32) : FVec F S128x128 .f32 :=
  shapeCast S128x128 (extractStridedSlice S1x1x128x128 ![1, 1, 0, 0] Wt slices_S3x3x128x128_S1x1x128x128_1_1_0_0) shapeCasts_S1x1x128x128_S128x128

/-- Matrix 2 of axis 1. -/
def wOf12 (Wt : FVec F S3x3x128x128 .f32) : FVec F S128x128 .f32 :=
  shapeCast S128x128 (extractStridedSlice S1x1x128x128 ![1, 2, 0, 0] Wt slices_S3x3x128x128_S1x1x128x128_1_2_0_0) shapeCasts_S1x1x128x128_S128x128

/-- Matrix 0 of axis 2. -/
def wOf20 (Wt : FVec F S3x3x128x128 .f32) : FVec F S128x128 .f32 :=
  shapeCast S128x128 (extractStridedSlice S1x1x128x128 ![2, 0, 0, 0] Wt slices_S3x3x128x128_S1x1x128x128_2_0_0_0) shapeCasts_S1x1x128x128_S128x128

/-- Matrix 1 of axis 2. -/
def wOf21 (Wt : FVec F S3x3x128x128 .f32) : FVec F S128x128 .f32 :=
  shapeCast S128x128 (extractStridedSlice S1x1x128x128 ![2, 1, 0, 0] Wt slices_S3x3x128x128_S1x1x128x128_2_1_0_0) shapeCasts_S1x1x128x128_S128x128

/-- Matrix 2 of axis 2. -/
def wOf22 (Wt : FVec F S3x3x128x128 .f32) : FVec F S128x128 .f32 :=
  shapeCast S128x128 (extractStridedSlice S1x1x128x128 ![2, 2, 0, 0] Wt slices_S3x3x128x128_S1x1x128x128_2_2_0_0) shapeCasts_S1x1x128x128_S128x128

/-- The scale row of axis 0. -/
def gOf0 (G : FVec F S3x128 .f32) : FVec F S128 .f32 :=
  shapeCast S128 (extractStridedSlice S1x128 ![0, 0] G slices_S3x128_S1x128_0_0) shapeCasts_S1x128_S128

/-- The scale row of axis 1. -/
def gOf1 (G : FVec F S3x128 .f32) : FVec F S128 .f32 :=
  shapeCast S128 (extractStridedSlice S1x128 ![1, 0] G slices_S3x128_S1x128_1_0) shapeCasts_S1x128_S128

/-- The scale row of axis 2. -/
def gOf2 (G : FVec F S3x128 .f32) : FVec F S128 .f32 :=
  shapeCast S128 (extractStridedSlice S1x128 ![2, 0] G slices_S3x128_S1x128_2_0) shapeCasts_S1x128_S128

/-- The shift row of axis 0. -/
def bOf0 (B : FVec F S3x128 .f32) : FVec F S128 .f32 :=
  shapeCast S128 (extractStridedSlice S1x128 ![0, 0] B slices_S3x128_S1x128_0_0) shapeCasts_S1x128_S128

/-- The shift row of axis 1. -/
def bOf1 (B : FVec F S3x128 .f32) : FVec F S128 .f32 :=
  shapeCast S128 (extractStridedSlice S1x128 ![1, 0] B slices_S3x128_S1x128_1_0) shapeCasts_S1x128_S128

/-- The shift row of axis 2. -/
def bOf2 (B : FVec F S3x128 .f32) : FVec F S128 .f32 :=
  shapeCast S128 (extractStridedSlice S1x128 ![2, 0] B slices_S3x128_S1x128_2_0) shapeCasts_S1x128_S128

/-! ## The three convolution tables and the result -/

/-- The convolution table of an axis from a padded table, the features, the axis's two index rows and three matrices. -/
def convP (P : FVec F S200001x128 .f32) (X : FVec F S200000x128 .f32) (i0 i1 : IVec S200000 32)
    (W0 W1 W2 : FVec F S128x128 .f32) : FVec F S200000x128 .f32 :=
  convOf (rowsOf P i0) X (rowsOf P i1) W0 W1 W2

/-- The first axis's convolution table. -/
def T0 (X : FVec F S200000x128 .f32) (I : IVec S3x2x200000 32) (Wt : FVec F S3x3x128x128 .f32) : FVec F S200000x128 .f32 :=
  convOf (rowsAt X (idxOf00 I)) X (rowsAt X (idxOf01 I)) (wOf00 Wt) (wOf01 Wt) (wOf02 Wt)

/-- The second axis's convolution table. -/
def T1 (X : FVec F S200000x128 .f32) (I : IVec S3x2x200000 32) (Wt : FVec F S3x3x128x128 .f32) : FVec F S200000x128 .f32 :=
  convOf (rowsAt X (idxOf10 I)) X (rowsAt X (idxOf11 I)) (wOf10 Wt) (wOf11 Wt) (wOf12 Wt)

/-- The third axis's convolution table. -/
def T2 (X : FVec F S200000x128 .f32) (I : IVec S3x2x200000 32) (Wt : FVec F S3x3x128x128 .f32) : FVec F S200000x128 .f32 :=
  convOf (rowsAt X (idxOf20 I)) X (rowsAt X (idxOf21 I)) (wOf20 Wt) (wOf21 Wt) (wOf22 Wt)

/-- The program's result: the three axes' tables added onto the zero table, times the features. -/
def refOut (X : FVec F S200000x128 .f32) (I : IVec S3x2x200000 32) (Wt : FVec F S3x3x128x128 .f32)
    (G B : FVec F S3x128 .f32) : FVec F S200000x128 .f32 :=
  mulf
    (addf
      (addf (addf zeroTab (sigOf (T0 X I Wt) (gOf0 G) (bOf0 B))) (sigOf (T1 X I Wt) (gOf1 G) (bOf1 B)))
      (sigOf (T2 X I Wt) (gOf2 G) (bOf2 B)))
    X

end Cert.ReferenceIdeal.RefValue

end
-- ==== Proof.RefOps.lean ====
/-
  The reference program as a list of its host operations.

  The program's 214 statements are four consecutive windows; three of them call the variance function, whose
  nineteen operations and the three of the selection it calls in turn stand in the call's place, over that call's
  own buffers. Each window is the straight line of its operations, and the program is the four lines in order.
-/
import proofs.«134539_j3152505995485_2_alg».proof.Proof.Gen.ReferenceIdeal
import Idealize.ShloMosaic.Lib.StableHlo.Run

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of window 0 (statements 1 … 60), calls inlined. -/
abbrev ops_part0 : List (HloOp τ sig (Elt F)) :=
  [ nullary main_cst (constant S_ .f32 0x00000000#32),
    unary main_cst main_v0 (broadcastInDim S1x128 ![] bcast_S_S1x128 : (⟨S_, .f32⟩ : BufTy).Contents (Elt F) → (⟨S1x128, .f32⟩ : BufTy).Contents (Elt F)),
    binary main_arg0 main_v0 main_v1 ((fun a b => concatenate S200001x128 0 [⟨S200000x128, a⟩, ⟨S1x128, b⟩] concatenates_S200000x128_S1x128_S200001x128_d0) : (⟨S200000x128, .f32⟩ : BufTy).Contents (Elt F) → (⟨S1x128, .f32⟩ : BufTy).Contents (Elt F) → (⟨S200001x128, .f32⟩ : BufTy).Contents (Elt F)),
    nullary main_cst_0 (constant S_ .f32 0x00000000#32),
    unary main_cst_0 main_v2 (broadcastInDim S200000x128 ![] bcast_S_S200000x128 : (⟨S_, .f32⟩ : BufTy).Contents (Elt F) → (⟨S200000x128, .f32⟩ : BufTy).Contents (Elt F)),
    unary main_arg1 main_v3 ((extractStridedSlice S1x1x200000 ![0, 0, 0] · slices_S3x2x200000_S1x1x200000_0_0_0) : (⟨S3x2x200000, .i32⟩ : BufTy).Contents (Elt F) → (⟨S1x1x200000, .i32⟩ : BufTy).Contents (Elt F)),
    reshape main_v3 main_v4 rfl shapeCasts_S1x1x200000_S200000,
    nullary main_c (constantI S_ 32 0#32),
    unary main_c main_v5 (broadcastInDim S200000 ![] bcast_S_S200000 : (⟨S_, .i32⟩ : BufTy).Contents (Elt F) → (⟨S200000, .i32⟩ : BufTy).Contents (Elt F)),
    binary main_v4 main_v5 main_v6 (cmpi .slt : (⟨S200000, .i32⟩ : BufTy).Contents (Elt F) → (⟨S200000, .i32⟩ : BufTy).Contents (Elt F) → (⟨S200000, .i1⟩ : BufTy).Contents (Elt F)),
    nullary main_c_1 (constantI S_ 32 200001#32),
    unary main_c_1 main_v7 (broadcastInDim S200000 ![] bcast_S_S200000 : (⟨S_, .i32⟩ : BufTy).Contents (Elt F) → (⟨S200000, .i32⟩ : BufTy).Contents (Elt F)),
    binary main_v4 main_v7 main_v8 (addi : (⟨S200000, .i32⟩ : BufTy).Contents (Elt F) → (⟨S200000, .i32⟩ : BufTy).Contents (Elt F) → (⟨S200000, .i32⟩ : BufTy).Contents (Elt F)),
    ternary main_v6 main_v8 main_v4 main_v9 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v9 main_v10 (broadcastInDim S200000x1 ![0] bcast_S200000_S200000x1_0 : (⟨S200000, .i32⟩ : BufTy).Contents (Elt F) → (⟨S200000x1, .i32⟩ : BufTy).Contents (Elt F)),
    binary main_v1 main_v10 main_v11 ((fun x i => Host.gather gather_S200001x128_S200000x1_S200000x128_1_0_n_n_0_1_1128 x i) : (⟨S200001x128, .f32⟩ : BufTy).Contents (Elt F) → (⟨S200000x1, .i32⟩ : BufTy).Contents (Elt F) → (⟨S200000x128, .f32⟩ : BufTy).Contents (Elt F)),
    unary main_arg1 main_v12 ((extractStridedSlice S1x1x200000 ![0, 1, 0] · slices_S3x2x200000_S1x1x200000_0_1_0) : (⟨S3x2x200000, .i32⟩ : BufTy).Contents (Elt F) → (⟨S1x1x200000, .i32⟩ : BufTy).Contents (Elt F)),
    reshape main_v12 main_v13 rfl shapeCasts_S1x1x200000_S200000,
    nullary main_c_2 (constantI S_ 32 0#32),
    unary main_c_2 main_v14 (broadcastInDim S200000 ![] bcast_S_S200000 : (⟨S_, .i32⟩ : BufTy).Contents (Elt F) → (⟨S200000, .i32⟩ : BufTy).Contents (Elt F)),
    binary main_v13 main_v14 main_v15 (cmpi .slt : (⟨S200000, .i32⟩ : BufTy).Contents (Elt F) → (⟨S200000, .i32⟩ : BufTy).Contents (Elt F) → (⟨S200000, .i1⟩ : BufTy).Contents (Elt F)),
    nullary main_c_3 (constantI S_ 32 200001#32),
    unary main_c_3 main_v16 (broadcastInDim S200000 ![] bcast_S_S200000 : (⟨S_, .i32⟩ : BufTy).Contents (Elt F) → (⟨S200000, .i32⟩ : BufTy).Contents (Elt F)),
    binary main_v13 main_v16 main_v17 (addi : (⟨S200000, .i32⟩ : BufTy).Contents (Elt F) → (⟨S200000, .i32⟩ : BufTy).Contents (Elt F) → (⟨S200000, .i32⟩ : BufTy).Contents (Elt F)),
    ternary main_v15 main_v17 main_v13 main_v18 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v18 main_v19 (broadcastInDim S200000x1 ![0] bcast_S200000_S200000x1_0 : (⟨S200000, .i32⟩ : BufTy).Contents (Elt F) → (⟨S200000x1, .i32⟩ : BufTy).Contents (Elt F)),
    binary main_v1 main_v19 main_v20 ((fun x i => Host.gather gather_S200001x128_S200000x1_S200000x128_1_0_n_n_0_1_1128 x i) : (⟨S200001x128, .f32⟩ : BufTy).Contents (Elt F) → (⟨S200000x1, .i32⟩ : BufTy).Contents (Elt F) → (⟨S200000x128, .f32⟩ : BufTy).Contents (Elt F)),
    unary main_arg2 main_v21 ((extractStridedSlice S1x1x128x128 ![0, 0, 0, 0] · slices_S3x3x128x128_S1x1x128x128_0_0_0_0) : (⟨S3x3x128x128, .f32⟩ : BufTy).Contents (Elt F) → (⟨S1x1x128x128, .f32⟩ : BufTy).Contents (Elt F)),
    reshape main_v21 main_v22 rfl shapeCasts_S1x1x128x128_S128x128,
    binary main_v11 main_v22 main_v23 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg2 main_v24 ((extractStridedSlice S1x1x128x128 ![0, 1, 0, 0] · slices_S3x3x128x128_S1x1x128x128_0_1_0_0) : (⟨S3x3x128x128, .f32⟩ : BufTy).Contents (Elt F) → (⟨S1x1x128x128, .f32⟩ : BufTy).Contents (Elt F)),
    reshape main_v24 main_v25 rfl shapeCasts_S1x1x128x128_S128x128,
    binary main_arg0 main_v25 main_v26 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    binary main_v23 main_v26 main_v27 (addf : (⟨S200000x128, .f32⟩ : BufTy).Contents (Elt F) → (⟨S200000x128, .f32⟩ : BufTy).Contents (Elt F) → (⟨S200000x128, .f32⟩ : BufTy).Contents (Elt F)),
    unary main_arg2 main_v28 ((extractStridedSlice S1x1x128x128 ![0, 2, 0, 0] · slices_S3x3x128x128_S1x1x128x128_0_2_0_0) : (⟨S3x3x128x128, .f32⟩ : BufTy).Contents (Elt F) → (⟨S1x1x128x128, .f32⟩ : BufTy).Contents (Elt F)),
    reshape main_v28 main_v29 rfl shapeCasts_S1x1x128x128_S128x128,
    binary main_v20 main_v29 main_v30 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    binary main_v27 main_v30 main_v31 (addf : (⟨S200000x128, .f32⟩ : BufTy).Contents (Elt F) → (⟨S200000x128, .f32⟩ : BufTy).Contents (Elt F) → (⟨S200000x128, .f32⟩ : BufTy).Contents (Elt F)),
    nullary main_cst_4 (constant S_ .f32 0x00000000#32),
    binary main_v31 main_cst_4 main_v32 ((fun x v => Host.reduceAdd x v reducesTo_S200000x128_S128_d0 h_S_) : (⟨S200000x128, .f32⟩ : BufTy).Contents (Elt F) → (⟨S_, .f32⟩ : BufTy).Contents (Elt F) → (⟨S128, .f32⟩ : BufTy).Contents (Elt F)),
    nullary main_cst_5 (constant S_ .f32 0x48435000#32),
    unary main_cst_5 main_v33 (broadcastInDim S128 ![] bcast_S_S128 : (⟨S_, .f32⟩ : BufTy).Contents (Elt F) → (⟨S128, .f32⟩ : BufTy).Contents (Elt F)),
    binary main_v32 main_v33 main_v34 (Host.divf : (⟨S128, .f32⟩ : BufTy).Contents (Elt F) → (⟨S128, .f32⟩ : BufTy).Contents (Elt F) → (⟨S128, .f32⟩ : BufTy).Contents (Elt F)),
    nullary main_c_6 (constantI S_ 32 0#32),
    TRef.nullary main_call0.cst (constant S_ .f32 0x00000000#32),
    TRef.binary (.of main_v31) main_call0.cst main_call0.v0 (fun x v => Host.reduceAdd x v reducesTo_S200000x128_S128_d0 h_S_),
    TRef.unary main_call0.v0 main_call0.v1 (broadcastInDim S1x128 ![1] bcast_S128_S1x128_1),
    TRef.nullary main_call0.cst_0 (constant S_ .f32 0x48435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S200000x128 ![0, 1] bcast_S1x128_S200000x128_0_1),
    TRef.binary (.of main_v31) main_call0.v4 main_call0.v5 subf,
    TRef.binary main_call0.v5 main_call0.v5 main_call0.v6 mulf,
    TRef.unary (.of main_c_6) main_call0.v7 (sitofp .f32),
    TRef.nullary main_call0.cst_1 (constant S_ .f32 0x48435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S200000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf (F := F) .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v34 main_v36 (broadcastInDim S1x128 ![1] bcast_S128_S1x128_1 : (⟨S128, .f32⟩ : BufTy).Contents (Elt F) → (⟨S1x128, .f32⟩ : BufTy).Contents (Elt F)),
    unary main_v36 main_v37 (broadcastInDim S200000x128 ![0, 1] bcast_S1x128_S200000x128_0_1 : (⟨S1x128, .f32⟩ : BufTy).Contents (Elt F) → (⟨S200000x128, .f32⟩ : BufTy).Contents (Elt F)),
    binary main_v31 main_v37 main_v38 (subf : (⟨S200000x128, .f32⟩ : BufTy).Contents (Elt F) → (⟨S200000x128, .f32⟩ : BufTy).Contents (Elt F) → (⟨S200000x128, .f32⟩ : BufTy).Contents (Elt F)),
    nullary main_cst_7 (constant S_ .f32 0x3727C5AC#32),
    unary main_cst_7 main_v39 (broadcastInDim S128 ![] bcast_S_S128 : (⟨S_, .f32⟩ : BufTy).Contents (Elt F) → (⟨S128, .f32⟩ : BufTy).Contents (Elt F)),
    binary main_v35 main_v39 main_v40 (addf : (⟨S128, .f32⟩ : BufTy).Contents (Elt F) → (⟨S128, .f32⟩ : BufTy).Contents (Elt F) → (⟨S128, .f32⟩ : BufTy).Contents (Elt F)),
    unary main_v40 main_v41 (Host.rsqrt : (⟨S128, .f32⟩ : BufTy).Contents (Elt F) → (⟨S128, .f32⟩ : BufTy).Contents (Elt F)),
    unary main_v41 main_v42 (broadcastInDim S1x128 ![1] bcast_S128_S1x128_1 : (⟨S128, .f32⟩ : BufTy).Contents (Elt F) → (⟨S1x128, .f32⟩ : BufTy).Contents (Elt F)),
    unary main_v42 main_v43 (broadcastInDim S200000x128 ![0, 1] bcast_S1x128_S200000x128_0_1 : (⟨S1x128, .f32⟩ : BufTy).Contents (Elt F) → (⟨S200000x128, .f32⟩ : BufTy).Contents (Elt F)),
    binary main_v38 main_v43 main_v44 (mulf : (⟨S200000x128, .f32⟩ : BufTy).Contents (Elt F) → (⟨S200000x128, .f32⟩ : BufTy).Contents (Elt F) → (⟨S200000x128, .f32⟩ : BufTy).Contents (Elt F)),
    unary main_arg3 main_v45 ((extractStridedSlice S1x128 ![0, 0] · slices_S3x128_S1x128_0_0) : (⟨S3x128, .f32⟩ : BufTy).Contents (Elt F) → (⟨S1x128, .f32⟩ : BufTy).Contents (Elt F)),
    reshape main_v45 main_v46 rfl shapeCasts_S1x128_S128,
    unary main_v46 main_v47 (broadcastInDim S1x128 ![1] bcast_S128_S1x128_1 : (⟨S128, .f32⟩ : BufTy).Contents (Elt F) → (⟨S1x128, .f32⟩ : BufTy).Contents (Elt F)),
    unary main_v47 main_v48 (broadcastInDim S200000x128 ![0, 1] bcast_S1x128_S200000x128_0_1 : (⟨S1x128, .f32⟩ : BufTy).Contents (Elt F) → (⟨S200000x128, .f32⟩ : BufTy).Contents (Elt F)),
    binary main_v44 main_v48 main_v49 (mulf : (⟨S200000x128, .f32⟩ : BufTy).Contents (Elt F) → (⟨S200000x128, .f32⟩ : BufTy).Contents (Elt F) → (⟨S200000x128, .f32⟩ : BufTy).Contents (Elt F)) ]

/-- The operations of window 1 (statements 61 … 120), calls inlined. -/
abbrev ops_part1 : List (HloOp τ sig (Elt F)) :=
  [ unary main_arg4 main_v50 ((extractStridedSlice S1x128 ![0, 0] · slices_S3x128_S1x128_0_0) : (⟨S3x128, .f32⟩ : BufTy).Contents (Elt F) → (⟨S1x128, .f32⟩ : BufTy).Contents (Elt F)),
    reshape main_v50 main_v51 rfl shapeCasts_S1x128_S128,
    unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S200000x128 ![0, 1] bcast_S1x128_S200000x128_0_1 : (⟨S1x128, .f32⟩ : BufTy).Contents (Elt F) → (⟨S200000x128, .f32⟩ : BufTy).Contents (Elt F)),
    binary main_v49 main_v53 main_v54 (addf : (⟨S200000x128, .f32⟩ : BufTy).Contents (Elt F) → (⟨S200000x128, .f32⟩ : BufTy).Contents (Elt F) → (⟨S200000x128, .f32⟩ : BufTy).Contents (Elt F)),
    unary main_v54 main_v55 (Host.negf : (⟨S200000x128, .f32⟩ : BufTy).Contents (Elt F) → (⟨S200000x128, .f32⟩ : BufTy).Contents (Elt F)),
    unary main_v55 main_v56 (Host.exp : (⟨S200000x128, .f32⟩ : BufTy).Contents (Elt F) → (⟨S200000x128, .f32⟩ : BufTy).Contents (Elt F)),
    nullary main_cst_8 (constant S_ .f32 0x3F800000#32),
    unary main_cst_8 main_v57 (broadcastInDim S200000x128 ![] bcast_S_S200000x128 : (⟨S_, .f32⟩ : BufTy).Contents (Elt F) → (⟨S200000x128, .f32⟩ : BufTy).Contents (Elt F)),
    binary main_v57 main_v56 main_v58 (addf : (⟨S200000x128, .f32⟩ : BufTy).Contents (Elt F) → (⟨S200000x128, .f32⟩ : BufTy).Contents (Elt F) → (⟨S200000x128, .f32⟩ : BufTy).Contents (Elt F)),
    nullary main_cst_9 (constant S_ .f32 0x3F800000#32),
    unary main_cst_9 main_v59 (broadcastInDim S200000x128 ![] bcast_S_S200000x128 : (⟨S_, .f32⟩ : BufTy).Contents (Elt F) → (⟨S200000x128, .f32⟩ : BufTy).Contents (Elt F)),
    binary main_v59 main_v58 main_v60 (Host.divf : (⟨S200000x128, .f32⟩ : BufTy).Contents (Elt F) → (⟨S200000x128, .f32⟩ : BufTy).Contents (Elt F) → (⟨S200000x128, .f32⟩ : BufTy).Contents (Elt F)),
    binary main_v2 main_v60 main_v61 (addf : (⟨S200000x128, .f32⟩ : BufTy).Contents (Elt F) → (⟨S200000x128, .f32⟩ : BufTy).Contents (Elt F) → (⟨S200000x128, .f32⟩ : BufTy).Contents (Elt F)),
    unary main_arg1 main_v62 ((extractStridedSlice S1x1x200000 ![1, 0, 0] · slices_S3x2x200000_S1x1x200000_1_0_0) : (⟨S3x2x200000, .i32⟩ : BufTy).Contents (Elt F) → (⟨S1x1x200000, .i32⟩ : BufTy).Contents (Elt F)),
    reshape main_v62 main_v63 rfl shapeCasts_S1x1x200000_S200000,
    nullary main_c_10 (constantI S_ 32 0#32),
    unary main_c_10 main_v64 (broadcastInDim S200000 ![] bcast_S_S200000 : (⟨S_, .i32⟩ : BufTy).Contents (Elt F) → (⟨S200000, .i32⟩ : BufTy).Contents (Elt F)),
    binary main_v63 main_v64 main_v65 (cmpi .slt : (⟨S200000, .i32⟩ : BufTy).Contents (Elt F) → (⟨S200000, .i32⟩ : BufTy).Contents (Elt F) → (⟨S200000, .i1⟩ : BufTy).Contents (Elt F)),
    nullary main_c_11 (constantI S_ 32 200001#32),
    unary main_c_11 main_v66 (broadcastInDim S200000 ![] bcast_S_S200000 : (⟨S_, .i32⟩ : BufTy).Contents (Elt F) → (⟨S200000, .i32⟩ : BufTy).Contents (Elt F)),
    binary main_v63 main_v66 main_v67 (addi : (⟨S200000, .i32⟩ : BufTy).Contents (Elt F) → (⟨S200000, .i32⟩ : BufTy).Contents (Elt F) → (⟨S200000, .i32⟩ : BufTy).Contents (Elt F)),
    ternary main_v65 main_v67 main_v63 main_v68 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v68 main_v69 (broadcastInDim S200000x1 ![0] bcast_S200000_S200000x1_0 : (⟨S200000, .i32⟩ : BufTy).Contents (Elt F) → (⟨S200000x1, .i32⟩ : BufTy).Contents (Elt F)),
    binary main_v1 main_v69 main_v70 ((fun x i => Host.gather gather_S200001x128_S200000x1_S200000x128_1_0_n_n_0_1_1128 x i) : (⟨S200001x128, .f32⟩ : BufTy).Contents (Elt F) → (⟨S200000x1, .i32⟩ : BufTy).Contents (Elt F) → (⟨S200000x128, .f32⟩ : BufTy).Contents (Elt F)),
    unary main_arg1 main_v71 ((extractStridedSlice S1x1x200000 ![1, 1, 0] · slices_S3x2x200000_S1x1x200000_1_1_0) : (⟨S3x2x200000, .i32⟩ : BufTy).Contents (Elt F) → (⟨S1x1x200000, .i32⟩ : BufTy).Contents (Elt F)),
    reshape main_v71 main_v72 rfl shapeCasts_S1x1x200000_S200000,
    nullary main_c_12 (constantI S_ 32 0#32),
    unary main_c_12 main_v73 (broadcastInDim S200000 ![] bcast_S_S200000 : (⟨S_, .i32⟩ : BufTy).Contents (Elt F) → (⟨S200000, .i32⟩ : BufTy).Contents (Elt F)),
    binary main_v72 main_v73 main_v74 (cmpi .slt : (⟨S200000, .i32⟩ : BufTy).Contents (Elt F) → (⟨S200000, .i32⟩ : BufTy).Contents (Elt F) → (⟨S200000, .i1⟩ : BufTy).Contents (Elt F)),
    nullary main_c_13 (constantI S_ 32 200001#32),
    unary main_c_13 main_v75 (broadcastInDim S200000 ![] bcast_S_S200000 : (⟨S_, .i32⟩ : BufTy).Contents (Elt F) → (⟨S200000, .i32⟩ : BufTy).Contents (Elt F)),
    binary main_v72 main_v75 main_v76 (addi : (⟨S200000, .i32⟩ : BufTy).Contents (Elt F) → (⟨S200000, .i32⟩ : BufTy).Contents (Elt F) → (⟨S200000, .i32⟩ : BufTy).Contents (Elt F)),
    ternary main_v74 main_v76 main_v72 main_v77 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v77 main_v78 (broadcastInDim S200000x1 ![0] bcast_S200000_S200000x1_0 : (⟨S200000, .i32⟩ : BufTy).Contents (Elt F) → (⟨S200000x1, .i32⟩ : BufTy).Contents (Elt F)),
    binary main_v1 main_v78 main_v79 ((fun x i => Host.gather gather_S200001x128_S200000x1_S200000x128_1_0_n_n_0_1_1128 x i) : (⟨S200001x128, .f32⟩ : BufTy).Contents (Elt F) → (⟨S200000x1, .i32⟩ : BufTy).Contents (Elt F) → (⟨S200000x128, .f32⟩ : BufTy).Contents (Elt F)),
    unary main_arg2 main_v80 ((extractStridedSlice S1x1x128x128 ![1, 0, 0, 0] · slices_S3x3x128x128_S1x1x128x128_1_0_0_0) : (⟨S3x3x128x128, .f32⟩ : BufTy).Contents (Elt F) → (⟨S1x1x128x128, .f32⟩ : BufTy).Contents (Elt F)),
    reshape main_v80 main_v81 rfl shapeCasts_S1x1x128x128_S128x128,
    binary main_v70 main_v81 main_v82 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg2 main_v83 ((extractStridedSlice S1x1x128x128 ![1, 1, 0, 0] · slices_S3x3x128x128_S1x1x128x128_1_1_0_0) : (⟨S3x3x128x128, .f32⟩ : BufTy).Contents (Elt F) → (⟨S1x1x128x128, .f32⟩ : BufTy).Contents (Elt F)),
    reshape main_v83 main_v84 rfl shapeCasts_S1x1x128x128_S128x128,
    binary main_arg0 main_v84 main_v85 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    binary main_v82 main_v85 main_v86 (addf : (⟨S200000x128, .f32⟩ : BufTy).Contents (Elt F) → (⟨S200000x128, .f32⟩ : BufTy).Contents (Elt F) → (⟨S200000x128, .f32⟩ : BufTy).Contents (Elt F)),
    unary main_arg2 main_v87 ((extractStridedSlice S1x1x128x128 ![1, 2, 0, 0] · slices_S3x3x128x128_S1x1x128x128_1_2_0_0) : (⟨S3x3x128x128, .f32⟩ : BufTy).Contents (Elt F) → (⟨S1x1x128x128, .f32⟩ : BufTy).Contents (Elt F)),
    reshape main_v87 main_v88 rfl shapeCasts_S1x1x128x128_S128x128,
    binary main_v79 main_v88 main_v89 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    binary main_v86 main_v89 main_v90 (addf : (⟨S200000x128, .f32⟩ : BufTy).Contents (Elt F) → (⟨S200000x128, .f32⟩ : BufTy).Contents (Elt F) → (⟨S200000x128, .f32⟩ : BufTy).Contents (Elt F)),
    nullary main_cst_14 (constant S_ .f32 0x00000000#32),
    binary main_v90 main_cst_14 main_v91 ((fun x v => Host.reduceAdd x v reducesTo_S200000x128_S128_d0 h_S_) : (⟨S200000x128, .f32⟩ : BufTy).Contents (Elt F) → (⟨S_, .f32⟩ : BufTy).Contents (Elt F) → (⟨S128, .f32⟩ : BufTy).Contents (Elt F)),
    nullary main_cst_15 (constant S_ .f32 0x48435000#32),
    unary main_cst_15 main_v92 (broadcastInDim S128 ![] bcast_S_S128 : (⟨S_, .f32⟩ : BufTy).Contents (Elt F) → (⟨S128, .f32⟩ : BufTy).Contents (Elt F)),
    binary main_v91 main_v92 main_v93 (Host.divf : (⟨S128, .f32⟩ : BufTy).Contents (Elt F) → (⟨S128, .f32⟩ : BufTy).Contents (Elt F) → (⟨S128, .f32⟩ : BufTy).Contents (Elt F)),
    nullary main_c_16 (constantI S_ 32 0#32),
    TRef.nullary main_call1.cst (constant S_ .f32 0x00000000#32),
    TRef.binary (.of main_v90) main_call1.cst main_call1.v0 (fun x v => Host.reduceAdd x v reducesTo_S200000x128_S128_d0 h_S_),
    TRef.unary main_call1.v0 main_call1.v1 (broadcastInDim S1x128 ![1] bcast_S128_S1x128_1),
    TRef.nullary main_call1.cst_0 (constant S_ .f32 0x48435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S200000x128 ![0, 1] bcast_S1x128_S200000x128_0_1),
    TRef.binary (.of main_v90) main_call1.v4 main_call1.v5 subf,
    TRef.binary main_call1.v5 main_call1.v5 main_call1.v6 mulf,
    TRef.unary (.of main_c_16) main_call1.v7 (sitofp .f32),
    TRef.nullary main_call1.cst_1 (constant S_ .f32 0x48435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S200000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf (F := F) .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v93 main_v95 (broadcastInDim S1x128 ![1] bcast_S128_S1x128_1 : (⟨S128, .f32⟩ : BufTy).Contents (Elt F) → (⟨S1x128, .f32⟩ : BufTy).Contents (Elt F)),
    unary main_v95 main_v96 (broadcastInDim S200000x128 ![0, 1] bcast_S1x128_S200000x128_0_1 : (⟨S1x128, .f32⟩ : BufTy).Contents (Elt F) → (⟨S200000x128, .f32⟩ : BufTy).Contents (Elt F)),
    binary main_v90 main_v96 main_v97 (subf : (⟨S200000x128, .f32⟩ : BufTy).Contents (Elt F) → (⟨S200000x128, .f32⟩ : BufTy).Contents (Elt F) → (⟨S200000x128, .f32⟩ : BufTy).Contents (Elt F)),
    nullary main_cst_17 (constant S_ .f32 0x3727C5AC#32),
    unary main_cst_17 main_v98 (broadcastInDim S128 ![] bcast_S_S128 : (⟨S_, .f32⟩ : BufTy).Contents (Elt F) → (⟨S128, .f32⟩ : BufTy).Contents (Elt F)),
    binary main_v94 main_v98 main_v99 (addf : (⟨S128, .f32⟩ : BufTy).Contents (Elt F) → (⟨S128, .f32⟩ : BufTy).Contents (Elt F) → (⟨S128, .f32⟩ : BufTy).Contents (Elt F)) ]

/-- The operations of window 2 (statements 121 … 180), calls inlined. -/
abbrev ops_part2 : List (HloOp τ sig (Elt F)) :=
  [ unary main_v99 main_v100 (Host.rsqrt : (⟨S128, .f32⟩ : BufTy).Contents (Elt F) → (⟨S128, .f32⟩ : BufTy).Contents (Elt F)),
    unary main_v100 main_v101 (broadcastInDim S1x128 ![1] bcast_S128_S1x128_1 : (⟨S128, .f32⟩ : BufTy).Contents (Elt F) → (⟨S1x128, .f32⟩ : BufTy).Contents (Elt F)),
    unary main_v101 main_v102 (broadcastInDim S200000x128 ![0, 1] bcast_S1x128_S200000x128_0_1 : (⟨S1x128, .f32⟩ : BufTy).Contents (Elt F) → (⟨S200000x128, .f32⟩ : BufTy).Contents (Elt F)),
    binary main_v97 main_v102 main_v103 (mulf : (⟨S200000x128, .f32⟩ : BufTy).Contents (Elt F) → (⟨S200000x128, .f32⟩ : BufTy).Contents (Elt F) → (⟨S200000x128, .f32⟩ : BufTy).Contents (Elt F)),
    unary main_arg3 main_v104 ((extractStridedSlice S1x128 ![1, 0] · slices_S3x128_S1x128_1_0) : (⟨S3x128, .f32⟩ : BufTy).Contents (Elt F) → (⟨S1x128, .f32⟩ : BufTy).Contents (Elt F)),
    reshape main_v104 main_v105 rfl shapeCasts_S1x128_S128,
    unary main_v105 main_v106 (broadcastInDim S1x128 ![1] bcast_S128_S1x128_1 : (⟨S128, .f32⟩ : BufTy).Contents (Elt F) → (⟨S1x128, .f32⟩ : BufTy).Contents (Elt F)),
    unary main_v106 main_v107 (broadcastInDim S200000x128 ![0, 1] bcast_S1x128_S200000x128_0_1 : (⟨S1x128, .f32⟩ : BufTy).Contents (Elt F) → (⟨S200000x128, .f32⟩ : BufTy).Contents (Elt F)),
    binary main_v103 main_v107 main_v108 (mulf : (⟨S200000x128, .f32⟩ : BufTy).Contents (Elt F) → (⟨S200000x128, .f32⟩ : BufTy).Contents (Elt F) → (⟨S200000x128, .f32⟩ : BufTy).Contents (Elt F)),
    unary main_arg4 main_v109 ((extractStridedSlice S1x128 ![1, 0] · slices_S3x128_S1x128_1_0) : (⟨S3x128, .f32⟩ : BufTy).Contents (Elt F) → (⟨S1x128, .f32⟩ : BufTy).Contents (Elt F)),
    reshape main_v109 main_v110 rfl shapeCasts_S1x128_S128,
    unary main_v110 main_v111 (broadcastInDim S1x128 ![1] bcast_S128_S1x128_1 : (⟨S128, .f32⟩ : BufTy).Contents (Elt F) → (⟨S1x128, .f32⟩ : BufTy).Contents (Elt F)),
    unary main_v111 main_v112 (broadcastInDim S200000x128 ![0, 1] bcast_S1x128_S200000x128_0_1 : (⟨S1x128, .f32⟩ : BufTy).Contents (Elt F) → (⟨S200000x128, .f32⟩ : BufTy).Contents (Elt F)),
    binary main_v108 main_v112 main_v113 (addf : (⟨S200000x128, .f32⟩ : BufTy).Contents (Elt F) → (⟨S200000x128, .f32⟩ : BufTy).Contents (Elt F) → (⟨S200000x128, .f32⟩ : BufTy).Contents (Elt F)),
    unary main_v113 main_v114 (Host.negf : (⟨S200000x128, .f32⟩ : BufTy).Contents (Elt F) → (⟨S200000x128, .f32⟩ : BufTy).Contents (Elt F)),
    unary main_v114 main_v115 (Host.exp : (⟨S200000x128, .f32⟩ : BufTy).Contents (Elt F) → (⟨S200000x128, .f32⟩ : BufTy).Contents (Elt F)),
    nullary main_cst_18 (constant S_ .f32 0x3F800000#32),
    unary main_cst_18 main_v116 (broadcastInDim S200000x128 ![] bcast_S_S200000x128 : (⟨S_, .f32⟩ : BufTy).Contents (Elt F) → (⟨S200000x128, .f32⟩ : BufTy).Contents (Elt F)),
    binary main_v116 main_v115 main_v117 (addf : (⟨S200000x128, .f32⟩ : BufTy).Contents (Elt F) → (⟨S200000x128, .f32⟩ : BufTy).Contents (Elt F) → (⟨S200000x128, .f32⟩ : BufTy).Contents (Elt F)),
    nullary main_cst_19 (constant S_ .f32 0x3F800000#32),
    unary main_cst_19 main_v118 (broadcastInDim S200000x128 ![] bcast_S_S200000x128 : (⟨S_, .f32⟩ : BufTy).Contents (Elt F) → (⟨S200000x128, .f32⟩ : BufTy).Contents (Elt F)),
    binary main_v118 main_v117 main_v119 (Host.divf : (⟨S200000x128, .f32⟩ : BufTy).Contents (Elt F) → (⟨S200000x128, .f32⟩ : BufTy).Contents (Elt F) → (⟨S200000x128, .f32⟩ : BufTy).Contents (Elt F)),
    binary main_v61 main_v119 main_v120 (addf : (⟨S200000x128, .f32⟩ : BufTy).Contents (Elt F) → (⟨S200000x128, .f32⟩ : BufTy).Contents (Elt F) → (⟨S200000x128, .f32⟩ : BufTy).Contents (Elt F)),
    unary main_arg1 main_v121 ((extractStridedSlice S1x1x200000 ![2, 0, 0] · slices_S3x2x200000_S1x1x200000_2_0_0) : (⟨S3x2x200000, .i32⟩ : BufTy).Contents (Elt F) → (⟨S1x1x200000, .i32⟩ : BufTy).Contents (Elt F)),
    reshape main_v121 main_v122 rfl shapeCasts_S1x1x200000_S200000,
    nullary main_c_20 (constantI S_ 32 0#32),
    unary main_c_20 main_v123 (broadcastInDim S200000 ![] bcast_S_S200000 : (⟨S_, .i32⟩ : BufTy).Contents (Elt F) → (⟨S200000, .i32⟩ : BufTy).Contents (Elt F)),
    binary main_v122 main_v123 main_v124 (cmpi .slt : (⟨S200000, .i32⟩ : BufTy).Contents (Elt F) → (⟨S200000, .i32⟩ : BufTy).Contents (Elt F) → (⟨S200000, .i1⟩ : BufTy).Contents (Elt F)),
    nullary main_c_21 (constantI S_ 32 200001#32),
    unary main_c_21 main_v125 (broadcastInDim S200000 ![] bcast_S_S200000 : (⟨S_, .i32⟩ : BufTy).Contents (Elt F) → (⟨S200000, .i32⟩ : BufTy).Contents (Elt F)),
    binary main_v122 main_v125 main_v126 (addi : (⟨S200000, .i32⟩ : BufTy).Contents (Elt F) → (⟨S200000, .i32⟩ : BufTy).Contents (Elt F) → (⟨S200000, .i32⟩ : BufTy).Contents (Elt F)),
    ternary main_v124 main_v126 main_v122 main_v127 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v127 main_v128 (broadcastInDim S200000x1 ![0] bcast_S200000_S200000x1_0 : (⟨S200000, .i32⟩ : BufTy).Contents (Elt F) → (⟨S200000x1, .i32⟩ : BufTy).Contents (Elt F)),
    binary main_v1 main_v128 main_v129 ((fun x i => Host.gather gather_S200001x128_S200000x1_S200000x128_1_0_n_n_0_1_1128 x i) : (⟨S200001x128, .f32⟩ : BufTy).Contents (Elt F) → (⟨S200000x1, .i32⟩ : BufTy).Contents (Elt F) → (⟨S200000x128, .f32⟩ : BufTy).Contents (Elt F)),
    unary main_arg1 main_v130 ((extractStridedSlice S1x1x200000 ![2, 1, 0] · slices_S3x2x200000_S1x1x200000_2_1_0) : (⟨S3x2x200000, .i32⟩ : BufTy).Contents (Elt F) → (⟨S1x1x200000, .i32⟩ : BufTy).Contents (Elt F)),
    reshape main_v130 main_v131 rfl shapeCasts_S1x1x200000_S200000,
    nullary main_c_22 (constantI S_ 32 0#32),
    unary main_c_22 main_v132 (broadcastInDim S200000 ![] bcast_S_S200000 : (⟨S_, .i32⟩ : BufTy).Contents (Elt F) → (⟨S200000, .i32⟩ : BufTy).Contents (Elt F)),
    binary main_v131 main_v132 main_v133 (cmpi .slt : (⟨S200000, .i32⟩ : BufTy).Contents (Elt F) → (⟨S200000, .i32⟩ : BufTy).Contents (Elt F) → (⟨S200000, .i1⟩ : BufTy).Contents (Elt F)),
    nullary main_c_23 (constantI S_ 32 200001#32),
    unary main_c_23 main_v134 (broadcastInDim S200000 ![] bcast_S_S200000 : (⟨S_, .i32⟩ : BufTy).Contents (Elt F) → (⟨S200000, .i32⟩ : BufTy).Contents (Elt F)),
    binary main_v131 main_v134 main_v135 (addi : (⟨S200000, .i32⟩ : BufTy).Contents (Elt F) → (⟨S200000, .i32⟩ : BufTy).Contents (Elt F) → (⟨S200000, .i32⟩ : BufTy).Contents (Elt F)),
    ternary main_v133 main_v135 main_v131 main_v136 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v136 main_v137 (broadcastInDim S200000x1 ![0] bcast_S200000_S200000x1_0 : (⟨S200000, .i32⟩ : BufTy).Contents (Elt F) → (⟨S200000x1, .i32⟩ : BufTy).Contents (Elt F)),
    binary main_v1 main_v137 main_v138 ((fun x i => Host.gather gather_S200001x128_S200000x1_S200000x128_1_0_n_n_0_1_1128 x i) : (⟨S200001x128, .f32⟩ : BufTy).Contents (Elt F) → (⟨S200000x1, .i32⟩ : BufTy).Contents (Elt F) → (⟨S200000x128, .f32⟩ : BufTy).Contents (Elt F)),
    unary main_arg2 main_v139 ((extractStridedSlice S1x1x128x128 ![2, 0, 0, 0] · slices_S3x3x128x128_S1x1x128x128_2_0_0_0) : (⟨S3x3x128x128, .f32⟩ : BufTy).Contents (Elt F) → (⟨S1x1x128x128, .f32⟩ : BufTy).Contents (Elt F)),
    reshape main_v139 main_v140 rfl shapeCasts_S1x1x128x128_S128x128,
    binary main_v129 main_v140 main_v141 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg2 main_v142 ((extractStridedSlice S1x1x128x128 ![2, 1, 0, 0] · slices_S3x3x128x128_S1x1x128x128_2_1_0_0) : (⟨S3x3x128x128, .f32⟩ : BufTy).Contents (Elt F) → (⟨S1x1x128x128, .f32⟩ : BufTy).Contents (Elt F)),
    reshape main_v142 main_v143 rfl shapeCasts_S1x1x128x128_S128x128,
    binary main_arg0 main_v143 main_v144 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    binary main_v141 main_v144 main_v145 (addf : (⟨S200000x128, .f32⟩ : BufTy).Contents (Elt F) → (⟨S200000x128, .f32⟩ : BufTy).Contents (Elt F) → (⟨S200000x128, .f32⟩ : BufTy).Contents (Elt F)),
    unary main_arg2 main_v146 ((extractStridedSlice S1x1x128x128 ![2, 2, 0, 0] · slices_S3x3x128x128_S1x1x128x128_2_2_0_0) : (⟨S3x3x128x128, .f32⟩ : BufTy).Contents (Elt F) → (⟨S1x1x128x128, .f32⟩ : BufTy).Contents (Elt F)),
    reshape main_v146 main_v147 rfl shapeCasts_S1x1x128x128_S128x128,
    binary main_v138 main_v147 main_v148 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    binary main_v145 main_v148 main_v149 (addf : (⟨S200000x128, .f32⟩ : BufTy).Contents (Elt F) → (⟨S200000x128, .f32⟩ : BufTy).Contents (Elt F) → (⟨S200000x128, .f32⟩ : BufTy).Contents (Elt F)),
    nullary main_cst_24 (constant S_ .f32 0x00000000#32),
    binary main_v149 main_cst_24 main_v150 ((fun x v => Host.reduceAdd x v reducesTo_S200000x128_S128_d0 h_S_) : (⟨S200000x128, .f32⟩ : BufTy).Contents (Elt F) → (⟨S_, .f32⟩ : BufTy).Contents (Elt F) → (⟨S128, .f32⟩ : BufTy).Contents (Elt F)),
    nullary main_cst_25 (constant S_ .f32 0x48435000#32),
    unary main_cst_25 main_v151 (broadcastInDim S128 ![] bcast_S_S128 : (⟨S_, .f32⟩ : BufTy).Contents (Elt F) → (⟨S128, .f32⟩ : BufTy).Contents (Elt F)) ]

/-- The operations of window 3 (statements 181 … 214), calls inlined. -/
abbrev ops_part3 : List (HloOp τ sig (Elt F)) :=
  [ binary main_v150 main_v151 main_v152 (Host.divf : (⟨S128, .f32⟩ : BufTy).Contents (Elt F) → (⟨S128, .f32⟩ : BufTy).Contents (Elt F) → (⟨S128, .f32⟩ : BufTy).Contents (Elt F)),
    nullary main_c_26 (constantI S_ 32 0#32),
    TRef.nullary main_call2.cst (constant S_ .f32 0x00000000#32),
    TRef.binary (.of main_v149) main_call2.cst main_call2.v0 (fun x v => Host.reduceAdd x v reducesTo_S200000x128_S128_d0 h_S_),
    TRef.unary main_call2.v0 main_call2.v1 (broadcastInDim S1x128 ![1] bcast_S128_S1x128_1),
    TRef.nullary main_call2.cst_0 (constant S_ .f32 0x48435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S200000x128 ![0, 1] bcast_S1x128_S200000x128_0_1),
    TRef.binary (.of main_v149) main_call2.v4 main_call2.v5 subf,
    TRef.binary main_call2.v5 main_call2.v5 main_call2.v6 mulf,
    TRef.unary (.of main_c_26) main_call2.v7 (sitofp .f32),
    TRef.nullary main_call2.cst_1 (constant S_ .f32 0x48435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S200000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf (F := F) .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v152 main_v154 (broadcastInDim S1x128 ![1] bcast_S128_S1x128_1 : (⟨S128, .f32⟩ : BufTy).Contents (Elt F) → (⟨S1x128, .f32⟩ : BufTy).Contents (Elt F)),
    unary main_v154 main_v155 (broadcastInDim S200000x128 ![0, 1] bcast_S1x128_S200000x128_0_1 : (⟨S1x128, .f32⟩ : BufTy).Contents (Elt F) → (⟨S200000x128, .f32⟩ : BufTy).Contents (Elt F)),
    binary main_v149 main_v155 main_v156 (subf : (⟨S200000x128, .f32⟩ : BufTy).Contents (Elt F) → (⟨S200000x128, .f32⟩ : BufTy).Contents (Elt F) → (⟨S200000x128, .f32⟩ : BufTy).Contents (Elt F)),
    nullary main_cst_27 (constant S_ .f32 0x3727C5AC#32),
    unary main_cst_27 main_v157 (broadcastInDim S128 ![] bcast_S_S128 : (⟨S_, .f32⟩ : BufTy).Contents (Elt F) → (⟨S128, .f32⟩ : BufTy).Contents (Elt F)),
    binary main_v153 main_v157 main_v158 (addf : (⟨S128, .f32⟩ : BufTy).Contents (Elt F) → (⟨S128, .f32⟩ : BufTy).Contents (Elt F) → (⟨S128, .f32⟩ : BufTy).Contents (Elt F)),
    unary main_v158 main_v159 (Host.rsqrt : (⟨S128, .f32⟩ : BufTy).Contents (Elt F) → (⟨S128, .f32⟩ : BufTy).Contents (Elt F)),
    unary main_v159 main_v160 (broadcastInDim S1x128 ![1] bcast_S128_S1x128_1 : (⟨S128, .f32⟩ : BufTy).Contents (Elt F) → (⟨S1x128, .f32⟩ : BufTy).Contents (Elt F)),
    unary main_v160 main_v161 (broadcastInDim S200000x128 ![0, 1] bcast_S1x128_S200000x128_0_1 : (⟨S1x128, .f32⟩ : BufTy).Contents (Elt F) → (⟨S200000x128, .f32⟩ : BufTy).Contents (Elt F)),
    binary main_v156 main_v161 main_v162 (mulf : (⟨S200000x128, .f32⟩ : BufTy).Contents (Elt F) → (⟨S200000x128, .f32⟩ : BufTy).Contents (Elt F) → (⟨S200000x128, .f32⟩ : BufTy).Contents (Elt F)),
    unary main_arg3 main_v163 ((extractStridedSlice S1x128 ![2, 0] · slices_S3x128_S1x128_2_0) : (⟨S3x128, .f32⟩ : BufTy).Contents (Elt F) → (⟨S1x128, .f32⟩ : BufTy).Contents (Elt F)),
    reshape main_v163 main_v164 rfl shapeCasts_S1x128_S128,
    unary main_v164 main_v165 (broadcastInDim S1x128 ![1] bcast_S128_S1x128_1 : (⟨S128, .f32⟩ : BufTy).Contents (Elt F) → (⟨S1x128, .f32⟩ : BufTy).Contents (Elt F)),
    unary main_v165 main_v166 (broadcastInDim S200000x128 ![0, 1] bcast_S1x128_S200000x128_0_1 : (⟨S1x128, .f32⟩ : BufTy).Contents (Elt F) → (⟨S200000x128, .f32⟩ : BufTy).Contents (Elt F)),
    binary main_v162 main_v166 main_v167 (mulf : (⟨S200000x128, .f32⟩ : BufTy).Contents (Elt F) → (⟨S200000x128, .f32⟩ : BufTy).Contents (Elt F) → (⟨S200000x128, .f32⟩ : BufTy).Contents (Elt F)),
    unary main_arg4 main_v168 ((extractStridedSlice S1x128 ![2, 0] · slices_S3x128_S1x128_2_0) : (⟨S3x128, .f32⟩ : BufTy).Contents (Elt F) → (⟨S1x128, .f32⟩ : BufTy).Contents (Elt F)),
    reshape main_v168 main_v169 rfl shapeCasts_S1x128_S128,
    unary main_v169 main_v170 (broadcastInDim S1x128 ![1] bcast_S128_S1x128_1 : (⟨S128, .f32⟩ : BufTy).Contents (Elt F) → (⟨S1x128, .f32⟩ : BufTy).Contents (Elt F)),
    unary main_v170 main_v171 (broadcastInDim S200000x128 ![0, 1] bcast_S1x128_S200000x128_0_1 : (⟨S1x128, .f32⟩ : BufTy).Contents (Elt F) → (⟨S200000x128, .f32⟩ : BufTy).Contents (Elt F)),
    binary main_v167 main_v171 main_v172 (addf : (⟨S200000x128, .f32⟩ : BufTy).Contents (Elt F) → (⟨S200000x128, .f32⟩ : BufTy).Contents (Elt F) → (⟨S200000x128, .f32⟩ : BufTy).Contents (Elt F)),
    unary main_v172 main_v173 (Host.negf : (⟨S200000x128, .f32⟩ : BufTy).Contents (Elt F) → (⟨S200000x128, .f32⟩ : BufTy).Contents (Elt F)),
    unary main_v173 main_v174 (Host.exp : (⟨S200000x128, .f32⟩ : BufTy).Contents (Elt F) → (⟨S200000x128, .f32⟩ : BufTy).Contents (Elt F)),
    nullary main_cst_28 (constant S_ .f32 0x3F800000#32),
    unary main_cst_28 main_v175 (broadcastInDim S200000x128 ![] bcast_S_S200000x128 : (⟨S_, .f32⟩ : BufTy).Contents (Elt F) → (⟨S200000x128, .f32⟩ : BufTy).Contents (Elt F)),
    binary main_v175 main_v174 main_v176 (addf : (⟨S200000x128, .f32⟩ : BufTy).Contents (Elt F) → (⟨S200000x128, .f32⟩ : BufTy).Contents (Elt F) → (⟨S200000x128, .f32⟩ : BufTy).Contents (Elt F)),
    nullary main_cst_29 (constant S_ .f32 0x3F800000#32),
    unary main_cst_29 main_v177 (broadcastInDim S200000x128 ![] bcast_S_S200000x128 : (⟨S_, .f32⟩ : BufTy).Contents (Elt F) → (⟨S200000x128, .f32⟩ : BufTy).Contents (Elt F)),
    binary main_v177 main_v176 main_v178 (Host.divf : (⟨S200000x128, .f32⟩ : BufTy).Contents (Elt F) → (⟨S200000x128, .f32⟩ : BufTy).Contents (Elt F) → (⟨S200000x128, .f32⟩ : BufTy).Contents (Elt F)),
    binary main_v120 main_v178 main_v179 (addf : (⟨S200000x128, .f32⟩ : BufTy).Contents (Elt F) → (⟨S200000x128, .f32⟩ : BufTy).Contents (Elt F) → (⟨S200000x128, .f32⟩ : BufTy).Contents (Elt F)),
    binary main_v179 main_arg0 main_v180 (mulf : (⟨S200000x128, .f32⟩ : BufTy).Contents (Elt F) → (⟨S200000x128, .f32⟩ : BufTy).Contents (Elt F) → (⟨S200000x128, .f32⟩ : BufTy).Contents (Elt F)) ]

/-- The program's operations, in order. -/
abbrev ops : List (HloOp τ sig (Elt F)) :=
  ops_part0 ++ (ops_part1 ++ (ops_part2 ++ ops_part3))

set_option maxRecDepth 8192 in
/-- Window 0 is the straight line of its operations: the called functions' definitions unfolded and the sequencing reassociated. -/
theorem main_part0_eq (c : Dev nD) : main_part0 (F := F) c = seq ops_part0 := by
  simp only [main_part0, fn_var.body, fn_where.body, seq, bind_assoc, pure_bind]
  rfl

set_option maxRecDepth 8192 in
/-- Window 1 is the straight line of its operations: the called functions' definitions unfolded and the sequencing reassociated. -/
theorem main_part1_eq (c : Dev nD) : main_part1 (F := F) c = seq ops_part1 := by
  simp only [main_part1, fn_var.body, fn_where.body, seq, bind_assoc, pure_bind]
  rfl

set_option maxRecDepth 8192 in
/-- Window 2 is the straight line of its operations. -/
theorem main_part2_eq (c : Dev nD) : main_part2 (F := F) c = seq ops_part2 := rfl

set_option maxRecDepth 8192 in
/-- Window 3 is the straight line of its operations: the called functions' definitions unfolded and the sequencing reassociated. -/
theorem main_part3_eq (c : Dev nD) : main_part3 (F := F) c = seq ops_part3 := by
  simp only [main_part3, fn_var.body, fn_where.body, seq, bind_assoc, pure_bind]

set_option maxRecDepth 8192 in
/-- The program is the four windows' lines run in order. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨nullary_bufs_sub .., unary_bufs_sub .., binary_bufs_sub .., nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub ..⟩

set_option maxRecDepth 8192 in
theorem ops_part1_sub : (ops_part1 : List (HloOp τ sig (Elt F))).Forall fun op => op.bufs ⊆ tcRefs τ sig :=
  ⟨unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

set_option maxRecDepth 8192 in
theorem ops_part2_sub : (ops_part2 : List (HloOp τ sig (Elt F))).Forall fun op => op.bufs ⊆ tcRefs τ sig :=
  ⟨unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., binary_bufs_sub .., binary_bufs_sub .., nullary_bufs_sub .., binary_bufs_sub .., nullary_bufs_sub .., unary_bufs_sub ..⟩

set_option maxRecDepth 8192 in
theorem ops_part3_sub : (ops_part3 : List (HloOp τ sig (Elt F))).Forall fun op => op.bufs ⊆ tcRefs τ sig :=
  ⟨binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩

/-- Every operation touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops_part0_sub op h, List.forall_iff_forall_mem.mp ops_part1_sub op h, List.forall_iff_forall_mem.mp ops_part2_sub op h, List.forall_iff_forall_mem.mp ops_part3_sub op h]

end Cert.ReferenceIdeal.RefValue

end
-- ==== Proof.RefW0.lean ====
/-
  The first window of the reference program (statements 1 … 60), read back: from any contents of the buffers, the
  contents after the window of the three buffers later windows read — the padded features, the zero table, and the
  first axis's normalised table scaled by its scale row — as terms of the five arguments; the arguments are left
  as they were.
-/
import proofs.«134539_j3152505995485_2_alg».proof.Proof.RefDefs
import proofs.«134539_j3152505995485_2_alg».proof.Proof.RefOps

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- After window 0 the padded features. -/
theorem w0_v1 (V : Valuation τ sig (Elt F)) :
    after ops_part0 V (no_index (Proc.devRef .tc main_v1)) = padded (V (Proc.devRef .tc main_arg0)) := by
  simp only [ops_part0]
  after_results_simp <;> rfl

set_option maxRecDepth 8192 in
set_option maxHeartbeats 2000000 in
/-- After window 0 the zero table. -/
theorem w0_v2 (V : Valuation τ sig (Elt F)) :
    after ops_part0 V (no_index (Proc.devRef .tc main_v2)) = zeroTab (F := F) := by
  simp only [ops_part0]
  after_results_simp <;> rfl

set_option maxRecDepth 8192 in
set_option maxHeartbeats 2000000 in
/-- After window 0 the first axis's normalised table, scaled. -/
theorem w0_v49 (V : Valuation τ sig (Elt F)) :
    after ops_part0 V (no_index (Proc.devRef .tc main_v49)) = scaledOf (T0 (V (Proc.devRef .tc main_arg0)) (V (Proc.devRef .tc main_arg1)) (V (Proc.devRef .tc main_arg2))) (gOf0 (V (Proc.devRef .tc main_arg3))) := by
  simp only [ops_part0]
  after_results_simp <;> rfl

set_option maxRecDepth 8192 in
set_option maxHeartbeats 2000000 in
/-- Window 0 leaves argument 0 as it was. -/
theorem w0_arg0 (V : Valuation τ sig (Elt F)) :
    after ops_part0 V (no_index (Proc.devRef .tc main_arg0)) = V (Proc.devRef .tc main_arg0) := by
  simp only [ops_part0]
  after_results_simp <;> rfl

set_option maxRecDepth 8192 in
set_option maxHeartbeats 2000000 in
/-- Window 0 leaves argument 1 as it was. -/
theorem w0_arg1 (V : Valuation τ sig (Elt F)) :
    after ops_part0 V (no_index (Proc.devRef .tc main_arg1)) = V (Proc.devRef .tc main_arg1) := by
  simp only [ops_part0]
  after_results_simp <;> rfl

set_option maxRecDepth 8192 in
set_option maxHeartbeats 2000000 in
/-- Window 0 leaves argument 2 as it was. -/
theorem w0_arg2 (V : Valuation τ sig (Elt F)) :
    after ops_part0 V (no_index (Proc.devRef .tc main_arg2)) = V (Proc.devRef .tc main_arg2) := by
  simp only [ops_part0]
  after_results_simp <;> rfl

set_option maxRecDepth 8192 in
set_option maxHeartbeats 2000000 in
/-- Window 0 leaves argument 3 as it was. -/
theorem w0_arg3 (V : Valuation τ sig (Elt F)) :
    after ops_part0 V (no_index (Proc.devRef .tc main_arg3)) = V (Proc.devRef .tc main_arg3) := by
  simp only [ops_part0]
  after_results_simp <;> rfl

set_option maxRecDepth 8192 in
set_option maxHeartbeats 2000000 in
/-- Window 0 leaves argument 4 as it was. -/
theorem w0_arg4 (V : Valuation τ sig (Elt F)) :
    after ops_part0 V (no_index (Proc.devRef .tc main_arg4)) = V (Proc.devRef .tc main_arg4) := by
  simp only [ops_part0]
  after_results_simp <;> rfl

end Cert.ReferenceIdeal.RefValue

end
-- ==== Proof.RefW1.lean ====
/-
  The second window of the reference program (statements 61 … 120), read back: from any contents of the buffers,
  the contents after the window of the buffers later windows read — the padded features (kept), the zero table plus
  the first axis's logistic table, the second axis's centred table and its variance plus the offset — as terms of
  the contents before; the arguments are left as they were.
-/
import proofs.«134539_j3152505995485_2_alg».proof.Proof.RefDefs
import proofs.«134539_j3152505995485_2_alg».proof.Proof.RefOps

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Window 1 leaves the padded features as they were. -/
theorem w1_v1 (V : Valuation τ sig (Elt F)) :
    after ops_part1 V (no_index (Proc.devRef .tc main_v1)) = V (Proc.devRef .tc main_v1) := by
  simp only [ops_part1]
  after_results_simp <;> rfl

set_option maxRecDepth 8192 in
set_option maxHeartbeats 2000000 in
/-- After window 1 the first axis's table added onto the zero table. -/
theorem w1_v61 (V : Valuation τ sig (Elt F)) :
    after ops_part1 V (no_index (Proc.devRef .tc main_v61)) = addf (V (Proc.devRef .tc main_v2)) (sigTail (V (Proc.devRef .tc main_v49)) (bOf0 (V (Proc.devRef .tc main_arg4)))) := by
  simp only [ops_part1]
  after_results_simp <;> rfl

set_option maxRecDepth 8192 in
set_option maxHeartbeats 2000000 in
/-- After window 1 the second axis's centred table. -/
theorem w1_v97 (V : Valuation τ sig (Elt F)) :
    after ops_part1 V (no_index (Proc.devRef .tc main_v97)) = centOf (convP (V (Proc.devRef .tc main_v1)) (V (Proc.devRef .tc main_arg0)) (idxOf10 (V (Proc.devRef .tc main_arg1))) (idxOf11 (V (Proc.devRef .tc main_arg1))) (wOf10 (V (Proc.devRef .tc main_arg2))) (wOf11 (V (Proc.devRef .tc main_arg2))) (wOf12 (V (Proc.devRef .tc main_arg2)))) := by
  simp only [ops_part1]
  after_results_simp <;> rfl

set_option maxRecDepth 8192 in
set_option maxHeartbeats 2000000 in
/-- After window 1 the second axis's variance plus the offset. -/
theorem w1_v99 (V : Valuation τ sig (Elt F)) :
    after ops_part1 V (no_index (Proc.devRef .tc main_v99)) = veOf (convP (V (Proc.devRef .tc main_v1)) (V (Proc.devRef .tc main_arg0)) (idxOf10 (V (Proc.devRef .tc main_arg1))) (idxOf11 (V (Proc.devRef .tc main_arg1))) (wOf10 (V (Proc.devRef .tc main_arg2))) (wOf11 (V (Proc.devRef .tc main_arg2))) (wOf12 (V (Proc.devRef .tc main_arg2)))) := by
  simp only [ops_part1]
  after_results_simp <;> rfl

set_option maxRecDepth 8192 in
set_option maxHeartbeats 2000000 in
/-- Window 1 leaves argument 0 as it was. -/
theorem w1_arg0 (V : Valuation τ sig (Elt F)) :
    after ops_part1 V (no_index (Proc.devRef .tc main_arg0)) = V (Proc.devRef .tc main_arg0) := by
  simp only [ops_part1]
  after_results_simp <;> rfl

set_option maxRecDepth 8192 in
set_option maxHeartbeats 2000000 in
/-- Window 1 leaves argument 1 as it was. -/
theorem w1_arg1 (V : Valuation τ sig (Elt F)) :
    after ops_part1 V (no_index (Proc.devRef .tc main_arg1)) = V (Proc.devRef .tc main_arg1) := by
  simp only [ops_part1]
  after_results_simp <;> rfl

set_option maxRecDepth 8192 in
set_option maxHeartbeats 2000000 in
/-- Window 1 leaves argument 2 as it was. -/
theorem w1_arg2 (V : Valuation τ sig (Elt F)) :
    after ops_part1 V (no_index (Proc.devRef .tc main_arg2)) = V (Proc.devRef .tc main_arg2) := by
  simp only [ops_part1]
  after_results_simp <;> rfl

set_option maxRecDepth 8192 in
set_option maxHeartbeats 2000000 in
/-- Window 1 leaves argument 3 as it was. -/
theorem w1_arg3 (V : Valuation τ sig (Elt F)) :
    after ops_part1 V (no_index (Proc.devRef .tc main_arg3)) = V (Proc.devRef .tc main_arg3) := by
  simp only [ops_part1]
  after_results_simp <;> rfl

set_option maxRecDepth 8192 in
set_option maxHeartbeats 2000000 in
/-- Window 1 leaves argument 4 as it was. -/
theorem w1_arg4 (V : Valuation τ sig (Elt F)) :
    after ops_part1 V (no_index (Proc.devRef .tc main_arg4)) = V (Proc.devRef .tc main_arg4) := by
  simp only [ops_part1]
  after_results_simp <;> rfl

end Cert.ReferenceIdeal.RefValue

end
-- ==== Proof.RefW2.lean ====
/-
  The third window of the reference program (statements 121 … 180), read back: from any contents of the buffers,
  the contents after the window of the buffers the last window reads — the sum of the first two axes' logistic
  tables, the third axis's convolution table, its per-channel sum and the row-count row — as terms of the contents
  before; the arguments are left as they were.
-/
import proofs.«134539_j3152505995485_2_alg».proof.Proof.RefDefs
import proofs.«134539_j3152505995485_2_alg».proof.Proof.RefOps

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- After window 2 the second axis's table added on. -/
theorem w2_v120 (V : Valuation τ sig (Elt F)) :
    after ops_part2 V (no_index (Proc.devRef .tc main_v120)) = addf (V (Proc.devRef .tc main_v61)) (sigTail (scaleBy (V (Proc.devRef .tc main_v97)) (V (Proc.devRef .tc main_v99)) (gOf1 (V (Proc.devRef .tc main_arg3)))) (bOf1 (V (Proc.devRef .tc main_arg4)))) := by
  simp only [ops_part2]
  after_results_simp <;> rfl

set_option maxRecDepth 8192 in
set_option maxHeartbeats 2000000 in
/-- After window 2 the third axis's convolution table. -/
theorem w2_v149 (V : Valuation τ sig (Elt F)) :
    after ops_part2 V (no_index (Proc.devRef .tc main_v149)) = convP (V (Proc.devRef .tc main_v1)) (V (Proc.devRef .tc main_arg0)) (idxOf20 (V (Proc.devRef .tc main_arg1))) (idxOf21 (V (Proc.devRef .tc main_arg1))) (wOf20 (V (Proc.devRef .tc main_arg2))) (wOf21 (V (Proc.devRef .tc main_arg2))) (wOf22 (V (Proc.devRef .tc main_arg2))) := by
  simp only [ops_part2]
  after_results_simp <;> rfl

set_option maxRecDepth 8192 in
set_option maxHeartbeats 2000000 in
/-- After window 2 the third axis's per-channel sum. -/
theorem w2_v150 (V : Valuation τ sig (Elt F)) :
    after ops_part2 V (no_index (Proc.devRef .tc main_v150)) = sumOf (convP (V (Proc.devRef .tc main_v1)) (V (Proc.devRef .tc main_arg0)) (idxOf20 (V (Proc.devRef .tc main_arg1))) (idxOf21 (V (Proc.devRef .tc main_arg1))) (wOf20 (V (Proc.devRef .tc main_arg2))) (wOf21 (V (Proc.devRef .tc main_arg2))) (wOf22 (V (Proc.devRef .tc main_arg2)))) := by
  simp only [ops_part2]
  after_results_simp <;> rfl

set_option maxRecDepth 8192 in
set_option maxHeartbeats 2000000 in
/-- After window 2 the row-count row. -/
theorem w2_v151 (V : Valuation τ sig (Elt F)) :
    after ops_part2 V (no_index (Proc.devRef .tc main_v151)) = cntRow (F := F) := by
  simp only [ops_part2]
  after_results_simp <;> rfl

set_option maxRecDepth 8192 in
set_option maxHeartbeats 2000000 in
/-- Window 2 leaves argument 0 as it was. -/
theorem w2_arg0 (V : Valuation τ sig (Elt F)) :
    after ops_part2 V (no_index (Proc.devRef .tc main_arg0)) = V (Proc.devRef .tc main_arg0) := by
  simp only [ops_part2]
  after_results_simp <;> rfl

set_option maxRecDepth 8192 in
set_option maxHeartbeats 2000000 in
/-- Window 2 leaves argument 1 as it was. -/
theorem w2_arg1 (V : Valuation τ sig (Elt F)) :
    after ops_part2 V (no_index (Proc.devRef .tc main_arg1)) = V (Proc.devRef .tc main_arg1) := by
  simp only [ops_part2]
  after_results_simp <;> rfl

set_option maxRecDepth 8192 in
set_option maxHeartbeats 2000000 in
/-- Window 2 leaves argument 2 as it was. -/
theorem w2_arg2 (V : Valuation τ sig (Elt F)) :
    after ops_part2 V (no_index (Proc.devRef .tc main_arg2)) = V (Proc.devRef .tc main_arg2) := by
  simp only [ops_part2]
  after_results_simp <;> rfl

set_option maxRecDepth 8192 in
set_option maxHeartbeats 2000000 in
/-- Window 2 leaves argument 3 as it was. -/
theorem w2_arg3 (V : Valuation τ sig (Elt F)) :
    after ops_part2 V (no_index (Proc.devRef .tc main_arg3)) = V (Proc.devRef .tc main_arg3) := by
  simp only [ops_part2]
  after_results_simp <;> rfl

set_option maxRecDepth 8192 in
set_option maxHeartbeats 2000000 in
/-- Window 2 leaves argument 4 as it was. -/
theorem w2_arg4 (V : Valuation τ sig (Elt F)) :
    after ops_part2 V (no_index (Proc.devRef .tc main_arg4)) = V (Proc.devRef .tc main_arg4) := by
  simp only [ops_part2]
  after_results_simp <;> rfl

end Cert.ReferenceIdeal.RefValue

end
-- ==== Proof.RefW3.lean ====
/-
  The last window of the reference program (statements 181 … 214), read back: from any contents of the buffers, the
  result buffer after the window — the third axis's logistic table added onto the sum of the first two, times the
  features — as a term of the contents before; the arguments are left as they were.
-/
import proofs.«134539_j3152505995485_2_alg».proof.Proof.RefDefs
import proofs.«134539_j3152505995485_2_alg».proof.Proof.RefOps

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- After window 3 the result. -/
theorem w3_v180 (V : Valuation τ sig (Elt F)) :
    after ops_part3 V (no_index (Proc.devRef .tc main_v180)) = mulf (addf (V (Proc.devRef .tc main_v120)) (sigTail (scaleBy (subf (V (Proc.devRef .tc main_v149)) (rowTab (Host.divf (V (Proc.devRef .tc main_v150)) (V (Proc.devRef .tc main_v151))))) (addf (varOf (V (Proc.devRef .tc main_v149))) epsRow) (gOf2 (V (Proc.devRef .tc main_arg3)))) (bOf2 (V (Proc.devRef .tc main_arg4))))) (V (Proc.devRef .tc main_arg0)) := by
  simp only [ops_part3]
  after_results_simp <;> rfl

set_option maxRecDepth 8192 in
set_option maxHeartbeats 2000000 in
/-- Window 3 leaves argument 0 as it was. -/
theorem w3_arg0 (V : Valuation τ sig (Elt F)) :
    after ops_part3 V (no_index (Proc.devRef .tc main_arg0)) = V (Proc.devRef .tc main_arg0) := by
  simp only [ops_part3]
  after_results_simp <;> rfl

set_option maxRecDepth 8192 in
set_option maxHeartbeats 2000000 in
/-- Window 3 leaves argument 1 as it was. -/
theorem w3_arg1 (V : Valuation τ sig (Elt F)) :
    after ops_part3 V (no_index (Proc.devRef .tc main_arg1)) = V (Proc.devRef .tc main_arg1) := by
  simp only [ops_part3]
  after_results_simp <;> rfl

set_option maxRecDepth 8192 in
set_option maxHeartbeats 2000000 in
/-- Window 3 leaves argument 2 as it was. -/
theorem w3_arg2 (V : Valuation τ sig (Elt F)) :
    after ops_part3 V (no_index (Proc.devRef .tc main_arg2)) = V (Proc.devRef .tc main_arg2) := by
  simp only [ops_part3]
  after_results_simp <;> rfl

set_option maxRecDepth 8192 in
set_option maxHeartbeats 2000000 in
/-- Window 3 leaves argument 3 as it was. -/
theorem w3_arg3 (V : Valuation τ sig (Elt F)) :
    after ops_part3 V (no_index (Proc.devRef .tc main_arg3)) = V (Proc.devRef .tc main_arg3) := by
  simp only [ops_part3]
  after_results_simp <;> rfl

set_option maxRecDepth 8192 in
set_option maxHeartbeats 2000000 in
/-- Window 3 leaves argument 4 as it was. -/
theorem w3_arg4 (V : Valuation τ sig (Elt F)) :
    after ops_part3 V (no_index (Proc.devRef .tc main_arg4)) = V (Proc.devRef .tc main_arg4) := by
  simp only [ops_part3]
  after_results_simp <;> rfl

end Cert.ReferenceIdeal.RefValue

end
-- ==== Proof.RefRun.lean ====
/-
  The reference program's run, read back: every weakly fair execution of the program on the TensorCores terminates
  with the result buffer holding `refOut` of the five arguments' launch contents, the arguments unchanged.

  The program is the straight line of its operations, so a terminating run leaves every buffer at the fold of the
  operations' results over the launch contents. The fold over the whole line is the fold over the four windows in
  turn; each window's fold at the buffers the next windows read is that window's lemma, and the four composed are
  `refOut` once its definitions are unfolded.
-/
import proofs.«134539_j3152505995485_2_alg».proof.Proof.RefW0
import proofs.«134539_j3152505995485_2_alg».proof.Proof.RefW1
import proofs.«134539_j3152505995485_2_alg».proof.Proof.RefW2
import proofs.«134539_j3152505995485_2_alg».proof.Proof.RefW3
import Idealize.ShloMosaic.Lib.Pipeline.Frame

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The fold over the whole line is the fold over the four windows in turn. -/
theorem after_ops (V0 : Valuation τ sig (Elt F)) :
    after ops V0 = after ops_part3 (after ops_part2 (after ops_part1 (after ops_part0 V0))) := by
  show after (ops_part0 ++ (ops_part1 ++ (ops_part2 ++ ops_part3))) V0 = _
  rw [after_append, after_append, after_append]

/-- The whole line leaves argument 0 as it was. -/
theorem after_arg0 (V0 : Valuation τ sig (Elt F)) :
    after ops V0 (Proc.devRef .tc main_arg0) = V0 (Proc.devRef .tc main_arg0) := by
  rw [after_ops]
  exact (w3_arg0 _).trans ((w2_arg0 _).trans ((w1_arg0 _).trans (w0_arg0 _)))

/-- The whole line leaves argument 1 as it was. -/
theorem after_arg1 (V0 : Valuation τ sig (Elt F)) :
    after ops V0 (Proc.devRef .tc main_arg1) = V0 (Proc.devRef .tc main_arg1) := by
  rw [after_ops]
  exact (w3_arg1 _).trans ((w2_arg1 _).trans ((w1_arg1 _).trans (w0_arg1 _)))

/-- The whole line leaves argument 2 as it was. -/
theorem after_arg2 (V0 : Valuation τ sig (Elt F)) :
    after ops V0 (Proc.devRef .tc main_arg2) = V0 (Proc.devRef .tc main_arg2) := by
  rw [after_ops]
  exact (w3_arg2 _).trans ((w2_arg2 _).trans ((w1_arg2 _).trans (w0_arg2 _)))

/-- The whole line leaves argument 3 as it was. -/
theorem after_arg3 (V0 : Valuation τ sig (Elt F)) :
    after ops V0 (Proc.devRef .tc main_arg3) = V0 (Proc.devRef .tc main_arg3) := by
  rw [after_ops]
  exact (w3_arg3 _).trans ((w2_arg3 _).trans ((w1_arg3 _).trans (w0_arg3 _)))

/-- The whole line leaves argument 4 as it was. -/
theorem after_arg4 (V0 : Valuation τ sig (Elt F)) :
    after ops V0 (Proc.devRef .tc main_arg4) = V0 (Proc.devRef .tc main_arg4) := by
  rw [after_ops]
  exact (w3_arg4 _).trans ((w2_arg4 _).trans ((w1_arg4 _).trans (w0_arg4 _)))

set_option maxRecDepth 8192 in
/-- The whole line leaves the result buffer at `refOut` of the arguments. -/
theorem after_out (V0 : Valuation τ sig (Elt F)) :
    after ops V0 (Proc.devRef .tc main_v180)
      = refOut (V0 (Proc.devRef .tc main_arg0)) (V0 (Proc.devRef .tc main_arg1)) (V0 (Proc.devRef .tc main_arg2)) (V0 (Proc.devRef .tc main_arg3)) (V0 (Proc.devRef .tc main_arg4)) := by
  rw [after_ops]
  simp only [w3_v180, w3_arg0, w3_arg3, w3_arg4,
    w2_v120, w2_v149, w2_v150, w2_v151, w2_arg0, w2_arg1, w2_arg2, w2_arg3, w2_arg4,
    w1_v1, w1_v61, w1_v97, w1_v99, w1_arg0, w1_arg1, w1_arg2, w1_arg3, w1_arg4,
    w0_v1, w0_v2, w0_v49, w0_arg0, w0_arg1, w0_arg2, w0_arg3, w0_arg4]
  rfl

set_option maxRecDepth 8192 in
/-- On every device, for any float values, from any memory with zero counters: every weakly fair execution of the
    program terminates with the result buffer at `refOut` of the arguments' launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v180)
        = refOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v180).trans (after_out (launchContents m c)),
      (h c main_arg0).trans (after_arg0 (launchContents m c)),
      (h c main_arg1).trans (after_arg1 (launchContents m c)),
      (h c main_arg2).trans (after_arg2 (launchContents m c)),
      (h c main_arg3).trans (after_arg3 (launchContents m c)),
      (h c main_arg4).trans (after_arg4 (launchContents m c))⟩)
    (run_seq scopedRefs_eq scopedSems_eq defs main (fun _ => ops) main_eq (fun _ => ops_sub) m ρ)

end Cert.ReferenceIdeal.RefValue

end
-- ==== Proof.Bridge.lean ====
/-
  The two programs apply the same host operations to the same arguments: read at the exact instance, the rows
  narrowed to bf16 are the rows, a zero of either format is zero, so the padded tables, the gathered neighbour rows,
  the index vectors and the weight matrices of one program are those of the other.
-/
import proofs.«134539_j3152505995485_2_alg».proof.Proof.RefDefs
import proofs.«134539_j3152505995485_2_alg».proof.Proof.KGlueDefs
import Idealize.ShloMosaic.PureOps.Ideal.Laws

noncomputable section

namespace Cert.Bridge

open Idealize.ShloMosaic
open Cert.KernelIdeal.KV Cert.ReferenceIdeal.RefValue

/-- Narrowing to bf16 changes nothing at the exact instance. -/
theorem kXb_eq (X : Cert.KernelIdeal.KV.Arr Ideal Cert.KernelIdeal.S200000x128 .f32) : kXb (F := Ideal) X = X := rfl

theorem kWb_eq (Wt : Cert.KernelIdeal.KV.Arr Ideal Cert.KernelIdeal.S3x3x128x128 .f32) : kWb (F := Ideal) Wt = Wt := rfl

/-- The bf16 zero word denotes zero. -/
theorem ofBits_zero_bf16 : Ideal.ofBits .bf16 0x0000#16 = 0 := by simp [Ideal.ofBits, Ideal.ieee]

theorem kPadded_eq (X : Cert.KernelIdeal.KV.Arr Ideal Cert.KernelIdeal.S200000x128 .f32) :
    kPadded (F := Ideal) X = padded (F := Ideal) X := by
  unfold kPadded padded
  have hz : (constant (F := Ideal) Cert.KernelIdeal.S_ .bf16 0x0000#16 : Cert.KernelIdeal.S_.Idx → EReal)
      = (constant (F := Ideal) Cert.ReferenceIdeal.S_ .f32 0x00000000#32) := by
    funext i
    show Ideal.ofBits .bf16 0x0000#16 = Ideal.ofBits .f32 0x00000000#32
    rw [ofBits_zero_bf16, Ideal.ofBits_zero_f32]
  rw [kXb_eq, hz]

theorem kIdx00_eq (I) : kIdx00 (F := Ideal) I = idxOf00 I := rfl
theorem kIdx01_eq (I) : kIdx01 (F := Ideal) I = idxOf01 I := rfl
theorem kIdx10_eq (I) : kIdx10 (F := Ideal) I = idxOf10 I := rfl
theorem kIdx11_eq (I) : kIdx11 (F := Ideal) I = idxOf11 I := rfl
theorem kIdx20_eq (I) : kIdx20 (F := Ideal) I = idxOf20 I := rfl
theorem kIdx21_eq (I) : kIdx21 (F := Ideal) I = idxOf21 I := rfl
theorem kW00_eq (Wt) : kW00 (F := Ideal) Wt = wOf00 (F := Ideal) Wt := rfl
theorem kW01_eq (Wt) : kW01 (F := Ideal) Wt = wOf01 (F := Ideal) Wt := rfl
theorem kW02_eq (Wt) : kW02 (F := Ideal) Wt = wOf02 (F := Ideal) Wt := rfl
theorem kW10_eq (Wt) : kW10 (F := Ideal) Wt = wOf10 (F := Ideal) Wt := rfl
theorem kW11_eq (Wt) : kW11 (F := Ideal) Wt = wOf11 (F := Ideal) Wt := rfl
theorem kW12_eq (Wt) : kW12 (F := Ideal) Wt = wOf12 (F := Ideal) Wt := rfl
theorem kW20_eq (Wt) : kW20 (F := Ideal) Wt = wOf20 (F := Ideal) Wt := rfl
theorem kW21_eq (Wt) : kW21 (F := Ideal) Wt = wOf21 (F := Ideal) Wt := rfl
theorem kW22_eq (Wt) : kW22 (F := Ideal) Wt = wOf22 (F := Ideal) Wt := rfl

theorem kRowsAt_eq (X) (idx) : kRowsAt (F := Ideal) (kPadded X) idx = rowsAt (F := Ideal) X idx := by
  rw [kPadded_eq]; rfl

end Cert.Bridge

end
-- ==== Proof.SpecConsts.lean ====
/-
  The three float literals of the specification as the real numbers their bit patterns denote: the row count
  is the real 200000, the literal one is 1, and the variance offset is a positive real. The patterns are
  unfolded once, here, so that no other module needs to open the bit-level definitions.
-/
import proofs.«134539_j3152505995485_2_alg».proof.Proof.Spec

noncomputable section

namespace Cert.Spec

open Idealize.ShloMosaic

/-- Sign 0, exponent 144, significand `2^23 + 0x435000 = 12800000`: the value `12800000 * 2^(144 - 127 - 23) = 200000`. -/
theorem cN_eq : cN = ((200000 : ℝ) : EReal) := by
  simp [cN, Ideal.ofBits, Ideal.ieee, -EReal.coe_mul]; norm_num

/-- Sign 0, exponent 127, significand `2^23`: the value `2^23 * 2^(127 - 127 - 23) = 1`. -/
theorem cOne_eq : cOne = 1 := by
  simp [cOne, Ideal.ofBits, Ideal.ieee, -EReal.coe_mul]; norm_num

/-- Sign 0, exponent 110, significand `2^23 + 0x27C5AC = 10995116`: the positive real `10995116 * 2^(110 - 127 - 23)`. -/
theorem cEps_pos : ∃ e : ℝ, 0 < e ∧ cEps = (e : EReal) := by
  refine ⟨(10995116 : ℝ) * (2 : ℝ) ^ (-40 : ℤ), by positivity, ?_⟩
  simp [cEps, Ideal.ofBits, Ideal.ieee, -EReal.coe_mul]

end Cert.Spec

end
-- ==== Proof.RefRead.lean ====
/-
  The reference program's result read entry by entry.

  Each whole-array term the reference program forms is read here at one entry of its result and found to be the
  corresponding entry of the shared mathematics: the per-channel mean is the sum over all rows divided by the row
  count; the per-channel variance is the mean squared deviation (the divisor, the row count minus a zero correction,
  is the positive row count, so the selection takes the quotient); an axis's table is centred, scaled by the reciprocal
  square root of the variance plus the offset, scaled and shifted by the axis's two rows, and sent through
  `1 / (1 + exp (-x))`; the convolution table is the sum of three 128-term products; a gathered row is a row of the
  features or the appended zero row. The result is the three axes' tables added onto zero, times the features.
-/
import proofs.«134539_j3152505995485_2_alg».proof.Proof.RefDefs
import proofs.«134539_j3152505995485_2_alg».proof.Proof.ReadLib
import proofs.«134539_j3152505995485_2_alg».proof.Proof.Spec
import proofs.«134539_j3152505995485_2_alg».proof.Proof.SpecConsts

noncomputable section

namespace Cert.ReferenceIdeal.RefRead

open Idealize.ShloMosaic Idealize.ShloMosaic.ValueIdx
open Cert.ReferenceIdeal Cert.ReferenceIdeal.Gen Cert.ReferenceIdeal.RefValue Cert.ReadLib Cert.Spec
open scoped BigOperators

/-! ## Constant tables and rows -/

/-- The zero table holds zero everywhere. -/
theorem zeroTab_apply (i : S200000x128.Idx) : zeroTab (F := Ideal) i = 0 :=
  (bcast_scalar_apply _ _ i).trans ((constant_apply _ ix0).trans Ideal.ofBits_zero_f32)

/-- The table of ones holds the literal one everywhere. -/
theorem oneTab_apply (i : S200000x128.Idx) : oneTab (F := Ideal) i = cOne :=
  (bcast_scalar_apply _ _ i).trans (constant_apply _ ix0)

/-- The row of row counts holds the literal row count in every channel. -/
theorem cntRow_apply (i : S128.Idx) : cntRow (F := Ideal) i = cN :=
  (bcast_scalar_apply _ _ i).trans (constant_apply _ ix0)

/-- The row of offsets holds the literal offset in every channel. -/
theorem epsRow_apply (i : S128.Idx) : epsRow (F := Ideal) i = cEps :=
  (bcast_scalar_apply _ _ i).trans (constant_apply _ ix0)

/-- A row repeated over the 200000 rows holds, at `(r, q)`, the row's channel `q`. -/
theorem rowTab_apply (v : FVec Ideal S128 .f32) (r : Fin 200000) (q : Fin 128) : rowTab v (ix2 r q) = v (ix1 q) :=
  (bcast_row_rows_apply _ _ r q).trans (bcast_vec_row_apply _ v 0 q)

/-! ## Per-channel statistics -/

/-- The per-channel sum is the sum of the channel's column. -/
theorem sumOf_apply (T : FVec Ideal S200000x128 .f32) (q : Fin 128) :
    sumOf T (ix1 q) = ∑ r : Fin 200000, T (ix2 r q) := by
  refine (reduceAdd_rows_apply T _ _ _ q).trans ?_
  rw [constant_apply, Ideal.ofBits_zero_f32, zero_add]

/-- The per-channel mean is the column's sum divided by the row count. -/
theorem meanOf_apply (T : FVec Ideal S200000x128 .f32) (q : Fin 128) : meanOf T (ix1 q) = rMean (tab T) q := by
  show Ideal.div (sumOf T (ix1 q)) (cntRow (F := Ideal) (ix1 q)) = Ideal.div (∑ r : Fin 200000, T (ix2 r q)) cN
  rw [sumOf_apply, cntRow_apply]

/-- The centred table. -/
theorem centOf_apply (T : FVec Ideal S200000x128 .f32) (r : Fin 200000) (q : Fin 128) :
    centOf T (ix2 r q) = T (ix2 r q) - rMean (tab T) q := by
  show T (ix2 r q) - rowTab (meanOf T) (ix2 r q) = _
  rw [rowTab_apply, meanOf_apply]

/-- The variance's divisor is the row count: the integer zero converts to zero. -/
theorem cntOf_apply (i : S_.Idx) : cntOf (F := Ideal) i = cN := by
  show cN - (((0#32 : BitVec 32).toInt : ℝ) : EReal) = cN
  simp

/-- The deviations the variance squares are the centred entries. -/
theorem devOf_apply (T : FVec Ideal S200000x128 .f32) (r : Fin 200000) (q : Fin 128) :
    devOf T (ix2 r q) = T (ix2 r q) - rMean (tab T) q := by
  show T (ix2 r q) - broadcastInDim S200000x128 ![0, 1] bcast_S1x128_S200000x128_0_1
      (Host.divf (broadcastInDim S1x128 ![1] bcast_S128_S1x128_1 (sumOf T))
        (broadcastInDim S1x128 ![] bcast_S_S1x128 (constant (F := Ideal) S_ .f32 0x48435000#32))) (ix2 r q) = _
  rw [bcast_row_rows_apply]
  show T (ix2 r q) - Ideal.div (broadcastInDim S1x128 ![1] bcast_S128_S1x128_1 (sumOf T) (ix2 (0 : Fin 1) q))
      (broadcastInDim S1x128 ![] bcast_S_S1x128 (constant (F := Ideal) S_ .f32 0x48435000#32) (ix2 (0 : Fin 1) q)) = _
  rw [bcast_vec_row_apply, bcast_scalar_apply, sumOf_apply]
  rfl

/-- The divisor is positive, so the selection's condition holds in every channel. -/
theorem varCond_apply (i : S128.Idx) :
    broadcastInDim S128 ![] bcast_S_S128
      (cmpf .ogt (cntOf (F := Ideal)) (constant (F := Ideal) S_ .f32 0x00000000#32)) i = 1#1 := by
  refine (bcast_scalar_apply _ _ i).trans ?_
  show Ideal.cmp .ogt (cntOf (F := Ideal) ix0) (Ideal.ofBits .f32 0x00000000#32) = 1#1
  rw [cntOf_apply, Ideal.ofBits_zero_f32, cN_eq]
  show BitVec.ofBool (decide ((0 : EReal) < ((200000 : ℝ) : EReal))) = 1#1
  rw [decide_eq_true (EReal.coe_pos.mpr (by norm_num))]
  rfl

/-- The per-channel variance is the mean squared deviation. -/
theorem varOf_apply (T : FVec Ideal S200000x128 .f32) (q : Fin 128) : varOf T (ix1 q) = rVar (tab T) q := by
  unfold varOf
  rw [select_apply, varCond_apply, select_one]
  show Ideal.div
      (Host.reduceAdd (mulf (devOf T) (devOf T)) (constant (F := Ideal) S_ .f32 0x00000000#32)
        reducesTo_S200000x128_S128_d0 h_S_ (ix1 q))
      (broadcastInDim S128 ![] bcast_S_S128 (cntOf (F := Ideal)) (ix1 q)) = _
  rw [reduceAdd_rows_apply, bcast_scalar_apply, cntOf_apply, constant_apply, Ideal.ofBits_zero_f32, zero_add]
  show _ = Ideal.div (∑ r : Fin 200000, (tab T r q - rMean (tab T) q) * (tab T r q - rMean (tab T) q)) cN
  refine congrArg (fun s => Ideal.div s cN) (Finset.sum_congr rfl fun r _ => ?_)
  rw [mulf_apply, devOf_apply]
  rfl

/-- The variance plus the offset. -/
theorem veOf_apply (T : FVec Ideal S200000x128 .f32) (q : Fin 128) : veOf T (ix1 q) = rVar (tab T) q + cEps := by
  show varOf T (ix1 q) + epsRow (F := Ideal) (ix1 q) = _
  rw [varOf_apply, epsRow_apply]

/-! ## Normalisation and the logistic function -/

/-- The normalised table scaled by the row `g`. -/
theorem scaledOf_apply (T : FVec Ideal S200000x128 .f32) (g : FVec Ideal S128 .f32) (r : Fin 200000) (q : Fin 128) :
    scaledOf T g (ix2 r q) = (T (ix2 r q) - rMean (tab T) q) * rInv (tab T) q * g (ix1 q) := by
  show centOf T (ix2 r q) * rowTab (Host.rsqrt (veOf T)) (ix2 r q) * rowTab g (ix2 r q) = _
  rw [centOf_apply, rowTab_apply, rowTab_apply]
  show (T (ix2 r q) - rMean (tab T) q) * Ideal.rsqrt (veOf T (ix1 q)) * g (ix1 q) = _
  rw [veOf_apply]
  rfl

/-- A table shifted by a row and sent through `1 / (1 + exp (-x))`. -/
theorem sigTail_apply (s : FVec Ideal S200000x128 .f32) (b : FVec Ideal S128 .f32) (r : Fin 200000) (q : Fin 128) :
    sigTail s b (ix2 r q) = Ideal.div cOne (cOne + Ideal.exp (-(s (ix2 r q) + b (ix1 q)))) := by
  show Ideal.div (oneTab (F := Ideal) (ix2 r q))
      (oneTab (F := Ideal) (ix2 r q) + Ideal.exp (-(s (ix2 r q) + rowTab b (ix2 r q)))) = _
  rw [oneTab_apply, rowTab_apply]

/-- One axis's table is the specification's. -/
theorem sigOf_apply (T : FVec Ideal S200000x128 .f32) (g b : FVec Ideal S128 .f32) (r : Fin 200000) (q : Fin 128) :
    sigOf T g b (ix2 r q) = rSig (tab T) (fun q => g (ix1 q)) (fun q => b (ix1 q)) r q := by
  show sigTail (scaledOf T g) b (ix2 r q) = _
  rw [sigTail_apply, scaledOf_apply]
  rfl

/-! ## The convolution -/

/-- A table times a 128-by-128 matrix, entry by entry. -/
theorem dot_apply (A : FVec Ideal S200000x128 .f32) (W : FVec Ideal S128x128 .f32) (r : Fin 200000) (q : Fin 128) :
    Host.dotGeneral dot_S200000x128_S128x128_S200000x128_1_0_0_1_n_n none A W (ix2 r q)
      = ∑ k : Fin 128, A (ix2 r k) * W (ix2 k q) :=
  Cert.LibDot.dotGeneral_apply dot_S200000x128_S128x128_S200000x128_1_0_0_1_n_n rfl rfl
    (fun _ _ => rfl) (fun _ _ => rfl) (fun _ _ => rfl) (fun _ _ => rfl) none A W r q

/-- The convolution table is the specification's. -/
theorem convOf_apply (P X N : FVec Ideal S200000x128 .f32) (W0 W1 W2 : FVec Ideal S128x128 .f32)
    (r : Fin 200000) (q : Fin 128) :
    convOf P X N W0 W1 W2 (ix2 r q) = conv (tab P) (tab X) (tab N) (mat W0) (mat W1) (mat W2) r q := by
  show (Host.dotGeneral dot_S200000x128_S128x128_S200000x128_1_0_0_1_n_n none P W0 (ix2 r q)
      + Host.dotGeneral dot_S200000x128_S128x128_S200000x128_1_0_0_1_n_n none X W1 (ix2 r q))
      + Host.dotGeneral dot_S200000x128_S128x128_S200000x128_1_0_0_1_n_n none N W2 (ix2 r q) = _
  rw [dot_apply, dot_apply, dot_apply]
  rfl

/-- The convolution table, as a table. -/
theorem tab_convOf (P X N : FVec Ideal S200000x128 .f32) (W0 W1 W2 : FVec Ideal S128x128 .f32) :
    tab (convOf P X N W0 W1 W2) = conv (tab P) (tab X) (tab N) (mat W0) (mat W1) (mat W2) :=
  funext fun r => funext fun q => convOf_apply P X N W0 W1 W2 r q

/-! ## The gathered rows -/

/-- The extended table: a row of the features, or zero in the appended row. -/
theorem padded_apply (X : FVec Ideal S200000x128 .f32) (r' : Fin 200001) (q : Fin 128) :
    padded X (ix2 r' q) = if hr : r'.val < 200000 then X (ix2 ⟨r'.val, hr⟩ q) else 0 := by
  refine (concat_row_apply _ X _ r' q).trans ?_
  by_cases hr : r'.val < 200000
  · rw [dif_pos hr, dif_pos hr]
  · rw [dif_neg hr, dif_neg hr]
    exact (bcast_scalar_apply _ _ _).trans ((constant_apply _ ix0).trans Ideal.ofBits_zero_f32)

/-- The rows of an extended table at an index row: entry `(r, q)` is the table's entry in column `q` of the row
    the index row's entry `r` selects. -/
theorem rowsOf_apply (P : FVec Ideal S200001x128 .f32) (idx : IVec S200000 32) (r : Fin 200000) (q : Fin 128) :
    rowsOf P idx (ix2 r q) = P (ix2 (rowOf (idx (ix1 r))) q) :=
  gather_wrapped_apply _ _ _ P idx r q

/-- The same with the row spelt out: the moved-up index row's entry, read signed and clamped into the table. -/
theorem rowsOf_apply_clamp (P : FVec Ideal S200001x128 .f32) (idx : IVec S200000 32) (r : Fin 200000) (q : Fin 128) :
    rowsOf P idx (ix2 r q)
      = P (ix2 (clampRow
          (select (cmpi .slt idx (broadcastInDim S200000 ![] bcast_S_S200000 (constantI S_ 32 0#32)))
            (addi idx (broadcastInDim S200000 ![] bcast_S_S200000 (constantI S_ 32 200001#32))) idx (ix1 r))) q) :=
  gather_col_apply _ _ P _ r q

/-- The rows of the extended features at an index row. -/
theorem rowsAt_apply (X : FVec Ideal S200000x128 .f32) (idx : IVec S200000 32) (r : Fin 200000) (q : Fin 128) :
    rowsAt X idx (ix2 r q) = padded X (ix2 (rowOf (idx (ix1 r))) q) :=
  rowsOf_apply (padded X) idx r q

/-- The same with the row spelt out. -/
theorem rowsAt_apply_clamp (X : FVec Ideal S200000x128 .f32) (idx : IVec S200000 32) (r : Fin 200000) (q : Fin 128) :
    rowsAt X idx (ix2 r q)
      = padded X (ix2 (clampRow
          (select (cmpi .slt idx (broadcastInDim S200000 ![] bcast_S_S200000 (constantI S_ 32 0#32)))
            (addi idx (broadcastInDim S200000 ![] bcast_S_S200000 (constantI S_ 32 200001#32))) idx (ix1 r))) q) :=
  rowsOf_apply_clamp (padded X) idx r q

/-- Every gathered entry is an entry of the features or zero. -/
theorem rowsAt_mem (X : FVec Ideal S200000x128 .f32) (idx : IVec S200000 32) (r : Fin 200000) (q : Fin 128) :
    (∃ r₀ : Fin 200000, rowsAt X idx (ix2 r q) = X (ix2 r₀ q)) ∨ rowsAt X idx (ix2 r q) = 0 := by
  rw [rowsAt_apply, padded_apply]
  by_cases hr : (rowOf (idx (ix1 r))).val < 200000
  · rw [dif_pos hr]; exact Or.inl ⟨_, rfl⟩
  · rw [dif_neg hr]; exact Or.inr rfl

/-- Rows gathered from features that are all real numbers are all real numbers. -/
theorem rowsAt_finite (X : FVec Ideal S200000x128 .f32) (idx : IVec S200000 32)
    (hX : ∀ i, ∃ x : ℝ, X i = (x : EReal)) : Finite (tab (rowsAt X idx)) := by
  intro r q
  show ∃ x : ℝ, rowsAt X idx (ix2 r q) = (x : EReal)
  rcases rowsAt_mem X idx r q with ⟨r₀, h⟩ | h
  · rw [h]; exact hX _
  · rw [h]; exact ⟨0, EReal.coe_zero.symm⟩

/-! ## The result -/

/-- The first axis's convolution table, as a table. -/
theorem tab_T0 (X : FVec Ideal S200000x128 .f32) (I : IVec S3x2x200000 32) (Wt : FVec Ideal S3x3x128x128 .f32) :
    tab (T0 X I Wt) = conv (tab (rowsAt X (idxOf00 I))) (tab X) (tab (rowsAt X (idxOf01 I)))
      (mat (wOf00 Wt)) (mat (wOf01 Wt)) (mat (wOf02 Wt)) :=
  tab_convOf _ _ _ _ _ _

/-- The second axis's convolution table, as a table. -/
theorem tab_T1 (X : FVec Ideal S200000x128 .f32) (I : IVec S3x2x200000 32) (Wt : FVec Ideal S3x3x128x128 .f32) :
    tab (T1 X I Wt) = conv (tab (rowsAt X (idxOf10 I))) (tab X) (tab (rowsAt X (idxOf11 I)))
      (mat (wOf10 Wt)) (mat (wOf11 Wt)) (mat (wOf12 Wt)) :=
  tab_convOf _ _ _ _ _ _

/-- The third axis's convolution table, as a table. -/
theorem tab_T2 (X : FVec Ideal S200000x128 .f32) (I : IVec S3x2x200000 32) (Wt : FVec Ideal S3x3x128x128 .f32) :
    tab (T2 X I Wt) = conv (tab (rowsAt X (idxOf20 I))) (tab X) (tab (rowsAt X (idxOf21 I)))
      (mat (wOf20 Wt)) (mat (wOf21 Wt)) (mat (wOf22 Wt)) :=
  tab_convOf _ _ _ _ _ _

/-- The result over the three axes' tables: their logistic tables added onto zero, times the features. -/
theorem refOut_apply_T (X : FVec Ideal S200000x128 .f32) (I : IVec S3x2x200000 32) (Wt : FVec Ideal S3x3x128x128 .f32)
    (G B : FVec Ideal S3x128 .f32) (r : Fin 200000) (q : Fin 128) :
    refOut X I Wt G B (ix2 r q)
      = rOut (tab (T0 X I Wt)) (tab (T1 X I Wt)) (tab (T2 X I Wt))
          (fun q => gOf0 G (ix1 q)) (fun q => bOf0 B (ix1 q))
          (fun q => gOf1 G (ix1 q)) (fun q => bOf1 B (ix1 q))
          (fun q => gOf2 G (ix1 q)) (fun q => bOf2 B (ix1 q)) (tab X) r q := by
  show (((zeroTab (F := Ideal) (ix2 r q) + sigOf (T0 X I Wt) (gOf0 G) (bOf0 B) (ix2 r q))
        + sigOf (T1 X I Wt) (gOf1 G) (bOf1 B) (ix2 r q))
      + sigOf (T2 X I Wt) (gOf2 G) (bOf2 B) (ix2 r q)) * X (ix2 r q) = _
  rw [zeroTab_apply, sigOf_apply, sigOf_apply, sigOf_apply]
  rfl

/-- The result over the arguments: each axis's table is the convolution of the gathered previous rows, the features
    and the gathered next rows with the axis's three matrices. -/
theorem refOut_apply (X : FVec Ideal S200000x128 .f32) (I : IVec S3x2x200000 32) (Wt : FVec Ideal S3x3x128x128 .f32)
    (G B : FVec Ideal S3x128 .f32) (r : Fin 200000) (q : Fin 128) :
    refOut X I Wt G B (ix2 r q)
      = rOut
          (conv (tab (rowsAt X (idxOf00 I))) (tab X) (tab (rowsAt X (idxOf01 I)))
            (mat (wOf00 Wt)) (mat (wOf01 Wt)) (mat (wOf02 Wt)))
          (conv (tab (rowsAt X (idxOf10 I))) (tab X) (tab (rowsAt X (idxOf11 I)))
            (mat (wOf10 Wt)) (mat (wOf11 Wt)) (mat (wOf12 Wt)))
          (conv (tab (rowsAt X (idxOf20 I))) (tab X) (tab (rowsAt X (idxOf21 I)))
            (mat (wOf20 Wt)) (mat (wOf21 Wt)) (mat (wOf22 Wt)))
          (fun q => gOf0 G (ix1 q)) (fun q => bOf0 B (ix1 q))
          (fun q => gOf1 G (ix1 q)) (fun q => bOf1 B (ix1 q))
          (fun q => gOf2 G (ix1 q)) (fun q => bOf2 B (ix1 q)) (tab X) r q := by
  rw [← tab_T0, ← tab_T1, ← tab_T2]
  exact refOut_apply_T X I Wt G B r q

end Cert.ReferenceIdeal.RefRead

end
-- ==== Proof.SpecSums.lean ====
/-
  Finite sums, in three facts the specification's algebra rests on: the coercion from the reals to the
  extended reals commutes with finite sums; summing over 40 tiles of 5000 rows is summing over all 200000
  rows; and, over the reals, the mean of the squares minus the square of the mean is the mean of the squared
  deviations from the mean.
-/
import proofs.«134539_j3152505995485_2_alg».proof.Proof.Spec

noncomputable section

namespace Cert.Spec

open Idealize.ShloMosaic
open scoped BigOperators

/-- The coercion from the reals commutes with finite sums (it is additive and sends 0 to 0). -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `(i, r') ↦ 5000 i + r'` is a bijection from 40 tiles of 5000 rows onto the 200000 rows; its inverse is
    quotient and remainder by 5000. -/
def tileEquiv : Fin 40 × Fin 5000 ≃ Fin 200000 where
  toFun p := tileRow p.1 p.2
  invFun r := (⟨r.val / 5000, by omega⟩, ⟨r.val % 5000, by omega⟩)
  left_inv p := by
    rcases p with ⟨⟨i, hi⟩, ⟨r', hr⟩⟩
    simp only [tileRow, Prod.mk.injEq, Fin.mk.injEq]
    constructor <;> omega
  right_inv r := by
    rcases r with ⟨r, hr⟩
    simp only [tileRow, Fin.mk.injEq]
    omega

/-- A sum over tiles and then over the rows of each tile is the sum over all rows, in any commutative monoid:
    regroup the double sum as one over pairs and reindex along `tileEquiv`. -/
theorem sum_tiles {M : Type*} [AddCommMonoid M] (f : Fin 200000 → M) :
    ∑ i : Fin 40, ∑ r' : Fin 5000, f (tileRow i r') = ∑ r : Fin 200000, f r := by
  rw [← Fintype.sum_prod_type' (fun i r' => f (tileRow i r'))]
  exact Equiv.sum_comp tileEquiv f

/-- Over the reals, with `n` the number of terms and `μ = (∑ x) / n`:
    `(∑ x²) / n − μ² = (∑ (x − μ)²) / n`. Expand the square: `∑ (x − μ)² = ∑ x² − 2 μ ∑ x + n μ²` and `∑ x = n μ`. -/
theorem real_var {ι : Type*} [Fintype ι] (x : ι → ℝ) (n : ℝ) (hn : n = Fintype.card ι) (h0 : n ≠ 0) :
    (∑ i, x i * x i) * (1 / n) - ((∑ i, x i) * (1 / n)) * ((∑ i, x i) * (1 / n))
      = (∑ i, (x i - (∑ j, x j) * (1 / n)) * (x i - (∑ j, x j) * (1 / n))) * (1 / n) := by
  generalize hμ : (∑ j, x j) * (1 / n) = μ
  have hs : ∑ i, x i = n * μ := by rw [← hμ]; field_simp
  have he : ∑ i, (x i - μ) * (x i - μ) = ∑ i, x i * x i - 2 * μ * ∑ i, x i + n * (μ * μ) := by
    have h1 : ∀ i, (x i - μ) * (x i - μ) = x i * x i - 2 * μ * x i + μ * μ := fun i => by ring
    simp only [h1, Finset.sum_add_distrib, Finset.sum_sub_distrib, ← Finset.mul_sum, Finset.sum_const,
      Finset.card_univ, nsmul_eq_mul, ← hn]
    ring
  rw [he, hs]; field_simp; ring

end Cert.Spec

end
-- ==== Proof.SpecFinite.lean ====
/-
  A convolution of tables of real numbers through matrices of real numbers is a table of real numbers: a
  finite sum of products of reals is a real, and so is a sum of three of them.
-/
import proofs.«134539_j3152505995485_2_alg».proof.Proof.SpecSums

noncomputable section

namespace Cert.Spec

open Idealize.ShloMosaic
open scoped BigOperators

/-- One tap of real entries through a real matrix has real entries: entry `(r, q)` is the real `∑ k, a r k * w k q`. -/
theorem tap_finite {A : Tab} {W : Mat} (hA : Finite A) (hW : ∀ k q, ∃ x : ℝ, W k q = (x : EReal)) : Finite (tap A W) := by
  have hA' : ∀ r q, ∃ x : ℝ, A r q = (x : EReal) := hA
  choose a ha using hA'
  choose w hw using hW
  intro r q
  refine ⟨∑ k, a r k * w k q, ?_⟩
  unfold tap
  simp only [ha, hw, ← EReal.coe_mul]
  rw [← coe_sum]

/-- The convolution along one axis has real entries when its three tables and three matrices do: it is the sum of three taps. -/
theorem conv_finite {P X N : Tab} {W0 W1 W2 : Mat} (hP : Finite P) (hX : Finite X) (hN : Finite N)
    (h0 : ∀ k q, ∃ x : ℝ, W0 k q = (x : EReal)) (h1 : ∀ k q, ∃ x : ℝ, W1 k q = (x : EReal))
    (h2 : ∀ k q, ∃ x : ℝ, W2 k q = (x : EReal)) : Finite (conv P X N W0 W1 W2) := by
  intro r q
  obtain ⟨x0, e0⟩ := tap_finite hP h0 r q
  obtain ⟨x1, e1⟩ := tap_finite hX h1 r q
  obtain ⟨x2, e2⟩ := tap_finite hN h2 r q
  refine ⟨x0 + x1 + x2, ?_⟩
  unfold conv
  rw [e0, e1, e2, ← EReal.coe_add, ← EReal.coe_add]

end Cert.Spec

end
-- ==== Proof.RefFinite.lean ====
/-
  The reference program's convolution tables have real entries when the features and the weights do.

  A row gathered from the features with a zero row appended is, entry by entry, an entry of that padded table: an
  entry of the features, or the zero of the appended row; so the two neighbour tables of an axis have real entries.
  Each of the nine 128-by-128 matrices is a block of the stacked weights, entry by entry, so it has real entries.
  A convolution of real tables through real matrices is a real table. Alongside: the scale and shift rows of an
  axis, read at a channel, are the corresponding entries of the three-row tables they are cut from.
-/
import proofs.«134539_j3152505995485_2_alg».proof.Proof.RefDefs
import proofs.«134539_j3152505995485_2_alg».proof.Proof.ReadLib
import proofs.«134539_j3152505995485_2_alg».proof.Proof.Spec
import proofs.«134539_j3152505995485_2_alg».proof.Proof.SpecFinite

noncomputable section

namespace Cert.RefFinite

open Cert.Spec Cert.ReferenceIdeal.RefValue
open Cert.ReferenceIdeal Cert.ReferenceIdeal.Gen Idealize.ShloMosaic Idealize.ShloMosaic.ValueIdx

/-- Every entry of the features with a zero row appended is real: it is an entry of the features, or the zero of the
    appended row. -/
theorem padded_finite (X : FVec Ideal S200000x128 .f32) (hX : ∀ i, ∃ x : ℝ, X i = (x : EReal))
    (r' : Fin 200001) (q : Fin 128) : ∃ x : ℝ, padded (F := Ideal) X (ix2 r' q) = (x : EReal) := by
  have e := Cert.ReadLib.concat_row_apply concatenates_S200000x128_S1x128_S200001x128_d0 X
    (broadcastInDim S1x128 ![] bcast_S_S1x128 (constant (F := Ideal) S_ .f32 0x00000000#32)) r' q
  by_cases hr : r'.val < 200000
  · rw [dif_pos hr] at e
    obtain ⟨x, hx⟩ := hX (ix2 ⟨r'.val, hr⟩ q)
    exact ⟨x, e.trans hx⟩
  · rw [dif_neg hr] at e
    exact ⟨0, e.trans ((Cert.ReadLib.bcast_scalar_apply _ _ _).trans (Ideal.ofBits_zero_f32.trans EReal.coe_zero.symm))⟩

/-- Rows of the padded features gathered at an index row have real entries: every gathered entry is an entry of the
    padded table in the same column. -/
theorem rowsAt_finite (X : FVec Ideal S200000x128 .f32) (idx : IVec S200000 32)
    (hX : ∀ i, ∃ x : ℝ, X i = (x : EReal)) : Finite (tab (rowsAt (F := Ideal) X idx)) := by
  intro r q
  show ∃ x : ℝ, Host.gather gather_S200001x128_S200000x1_S200000x128_1_0_n_n_0_1_1128 (padded (F := Ideal) X)
    (startsOf idx) (ix2 r q) = (x : EReal)
  obtain ⟨r', hr'⟩ := Cert.ReadLib.gather_col_mem gather_S200001x128_S200000x1_S200000x128_1_0_n_n_0_1_1128_wf
    bcast_S200000_S200000x1_0 (padded (F := Ideal) X)
    (select (cmpi .slt idx (broadcastInDim S200000 ![] bcast_S_S200000 (constantI S_ 32 0#32)))
      (addi idx (broadcastInDim S200000 ![] bcast_S_S200000 (constantI S_ 32 200001#32))) idx) r q
  obtain ⟨x, hx⟩ := padded_finite X hX r' q
  exact ⟨x, hr'.trans hx⟩

/-! ## The nine matrices -/

/-- Matrix 0 of axis 0 is entry `(0, 0, k, q)` of the stacked weights, hence real. -/
theorem wOf00_finite (Wt : FVec Ideal S3x3x128x128 .f32) (hW : ∀ i, ∃ x : ℝ, Wt i = (x : EReal)) :
    ∀ k q, ∃ x : ℝ, mat (wOf00 (F := Ideal) Wt) k q = (x : EReal) := fun k q => by
  obtain ⟨x, hx⟩ := hW (ix4 (0 : Fin 3) (0 : Fin 3) k q)
  exact ⟨x, (Cert.ReadLib.slice_matrix_apply 0 0 slices_S3x3x128x128_S1x1x128x128_0_0_0_0 shapeCasts_S1x1x128x128_S128x128 Wt 0 0 rfl rfl k q).trans hx⟩

/-- Matrix 1 of axis 0 is entry `(0, 1, k, q)` of the stacked weights, hence real. -/
theorem wOf01_finite (Wt : FVec Ideal S3x3x128x128 .f32) (hW : ∀ i, ∃ x : ℝ, Wt i = (x : EReal)) :
    ∀ k q, ∃ x : ℝ, mat (wOf01 (F := Ideal) Wt) k q = (x : EReal) := fun k q => by
  obtain ⟨x, hx⟩ := hW (ix4 (0 : Fin 3) (1 : Fin 3) k q)
  exact ⟨x, (Cert.ReadLib.slice_matrix_apply 0 1 slices_S3x3x128x128_S1x1x128x128_0_1_0_0 shapeCasts_S1x1x128x128_S128x128 Wt 0 1 rfl rfl k q).trans hx⟩

/-- Matrix 2 of axis 0 is entry `(0, 2, k, q)` of the stacked weights, hence real. -/
theorem wOf02_finite (Wt : FVec Ideal S3x3x128x128 .f32) (hW : ∀ i, ∃ x : ℝ, Wt i = (x : EReal)) :
    ∀ k q, ∃ x : ℝ, mat (wOf02 (F := Ideal) Wt) k q = (x : EReal) := fun k q => by
  obtain ⟨x, hx⟩ := hW (ix4 (0 : Fin 3) (2 : Fin 3) k q)
  exact ⟨x, (Cert.ReadLib.slice_matrix_apply 0 2 slices_S3x3x128x128_S1x1x128x128_0_2_0_0 shapeCasts_S1x1x128x128_S128x128 Wt 0 2 rfl rfl k q).trans hx⟩

/-- Matrix 0 of axis 1 is entry `(1, 0, k, q)` of the stacked weights, hence real. -/
theorem wOf10_finite (Wt : FVec Ideal S3x3x128x128 .f32) (hW : ∀ i, ∃ x : ℝ, Wt i = (x : EReal)) :
    ∀ k q, ∃ x : ℝ, mat (wOf10 (F := Ideal) Wt) k q = (x : EReal) := fun k q => by
  obtain ⟨x, hx⟩ := hW (ix4 (1 : Fin 3) (0 : Fin 3) k q)
  exact ⟨x, (Cert.ReadLib.slice_matrix_apply 1 0 slices_S3x3x128x128_S1x1x128x128_1_0_0_0 shapeCasts_S1x1x128x128_S128x128 Wt 1 0 rfl rfl k q).trans hx⟩

/-- Matrix 1 of axis 1 is entry `(1, 1, k, q)` of the stacked weights, hence real. -/
theorem wOf11_finite (Wt : FVec Ideal S3x3x128x128 .f32) (hW : ∀ i, ∃ x : ℝ, Wt i = (x : EReal)) :
    ∀ k q, ∃ x : ℝ, mat (wOf11 (F := Ideal) Wt) k q = (x : EReal) := fun k q => by
  obtain ⟨x, hx⟩ := hW (ix4 (1 : Fin 3) (1 : Fin 3) k q)
  exact ⟨x, (Cert.ReadLib.slice_matrix_apply 1 1 slices_S3x3x128x128_S1x1x128x128_1_1_0_0 shapeCasts_S1x1x128x128_S128x128 Wt 1 1 rfl rfl k q).trans hx⟩

/-- Matrix 2 of axis 1 is entry `(1, 2, k, q)` of the stacked weights, hence real. -/
theorem wOf12_finite (Wt : FVec Ideal S3x3x128x128 .f32) (hW : ∀ i, ∃ x : ℝ, Wt i = (x : EReal)) :
    ∀ k q, ∃ x : ℝ, mat (wOf12 (F := Ideal) Wt) k q = (x : EReal) := fun k q => by
  obtain ⟨x, hx⟩ := hW (ix4 (1 : Fin 3) (2 : Fin 3) k q)
  exact ⟨x, (Cert.ReadLib.slice_matrix_apply 1 2 slices_S3x3x128x128_S1x1x128x128_1_2_0_0 shapeCasts_S1x1x128x128_S128x128 Wt 1 2 rfl rfl k q).trans hx⟩

/-- Matrix 0 of axis 2 is entry `(2, 0, k, q)` of the stacked weights, hence real. -/
theorem wOf20_finite (Wt : FVec Ideal S3x3x128x128 .f32) (hW : ∀ i, ∃ x : ℝ, Wt i = (x : EReal)) :
    ∀ k q, ∃ x : ℝ, mat (wOf20 (F := Ideal) Wt) k q = (x : EReal) := fun k q => by
  obtain ⟨x, hx⟩ := hW (ix4 (2 : Fin 3) (0 : Fin 3) k q)
  exact ⟨x, (Cert.ReadLib.slice_matrix_apply 2 0 slices_S3x3x128x128_S1x1x128x128_2_0_0_0 shapeCasts_S1x1x128x128_S128x128 Wt 2 0 rfl rfl k q).trans hx⟩

/-- Matrix 1 of axis 2 is entry `(2, 1, k, q)` of the stacked weights, hence real. -/
theorem wOf21_finite (Wt : FVec Ideal S3x3x128x128 .f32) (hW : ∀ i, ∃ x : ℝ, Wt i = (x : EReal)) :
    ∀ k q, ∃ x : ℝ, mat (wOf21 (F := Ideal) Wt) k q = (x : EReal) := fun k q => by
  obtain ⟨x, hx⟩ := hW (ix4 (2 : Fin 3) (1 : Fin 3) k q)
  exact ⟨x, (Cert.ReadLib.slice_matrix_apply 2 1 slices_S3x3x128x128_S1x1x128x128_2_1_0_0 shapeCasts_S1x1x128x128_S128x128 Wt 2 1 rfl rfl k q).trans hx⟩

/-- Matrix 2 of axis 2 is entry `(2, 2, k, q)` of the stacked weights, hence real. -/
theorem wOf22_finite (Wt : FVec Ideal S3x3x128x128 .f32) (hW : ∀ i, ∃ x : ℝ, Wt i = (x : EReal)) :
    ∀ k q, ∃ x : ℝ, mat (wOf22 (F := Ideal) Wt) k q = (x : EReal) := fun k q => by
  obtain ⟨x, hx⟩ := hW (ix4 (2 : Fin 3) (2 : Fin 3) k q)
  exact ⟨x, (Cert.ReadLib.slice_matrix_apply 2 2 slices_S3x3x128x128_S1x1x128x128_2_2_0_0 shapeCasts_S1x1x128x128_S128x128 Wt 2 2 rfl rfl k q).trans hx⟩

/-! ## The three convolution tables -/

/-- The convolution table of axis 0 has real entries. -/
theorem convTab0_finite (X : FVec Ideal S200000x128 .f32) (I : IVec S3x2x200000 32) (Wt : FVec Ideal S3x3x128x128 .f32)
    (hX : ∀ i, ∃ x : ℝ, X i = (x : EReal)) (hW : ∀ i, ∃ x : ℝ, Wt i = (x : EReal)) :
    Finite (conv (tab (rowsAt (F := Ideal) X (idxOf00 I))) (tab X) (tab (rowsAt (F := Ideal) X (idxOf01 I)))
      (mat (wOf00 (F := Ideal) Wt)) (mat (wOf01 (F := Ideal) Wt)) (mat (wOf02 (F := Ideal) Wt))) :=
  conv_finite (rowsAt_finite X _ hX) (fun r q => hX (ix2 r q)) (rowsAt_finite X _ hX)
    (wOf00_finite Wt hW) (wOf01_finite Wt hW) (wOf02_finite Wt hW)

/-- The convolution table of axis 1 has real entries. -/
theorem convTab1_finite (X : FVec Ideal S200000x128 .f32) (I : IVec S3x2x200000 32) (Wt : FVec Ideal S3x3x128x128 .f32)
    (hX : ∀ i, ∃ x : ℝ, X i = (x : EReal)) (hW : ∀ i, ∃ x : ℝ, Wt i = (x : EReal)) :
    Finite (conv (tab (rowsAt (F := Ideal) X (idxOf10 I))) (tab X) (tab (rowsAt (F := Ideal) X (idxOf11 I)))
      (mat (wOf10 (F := Ideal) Wt)) (mat (wOf11 (F := Ideal) Wt)) (mat (wOf12 (F := Ideal) Wt))) :=
  conv_finite (rowsAt_finite X _ hX) (fun r q => hX (ix2 r q)) (rowsAt_finite X _ hX)
    (wOf10_finite Wt hW) (wOf11_finite Wt hW) (wOf12_finite Wt hW)

/-- The convolution table of axis 2 has real entries. -/
theorem convTab2_finite (X : FVec Ideal S200000x128 .f32) (I : IVec S3x2x200000 32) (Wt : FVec Ideal S3x3x128x128 .f32)
    (hX : ∀ i, ∃ x : ℝ, X i = (x : EReal)) (hW : ∀ i, ∃ x : ℝ, Wt i = (x : EReal)) :
    Finite (conv (tab (rowsAt (F := Ideal) X (idxOf20 I))) (tab X) (tab (rowsAt (F := Ideal) X (idxOf21 I)))
      (mat (wOf20 (F := Ideal) Wt)) (mat (wOf21 (F := Ideal) Wt)) (mat (wOf22 (F := Ideal) Wt))) :=
  conv_finite (rowsAt_finite X _ hX) (fun r q => hX (ix2 r q)) (rowsAt_finite X _ hX)
    (wOf20_finite Wt hW) (wOf21_finite Wt hW) (wOf22_finite Wt hW)

/-! ## The scale and shift rows at a channel -/

/-- The scale row of axis 0, at channel `q`, is entry `(0, q)` of the three-row table. -/
theorem gOf0_at (G : FVec Ideal S3x128 .f32) (q : Fin 128) : gOf0 (F := Ideal) G (ix1 q) = G (ix2 (0 : Fin 3) q) :=
  Cert.ReadLib.slice_row_vec_apply 0 slices_S3x128_S1x128_0_0 shapeCasts_S1x128_S128 G 0 rfl q

/-- The scale row of axis 1, at channel `q`, is entry `(1, q)` of the three-row table. -/
theorem gOf1_at (G : FVec Ideal S3x128 .f32) (q : Fin 128) : gOf1 (F := Ideal) G (ix1 q) = G (ix2 (1 : Fin 3) q) :=
  Cert.ReadLib.slice_row_vec_apply 1 slices_S3x128_S1x128_1_0 shapeCasts_S1x128_S128 G 1 rfl q

/-- The scale row of axis 2, at channel `q`, is entry `(2, q)` of the three-row table. -/
theorem gOf2_at (G : FVec Ideal S3x128 .f32) (q : Fin 128) : gOf2 (F := Ideal) G (ix1 q) = G (ix2 (2 : Fin 3) q) :=
  Cert.ReadLib.slice_row_vec_apply 2 slices_S3x128_S1x128_2_0 shapeCasts_S1x128_S128 G 2 rfl q

/-- The shift row of axis 0, at channel `q`, is entry `(0, q)` of the three-row table. -/
theorem bOf0_at (B : FVec Ideal S3x128 .f32) (q : Fin 128) : bOf0 (F := Ideal) B (ix1 q) = B (ix2 (0 : Fin 3) q) :=
  Cert.ReadLib.slice_row_vec_apply 0 slices_S3x128_S1x128_0_0 shapeCasts_S1x128_S128 B 0 rfl q

/-- The shift row of axis 1, at channel `q`, is entry `(1, q)` of the three-row table. -/
theorem bOf1_at (B : FVec Ideal S3x128 .f32) (q : Fin 128) : bOf1 (F := Ideal) B (ix1 q) = B (ix2 (1 : Fin 3) q) :=
  Cert.ReadLib.slice_row_vec_apply 1 slices_S3x128_S1x128_1_0 shapeCasts_S1x128_S128 B 1 rfl q

/-- The shift row of axis 2, at channel `q`, is entry `(2, q)` of the three-row table. -/
theorem bOf2_at (B : FVec Ideal S3x128 .f32) (q : Fin 128) : bOf2 (F := Ideal) B (ix1 q) = B (ix2 (2 : Fin 3) q) :=
  Cert.ReadLib.slice_row_vec_apply 2 slices_S3x128_S1x128_2_0 shapeCasts_S1x128_S128 B 2 rfl q

end Cert.RefFinite

end
-- ==== Proof.SpecAlgebra.lean ====
/-
  The two ways of taking the per-channel statistics agree on tables of real numbers.

  The mean by tiles is the mean over all rows on any table, because addition of extended reals is commutative
  and associative. On a table of reals the mean of the squares minus the square of the mean is the mean of the
  squared deviations, which is nonnegative, so clamping it below at zero changes nothing: the two variances
  agree. The logistic function is by definition `1 / (1 + exp (-x))` and the float literal one is 1, so the
  two activations agree; and adding onto a zero table adds nothing, so the two results agree.
-/
import proofs.«134539_j3152505995485_2_alg».proof.Proof.SpecConsts
import proofs.«134539_j3152505995485_2_alg».proof.Proof.SpecSums

noncomputable section

namespace Cert.Spec

open Idealize.ShloMosaic
open scoped BigOperators

/-- The mean by tiles is the mean over all rows: the two sums are the same sum regrouped. No entry need be real. -/
theorem kMean_eq_rMean (T : Tab) : kMean T = rMean T := by
  funext q
  unfold kMean rMean kSum
  rw [sum_tiles (fun r => T r q)]

/-- On a table of reals `t` the mean of channel `q` is the real `(∑ r, t r q) / 200000`: the divisor is the real
    200000, division by it is multiplication by its reciprocal, and the coercion commutes with sums and products. -/
theorem rMean_coe (T : Tab) (t : Fin 200000 → Fin 128 → ℝ) (ht : ∀ r q, T r q = (t r q : EReal)) (q : Fin 128) :
    rMean T q = (((∑ r, t r q) * (1 / 200000) : ℝ) : EReal) := by
  unfold rMean
  rw [cN_eq, Ideal.div_coe (by norm_num : (200000 : ℝ) ≠ 0)]
  simp only [ht]
  rw [← coe_sum, ← EReal.coe_mul]

/-- On a table of reals the two variances agree. Both sides are coercions of reals: the one is
    `max ((∑ x²)/n − μ²) 0`, the other `(∑ (x − μ)²)/n`. By `real_var` the first argument of the max is the second
    expression, a sum of squares times a positive number, hence nonnegative, and the max is its first argument. -/
theorem kVar_eq_rVar (T : Tab) (hT : Finite T) : kVar T = rVar T := by
  have hT' : ∀ r q, ∃ x : ℝ, T r q = (x : EReal) := hT
  choose t ht using hT'
  funext q
  have hm := rMean_coe T t ht q
  have hk : kVar T q = max ((((∑ r, t r q * t r q) * (1 / 200000)
      - ((∑ r, t r q) * (1 / 200000)) * ((∑ r, t r q) * (1 / 200000)) : ℝ)) : EReal) 0 := by
    unfold kVar
    rw [kMean_eq_rMean, hm]
    unfold kSumSq
    rw [sum_tiles (fun r => T r q * T r q)]
    simp only [ht, ← EReal.coe_mul]
    rw [← coe_sum, cN_eq, Ideal.div_coe (by norm_num : (200000 : ℝ) ≠ 0), ← EReal.coe_mul, ← EReal.coe_sub]
  have hr : rVar T q = (((∑ r, (t r q - (∑ j, t j q) * (1 / 200000)) * (t r q - (∑ j, t j q) * (1 / 200000)))
      * (1 / 200000) : ℝ) : EReal) := by
    unfold rVar
    rw [hm]
    simp only [ht, ← EReal.coe_sub, ← EReal.coe_mul]
    rw [← coe_sum, cN_eq, Ideal.div_coe (by norm_num : (200000 : ℝ) ≠ 0), ← EReal.coe_mul]
  rw [hk, hr, real_var (fun r => t r q) 200000 (by simp) (by norm_num)]
  exact max_eq_left (EReal.coe_nonneg.2 (mul_nonneg (Finset.sum_nonneg fun i _ => mul_self_nonneg _) (by norm_num)))

/-- Equal variances have equal reciprocal square roots after the same offset. -/
theorem kInv_eq_rInv (T : Tab) (hT : Finite T) : kInv T = rInv T := by
  funext q
  unfold kInv rInv
  rw [kVar_eq_rVar T hT]

/-- The two activations agree: same mean, same reciprocal deviation, the literal one is 1, and the logistic
    function is `1 / (1 + exp (-x))` by definition. -/
theorem kSig_eq_rSig (T : Tab) (hT : Finite T) (g b : Row) : kSig T g b = rSig T g b := by
  funext r q
  unfold kSig rSig
  rw [kMean_eq_rMean, kInv_eq_rInv T hT, cOne_eq]
  rfl

/-- The two results agree: the activations agree axis by axis, and `0 + x = x`. -/
theorem kOut_eq_rOut (T0 T1 T2 : Tab) (h0 : Finite T0) (h1 : Finite T1) (h2 : Finite T2) (g0 b0 g1 b1 g2 b2 : Row) (X : Tab) :
    kOut T0 T1 T2 g0 b0 g1 b1 g2 b2 X = rOut T0 T1 T2 g0 b0 g1 b1 g2 b2 X := by
  funext r q
  unfold kOut rOut
  rw [kSig_eq_rSig T0 h0, kSig_eq_rSig T1 h1, kSig_eq_rSig T2 h2, zero_add]

end Cert.Spec

end
-- ==== Proof.Final.lean ====
/-
  The two programs' results are one table. The kernel program's convolution tables are the reference's (the same
  gathers of the same padded rows, the same matrices); on real inputs every convolution table is real, so the two
  ways of taking the per-channel statistics agree, and with them the normalised, scaled, shifted tables through the
  logistic function, their sum, and its product with the rows.
-/
import proofs.«134539_j3152505995485_2_alg».proof.Proof.KTables
import proofs.«134539_j3152505995485_2_alg».proof.Proof.Bridge
import proofs.«134539_j3152505995485_2_alg».proof.Proof.RefRead
import proofs.«134539_j3152505995485_2_alg».proof.Proof.RefFinite
import proofs.«134539_j3152505995485_2_alg».proof.Proof.SpecAlgebra

noncomputable section

namespace Cert.Final

open Idealize.ShloMosaic Idealize.ShloMosaic.ValueIdx Cert.Spec
open Cert.KernelIdeal.KV Cert.ReferenceIdeal.RefValue Cert.Bridge

theorem kT0_eq (X I Wt) : kT0 X I Wt
    = conv (tab (rowsAt (F := Ideal) X (idxOf00 I))) (tab X) (tab (rowsAt (F := Ideal) X (idxOf01 I)))
        (mat (wOf00 (F := Ideal) Wt)) (mat (wOf01 (F := Ideal) Wt)) (mat (wOf02 (F := Ideal) Wt)) := by
  unfold kT0
  rw [kRowsAt_eq, kRowsAt_eq, kXb_eq, kIdx00_eq, kIdx01_eq, kW00_eq, kW01_eq, kW02_eq]

theorem kT1_eq (X I Wt) : kT1 X I Wt
    = conv (tab (rowsAt (F := Ideal) X (idxOf10 I))) (tab X) (tab (rowsAt (F := Ideal) X (idxOf11 I)))
        (mat (wOf10 (F := Ideal) Wt)) (mat (wOf11 (F := Ideal) Wt)) (mat (wOf12 (F := Ideal) Wt)) := by
  unfold kT1
  rw [kRowsAt_eq, kRowsAt_eq, kXb_eq, kIdx10_eq, kIdx11_eq, kW10_eq, kW11_eq, kW12_eq]

theorem kT2_eq (X I Wt) : kT2 X I Wt
    = conv (tab (rowsAt (F := Ideal) X (idxOf20 I))) (tab X) (tab (rowsAt (F := Ideal) X (idxOf21 I)))
        (mat (wOf20 (F := Ideal) Wt)) (mat (wOf21 (F := Ideal) Wt)) (mat (wOf22 (F := Ideal) Wt)) := by
  unfold kT2
  rw [kRowsAt_eq, kRowsAt_eq, kXb_eq, kIdx20_eq, kIdx21_eq, kW20_eq, kW21_eq, kW22_eq]

/-- On real rows and real weights, the kernel program's table is the reference's result, entry by entry. -/
theorem kTable_eq_refOut (X I Wt G B) (hX : ∀ i, ∃ x : ℝ, X i = (x : EReal)) (hW : ∀ i, ∃ x : ℝ, Wt i = (x : EReal))
    (r : Fin 200000) (q : Fin 128) :
    kTable X I Wt G B r q = refOut (F := Ideal) X I Wt G B (ix2 r q) := by
  rw [Cert.ReferenceIdeal.RefRead.refOut_apply]
  unfold kTable
  rw [kT0_eq, kT1_eq, kT2_eq,
    kOut_eq_rOut _ _ _ (Cert.RefFinite.convTab0_finite X I Wt hX hW) (Cert.RefFinite.convTab1_finite X I Wt hX hW)
      (Cert.RefFinite.convTab2_finite X I Wt hX hW)]
  have hg0 : rowOf3 G 0 = fun q => gOf0 (F := Ideal) G (ix1 q) := funext fun q => (Cert.RefFinite.gOf0_at G q).symm
  have hg1 : rowOf3 G 1 = fun q => gOf1 (F := Ideal) G (ix1 q) := funext fun q => (Cert.RefFinite.gOf1_at G q).symm
  have hg2 : rowOf3 G 2 = fun q => gOf2 (F := Ideal) G (ix1 q) := funext fun q => (Cert.RefFinite.gOf2_at G q).symm
  have hb0 : rowOf3 B 0 = fun q => bOf0 (F := Ideal) B (ix1 q) := funext fun q => (Cert.RefFinite.bOf0_at B q).symm
  have hb1 : rowOf3 B 1 = fun q => bOf1 (F := Ideal) B (ix1 q) := funext fun q => (Cert.RefFinite.bOf1_at B q).symm
  have hb2 : rowOf3 B 2 = fun q => bOf2 (F := Ideal) B (ix1 q) := funext fun q => (Cert.RefFinite.bOf2_at B q).symm
  rw [hg0, hg1, hg2, hb0, hb1, hb2]

end Cert.Final

end
-- ==== Proof.PreFinite.lean ====
/-
  From the precondition to real entries. The precondition is the conjunction, over the four float arrays, of
  "every entry has absolute value below plus infinity"; its value is a single truth bit. If that bit is 1 then
  every conjunct is 1, so every entry `x` of the features and of the weights satisfies `max x (-x) < ⊤` as an
  extended real, which rules out both infinities: `x` is a real number.
-/
import proofs.«134539_j3152505995485_2_alg».proof.Pre_finite_inputs
import proofs.«134539_j3152505995485_2_alg».proof.Proof.Gen.Pre_finite_inputs
import Idealize.ShloMosaic.Lib.ReduceAll
import Idealize.ShloMosaic.PureOps.Ideal
import Idealize.ShloMosaic.Lib.ValueIdx

noncomputable section

namespace Cert.Spec

open Idealize.ShloMosaic Cert.Pre_finite_inputs

/-- The shape with no axes has exactly one index (the empty tuple). -/
instance preScalarIdx_subsingleton : Subsingleton S_.Idx := ⟨fun a b => funext fun d => d.elim0⟩

/-- The pattern with sign 0, all-ones exponent and zero significand denotes plus infinity. -/
theorem inf_eq_top : Ideal.ofBits .f32 0x7F800000#32 = (⊤ : EReal) := by
  simp [Ideal.ofBits, Ideal.ieee]

/-- An extended real whose absolute value `max x (-x)` is below plus infinity is a real: at `⊤` the max is `⊤`,
    and at `⊥` it is `-⊥ = ⊤`. -/
theorem real_of_abs_lt_inf (x : EReal)
    (h : Ideal.cmp .olt (max x (-x)) (Ideal.ofBits .f32 0x7F800000#32) = 1#1) : ∃ r : ℝ, x = (r : EReal) := by
  rw [inf_eq_top] at h
  have hlt : max x (-x) < ⊤ := by
    by_contra hn
    simp [Ideal.cmp, hn] at h
  induction x using EReal.rec with
  | bot => simp at hlt
  | top => simp at hlt
  | coe r => exact ⟨r, rfl⟩

/-- Under the precondition every entry of the features and every entry of the weights is a real number.
    The precondition's bit is a conjunction of four bits, one per array; a conjunction that is 1 has both
    conjuncts 1; each array's bit is the conjunction over all its entries of the comparison `|x| < +∞`, so each
    comparison is 1. -/
theorem finite_of_pre (X : FVec Ideal S200000x128 .f32) (I : IVec S3x2x200000 32) (Wt : FVec Ideal S3x3x128x128 .f32)
    (G B : FVec Ideal S3x128 .f32)
    (h : Cert.Pre_finite_inputs.fn (F := Ideal) X I Wt G B = fun _ => 1#1) :
    (∀ i, ∃ x : ℝ, X i = (x : EReal)) ∧ (∀ i, ∃ x : ℝ, Wt i = (x : EReal)) := by
  have h0 := congrFun h ValueIdx.ix0
  dsimp only [fn, fn_part1] at h0
  obtain ⟨h1, _⟩ := IntOp.andi_eq_one.1 h0
  obtain ⟨h2, _⟩ := IntOp.andi_eq_one.1 h1
  obtain ⟨hX, hW⟩ := IntOp.andi_eq_one.1 h2
  refine ⟨fun i => ?_, fun i => ?_⟩
  · exact real_of_abs_lt_inf (X i) (Host.reduce_andi_all _ _ _ _ _ hX i)
  · exact real_of_abs_lt_inf (Wt i) (Host.reduce_andi_all _ _ _ _ _ hW i)

end Cert.Spec

end
-- ==== Proof.lean ====
/-
  The certificate's claims assembled.

  Frames: the two kernel programs' are their frame theorems; the reference's is its run with the result dropped.
  The idealization rewrote nothing, so the preservation claim is trivial. The algebraic claim: the kernel program's
  run ends with the result array at its last boundary contents, which entry by entry is the table `kTable` of the
  arguments; on finite inputs that table is, entry by entry, the reference run's result.
-/
import proofs.«134539_j3152505995485_2_alg».proof.Defs
import proofs.«134539_j3152505995485_2_alg».proof.Proof.Gen.Kernel
import proofs.«134539_j3152505995485_2_alg».proof.Proof.Gen.Kernel.Frame
import proofs.«134539_j3152505995485_2_alg».proof.Proof.Gen.KernelIdeal
import proofs.«134539_j3152505995485_2_alg».proof.Proof.Gen.KernelIdeal.Frame
import proofs.«134539_j3152505995485_2_alg».proof.Proof.Gen.ReferenceIdeal
import proofs.«134539_j3152505995485_2_alg».proof.Proof.Gen.Pre_finite_inputs
import proofs.«134539_j3152505995485_2_alg».proof.Proof.KRun
import proofs.«134539_j3152505995485_2_alg».proof.Proof.KValue
import proofs.«134539_j3152505995485_2_alg».proof.Proof.KConvFacts
import proofs.«134539_j3152505995485_2_alg».proof.Proof.RefRun
import proofs.«134539_j3152505995485_2_alg».proof.Proof.Final
import proofs.«134539_j3152505995485_2_alg».proof.Proof.PreFinite
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run (Cert.ReferenceIdeal.defs (F := Ideal)) _ _).mono (fun _ h c => (h c).2) (Cert.ReferenceIdeal.RefValue.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Gen.W12 m ρ c (Proc.devRef .tc Cert.KernelIdeal.main_v126),
    Cert.KernelIdeal.KV.run_value m ρ, ?_⟩
  refine (θ_run (Cert.ReferenceIdeal.defs (F := Ideal)) _ _).mono (fun r h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2]
  funext j
  obtain ⟨r, q, rfl⟩ : ∃ (r : Fin 200000) (q : Fin 128), j = ix2 r q := ⟨j 0, j 1, eq_ix2 j⟩
  obtain ⟨hX, hW⟩ := Cert.Spec.finite_of_pre _ _ _ _ _ (hpre c)
  refine (Cert.Final.kTable_eq_refOut _ _ _ _ _ hX hW r q).symm.trans ?_
  exact (Cert.KernelIdeal.KV.out_at m ρ c _ _ _ (Cert.KernelIdeal.KV.conv0_facts m ρ c) (Cert.KernelIdeal.KV.conv2_facts m ρ c)
    (Cert.KernelIdeal.KV.conv4_facts m ρ c) r q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
